-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S1x256 : Shape := ⟨2, ![1, 256]⟩
abbrev S1 : Shape := ⟨1, ![1]⟩
abbrev S16x4 : Shape := ⟨2, ![16, 4]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S16x4 : S_.BroadcastsInDim S16x4 (![] : Fin 0 → Fin S16x4.rank)
  reducesTo_S16x4_S_d0_1 : S16x4.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4x8 .f32) (main_arg12 : FVec F S4 .f32) (main_arg13 : FVec F S256x256 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S4x8 .f32 := Host.absf main_arg11
  let main_cst_20 : FVec F S_ .f32 := constant S_ .f32 0x7F800000#32
  let main_v55 : FVec F S4x8 .f32 := broadcastInDim S4x8 ![] bcast_S_S4x8 main_cst_20
  let main_v56 : IVec S4x8 1 := cmpf .olt main_v54 main_v55
  let main_c_21 : IVec S_ 1 := constantI S_ 1 1#1
  let main_v57 : IVec S_ 1 := (fun x v => Host.reduce IntOp.andi x v reducesTo_S4x8_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_v63 main_v67

def fn_part2 {F : FTy → Type} [FloatOps F] (main_arg7 : FVec F S16 .f32) (main_arg8 : FVec F S16 .f32) (main_arg9 : FVec F S8x16 .f32) (main_arg10 : FVec F S8 .f32) (main_arg11 : FVec F S4x8 .f32) (main_arg12 : FVec F S4 .f32) (main_arg13 : FVec F S256x256 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S8x16 .f32 := Host.absf main_arg9
  let main_cst_16 : FVec F S_ .f32 := constant S_ .f32 0x7F800000#32
  let main_v45 : FVec F S8x16 .f32 := broadcastInDim S8x16 ![] bcast_S_S8x16 main_cst_16
  let main_v46 : IVec S8x16 1 := cmpf .olt main_v44 main_v45
  let main_c_17 : IVec S_ 1 := constantI S_ 1 1#1
  let main_v47 : IVec S_ 1 := (fun x v => Host.reduce IntOp.andi x v reducesTo_S8x16_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_v48 main_v49 main_v50

def fn_part1 {F : FTy → Type} [FloatOps F] (main_arg4 : FVec F S1 .f32) (main_arg5 : FVec F S16x4 .f32) (main_arg6 : FVec F S16 .f32) (main_arg7 : FVec F S16 .f32) (main_arg8 : FVec F S16 .f32) (main_arg9 : FVec F S8x16 .f32) (main_arg10 : FVec F S8 .f32) (main_arg11 : FVec F S4x8 .f32) (main_arg12 : FVec F S4 .f32) (main_arg13 : FVec F S256x256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S16x4 .f32 := Host.absf main_arg5
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S262144x256 .f32) (main_arg1 : FVec F S256x256 .f32) (main_arg2 : FVec F S256x256 .f32) (main_arg3 : FVec F S1x256 .f32) (main_arg4 : FVec F S1 .f32) (main_arg5 : FVec F S16x4 .f32) (main_arg6 : FVec F S16 .f32) (main_arg7 : FVec F S16 .f32) (main_arg8 : FVec F S16 .f32) (main_arg9 : FVec F S8x16 .f32) (main_arg10 : FVec F S8 .f32) (main_arg11 : FVec F S4x8 .f32) (main_arg12 : FVec F S4 .f32) (main_arg13 : FVec F S256x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S262144x256 : Shape := ⟨2, ![262144, 256]⟩
abbrev S256x256 : Shape := ⟨2, ![256, 256]⟩
abbrev S1x256 : Shape := ⟨2, ![1, 256]⟩
abbrev S1 : Shape := ⟨1, ![1]⟩
abbrev S16x4 : Shape := ⟨2, ![16, 4]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S_ : Shape := ⟨0, ![]⟩
abbrev S4x16 : Shape := ⟨2, ![4, 16]⟩
abbrev S16x8 : Shape := ⟨2, ![16, 8]⟩
abbrev S8x4 : Shape := ⟨2, ![8, 4]⟩
abbrev S1x16 : Shape := ⟨2, ![1, 16]⟩
abbrev S1x8 : Shape := ⟨2, ![1, 8]⟩
abbrev S1x4 : Shape := ⟨2, ![1, 4]⟩
abbrev S1x1 : Shape := ⟨2, ![1, 1]⟩
abbrev S2x256x256 : Shape := ⟨3, ![2, 256, 256]⟩
abbrev S2x1x256 : Shape := ⟨3, ![2, 1, 256]⟩
abbrev S2x1x4 : Shape := ⟨3, ![2, 1, 4]⟩
abbrev S4096x256 : Shape := ⟨2, ![4096, 256]⟩
abbrev S1x256x256 : Shape := ⟨3, ![1, 256, 256]⟩
abbrev S1x1x256 : Shape := ⟨3, ![1, 1, 256]⟩
abbrev S1x1x4 : Shape := ⟨3, ![1, 1, 4]⟩
abbrev S4096 : Shape := ⟨1, ![4096]⟩
abbrev S4096x1 : Shape := ⟨2, ![4096, 1]⟩
abbrev S4096x16 : Shape := ⟨2, ![4096, 16]⟩
abbrev S4096x8 : Shape := ⟨2, ![4096, 8]⟩
abbrev S4096x4 : Shape := ⟨2, ![4096, 4]⟩
abbrev S256 : Shape := ⟨1, ![256]⟩
abbrev S256x1 : Shape := ⟨2, ![256, 1]⟩

abbrev nBuf : Space → Nat
  | .hbm => 89
  | .vmem => 27
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256x256, .f32⟩
  | .hbm, ⟨3, _⟩ => ⟨S1x256, .f32⟩
  | .hbm, ⟨4, _⟩ => ⟨S1, .f32⟩
  | .hbm, ⟨5, _⟩ => ⟨S16x4, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S8x16, .f32⟩
  | .hbm, ⟨10, _⟩ => ⟨S8, .f32⟩
  | .hbm, ⟨11, _⟩ => ⟨S4x8, .f32⟩
  | .hbm, ⟨12, _⟩ => ⟨S4, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256x256, .f32⟩
  | .hbm, ⟨19, _⟩ => ⟨S256x256, .bf16⟩
  | .hbm, ⟨20, _⟩ => ⟨S256x256, .f32⟩
  | .hbm, ⟨21, _⟩ => ⟨S256x256, .bf16⟩
  | .hbm, ⟨22, _⟩ => ⟨S4x16, .f32⟩
  | .hbm, ⟨23, _⟩ => ⟨S16x8, .f32⟩
  | .hbm, ⟨24, _⟩ => ⟨S8x4, .f32⟩
  | .hbm, ⟨25, _⟩ => ⟨S1x16, .f32⟩
  | .hbm, ⟨26, _⟩ => ⟨S1x16, .f32⟩
  | .hbm, ⟨27, _⟩ => ⟨S1x16, .f32⟩
  | .hbm, ⟨28, _⟩ => ⟨S1x8, .f32⟩
  | .hbm, ⟨29, _⟩ => ⟨S1x4, .f32⟩
  | .hbm, ⟨30, _⟩ => ⟨S1x1, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S1x16, .f32⟩
  | .hbm, ⟨35, _⟩ => ⟨S1x16, .f32⟩
  | .hbm, ⟨36, _⟩ => ⟨S1x16, .f32⟩
  | .hbm, ⟨37, _⟩ => ⟨S_, .f32⟩
  | .hbm, ⟨38, _⟩ => ⟨S1x16, .f32⟩
  | .hbm, ⟨39, _⟩ => ⟨S1x16, .f32⟩
  | .hbm, ⟨40, _⟩ => ⟨S1x16, .f32⟩
  | .hbm, ⟨41, _⟩ => ⟨S1x16, .f32⟩
  | .hbm, ⟨42, _⟩ => ⟨S2x256x256, .f32⟩
  | .hbm, ⟨43, _⟩ => ⟨S2x1x256, .f32⟩
  | .hbm, ⟨44, _⟩ => ⟨S2x1x4, .f32⟩
  | .hbm, ⟨45, _⟩ => ⟨S_, .f32⟩
  | .hbm, ⟨46, _⟩ => ⟨S256x256, .f32⟩
  | .hbm, ⟨47, _⟩ => ⟨S_, .f32⟩
  | .hbm, ⟨48, _⟩ => ⟨S1x256, .f32⟩
  | .hbm, ⟨49, _⟩ => ⟨S_, .f32⟩
  | .hbm, ⟨50, _⟩ => ⟨S1x4, .f32⟩
  | .hbm, ⟨51, _⟩ => ⟨S1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x1, .f32⟩
  | .hbm, ⟨63, _⟩ => ⟨S_, .f32⟩
  | .hbm, ⟨64, _⟩ => ⟨S256x1, .f32⟩
  | .hbm, ⟨65, _⟩ => ⟨S256x1, .f32⟩
  | .hbm, ⟨66, _⟩ => ⟨S256x256, .f32⟩
  | .hbm, ⟨67, _⟩ => ⟨S256x256, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S256x256, .f32⟩
  | .hbm, ⟨72, _⟩ => ⟨S_, .f32⟩
  | .hbm, ⟨73, _⟩ => ⟨S256x256, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S256x256, .f32⟩
  | .hbm, ⟨83, _⟩ => ⟨S256x256, .f32⟩
  | .hbm, ⟨84, _⟩ => ⟨S_, .f32⟩
  | .hbm, ⟨85, _⟩ => ⟨S256x256, .f32⟩
  | .hbm, ⟨86, _⟩ => ⟨S256x256, .f32⟩
  | .hbm, ⟨87, _⟩ => ⟨S1x1, .f32⟩
  | .hbm, ⟨88, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S256x256, .bf16⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S16x8, .f32⟩
  | .local _ .vmem, ⟨10, _⟩ => ⟨S1x8, .f32⟩
  | .local _ .vmem, ⟨11, _⟩ => ⟨S8x4, .f32⟩
  | .local _ .vmem, ⟨12, _⟩ => ⟨S1x4, .f32⟩
  | .local _ .vmem, ⟨13, _⟩ => ⟨S1x256x256, .f32⟩
  | .local _ .vmem, ⟨14, _⟩ => ⟨S1x256x256, .f32⟩
  | .local _ .vmem, ⟨15, _⟩ => ⟨S1x1x256, .f32⟩
  | .local _ .vmem, ⟨16, _⟩ => ⟨S1x1x256, .f32⟩
  | .local _ .vmem, ⟨17, _⟩ => ⟨S1x1x4, .f32⟩
  | .local _ .vmem, ⟨18, _⟩ => ⟨S1x1x4, .f32⟩
  | .local _ .vmem, ⟨19, _⟩ => ⟨S4096x256, .f32⟩
  | .local _ .vmem, ⟨20, _⟩ => ⟨S4096x256, .f32⟩
  | .local _ .vmem, ⟨21, _⟩ => ⟨S256x256, .bf16⟩
  | .local _ .vmem, ⟨22, _⟩ => ⟨S1x256, .f32⟩
  | .local _ .vmem, ⟨23, _⟩ => ⟨S1x1, .f32⟩
  | .local _ .vmem, ⟨24, _⟩ => ⟨S1x1, .f32⟩
  | .local _ .vmem, ⟨25, _⟩ => ⟨S4096x256, .f32⟩
  | .local _ .vmem, ⟨26, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_cst_0 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_v0 : Ref sig .tc := ⟨.hbm, 76, rfl⟩
abbrev main_call1_cst : Ref sig .tc := ⟨.hbm, 77, rfl⟩
abbrev main_call1_v1 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem5_1 : DmaSem sig := 26

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  reducesTo_S256x256_S_d0_1 : S256x256.ReducesTo [0, 1] S_
  h_S_ : 0 < S_.numel
  transposes_S256x256_S256x256_1_0 : S256x256.Transposes [1, 0] S256x256
  bitsLt_bf16_f32 : FTy.bits .bf16 < FTy.bits .f32
  transposes_S16x4_S4x16_1_0 : S16x4.Transposes [1, 0] S4x16
  transposes_S8x16_S16x8_1_0 : S8x16.Transposes [1, 0] S16x8
  transposes_S4x8_S8x4_1_0 : S4x8.Transposes [1, 0] S8x4
  shapeCasts_S16_S1x16 : S16.ShapeCasts S1x16
  shapeCasts_S8_S1x8 : S8.ShapeCasts S1x8
  shapeCasts_S4_S1x4 : S4.ShapeCasts S1x4
  shapeCasts_S1_S1x1 : S1.ShapeCasts S1x1
  slices_S4x16_S1x16_0_0 : S4x16.Slices ![0, 0] S1x16
  slices_S4x16_S1x16_1_0 : S4x16.Slices ![1, 0] S1x16
  slices_S4x16_S1x16_2_0 : S4x16.Slices ![2, 0] S1x16
  bcast_S_S1x16 : S_.BroadcastsInDim S1x16 (![] : Fin 0 → Fin S1x16.rank)
  slices_S4x16_S1x16_3_0 : S4x16.Slices ![3, 0] S1x16
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  shapeCasts_S1x4_S1x1x4 : S1x4.ShapeCasts S1x1x4
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S4096x256_S4096 : S4096x256.Reduces [1] S4096
  shapeCasts_S4096_S4096x1 : S4096.ShapeCasts S4096x1
  broadcasts_S4096x1_S4096x256 : S4096x1.Broadcasts S4096x256
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S4096x1_S4096x16 : S4096x1.Broadcasts S4096x16
  broadcasts_S1x16_S4096x16 : S1x16.Broadcasts S4096x16
  reduces_S4096x16_S4096 : S4096x16.Reduces [1] S4096
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4096x8 : S1x8.Broadcasts S4096x8
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4096x4 : S1x4.Broadcasts S4096x4
  reduces_S4096x4_S4 : S4096x4.Reduces [0] S4
  reduces_S4096x256_S256 : S4096x256.Reduces [0] S256
  shapeCasts_S256_S1x256 : S256.ShapeCasts S1x256
  reducesTo_S2x256x256_S256x256_d0 : S2x256x256.ReducesTo [0] S256x256
  reducesTo_S2x1x256_S1x256_d0 : S2x1x256.ReducesTo [0] S1x256
  reducesTo_S2x1x4_S1x4_d0 : S2x1x4.ReducesTo [0] S1x4
  slices_S1x4_S1x1_0_0 : S1x4.Slices ![0, 0] S1x1
  shapeCasts_S1x1_S_ : S1x1.ShapeCasts S_
  slices_S1x4_S1x1_0_2 : S1x4.Slices ![0, 2] S1x1
  bcast_S_S256x256 : S_.BroadcastsInDim S256x256 (![] : Fin 0 → Fin S256x256.rank)
  shapeCasts_S1x256_S256x1 : S1x256.ShapeCasts S256x1
  bcast_S_S256x1 : S_.BroadcastsInDim S256x1 (![] : Fin 0 → Fin S256x1.rank)
  bcast_S256x1_S256x256_0_1 : S256x1.BroadcastsInDim S256x256 (![0, 1] : Fin 2 → Fin S256x256.rank)
  shapeCasts_S_S1x1 : S_.ShapeCasts S1x1
  inb_S1x256_S1x256_0_0 : ∀ a, (![0, 0] : Fin 2 → Nat) a + S1x256.size a ≤ S1x256.size a
  h_S1x256 : 0 < S1x256.numel
  broadcasts_S1x256_S4096x256 : S1x256.Broadcasts S4096x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inpos_S1x1_p0_0 : ∀ a, (![0, 0] : Fin 2 → Nat) a < S1x1.size a
  dot_S4096x256_S256x256_S4096x256_1_0_0_1_n_n_wf : DotDims.WF S4096x256 S256x256 S4096x256 [1] [0] [0] [1] [] []
  dot_S4096x16_S16x8_S4096x8_1_0_0_1_n_n_wf : DotDims.WF S4096x16 S16x8 S4096x8 [1] [0] [0] [1] [] []
  dot_S4096x8_S8x4_S4096x4_1_0_0_1_n_n_wf : DotDims.WF S4096x8 S8x4 S4096x4 [1] [0] [0] [1] [] []
  dot_S4096x256_S4096x256_S256x256_0_0_1_1_n_n_wf : DotDims.WF S4096x256 S4096x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x8.size a ≤ S16x8.size a
  hwx0_8 : ∀ i : grid0.Coords, EltTy.bits .f32 = 32 ∨ (Rect.block (s := S16x8) S16x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x4.size a ≤ S8x4.size a
  hwx0_10 : ∀ i : grid0.Coords, EltTy.bits .f32 = 32 ∨ (Rect.block (s := S8x4) S8x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4.size a ≤ S1x4.size a
  hwx0_11 : ∀ i : grid0.Coords, EltTy.bits .f32 = 32 ∨ (Rect.block (s := S1x4) S1x4.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x256.size a ≤ S2x256x256.size a
  hwx0_12 : ∀ i : grid0.Coords, EltTy.bits .f32 = 32 ∨ (Rect.block (s := S2x256x256) S1x256x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x256.size a ≤ S2x1x256.size a
  hwx0_13 : ∀ i : grid0.Coords, EltTy.bits .f32 = 32 ∨ (Rect.block (s := S2x1x256) S1x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x4.size a ≤ S2x1x4.size a
  hwx0_14 : ∀ i : grid0.Coords, EltTy.bits .f32 = 32 ∨ (Rect.block (s := S2x1x4) S1x1x4.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .f32 = 32 ∨ (Rect.block (s := S262144x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S262144x256.size a
  hwx1_5 : ∀ i : grid1.Coords, EltTy.bits .f32 = 32 ∨ (Rect.block (s := S262144x256) S4096x256.size (cc1_transform_5 i) (hinb1_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x16_S16x8_S4096x8_1_0_0_1_n_n : DotDims S4096x16 S16x8 S4096x8 where
  lhsContracting := [1]
  rhsContracting := [0]
  lhsNonContracting := [0]
  rhsNonContracting := [1]
  lhsBatch := []
  rhsBatch := []
  wf := dot_S4096x16_S16x8_S4096x8_1_0_0_1_n_n_wf
def dot_S4096x8_S8x4_S4096x4_1_0_0_1_n_n : DotDims S4096x8 S8x4 S4096x4 where
  lhsContracting := [1]
  rhsContracting := [0]
  lhsNonContracting := [0]
  rhsNonContracting := [1]
  lhsBatch := []
  rhsBatch := []
  wf := dot_S4096x8_S8x4_S4096x4_1_0_0_1_n_n_wf
def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S16x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S8x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24_0) S1x256x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v24_1) S1x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v24_2) S1x1x4.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S1x256 : Shape := ⟨2, ![1, 256]⟩
abbrev S1 : Shape := ⟨1, ![1]⟩
abbrev S16x4 : Shape := ⟨2, ![16, 4]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S_ : Shape := ⟨0, ![]⟩
abbrev S262144 : Shape := ⟨1, ![262144]⟩
abbrev S262144x1 : Shape := ⟨2, ![262144, 1]⟩
abbrev S262144x4 : Shape := ⟨2, ![262144, 4]⟩
abbrev S4x16 : Shape := ⟨2, ![4, 16]⟩
abbrev S262144x16 : Shape := ⟨2, ![262144, 16]⟩
abbrev S1x16 : Shape := ⟨2, ![1, 16]⟩
abbrev S16x8 : Shape := ⟨2, ![16, 8]⟩
abbrev S262144x8 : Shape := ⟨2, ![262144, 8]⟩
abbrev S1x8 : Shape := ⟨2, ![1, 8]⟩
abbrev S8x4 : Shape := ⟨2, ![8, 4]⟩
abbrev S1x4 : Shape := ⟨2, ![1, 4]⟩
abbrev S256x1 : Shape := ⟨2, ![256, 1]⟩
abbrev S1x1 : Shape := ⟨2, ![1, 1]⟩
abbrev S256x262144 : Shape := ⟨2, ![256, 262144]⟩
abbrev S256 : Shape := ⟨1, ![256]⟩

abbrev nBuf : Space → Nat
  | .hbm => 197
  | .vmem => 0
  | .smem => 0
  | _ => 0

abbrev hbmTy0_0 (i : Nat) : BufTy := match i % 128 with
  | 0 => ⟨S262144x256, .f32⟩
  | 1 => ⟨S256x256, .f32⟩
  | 2 => ⟨S256x256, .f32⟩
  | 3 => ⟨S1x256, .f32⟩
  | 4 => ⟨S1, .f32⟩
  | 5 => ⟨S16x4, .f32⟩
  | 6 => ⟨S16, .f32⟩
  | 7 => ⟨S16, .f32⟩
  | 8 => ⟨S16, .f32⟩
  | 9 => ⟨S8x16, .f32⟩
  | 10 => ⟨S8, .f32⟩
  | 11 => ⟨S4x8, .f32⟩
  | 12 => ⟨S4, .f32⟩
  | 13 => ⟨S256x256, .f32⟩
  | 14 => ⟨S256x256, .f32⟩
  | 15 => ⟨S262144x256, .f32⟩
  | 16 => ⟨S_, .f32⟩
  | 17 => ⟨S_, .f32⟩
  | 18 => ⟨S_, .f32⟩
  | 19 => ⟨S262144x256, .f32⟩
  | 20 => ⟨S262144x256, .f32⟩
  | 21 => ⟨S_, .f32⟩
  | 22 => ⟨S262144x256, .f32⟩
  | 23 => ⟨S262144x256, .f32⟩
  | 24 => ⟨S256x256, .f32⟩
  | 25 => ⟨S262144x256, .f32⟩
  | 26 => ⟨S256x256, .f32⟩
  | 27 => ⟨S_, .f32⟩
  | 28 => ⟨S_, .f32⟩
  | 29 => ⟨S_, .f32⟩
  | 30 => ⟨S_, .i32⟩
  | 31 => ⟨S_, .f32⟩
  | 32 => ⟨S262144, .f32⟩
  | 33 => ⟨S262144x1, .f32⟩
  | 34 => ⟨S_, .f32⟩
  | 35 => ⟨S262144x1, .f32⟩
  | 36 => ⟨S262144x1, .f32⟩
  | 37 => ⟨S262144x256, .f32⟩
  | 38 => ⟨S262144x256, .f32⟩
  | 39 => ⟨S262144x256, .f32⟩
  | 40 => ⟨S_, .f32⟩
  | 41 => ⟨S_, .f32⟩
  | 42 => ⟨S_, .f32⟩
  | 43 => ⟨S_, .f32⟩
  | 44 => ⟨S262144, .f32⟩
  | 45 => ⟨S262144, .f32⟩
  | 46 => ⟨S262144, .f32⟩
  | 47 => ⟨S_, .f32⟩
  | 48 => ⟨S_, .i1⟩
  | 49 => ⟨S_, .f32⟩
  | 50 => ⟨S_, .f32⟩
  | 51 => ⟨S262144, .f32⟩
  | 52 => ⟨S262144, .f32⟩
  | 53 => ⟨S_, .f32⟩
  | 54 => ⟨S262144, .f32⟩
  | 55 => ⟨S262144, .f32⟩
  | 56 => ⟨S262144, .f32⟩
  | 57 => ⟨S262144x256, .f32⟩
  | 58 => ⟨S_, .f32⟩
  | 59 => ⟨S262144, .f32⟩
  | 60 => ⟨S_, .f32⟩
  | 61 => ⟨S262144, .f32⟩
  | 62 => ⟨S262144, .f32⟩
  | 63 => ⟨S262144, .f32⟩
  | 64 => ⟨S_, .f32⟩
  | 65 => ⟨S262144, .f32⟩
  | 66 => ⟨S262144x1, .f32⟩
  | 67 => ⟨S262144x1, .f32⟩
  | 68 => ⟨S262144x1, .f32⟩
  | 69 => ⟨S262144x1, .f32⟩
  | 70 => ⟨S262144x4, .f32⟩
  | 71 => ⟨S4x16, .f32⟩
  | 72 => ⟨S262144x16, .f32⟩
  | 73 => ⟨S1x16, .f32⟩
  | 74 => ⟨S262144x16, .f32⟩
  | 75 => ⟨S262144x16, .f32⟩
  | 76 => ⟨S_, .f32⟩
  | 77 => ⟨S262144, .f32⟩
  | 78 => ⟨S262144x1, .f32⟩
  | 79 => ⟨S_, .f32⟩
  | 80 => ⟨S262144x1, .f32⟩
  | 81 => ⟨S262144x1, .f32⟩
  | 82 => ⟨S262144x16, .f32⟩
  | 83 => ⟨S262144x16, .f32⟩
  | 84 => ⟨S262144x16, .f32⟩
  | 85 => ⟨S_, .f32⟩
  | 86 => ⟨S262144, .f32⟩
  | 87 => ⟨S262144x1, .f32⟩
  | 88 => ⟨S_, .f32⟩
  | 89 => ⟨S262144x1, .f32⟩
  | 90 => ⟨S262144x1, .f32⟩
  | 91 => ⟨S262144x16, .f32⟩
  | 92 => ⟨S262144x16, .f32⟩
  | 93 => ⟨S_, .f32⟩
  | 94 => ⟨S262144x1, .f32⟩
  | 95 => ⟨S262144x1, .f32⟩
  | 96 => ⟨S262144x1, .f32⟩
  | 97 => ⟨S262144x16, .f32⟩
  | 98 => ⟨S262144x16, .f32⟩
  | 99 => ⟨S1x16, .f32⟩
  | 100 => ⟨S262144x16, .f32⟩
  | 101 => ⟨S262144x16, .f32⟩
  | 102 => ⟨S1x16, .f32⟩
  | 103 => ⟨S262144x16, .f32⟩
  | 104 => ⟨S262144x16, .f32⟩
  | 105 => ⟨S262144x16, .f32⟩
  | 106 => ⟨S16x8, .f32⟩
  | 107 => ⟨S262144x8, .f32⟩
  | 108 => ⟨S1x8, .f32⟩
  | 109 => ⟨S262144x8, .f32⟩
  | 110 => ⟨S262144x8, .f32⟩
  | 111 => ⟨S_, .f32⟩
  | 112 => ⟨S262144x8, .f32⟩
  | 113 => ⟨S262144x8, .f32⟩
  | 114 => ⟨S8x4, .f32⟩
  | 115 => ⟨S262144x4, .f32⟩
  | 116 => ⟨S1x4, .f32⟩
  | 117 => ⟨S262144x4, .f32⟩
  | 118 => ⟨S262144x4, .f32⟩
  | 119 => ⟨S262144x4, .f32⟩
  | 120 => ⟨S262144x4, .f32⟩
  | 121 => ⟨S_, .f32⟩
  | 122 => ⟨S262144x4, .f32⟩
  | 123 => ⟨S262144x4, .f32⟩
  | 124 => ⟨S_, .f32⟩
  | 125 => ⟨S262144x4, .f32⟩
  | 126 => ⟨S262144x4, .f32⟩
  | 127 => ⟨S262144x1, .f32⟩
  | _ => ⟨S262144x256, .f32⟩

abbrev hbmTy0_1 (i : Nat) : BufTy := match i % 128 with
  | 0 => ⟨S262144, .f32⟩
  | 1 => ⟨S_, .f32⟩
  | 2 => ⟨S_, .f32⟩
  | 3 => ⟨S_, .f32⟩
  | 4 => ⟨S_, .f32⟩
  | 5 => ⟨S262144x1, .f32⟩
  | 6 => ⟨S262144, .f32⟩
  | 7 => ⟨S_, .f32⟩
  | 8 => ⟨S_, .f32⟩
  | 9 => ⟨S_, .f32⟩
  | 10 => ⟨S_, .f32⟩
  | 11 => ⟨S256x1, .f32⟩
  | 12 => ⟨S262144x1, .f32⟩
  | 13 => ⟨S1x1, .f32⟩
  | 14 => ⟨S262144x1, .f32⟩
  | 15 => ⟨S262144x1, .f32⟩
  | 16 => ⟨S262144x1, .f32⟩
  | 17 => ⟨S262144x1, .f32⟩
  | 18 => ⟨S_, .f32⟩
  | 19 => ⟨S262144x1, .f32⟩
  | 20 => ⟨S262144x1, .f32⟩
  | 21 => ⟨S_, .f32⟩
  | 22 => ⟨S262144x1, .f32⟩
  | 23 => ⟨S262144x1, .f32⟩
  | 24 => ⟨S262144x1, .f32⟩
  | 25 => ⟨S262144x1, .f32⟩
  | 26 => ⟨S262144x256, .f32⟩
  | 27 => ⟨S262144x256, .f32⟩
  | 28 => ⟨S_, .f32⟩
  | 29 => ⟨S_, .f32⟩
  | 30 => ⟨S_, .f32⟩
  | 31 => ⟨S262144x256, .f32⟩
  | 32 => ⟨S262144x256, .f32⟩
  | 33 => ⟨S_, .f32⟩
  | 34 => ⟨S262144x256, .f32⟩
  | 35 => ⟨S262144x256, .f32⟩
  | 36 => ⟨S256x262144, .f32⟩
  | 37 => ⟨S256x256, .f32⟩
  | 38 => ⟨S_, .f32⟩
  | 39 => ⟨S256x256, .f32⟩
  | 40 => ⟨S256x256, .f32⟩
  | 41 => ⟨S262144x256, .f32⟩
  | 42 => ⟨S_, .f32⟩
  | 43 => ⟨S256, .f32⟩
  | 44 => ⟨S_, .f32⟩
  | 45 => ⟨S256, .f32⟩
  | 46 => ⟨S256, .f32⟩
  | 47 => ⟨S256x1, .f32⟩
  | 48 => ⟨S256x256, .f32⟩
  | 49 => ⟨S256x256, .f32⟩
  | 50 => ⟨S256x256, .f32⟩
  | 51 => ⟨S256x256, .f32⟩
  | 52 => ⟨S256x256, .f32⟩
  | 53 => ⟨S256x256, .f32⟩
  | 54 => ⟨S_, .f32⟩
  | 55 => ⟨S256x256, .f32⟩
  | 56 => ⟨S256x256, .f32⟩
  | 57 => ⟨S256x256, .f32⟩
  | 58 => ⟨S256x256, .f32⟩
  | 59 => ⟨S_, .f32⟩
  | 60 => ⟨S_, .f32⟩
  | 61 => ⟨S_, .f32⟩
  | 62 => ⟨S_, .f32⟩
  | 63 => ⟨S_, .f32⟩
  | 64 => ⟨S256x256, .f32⟩
  | 65 => ⟨S256x256, .f32⟩
  | 66 => ⟨S_, .f32⟩
  | 67 => ⟨S256x256, .f32⟩
  | 68 => ⟨S256x256, .f32⟩
  | _ => ⟨S262144x256, .f32⟩

abbrev hbmTy (i : Nat) : BufTy := match i / 128 with
  | 0 => hbmTy0_0 i
  | 1 => hbmTy0_1 i
  | _ => ⟨S262144x256, .f32⟩

abbrev bufTy : (tb : Table) → Fin (tcTables nBuf tb) → BufTy
  | .hbm, ⟨i, _⟩ => hbmTy i
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_v5 : Ref sig .tc := ⟨.hbm, 29, rfl⟩
abbrev main_c : Ref sig .tc := ⟨.hbm, 30, rfl⟩
abbrev main_call2_cst : Ref sig .tc := ⟨.hbm, 31, rfl⟩
abbrev main_call2_v0 : Ref sig .tc := ⟨.hbm, 32, rfl⟩
abbrev main_call2_v1 : Ref sig .tc := ⟨.hbm, 33, rfl⟩
abbrev main_call2_cst_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_cst_1 : Ref sig .tc := ⟨.hbm, 41, rfl⟩
abbrev main_call2_v8 : Ref sig .tc := ⟨.hbm, 42, rfl⟩
abbrev main_call2_cst_2 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_cst_3 : Ref sig .tc := ⟨.hbm, 47, rfl⟩
abbrev main_call2_v12 : Ref sig .tc := ⟨.hbm, 48, rfl⟩
abbrev main_call2_cst_4 : Ref sig .tc := ⟨.hbm, 49, rfl⟩
abbrev main_call2_call0_v0 : Ref sig .tc := ⟨.hbm, 50, rfl⟩
abbrev main_call2_call0_v1 : Ref sig .tc := ⟨.hbm, 51, rfl⟩
abbrev main_v6 : Ref sig .tc := ⟨.hbm, 52, rfl⟩
abbrev main_cst_1 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_2 : Ref sig .tc := ⟨.hbm, 58, rfl⟩
abbrev main_v11 : Ref sig .tc := ⟨.hbm, 59, rfl⟩
abbrev main_cst_3 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_cst_4 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_cst_5 : Ref sig .tc := ⟨.hbm, 76, rfl⟩
abbrev main_v26 : Ref sig .tc := ⟨.hbm, 77, rfl⟩
abbrev main_v27 : Ref sig .tc := ⟨.hbm, 78, rfl⟩
abbrev main_cst_6 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_7 : Ref sig .tc := ⟨.hbm, 85, rfl⟩
abbrev main_v33 : Ref sig .tc := ⟨.hbm, 86, rfl⟩
abbrev main_v34 : Ref sig .tc := ⟨.hbm, 87, rfl⟩
abbrev main_cst_8 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_cst_9 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_call3_cst : Ref sig .tc := ⟨.hbm, 111, rfl⟩
abbrev main_call3_v0 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_10 : Ref sig .tc := ⟨.hbm, 121, rfl⟩
abbrev main_v64 : Ref sig .tc := ⟨.hbm, 122, rfl⟩
abbrev main_v65 : Ref sig .tc := ⟨.hbm, 123, rfl⟩
abbrev main_cst_11 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_12 : Ref sig .tc := ⟨.hbm, 129, rfl⟩
abbrev main_v70 : Ref sig .tc := ⟨.hbm, 130, rfl⟩
abbrev main_cst_13 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_14 : Ref sig .tc := ⟨.hbm, 135, rfl⟩
abbrev main_v74 : Ref sig .tc := ⟨.hbm, 136, rfl⟩
abbrev main_cst_15 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_16 : Ref sig .tc := ⟨.hbm, 146, rfl⟩
abbrev main_v83 : Ref sig .tc := ⟨.hbm, 147, rfl⟩
abbrev main_v84 : Ref sig .tc := ⟨.hbm, 148, rfl⟩
abbrev main_cst_17 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_cst_18 : Ref sig .tc := ⟨.hbm, 156, rfl⟩
abbrev main_cst_19 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_cst_20 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_cst_21 : Ref sig .tc := ⟨.hbm, 170, rfl⟩
abbrev main_v97 : Ref sig .tc := ⟨.hbm, 171, rfl⟩
abbrev main_cst_22 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_23 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_call5_v0 : Ref sig .tc := ⟨.hbm, 186, rfl⟩
abbrev main_call5_cst : Ref sig .tc := ⟨.hbm, 187, rfl⟩
abbrev main_call5_v1 : Ref sig .tc := ⟨.hbm, 188, rfl⟩
abbrev main_v110 : Ref sig .tc := ⟨.hbm, 189, rfl⟩
abbrev main_cst_24 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_cst_25 : Ref sig .tc := ⟨.hbm, 194, rfl⟩
abbrev main_v114 : Ref sig .tc := ⟨.hbm, 195, rfl⟩
abbrev main_v115 : Ref sig .tc := ⟨.hbm, 196, rfl⟩

abbrev nD : Nat := 1
abbrev τ : Topo := Topo.v7x

variable {F : FTy → Type} [FloatOps F]

class Facts₀ : Prop where
  transposes_S256x256_S256x256_1_0 : S256x256.Transposes [1, 0] S256x256
  bcast_S_S262144x256 : S_.BroadcastsInDim S262144x256 (![] : Fin 0 → Fin S262144x256.rank)
  reducesTo_S256x256_S_d0_1 : S256x256.ReducesTo [0, 1] S_
  h_S_ : 0 < S_.numel
  reducesTo_S262144x256_S262144_d1 : S262144x256.ReducesTo [1] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S_S262144 : S_.BroadcastsInDim S262144 (![] : Fin 0 → Fin S262144.rank)
  concatenates_S262144x1_S262144x1_S262144x1_S262144x1_S262144x4_d1 : Shape.Concatenates [S262144x1, S262144x1, S262144x1, S262144x1] S262144x4 1
  transposes_S16x4_S4x16_1_0 : S16x4.Transposes [1, 0] S4x16
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  reducesTo_S262144x16_S262144_d1 : S262144x16.ReducesTo [1] S262144
  bcast_S262144x1_S262144x16_0_1 : S262144x1.BroadcastsInDim S262144x16 (![0, 1] : Fin 2 → Fin S262144x16.rank)
  transposes_S8x16_S16x8_1_0 : S8x16.Transposes [1, 0] S16x8
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  bcast_S_S262144x8 : S_.BroadcastsInDim S262144x8 (![] : Fin 0 → Fin S262144x8.rank)
  transposes_S4x8_S8x4_1_0 : S4x8.Transposes [1, 0] S8x4
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  bcast_S_S262144x4 : S_.BroadcastsInDim S262144x4 (![] : Fin 0 → Fin S262144x4.rank)
  slices_S262144x4_S262144x1_0_0 : S262144x4.Slices ![0, 0] S262144x1
  shapeCasts_S262144x1_S262144 : S262144x1.ShapeCasts S262144
  reducesTo_S262144_S_d0 : S262144.ReducesTo [0] S_
  slices_S262144x4_S262144x1_0_2 : S262144x4.Slices ![0, 2] S262144x1
  transposes_S1x256_S256x1_1_0 : S1x256.Transposes [1, 0] S256x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  transposes_S262144x256_S256x262144_1_0 : S262144x256.Transposes [1, 0] S256x262144
  bcast_S_S256x256 : S_.BroadcastsInDim S256x256 (![] : Fin 0 → Fin S256x256.rank)
  reducesTo_S262144x256_S256_d0 : S262144x256.ReducesTo [0] S256
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  dot_S262144x256_S256x256_S262144x256_1_0_0_1_n_n_wf : DotDims.WF S262144x256 S256x256 S262144x256 [1] [0] [0] [1] [] []
  dot_S262144x4_S4x16_S262144x16_1_0_0_1_n_n_wf : DotDims.WF S262144x4 S4x16 S262144x16 [1] [0] [0] [1] [] []
  dot_S262144x16_S16x8_S262144x8_1_0_0_1_n_n_wf : DotDims.WF S262144x16 S16x8 S262144x8 [1] [0] [0] [1] [] []
  dot_S262144x8_S8x4_S262144x4_1_0_0_1_n_n_wf : DotDims.WF S262144x8 S8x4 S262144x4 [1] [0] [0] [1] [] []
  dot_S262144x256_S256x1_S262144x1_1_0_0_1_n_n_wf : DotDims.WF S262144x256 S256x1 S262144x1 [1] [0] [0] [1] [] []
  dot_S256x262144_S262144x256_S256x256_1_0_0_1_n_n_wf : DotDims.WF S256x262144 S262144x256 S256x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x4_S4x16_S262144x16_1_0_0_1_n_n : DotDims S262144x4 S4x16 S262144x16 where
  lhsContracting := [1]
  rhsContracting := [0]
  lhsNonContracting := [0]
  rhsNonContracting := [1]
  lhsBatch := []
  rhsBatch := []
  wf := dot_S262144x4_S4x16_S262144x16_1_0_0_1_n_n_wf
def dot_S262144x16_S16x8_S262144x8_1_0_0_1_n_n : DotDims S262144x16 S16x8 S262144x8 where
  lhsContracting := [1]
  rhsContracting := [0]
  lhsNonContracting := [0]
  rhsNonContracting := [1]
  lhsBatch := []
  rhsBatch := []
  wf := dot_S262144x16_S16x8_S262144x8_1_0_0_1_n_n_wf
def dot_S262144x8_S8x4_S262144x4_1_0_0_1_n_n : DotDims S262144x8 S8x4 S262144x4 where
  lhsContracting := [1]
  rhsContracting := [0]
  lhsNonContracting := [0]
  rhsNonContracting := [1]
  lhsBatch := []
  rhsBatch := []
  wf := dot_S262144x8_S8x4_S262144x4_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def dot_S256x262144_S262144x256_S256x256_1_0_0_1_n_n : DotDims S256x262144 S262144x256 S256x256 where
  lhsContracting := [1]
  rhsContracting := [0]
  lhsNonContracting := [0]
  rhsNonContracting := [1]
  lhsBatch := []
  rhsBatch := []
  wf := dot_S256x262144_S262144x256_S256x256_1_0_0_1_n_n_wf

class Facts : Prop extends Facts₀ where

variable [Facts]
-- ==== Proof.KRun.lean ====
/-
  The idealized kernel program's run, with its two results named. Every weakly fair execution ends, and in every final
  state the two result buffers hold the last segment boundary's contents (the fold of the host operations and of the
  two regions' write-backs from the launch memory), while the fourteen argument buffers hold what they were launched
  with.
-/
import proofs.«142104_j18769007084085_2_alg».proof.Proof.Gen.KernelIdeal.Frame

set_option maxRecDepth 16384

noncomputable section

namespace Cert.KernelIdeal.RunVals

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments as launched. -/
theorem run : θ_run defs (onTc (τ := τ) (main (F := F))) ⟨m, fun _ => 0, ρ⟩ (fun r => ∀ c : Dev nD,
      r.2.mem ((c.tc : Thread nD τ).loc main_v55) = W7 m ρ c (Proc.devRef .tc main_v55)
      ∧ r.2.mem ((c.tc : Thread nD τ).loc main_v53) = W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v55 (by decide)),
       h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.RunVals

end
-- ==== Proof.Spec.lean ====
/-
  The two results as functions of the fourteen argument arrays, entry by entry, on the extended reals.

  Rows are indexed by r < 262144 and features by a, b, k < 256. Every row is projected by the transposed weight and
  clamped to [-2, 2] (vproj); a second projection feeds the row's mean absolute activation (exc); the row's population
  variance gives its surprise (sur). A four-entry state (sur, exc, the Frobenius norm of W, one half) goes through a
  16-wide affine map, a layer normalisation, tanh, an 8-wide affine map with a cut at zero, and a 4-wide affine map with
  the logistic function: the row's four controls (ctl). Their column means over all rows are the metabolic rate
  (column 0) and the gate value (column 2). The first result is the clamped product of a per-row logistic gate, the gate
  value and the clamped projection. The second result adds to the memory matrix the tanh of (mean outer product of
  clamped projection and input, minus mean square of the clamped projection times the memory), scaled by the metabolic
  rate and a tenth, and rescales the sum to Frobenius norm one half (the norm cut below at 1e-6).
-/
import Idealize.ShloMosaic.Lib.ValueIdx
import Idealize.ShloMosaic.PureOps.Ideal.Laws

noncomputable section

open scoped BigOperators

namespace Cert.Spec

open Idealize.ShloMosaic Idealize.ShloMosaic.ValueIdx

/-- A matrix of extended reals. -/
abbrev Mat (m n : Nat) := (⟨2, ![m, n]⟩ : Shape).Idx → EReal
/-- A vector of extended reals. -/
abbrev Vect (n : Nat) := (⟨1, ![n]⟩ : Shape).Idx → EReal

/-- The value a 32-bit pattern denotes. -/
abbrev lit (b : BitVec 32) : EReal := Ideal.ofBits .f32 b

/-- The fourteen argument arrays. -/
structure Args where
  x : Mat 262144 256
  W : Mat 256 256
  V : Mat 256 256
  gw : Mat 1 256
  gb : Vect 1
  s1w : Mat 16 4
  s1b : Vect 16
  lng : Vect 16
  lnb : Vect 16
  s2w : Mat 8 16
  s2b : Vect 8
  aw : Mat 4 8
  ab : Vect 4
  sm : Mat 256 256

/-- The absolute value: the larger of y and -y. -/
def absE (y : EReal) : EReal := max y (-y)

/-- Clamping to [-2, 2]: the smaller of 2 and the larger of -2 and y. -/
def clip (y : EReal) : EReal := min (lit 0x40000000#32) (max (lit 0xC0000000#32) y)

variable (P : Args)

/-- Row r against row a of V, clamped. -/
def vproj (r : Fin 262144) (a : Fin 256) : EReal := clip (∑ k : Fin 256, P.x (ix2 r k) * P.V (ix2 a k))

/-- Row r against row a of W. -/
def hproj (r : Fin 262144) (a : Fin 256) : EReal := ∑ k : Fin 256, P.x (ix2 r k) * P.W (ix2 a k)

/-- The Frobenius norm of W. -/
def wnorm : EReal := Ideal.sqrt (∑ i : (⟨2, ![256, 256]⟩ : Shape).Idx, P.W i * P.W i)

/-- The mean of row r. -/
def meanx (r : Fin 262144) : EReal := Ideal.div (∑ k : Fin 256, P.x (ix2 r k)) (lit 0x43800000#32)

/-- The population variance of row r. -/
def varx (r : Fin 262144) : EReal :=
  Ideal.div (∑ k : Fin 256, (P.x (ix2 r k) - meanx P r) * (P.x (ix2 r k) - meanx P r)) (lit 0x43800000#32)

/-- The surprise of row r: the distance of its variance from one half. -/
def sur (r : Fin 262144) : EReal := absE (varx P r - lit 0x3F000000#32)

/-- The excitation of row r: the mean absolute value of its second projection. -/
def exc (r : Fin 262144) : EReal := Ideal.div (∑ k : Fin 256, absE (hproj P r k)) (lit 0x43800000#32)

/-- The part of the first affine map that does not depend on the row. -/
def cvec (j : Fin 16) : EReal :=
  wnorm P * P.s1w (ix2 j (2 : Fin 4)) + lit 0x3F000000#32 * P.s1w (ix2 j (3 : Fin 4)) + P.s1b (ix1 j)

/-- The first affine map of the state (surprise, excitation, norm of W, one half). -/
def z0 (r : Fin 262144) (j : Fin 16) : EReal :=
  sur P r * P.s1w (ix2 j (0 : Fin 4)) + exc P r * P.s1w (ix2 j (1 : Fin 4)) + cvec P j

/-- The mean over the sixteen entries. -/
def mu (r : Fin 262144) : EReal := Ideal.div (∑ j : Fin 16, z0 P r j) (lit 0x41800000#32)

/-- Their population variance. -/
def var16 (r : Fin 262144) : EReal :=
  Ideal.div (∑ j : Fin 16, (z0 P r j - mu P r) * (z0 P r j - mu P r)) (lit 0x41800000#32)

/-- The normalised, scaled and shifted entries, through tanh. -/
def z2 (r : Fin 262144) (j : Fin 16) : EReal :=
  Ideal.tanh ((z0 P r j - mu P r) * Ideal.rsqrt (var16 P r + lit 0x3727C5AC#32) * P.lng (ix1 j) + P.lnb (ix1 j))

/-- The second affine map, cut below at zero. -/
def z3 (r : Fin 262144) (q : Fin 8) : EReal :=
  max (∑ j : Fin 16, z2 P r j * P.s2w (ix2 q j) + P.s2b (ix1 q)) (lit 0x00000000#32)

/-- The four controls of row r. -/
def ctl (r : Fin 262144) (p : Fin 4) : EReal :=
  Ideal.logistic (∑ q : Fin 8, z3 P r q * P.aw (ix2 p q) + P.ab (ix1 p))

/-- The sum over all rows of control p. -/
def csum (p : Fin 4) : EReal := ∑ r : Fin 262144, ctl P r p
/-- The sum over all rows of the outer product of clamped projection and input. -/
def hebbsum (a b : Fin 256) : EReal := ∑ r : Fin 262144, vproj P r a * P.x (ix2 r b)
/-- The sum over all rows of the squared clamped projection. -/
def vsqsum (a : Fin 256) : EReal := ∑ r : Fin 262144, vproj P r a * vproj P r a

/-- The metabolic rate: the mean of control 0. -/
def met : EReal := Ideal.div (csum P 0) (lit 0x48800000#32)
/-- The gate value: the mean of control 2. -/
def gval : EReal := Ideal.div (csum P 2) (lit 0x48800000#32)

/-- The first result. -/
def out (r : Fin 262144) (j : Fin 256) : EReal :=
  clip (Ideal.logistic (∑ k : Fin 256, vproj P r k * P.gw (ix2 (0 : Fin 1) k) + P.gb (ix1 (0 : Fin 1))) * gval P
    * vproj P r j)

/-- The memory before rescaling. -/
def memv (a b : Fin 256) : EReal :=
  P.sm (ix2 a b)
    + Ideal.tanh (Ideal.div (hebbsum P a b) (lit 0x48800000#32)
        - Ideal.div (vsqsum P a) (lit 0x48800000#32) * P.sm (ix2 a b)) * met P * lit 0x3DCCCCCD#32

/-- Its Frobenius norm, cut below at 1e-6. -/
def mnorm : EReal :=
  max (Ideal.sqrt (∑ i : (⟨2, ![256, 256]⟩ : Shape).Idx, memv P (i 0) (i 1) * memv P (i 0) (i 1))) (lit 0x358637BD#32)

/-- The second result. -/
def newmem (a b : Fin 256) : EReal := Ideal.div (memv P a b) (mnorm P) * lit 0x3F000000#32

/-- The first result as an array. -/
def outArr : Mat 262144 256 := fun i => out P (i 0) (i 1)
/-- The second result as an array. -/
def memArr : Mat 256 256 := fun i => newmem P (i 0) (i 1)

/-! ## Sums over the rows, block by block

The rows split into 2 halves of 32 blocks of 4096 rows. A sum over all rows is the sum over the halves of the sum over
a half's blocks of the sum over a block's rows; and a running total that starts from zero and adds one block's sum at
a time ends at the sum over the blocks. -/

/-- Row r' of block t (t < 64, r' < 4096). -/
def rowOf (t : Fin 64) (r' : Fin 4096) : Fin 262144 := ⟨t.val * 4096 + r'.val, by have := t.isLt; have := r'.isLt; omega⟩

/-- Block i of half c (c < 2, i < 32). -/
def blockOf (c : Fin 2) (i : Fin 32) : Fin 64 := ⟨c.val * 32 + i.val, by have := c.isLt; have := i.isLt; omega⟩

/-- A running total over the blocks of one half: zero plus the first block's term, then one more term per block. -/
def running (b : ℕ → EReal) : ℕ → EReal
  | 0 => 0 + b 0
  | n + 1 => running b n + b (n + 1)

theorem running_eq_sum (b : ℕ → EReal) (n : ℕ) : running b n = ∑ i ∈ Finset.range (n + 1), b i := by
  induction n with
  | zero => simp [running]
  | succ n ih => rw [running, ih, Finset.sum_range_succ _ (n + 1)]

/-- The sum over all rows, regrouped by half, block and row within the block. -/
theorem sum_rows_blocks (f : Fin 262144 → EReal) :
    ∑ r : Fin 262144, f r = ∑ c : Fin 2, ∑ i : Fin 32, ∑ r' : Fin 4096, f (rowOf (blockOf c i) r') := by
  have e1 : ∑ r : Fin 262144, f r = ∑ t : Fin 64, ∑ r' : Fin 4096, f (rowOf t r') := by
    refine Eq.trans ?_ (Fintype.sum_prod_type' (fun (t : Fin 64) (r' : Fin 4096) => f (rowOf t r')))
    exact (Fintype.sum_equiv (finProdFinEquiv (m := 64) (n := 4096)) (fun p => f (rowOf p.1 p.2)) f
      (fun p => congrArg f (Fin.ext (by
        show p.1.val * 4096 + p.2.val = p.2.val + 4096 * p.1.val
        omega)))).symm
  have e2 : ∀ g : Fin 64 → EReal, ∑ t : Fin 64, g t = ∑ c : Fin 2, ∑ i : Fin 32, g (blockOf c i) := by
    intro g
    refine Eq.trans ?_ (Fintype.sum_prod_type' (fun (c : Fin 2) (i : Fin 32) => g (blockOf c i)))
    exact (Fintype.sum_equiv (finProdFinEquiv (m := 2) (n := 32)) (fun p => g (blockOf p.1 p.2)) g
      (fun p => congrArg g (Fin.ext (by
        show p.1.val * 32 + p.2.val = p.2.val + 32 * p.1.val
        omega)))).symm
  rw [e1, e2]

end Cert.Spec

end
-- ==== Proof.KArgs.lean ====
/-
  The fourteen argument arrays of the idealized kernel program, as the specification's record.
-/
import proofs.«142104_j18769007084085_2_alg».proof.KernelIdeal
import proofs.«142104_j18769007084085_2_alg».proof.Proof.Spec

noncomputable section

namespace Cert.KernelIdeal.Bridge

open Idealize.ShloMosaic Idealize.SL.Sem Cert.KernelIdeal

/-- The argument arrays a memory holds on core c. -/
def argsK (m : (ℓ : Loc nD τ sig) → Buf (Elt Ideal) ℓ) (c : Dev nD) : Cert.Spec.Args where
  x := m ((c.tc : Thread nD τ).loc main_arg0)
  W := m ((c.tc : Thread nD τ).loc main_arg1)
  V := m ((c.tc : Thread nD τ).loc main_arg2)
  gw := m ((c.tc : Thread nD τ).loc main_arg3)
  gb := m ((c.tc : Thread nD τ).loc main_arg4)
  s1w := m ((c.tc : Thread nD τ).loc main_arg5)
  s1b := m ((c.tc : Thread nD τ).loc main_arg6)
  lng := m ((c.tc : Thread nD τ).loc main_arg7)
  lnb := m ((c.tc : Thread nD τ).loc main_arg8)
  s2w := m ((c.tc : Thread nD τ).loc main_arg9)
  s2b := m ((c.tc : Thread nD τ).loc main_arg10)
  aw := m ((c.tc : Thread nD τ).loc main_arg11)
  ab := m ((c.tc : Thread nD τ).loc main_arg12)
  sm := m ((c.tc : Thread nD τ).loc main_arg13)

end Cert.KernelIdeal.Bridge

end
-- ==== Proof.KHost0.lean ====
/-
  What the twelve input arrays of the statistics pass hold when it is entered, as functions of the argument arrays:
  the row matrix itself; the two square weights transposed; rows 0 and 1 of the transposed 16 x 4 weight; the row-free
  part of the first affine map (norm of W times row 2, plus one half times row 3, plus the bias); the two layer-norm
  vectors, the 8-wide and 4-wide weights transposed and their biases, each as one row.
-/
import proofs.«142104_j18769007084085_2_alg».proof.Proof.Gen.KernelIdeal.Frame
import proofs.«142104_j18769007084085_2_alg».proof.Proof.KArgs
import Idealize.ShloMosaic.Lib.ValueLayout
import Idealize.ShloMosaic.Lib.KernelVsHost
import Idealize.ShloMosaic.Lib.Pipeline.Value
import Idealize.ShloMosaic.PureOps.Ideal.Laws

set_option maxRecDepth 16384

noncomputable section

namespace Cert.KernelIdeal.Host0

open Idealize.ShloMosaic Idealize.ShloMosaic.ValueIdx Idealize.SL.Sem
open Cert.KernelIdeal Cert.KernelIdeal.Gen Cert.KernelIdeal.Bridge

variable (m : (ℓ : Loc nD τ sig) → Buf (Elt Ideal) ℓ) (ρ : Dev nD → PrngReg) (c : Dev nD)

/-- A scalar laid over a shape reads the scalar everywhere. -/
theorem bcast0_apply {t : Shape} (h : (⟨0, ![]⟩ : Shape).BroadcastsInDim t ![]) (x : (⟨0, ![]⟩ : Shape).Idx → EReal) (j : t.Idx) :
    broadcastInDim t ![] h x j = x ix0 :=
  broadcastInDim_apply ![] h x j ix0 (fun a => a.elim0)

theorem w2_arg0 : (V2 m ρ c main_arg0 : S262144x256.Idx → EReal) = (argsK m c).x := by
  dsimp only [V2, W2, W1, W0, hostOps0, hostOps0_1]
  after_results_simp
  rfl

set_option maxHeartbeats 2000000 in
theorem w2_v2 : (V2 m ρ c main_v2 : S256x256.Idx → EReal) = fun i => (argsK m c).V (ix2 (i 1) (i 0)) := by
  dsimp only [V2, W2, W1, W0, hostOps0, hostOps0_1]
  after_results_simp
  funext i
  obtain ⟨k, a, rfl⟩ : ∃ (k a : Fin 256), i = ix2 k a := ⟨i 0, i 1, eq_ix2 i⟩
  exact transpose_ix2_apply (W0 m ρ c (Proc.devRef .tc main_arg2)) transposes_S256x256_S256x256_1_0 k a

set_option maxHeartbeats 2000000 in
theorem w2_v4 : (V2 m ρ c main_v4 : S256x256.Idx → EReal) = fun i => (argsK m c).W (ix2 (i 1) (i 0)) := by
  dsimp only [V2, W2, W1, W0, hostOps0, hostOps0_1]
  after_results_simp
  funext i
  obtain ⟨k, a, rfl⟩ : ∃ (k a : Fin 256), i = ix2 k a := ⟨i 0, i 1, eq_ix2 i⟩
  exact transpose_ix2_apply (W0 m ρ c (Proc.devRef .tc main_arg1)) transposes_S256x256_S256x256_1_0 k a

/-- The square root of the sum of the squares of all entries, as the host spells it from a zero start. -/
theorem wnorm_eq (X : (⟨2, ![256, 256]⟩ : Shape).Idx → EReal) (h : (⟨2, ![256, 256]⟩ : Shape).ReducesTo [0, 1] ⟨0, ![]⟩)
    (hu : 0 < (⟨0, ![]⟩ : Shape).numel) :
    Host.sqrt (F := Ideal) (φ := .f32) (Host.reduceAdd (F := Ideal) (mulf (F := Ideal) (φ := .f32) X X) (constant (F := Ideal) ⟨0, ![]⟩ .f32 0x00000000#32) h hu) ix0
      = Ideal.sqrt (∑ i : (⟨2, ![256, 256]⟩ : Shape).Idx, X i * X i) := by
  show Ideal.sqrt (Ideal.hostReduceAdd h (mulf (F := Ideal) (φ := .f32) X X) (Ideal.ofBits .f32 0x00000000#32) ix0) = _
  rw [Ideal.hostReduceAdd_total h (fun b => b.elim0), Ideal.ofBits_zero_f32, zero_add]
  rfl

/-- Row o of the transposed 16 x 4 weight, as one row. -/
theorem rowT (o : Nat) (ho : o < 4) (X : (⟨2, ![16, 4]⟩ : Shape).Idx → EReal)
    (hs : (⟨2, ![4, 16]⟩ : Shape).Slices ![o, 0] ⟨2, ![1, 16]⟩)
    (ht : (⟨2, ![16, 4]⟩ : Shape).Transposes [1, 0] ⟨2, ![4, 16]⟩) (u : Fin 1) (j : Fin 16) :
    extractStridedSlice ⟨2, ![1, 16]⟩ ![o, 0] (transpose ⟨2, ![4, 16]⟩ [1, 0] X ht) hs (ix2 u j) = X (ix2 j (⟨o, ho⟩ : Fin 4)) := by
  refine (slice2_axis0_apply o _ hs u j (⟨o, ho⟩ : Fin 4) (by have := u.isLt; show o = o + u.val; omega)).trans ?_
  exact transpose_ix2_apply X ht (⟨o, ho⟩ : Fin 4) j

set_option maxHeartbeats 2000000 in
theorem w2_v14 : (V2 m ρ c main_v14 : S1x16.Idx → EReal) = fun i => (argsK m c).s1w (ix2 (i 1) (0 : Fin 4)) := by
  dsimp only [V2, W2, W1, W0, hostOps0, hostOps0_1]
  after_results_simp
  funext i
  obtain ⟨u, j, rfl⟩ : ∃ (u : Fin 1) (j : Fin 16), i = ix2 u j := ⟨i 0, i 1, eq_ix2 i⟩
  exact rowT 0 (by decide) _ _ _ u j

set_option maxHeartbeats 2000000 in
theorem w2_v15 : (V2 m ρ c main_v15 : S1x16.Idx → EReal) = fun i => (argsK m c).s1w (ix2 (i 1) (1 : Fin 4)) := by
  dsimp only [V2, W2, W1, W0, hostOps0, hostOps0_1]
  after_results_simp
  funext i
  obtain ⟨u, j, rfl⟩ : ∃ (u : Fin 1) (j : Fin 16), i = ix2 u j := ⟨i 0, i 1, eq_ix2 i⟩
  exact rowT 1 (by decide) _ _ _ u j

set_option maxHeartbeats 2000000 in
theorem w2_v23 : (V2 m ρ c main_v23 : S1x16.Idx → EReal) = fun i => Cert.Spec.cvec (argsK m c) (i 1) := by
  dsimp only [V2, W2, W1, W0, hostOps0, hostOps0_1]
  after_results_simp
  funext i
  obtain ⟨u, j, rfl⟩ : ∃ (u : Fin 1) (j : Fin 16), i = ix2 u j := ⟨i 0, i 1, eq_ix2 i⟩
  show _ = Cert.Spec.wnorm (argsK m c) * (argsK m c).s1w (ix2 j (2 : Fin 4))
      + Cert.Spec.lit 0x3F000000#32 * (argsK m c).s1w (ix2 j (3 : Fin 4)) + (argsK m c).s1b (ix1 j)
  refine congrArg₂ (· + ·) (congrArg₂ (· + ·) (congrArg₂ (· * ·) ?_ ?_) (congrArg₂ (· * ·) ?_ ?_)) ?_
  · refine (bcast0_apply _ _ _).trans ?_
    exact wnorm_eq _ reducesTo_S256x256_S_d0_1 h_S_
  · exact rowT 2 (by decide) _ _ _ u j
  · exact bcast0_apply _ _ _
  · exact rowT 3 (by decide) _ _ _ u j
  · exact shapeCast_a_1a_apply _ _ u j

/-- A vector cast to one row reads the vector. -/
theorem rowOf_vec {n : Nat} (x : (⟨1, ![n]⟩ : Shape).Idx → EReal) (h : (⟨1, ![n]⟩ : Shape).ShapeCasts ⟨2, ![1, n]⟩) :
    shapeCast ⟨2, ![1, n]⟩ x h = fun i => x (ix1 (i 1)) := by
  funext i
  obtain ⟨u, j, rfl⟩ : ∃ (u : Fin 1) (j : Fin n), i = ix2 u j := ⟨i 0, i 1, eq_ix2 i⟩
  exact shapeCast_a_1a_apply x h u j

set_option maxHeartbeats 2000000 in
theorem w2_v9 : (V2 m ρ c main_v9 : S1x16.Idx → EReal) = fun i => (argsK m c).lng (ix1 (i 1)) := by
  dsimp only [V2, W2, W1, W0, hostOps0, hostOps0_1]
  after_results_simp
  exact rowOf_vec _ _

set_option maxHeartbeats 2000000 in
theorem w2_v10 : (V2 m ρ c main_v10 : S1x16.Idx → EReal) = fun i => (argsK m c).lnb (ix1 (i 1)) := by
  dsimp only [V2, W2, W1, W0, hostOps0, hostOps0_1]
  after_results_simp
  exact rowOf_vec _ _

set_option maxHeartbeats 2000000 in
theorem w2_v11 : (V2 m ρ c main_v11 : S1x8.Idx → EReal) = fun i => (argsK m c).s2b (ix1 (i 1)) := by
  dsimp only [V2, W2, W1, W0, hostOps0, hostOps0_1]
  after_results_simp
  exact rowOf_vec _ _

set_option maxHeartbeats 2000000 in
theorem w2_v12 : (V2 m ρ c main_v12 : S1x4.Idx → EReal) = fun i => (argsK m c).ab (ix1 (i 1)) := by
  dsimp only [V2, W2, W1, W0, hostOps0, hostOps0_1]
  after_results_simp
  exact rowOf_vec _ _

set_option maxHeartbeats 2000000 in
theorem w2_v13 : (V2 m ρ c main_v13 : S1x1.Idx → EReal) = fun i => (argsK m c).gb (ix1 (i 1)) := by
  dsimp only [V2, W2, W1, W0, hostOps0, hostOps0_1]
  after_results_simp
  exact rowOf_vec _ _

set_option maxHeartbeats 2000000 in
theorem w2_v6 : (V2 m ρ c main_v6 : S16x8.Idx → EReal) = fun i => (argsK m c).s2w (ix2 (i 1) (i 0)) := by
  dsimp only [V2, W2, W1, W0, hostOps0, hostOps0_1]
  after_results_simp
  funext i
  obtain ⟨k, a, rfl⟩ : ∃ (k : Fin 16) (a : Fin 8), i = ix2 k a := ⟨i 0, i 1, eq_ix2 i⟩
  exact transpose_ix2_apply (W0 m ρ c (Proc.devRef .tc main_arg9)) transposes_S8x16_S16x8_1_0 k a

set_option maxHeartbeats 2000000 in
theorem w2_v7 : (V2 m ρ c main_v7 : S8x4.Idx → EReal) = fun i => (argsK m c).aw (ix2 (i 1) (i 0)) := by
  dsimp only [V2, W2, W1, W0, hostOps0, hostOps0_1]
  after_results_simp
  funext i
  obtain ⟨k, a, rfl⟩ : ∃ (k : Fin 8) (a : Fin 4), i = ix2 k a := ⟨i 0, i 1, eq_ix2 i⟩
  exact transpose_ix2_apply (W0 m ρ c (Proc.devRef .tc main_arg11)) transposes_S4x8_S8x4_1_0 k a

theorem w2_arg3 : (V2 m ρ c main_arg3 : S1x256.Idx → EReal) = (argsK m c).gw := by
  dsimp only [V2, W2, W1, W0, hostOps0, hostOps0_1]
  after_results_simp
  rfl

theorem w2_arg13 : (V2 m ρ c main_arg13 : S256x256.Idx → EReal) = (argsK m c).sm := by
  dsimp only [V2, W2, W1, W0, hostOps0, hostOps0_1]
  after_results_simp
  rfl

end Cert.KernelIdeal.Host0

end
-- ==== Proof.KHost1.lean ====
/-
  The host arithmetic between the two passes. From the three accumulated arrays of the statistics pass — per half c of
  the rows, the sums over that half's rows of (clamped projection) x (input), of the squared clamped projection and of
  the four controls — the two halves are added, the totals divided by the number of rows, and the memory matrix updated
  and rescaled. Read entry by entry these are the specification's mean outer product, mean square, metabolic rate, gate
  value and second result.
-/
import proofs.«142104_j18769007084085_2_alg».proof.Proof.Gen.KernelIdeal.Frame
import proofs.«142104_j18769007084085_2_alg».proof.Proof.KArgs
import proofs.«142104_j18769007084085_2_alg».proof.Proof.KHost0
import Idealize.ShloMosaic.Lib.ValueLayout
import Idealize.ShloMosaic.Lib.KernelVsHost
import Idealize.ShloMosaic.Lib.Pipeline.Value
import Idealize.ShloMosaic.PureOps.Ideal.Laws

set_option maxRecDepth 16384

noncomputable section

open scoped BigOperators

namespace Cert.KernelIdeal.Host1

open Idealize.ShloMosaic Idealize.ShloMosaic.ValueIdx Idealize.SL.Sem
open Cert.KernelIdeal Cert.KernelIdeal.Gen Cert.KernelIdeal.Bridge Cert.KernelIdeal.Host0

/-! ## The three stretches, each as a function of the buffers it reads -/

/-- The memory before rescaling, as the host computes it from the three accumulated arrays and the memory matrix. -/
def memTerm (H0 : FVec Ideal S2x256x256 .f32) (H1 : FVec Ideal S2x1x256 .f32) (H2 : FVec Ideal S2x1x4 .f32)
    (SM : FVec Ideal S256x256 .f32) : FVec Ideal S256x256 .f32 :=
  addf SM
    (mulf
      (mulf
        (Host.tanh
          (subf
            (Host.divf (Host.reduceAdd H0 (constant S_ .f32 0x00000000#32) reducesTo_S2x256x256_S256x256_d0 h_S_)
              (broadcastInDim S256x256 ![] bcast_S_S256x256 (constant S_ .f32 0x48800000#32)))
            (mulf
              (broadcastInDim S256x256 ![0, 1] bcast_S256x1_S256x256_0_1
                (Host.divf
                  (shapeCast S256x1 (Host.reduceAdd H1 (constant S_ .f32 0x00000000#32) reducesTo_S2x1x256_S1x256_d0 h_S_)
                    shapeCasts_S1x256_S256x1)
                  (broadcastInDim S256x1 ![] bcast_S_S256x1 (constant S_ .f32 0x48800000#32))))
              SM)))
        (broadcastInDim S256x256 ![] bcast_S_S256x256
          (Host.divf
            (shapeCast S_
              (extractStridedSlice S1x1 ![0, 0]
                (Host.reduceAdd H2 (constant S_ .f32 0x00000000#32) reducesTo_S2x1x4_S1x4_d0 h_S_) slices_S1x4_S1x1_0_0)
              shapeCasts_S1x1_S_)
            (constant S_ .f32 0x48800000#32))))
      (broadcastInDim S256x256 ![] bcast_S_S256x256 (constant S_ .f32 0x3DCCCCCD#32)))

/-- The gate value as the host computes it from the accumulated controls. -/
def gateTerm (H2 : FVec Ideal S2x1x4 .f32) : FVec Ideal S_ .f32 :=
  Host.divf
    (shapeCast S_
      (extractStridedSlice S1x1 ![0, 2]
        (Host.reduceAdd H2 (constant S_ .f32 0x00000000#32) reducesTo_S2x1x4_S1x4_d0 h_S_) slices_S1x4_S1x1_0_2)
      shapeCasts_S1x1_S_)
    (constant S_ .f32 0x48800000#32)

/-- The Frobenius norm as the host computes it. -/
def normTerm (M : FVec Ideal S256x256 .f32) : FVec Ideal S_ .f32 :=
  Host.sqrt (Host.reduceAdd (mulf M M) (constant S_ .f32 0x00000000#32) reducesTo_S256x256_S_d0_1 h_S_)

/-- The rescaling. -/
def finalTerm (M : FVec Ideal S256x256 .f32) (nrm : FVec Ideal S_ .f32) : FVec Ideal S256x256 .f32 :=
  mulf (Host.divf M (broadcastInDim S256x256 ![] bcast_S_S256x256 (maximumf nrm (constant S_ .f32 0x358637BD#32))))
    (broadcastInDim S256x256 ![] bcast_S_S256x256 (constant S_ .f32 0x3F000000#32))

variable (X : Valuation τ sig (Elt Ideal))

set_option maxHeartbeats 4000000 in
theorem stage1_v47 : (StableHlo.after (hostOps1 (F := Ideal)) X (Proc.devRef .tc main_v47) : S256x256.Idx → EReal)
    = memTerm (X (Proc.devRef .tc main_v24_0)) (X (Proc.devRef .tc main_v24_1)) (X (Proc.devRef .tc main_v24_2))
        (X (Proc.devRef .tc main_arg13)) := by
  dsimp only [hostOps1]
  after_results_simp
  rfl

set_option maxHeartbeats 4000000 in
theorem stage1_v33 : (StableHlo.after (hostOps1 (F := Ideal)) X (Proc.devRef .tc main_v33) : S_.Idx → EReal)
    = gateTerm (X (Proc.devRef .tc main_v24_2)) := by
  dsimp only [hostOps1]
  after_results_simp
  rfl

set_option maxHeartbeats 4000000 in
theorem stage2_v48 : (StableHlo.after (hostOps1_1 (F := Ideal)) X (Proc.devRef .tc main_v48) : S_.Idx → EReal)
    = normTerm (X (Proc.devRef .tc main_v47)) := by
  dsimp only [hostOps1_1]
  after_results_simp
  rfl

set_option maxHeartbeats 4000000 in
theorem stage2_v47 : StableHlo.after (hostOps1_1 (F := Ideal)) X (Proc.devRef .tc main_v47) = X (Proc.devRef .tc main_v47) := by
  dsimp only [hostOps1_1]
  after_results_simp

set_option maxHeartbeats 4000000 in
theorem stage2_v33 : StableHlo.after (hostOps1_1 (F := Ideal)) X (Proc.devRef .tc main_v33) = X (Proc.devRef .tc main_v33) := by
  dsimp only [hostOps1_1]
  after_results_simp

set_option maxHeartbeats 4000000 in
theorem stage3_v53 : (StableHlo.after (hostOps1_2 (F := Ideal)) X (Proc.devRef .tc main_v53) : S256x256.Idx → EReal)
    = finalTerm (X (Proc.devRef .tc main_v47)) (X (Proc.devRef .tc main_v48)) := by
  dsimp only [hostOps1_2]
  after_results_simp
  rfl

set_option maxHeartbeats 4000000 in
theorem stage3_v54 : (StableHlo.after (hostOps1_2 (F := Ideal)) X (Proc.devRef .tc main_v54) : S1x1.Idx → EReal)
    = shapeCast S1x1 (X (Proc.devRef .tc main_v33) : S_.Idx → EReal) shapeCasts_S_S1x1 := by
  dsimp only [hostOps1_2]
  after_results_simp
  rfl

/-! ## The stretches read entry by entry -/

/-- The sum over the two halves: the host's sum along the leading axis from a zero start. -/
theorem sumHalves_256x256 (H : (⟨3, ![2, 256, 256]⟩ : Shape).Idx → EReal)
    (h : (⟨3, ![2, 256, 256]⟩ : Shape).ReducesTo [0] ⟨2, ![256, 256]⟩) (hu : 0 < (⟨0, ![]⟩ : Shape).numel) (a b : Fin 256) :
    Host.reduceAdd (F := Ideal) (φ := .f32) H (constant (F := Ideal) ⟨0, ![]⟩ .f32 0x00000000#32) h hu (ix2 a b)
      = ∑ k : Fin 2, H (ix3 k a b) := by
  show Ideal.hostReduceAdd h H (Ideal.ofBits .f32 0x00000000#32) (ix2 a b) = _
  rw [Ideal.hostReduceAdd_single h (by decide : (⟨3, ![2, 256, 256]⟩ : Shape).Reduces [0] ⟨2, ![256, 256]⟩), Ideal.ofBits_zero_f32, zero_add]
  exact Finset.sum_congr rfl fun k _ => congrArg H (funext fun d => Fin.ext (by
    match d with
    | ⟨0, _⟩ => rfl
    | ⟨1, _⟩ => rfl
    | ⟨2, _⟩ => rfl))

theorem sumHalves_1x256 (H : (⟨3, ![2, 1, 256]⟩ : Shape).Idx → EReal)
    (h : (⟨3, ![2, 1, 256]⟩ : Shape).ReducesTo [0] ⟨2, ![1, 256]⟩) (hu : 0 < (⟨0, ![]⟩ : Shape).numel) (u : Fin 1) (a : Fin 256) :
    Host.reduceAdd (F := Ideal) (φ := .f32) H (constant (F := Ideal) ⟨0, ![]⟩ .f32 0x00000000#32) h hu (ix2 u a)
      = ∑ k : Fin 2, H (ix3 k u a) := by
  show Ideal.hostReduceAdd h H (Ideal.ofBits .f32 0x00000000#32) (ix2 u a) = _
  rw [Ideal.hostReduceAdd_single h (by decide : (⟨3, ![2, 1, 256]⟩ : Shape).Reduces [0] ⟨2, ![1, 256]⟩), Ideal.ofBits_zero_f32, zero_add]
  exact Finset.sum_congr rfl fun k _ => congrArg H (funext fun d => Fin.ext (by
    match d with
    | ⟨0, _⟩ => rfl
    | ⟨1, _⟩ => rfl
    | ⟨2, _⟩ => rfl))

theorem sumHalves_1x4 (H : (⟨3, ![2, 1, 4]⟩ : Shape).Idx → EReal)
    (h : (⟨3, ![2, 1, 4]⟩ : Shape).ReducesTo [0] ⟨2, ![1, 4]⟩) (hu : 0 < (⟨0, ![]⟩ : Shape).numel) (u : Fin 1) (p : Fin 4) :
    Host.reduceAdd (F := Ideal) (φ := .f32) H (constant (F := Ideal) ⟨0, ![]⟩ .f32 0x00000000#32) h hu (ix2 u p)
      = ∑ k : Fin 2, H (ix3 k u p) := by
  show Ideal.hostReduceAdd h H (Ideal.ofBits .f32 0x00000000#32) (ix2 u p) = _
  rw [Ideal.hostReduceAdd_single h (by decide : (⟨3, ![2, 1, 4]⟩ : Shape).Reduces [0] ⟨2, ![1, 4]⟩), Ideal.ofBits_zero_f32, zero_add]
  exact Finset.sum_congr rfl fun k _ => congrArg H (funext fun d => Fin.ext (by
    match d with
    | ⟨0, _⟩ => rfl
    | ⟨1, _⟩ => rfl
    | ⟨2, _⟩ => rfl))

/-- A one-by-one array as a scalar. -/
theorem cast11_0 (x : (⟨2, ![1, 1]⟩ : Shape).Idx → EReal) (h : (⟨2, ![1, 1]⟩ : Shape).ShapeCasts ⟨0, ![]⟩) :
    shapeCast ⟨0, ![]⟩ x h ix0 = x (ix2 (0 : Fin 1) (0 : Fin 1)) :=
  shapeCast_apply x h ix0 (ix2 (0 : Fin 1) (0 : Fin 1)) (by
    rw [Shape.rowMajor_val_two]
    have h1 : ((⟨0, ![]⟩ : Shape).rowMajor ix0).val < 1 := ((⟨0, ![]⟩ : Shape).rowMajor ix0).isLt
    show 0 * 1 + 0 = _
    omega)

/-- A scalar as a one-by-one array. -/
theorem cast0_11 (x : (⟨0, ![]⟩ : Shape).Idx → EReal) (h : (⟨0, ![]⟩ : Shape).ShapeCasts ⟨2, ![1, 1]⟩) (u w : Fin 1) :
    shapeCast ⟨2, ![1, 1]⟩ x h (ix2 u w) = x ix0 :=
  shapeCast_apply x h (ix2 u w) ix0 (by
    rw [Shape.rowMajor_val_two]
    have h1 : ((⟨0, ![]⟩ : Shape).rowMajor ix0).val < 1 := ((⟨0, ![]⟩ : Shape).rowMajor ix0).isLt
    have hu := u.isLt; have hw := w.isLt
    show _ = u.val * 1 + w.val
    omega)

/-- One row of 256 entries as a column. -/
theorem castRowCol (x : (⟨2, ![1, 256]⟩ : Shape).Idx → EReal) (h : (⟨2, ![1, 256]⟩ : Shape).ShapeCasts ⟨2, ![256, 1]⟩)
    (a : Fin 256) (u : Fin 1) : shapeCast ⟨2, ![256, 1]⟩ x h (ix2 a u) = x (ix2 (0 : Fin 1) a) :=
  shapeCast_apply x h (ix2 a u) (ix2 (0 : Fin 1) a) (by
    rw [Shape.rowMajor_val_two, Shape.rowMajor_val_two]
    have hu := u.isLt
    show 0 * 256 + a.val = a.val * 1 + u.val
    omega)

/-- A column laid over the columns of a square matrix. -/
theorem bcastCol (x : (⟨2, ![256, 1]⟩ : Shape).Idx → EReal)
    (h : (⟨2, ![256, 1]⟩ : Shape).BroadcastsInDim ⟨2, ![256, 256]⟩ ![0, 1]) (a b : Fin 256) :
    broadcastInDim ⟨2, ![256, 256]⟩ ![0, 1] h x (ix2 a b) = x (ix2 a (0 : Fin 1)) :=
  broadcastInDim_apply ![0, 1] h x (ix2 a b) (ix2 a (0 : Fin 1)) (fun d => by
    match d with
    | ⟨0, _⟩ => rfl
    | ⟨1, _⟩ => rfl)

variable (P : Cert.Spec.Args)

/-- The gate value. -/
theorem gateTerm_apply (H2 : FVec Ideal S2x1x4 .f32)
    (h2 : ∀ (k : Fin 2) (p : Fin 4), H2 (ix3 k (0 : Fin 1) p)
      = ∑ n : Fin 32, ∑ r' : Fin 4096, Cert.Spec.ctl P (Cert.Spec.rowOf (Cert.Spec.blockOf k n) r') p) :
    gateTerm H2 ix0 = Cert.Spec.gval P := by
  show Ideal.div (shapeCast S_ (extractStridedSlice S1x1 ![0, 2] (Host.reduceAdd H2 (constant S_ .f32 0x00000000#32) reducesTo_S2x1x4_S1x4_d0 h_S_) slices_S1x4_S1x1_0_2) shapeCasts_S1x1_S_ ix0) (Cert.Spec.lit 0x48800000#32) = _
  rw [cast11_0, slice2_axis1_apply 2 _ _ (0 : Fin 1) (0 : Fin 1) (2 : Fin 4) rfl, sumHalves_1x4]
  unfold Cert.Spec.gval Cert.Spec.csum
  rw [Cert.Spec.sum_rows_blocks]
  exact congrArg (Ideal.div · _) (Finset.sum_congr rfl fun k _ => h2 k 2)

/-- The metabolic rate, the mean outer product and the mean square, and with them the memory before rescaling. -/
theorem memTerm_apply (H0 : FVec Ideal S2x256x256 .f32) (H1 : FVec Ideal S2x1x256 .f32) (H2 : FVec Ideal S2x1x4 .f32)
    (SM : FVec Ideal S256x256 .f32)
    (h0 : ∀ (k : Fin 2) (a b : Fin 256), H0 (ix3 k a b)
      = ∑ n : Fin 32, ∑ r' : Fin 4096, Cert.Spec.vproj P (Cert.Spec.rowOf (Cert.Spec.blockOf k n) r') a
          * P.x (ix2 (Cert.Spec.rowOf (Cert.Spec.blockOf k n) r') b))
    (h1 : ∀ (k : Fin 2) (a : Fin 256), H1 (ix3 k (0 : Fin 1) a)
      = ∑ n : Fin 32, ∑ r' : Fin 4096, Cert.Spec.vproj P (Cert.Spec.rowOf (Cert.Spec.blockOf k n) r') a
          * Cert.Spec.vproj P (Cert.Spec.rowOf (Cert.Spec.blockOf k n) r') a)
    (h2 : ∀ (k : Fin 2) (p : Fin 4), H2 (ix3 k (0 : Fin 1) p)
      = ∑ n : Fin 32, ∑ r' : Fin 4096, Cert.Spec.ctl P (Cert.Spec.rowOf (Cert.Spec.blockOf k n) r') p)
    (hsm : SM = P.sm) (a b : Fin 256) :
    memTerm H0 H1 H2 SM (ix2 a b) = Cert.Spec.memv P a b := by
  have e0 : Host.reduceAdd H0 (constant S_ .f32 0x00000000#32) reducesTo_S2x256x256_S256x256_d0 h_S_ (ix2 a b)
      = Cert.Spec.hebbsum P a b := by
    rw [sumHalves_256x256]; unfold Cert.Spec.hebbsum; rw [Cert.Spec.sum_rows_blocks]
    exact Finset.sum_congr rfl fun k _ => h0 k a b
  have e1 : Host.reduceAdd H1 (constant S_ .f32 0x00000000#32) reducesTo_S2x1x256_S1x256_d0 h_S_ (ix2 (0 : Fin 1) a)
      = Cert.Spec.vsqsum P a := by
    rw [sumHalves_1x256]; unfold Cert.Spec.vsqsum; rw [Cert.Spec.sum_rows_blocks]
    exact Finset.sum_congr rfl fun k _ => h1 k a
  have e2 : Host.reduceAdd H2 (constant S_ .f32 0x00000000#32) reducesTo_S2x1x4_S1x4_d0 h_S_ (ix2 (0 : Fin 1) (0 : Fin 4))
      = Cert.Spec.csum P 0 := by
    rw [sumHalves_1x4]; unfold Cert.Spec.csum; rw [Cert.Spec.sum_rows_blocks]
    exact Finset.sum_congr rfl fun k _ => h2 k 0
  subst hsm
  unfold memTerm
  simp only [addf_apply, mulf_apply, subf_apply, Host.divf, Host.tanh, Ideal.hostDivf_def, Ideal.hostUnary_tanh_def, e0]
  rw [bcast0_apply, bcast0_apply, bcast0_apply, bcastCol]
  simp only [Host.divf, Ideal.hostDivf_def]
  rw [castRowCol, bcast0_apply, e1, cast11_0, slice2_axis1_apply 0 _ _ (0 : Fin 1) (0 : Fin 1) (0 : Fin 4) rfl, e2]
  rfl

/-- The Frobenius norm. -/
theorem normTerm_apply (M : FVec Ideal S256x256 .f32) :
    normTerm M ix0 = Ideal.sqrt (∑ i : (⟨2, ![256, 256]⟩ : Shape).Idx, M i * M i) :=
  wnorm_eq M reducesTo_S256x256_S_d0_1 h_S_

/-- The rescaling. -/
theorem finalTerm_apply (M : FVec Ideal S256x256 .f32) (nrm : FVec Ideal S_ .f32) (a b : Fin 256) :
    finalTerm M nrm (ix2 a b)
      = Ideal.div (M (ix2 a b)) (max (nrm ix0) (Cert.Spec.lit 0x358637BD#32)) * Cert.Spec.lit 0x3F000000#32 := by
  unfold finalTerm
  simp only [mulf_apply, Host.divf, Ideal.hostDivf_def]
  rw [bcast0_apply, bcast0_apply]
  rfl

end Cert.KernelIdeal.Host1

end
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.KBody1a.lean ====
/-
  The output pass at one block, entry by entry.

  A block holds 4096 consecutive rows of x. Each row is multiplied into the transposed weight (a sum over the 256
  features), the product is clamped to [-2, 2]; the clamped row is paired with the gate weights and summed, the gate
  bias is added, the logistic function applied, and the result multiplied by the gate value; that per-row factor
  multiplies the clamped row, and the product is clamped again. Read at row r' of block t and column j this is the
  first result at row t * 4096 + r' and column j.

  The layout steps between these operations are read at an index first: a sum along the rows as a sum over the
  column coordinate, a vector of row sums viewed as one column, a single entry or a single column repeated along
  the missing axis.
-/
import proofs.«142104_j18769007084085_2_alg».proof.Proof.Spec
import proofs.«142104_j18769007084085_2_alg».proof.Proof.LibPlainDot
import proofs.«142104_j18769007084085_2_alg».proof.Proof.Gen.KernelIdeal.Skeleton
import Idealize.ShloMosaic.Lib.ValueLayout
import Idealize.ShloMosaic.PureOps.Ideal.Laws

noncomputable section

open scoped BigOperators

namespace Cert.KernelIdeal.Body1

open Idealize.ShloMosaic Idealize.ShloMosaic.ValueIdx Cert.KernelIdeal

variable {α : Type}

/-! ## Layout steps read at an index -/

/-- A vector of length a viewed as one column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column [a, 1] repeated over b columns reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry [1, 1] repeated over an [a, b] array reads that entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The entry of a [1, 1] array taken out at position (0, 0). -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

/-- A sum along the rows of an [a, b] array, from the zero word, reads at r the sum over the columns k of the entry
    (r, k). -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  refine Fin.ext ?_
  match ax with
  | ⟨0, _⟩ => rfl
  | ⟨1, _⟩ => rfl

/-! ## The block's arithmetic, in three steps -/

section Payload

open Cert.KernelIdeal.Gen

variable (x0 : FVec Ideal S4096x256 .f32) (x1 : FVec Ideal S256x256 .bf16) (x2 : FVec Ideal S1x256 .f32)
  (x3 x4 : FVec Ideal S1x1 .f32)

/-- The block times the transposed weight, clamped to [-2, 2]. -/
def clamped : FVec Ideal S4096x256 .f32 :=
  minimumf (broadcast S4096x256 (Scalar.ofBits (F := Ideal) .f32 0x40000000#32))
    (maximumf (broadcast S4096x256 (Scalar.ofBits (F := Ideal) .f32 0xC0000000#32))
      (matmul dot_S4096x256_S256x256_S4096x256_1_0_0_1_n_n none (truncf .bf16 x0 bitsLt_bf16_f32)
        (shapeCast S256x256 x1 shapeCasts_S256x256_S256x256) (constant S4096x256 .f32 0x00000000#32)))

/-- The factor of each row, as one column: the logistic function of (the clamped row paired with the gate weights, summed,
    plus the gate bias), times the gate value. -/
def factor : FVec Ideal S4096x1 .f32 :=
  mulf
    (logistic (addf
      (shapeCast S4096x1
        (multiReduction .add [1] S4096 (mulf (clamped x0 x1) (broadcastTo S4096x256 x2 broadcasts_S1x256_S4096x256))
          0x00000000#32 reduces_S4096x256_S4096 (.inl rfl) rfl)
        shapeCasts_S4096_S4096x1)
      (broadcastTo S4096x1 (shapeCast S1x1 x3 shapeCasts_S1x1_S1x1) broadcasts_S1x1_S4096x1)))
    (broadcast S4096x1 (extractAt ![0, 0] x4 inpos_S1x1_p0_0))

/-- What the block's one store writes: the factor's column repeated over the 256 columns, times the clamped product,
    clamped again. -/
theorem pay1_eq : k1_pay1 x0 x1 x2 x3 x4 =
    minimumf (broadcast S4096x256 (Scalar.ofBits (F := Ideal) .f32 0x40000000#32))
      (maximumf (broadcast S4096x256 (Scalar.ofBits (F := Ideal) .f32 0xC0000000#32))
        (mulf (broadcastTo S4096x256 (factor x0 x1 x2 x3 x4) broadcasts_S4096x1_S4096x256) (clamped x0 x1))) := rfl

/-- The plain [4096, 256] by [256, 256] product's dimension numbers. -/
theorem dot_eq_plain : dot_S4096x256_S256x256_S4096x256_1_0_0_1_n_n = DotDims.plain 4096 256 256 := rfl

/-- The clamped product at row r' and column a: the row against column a of the second operand, summed over the 256
    features and clamped. -/
theorem clamped_apply (r' : Fin 4096) (a : Fin 256) :
    clamped x0 x1 (ix2 r' a) = Cert.Spec.clip (∑ k : Fin 256, x0 (ix2 r' k) * x1 (ix2 k a)) := by
  have hm : matmul dot_S4096x256_S256x256_S4096x256_1_0_0_1_n_n none (truncf .bf16 x0 bitsLt_bf16_f32)
      (shapeCast S256x256 x1 shapeCasts_S256x256_S256x256) (constant S4096x256 .f32 0x00000000#32) (ix2 r' a)
      = ∑ k : Fin 256, x0 (ix2 r' k) * x1 (ix2 k a) := by
    rw [shapeCast_self, dot_eq_plain]
    exact PlainDot.matmul_zero_apply none (truncf .bf16 x0 bitsLt_bf16_f32) x1 r' a
  exact congrArg Cert.Spec.clip hm

/-- The factor of row r'. -/
theorem factor_apply (r' : Fin 4096) (u : Fin 1) :
    factor x0 x1 x2 x3 x4 (ix2 r' u)
      = Ideal.logistic ((∑ k : Fin 256, clamped x0 x1 (ix2 r' k) * x2 (ix2 (0 : Fin 1) k)) + x3 (ix2 (0 : Fin 1) (0 : Fin 1)))
        * x4 (ix2 (0 : Fin 1) (0 : Fin 1)) := by
  have h1 : shapeCast S4096x1
        (multiReduction .add [1] S4096 (mulf (clamped x0 x1) (broadcastTo S4096x256 x2 broadcasts_S1x256_S4096x256))
          0x00000000#32 reduces_S4096x256_S4096 (.inl rfl) rfl)
        shapeCasts_S4096_S4096x1 (ix2 r' u)
      = ∑ k : Fin 256, clamped x0 x1 (ix2 r' k) * x2 (ix2 (0 : Fin 1) k) := by
    refine (shapeCast_a_a1_apply _ _ r' u).trans ?_
    refine (rowSum_apply _ _ _ _ r').trans ?_
    refine Finset.sum_congr rfl fun k _ => ?_
    exact congrArg (fun y => clamped x0 x1 (ix2 r' k) * y) (broadcastTo_1b_ab_apply x2 _ r' k)
  have h2 : broadcastTo S4096x1 (shapeCast S1x1 x3 shapeCasts_S1x1_S1x1) broadcasts_S1x1_S4096x1 (ix2 r' u)
      = x3 (ix2 (0 : Fin 1) (0 : Fin 1)) := by
    rw [shapeCast_self]
    exact broadcastTo_11_ab_apply x3 _ r' u
  have h3 : extractAt ![0, 0] x4 inpos_S1x1_p0_0 = x4 (ix2 (0 : Fin 1) (0 : Fin 1)) := extractAt_11 x4 _
  exact congrArg₂ (fun s g => Ideal.logistic s * g) (congrArg₂ (fun p q => p + q) h1 h2) h3

end Payload

/-! ## The block against the first result -/

/-- Row r' of block t of the output pass, at column j: given that the block of x holds rows t * 4096 + r', that the
    second operand is the transposed weight, and that the three small operands hold the gate weights, the gate bias and
    the gate value, the stored entry is the first result at row t * 4096 + r' and column j. -/
theorem pay1_apply (P : Cert.Spec.Args)
    (x0 : Vec Ideal S4096x256 .f32) (x1 : Vec Ideal S256x256 .bf16) (x2 : Vec Ideal S1x256 .f32)
    (x3 x4 : Vec Ideal S1x1 .f32) (t : Fin 64)
    (hx : ∀ (r' : Fin 4096) (k : Fin 256), x0 (ix2 r' k) = P.x (ix2 (Cert.Spec.rowOf t r') k))
    (hV : ∀ k a : Fin 256, x1 (ix2 k a) = P.V (ix2 a k))
    (hgw : ∀ k : Fin 256, x2 (ix2 (0 : Fin 1) k) = P.gw (ix2 (0 : Fin 1) k))
    (hgb : x3 (ix2 (0 : Fin 1) (0 : Fin 1)) = P.gb (ix1 (0 : Fin 1)))
    (hgv : x4 (ix2 (0 : Fin 1) (0 : Fin 1)) = Cert.Spec.gval P)
    (r' : Fin 4096) (j : Fin 256) :
    Gen.k1_pay1 x0 x1 x2 x3 x4 (ix2 r' j) = Cert.Spec.out P (Cert.Spec.rowOf t r') j := by
  have hc : ∀ a : Fin 256, clamped x0 x1 (ix2 r' a) = Cert.Spec.vproj P (Cert.Spec.rowOf t r') a := fun a => by
    rw [clamped_apply]
    unfold Cert.Spec.vproj
    refine congrArg Cert.Spec.clip (Finset.sum_congr rfl fun k _ => ?_)
    rw [hx, hV]
  have hf : broadcastTo S4096x256 (factor x0 x1 x2 x3 x4) Gen.broadcasts_S4096x1_S4096x256 (ix2 r' j)
      = Ideal.logistic ((∑ k : Fin 256, Cert.Spec.vproj P (Cert.Spec.rowOf t r') k * P.gw (ix2 (0 : Fin 1) k))
          + P.gb (ix1 (0 : Fin 1))) * Cert.Spec.gval P := by
    rw [broadcastTo_a1_ab_apply, factor_apply, hgb, hgv]
    refine congrArg (fun s => Ideal.logistic (s + P.gb (ix1 (0 : Fin 1))) * Cert.Spec.gval P)
      (Finset.sum_congr rfl fun k _ => ?_)
    rw [hc, hgw]
  refine (congrFun (pay1_eq x0 x1 x2 x3 x4) (ix2 r' j)).trans ?_
  exact congrArg Cert.Spec.clip (congrArg₂ (fun p q => p * q) hf (hc j))

end Cert.KernelIdeal.Body1

end
-- ==== Proof.KBody1b.lean ====
/-
  From the blocks to the first result's array.

  The output pass visits 64 points. At point t it reads rows t * 4096 ... t * 4096 + 4095 of x and the whole of the four
  small operands (the transposed weight, the gate weights, the gate bias, the gate value), and writes rows
  t * 4096 ... t * 4096 + 4095 of the result. A block's coordinate in its array is the block's index times the block's
  size plus the coordinate inside the block; the block indices are decided once over the 64 points. Row r of the array
  is written by point r / 4096, so the 64 blocks cover the array, and the array ends holding the first result at every
  index.
-/
import proofs.«142104_j18769007084085_2_alg».proof.Proof.KBody1a
import proofs.«142104_j18769007084085_2_alg».proof.Proof.Gen.KernelIdeal.Frame
import Idealize.ShloMosaic.Lib.Pipeline.Value
import Idealize.ShloMosaic.Lib.Tactic

noncomputable section

open scoped BigOperators

namespace Cert.KernelIdeal.Body1

open Idealize.ShloMosaic Idealize.ShloMosaic.TcCoe Idealize.ShloMosaic.ValueIdx Idealize.SL.Sem
open Idealize.ShloMosaic.Pipeline (Dat)
open Cert.KernelIdeal Cert.KernelIdeal.Gen

/-! ## One point, over plain vectors and indices -/

/-- The stored entry at index j of a block whose operands are as in `pay1_apply` is the first result's array at any
    index i that sits at row t * 4096 + j 0 and column j 1. -/
theorem point_eq (P : Cert.Spec.Args)
    (x0 : Vec Ideal S4096x256 .f32) (x1 : Vec Ideal S256x256 .bf16) (x2 : Vec Ideal S1x256 .f32)
    (x3 x4 : Vec Ideal S1x1 .f32) (t : Fin 64)
    (hx : ∀ (r' : Fin 4096) (k : Fin 256), x0 (ix2 r' k) = P.x (ix2 (Cert.Spec.rowOf t r') k))
    (hV : ∀ k a : Fin 256, x1 (ix2 k a) = P.V (ix2 a k))
    (hgw : ∀ k : Fin 256, x2 (ix2 (0 : Fin 1) k) = P.gw (ix2 (0 : Fin 1) k))
    (hgb : x3 (ix2 (0 : Fin 1) (0 : Fin 1)) = P.gb (ix1 (0 : Fin 1)))
    (hgv : x4 (ix2 (0 : Fin 1) (0 : Fin 1)) = Cert.Spec.gval P)
    (j : S4096x256.Idx) (i : S262144x256.Idx)
    (hi0 : (i 0).val = t.val * 4096 + (j 0).val) (hi1 : (i 1).val = (j 1).val) :
    k1_pay1 x0 x1 x2 x3 x4 j = Cert.Spec.outArr P i := by
  obtain ⟨r', q, rfl⟩ : ∃ (r' : Fin 4096) (q : Fin 256), j = ix2 r' q := ⟨j 0, j 1, eq_ix2 j⟩
  rw [pay1_apply P x0 x1 x2 x3 x4 t hx hV hgw hgb hgv r' q]
  unfold Cert.Spec.outArr
  have e0 : Cert.Spec.rowOf t r' = i 0 := Fin.ext hi0.symm
  have e1 : q = i 1 := Fin.ext hi1.symm
  rw [e0, e1]

/-! ## The block indices, decided over the 64 points -/

theorem hz : (![0, 0] : Fin 2 → Nat) = fun _ => 0 := funext fun a => by fin_cases a <;> rfl

/-- The block of x and the block of the result are at block row t; every other block index is zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block read off its array -/

section Blocks

variable (V : (c : Dev nD) → (b : Ref sig .tc) → Buf (Elt Ideal) ((c : Thread nD τ).loc b)) (c : Dev nD)

/-- Point t as a block number below 64. -/
def pt (t : Fin cfg1.N) : Fin 64 := ⟨t.val, Nat.lt_of_lt_of_eq t.isLt (N_1 : cfg1.N = 64)⟩

/-- The block of x at point t, at (r', k): x at row t * 4096 + r' and column k. -/
theorem blk0_apply (t : Fin cfg1.N) (r' : Fin 4096) (k : Fin 256) :
    (iblk1 V c 0 t : Vec Ideal S4096x256 .f32) (ix2 r' k)
      = (V c main_arg0 : S262144x256.Idx → EReal) (ix2 (Cert.Spec.rowOf (pt t) r') k) := by
  obtain ⟨e0, e1, -⟩ := idx_facts1 t
  unfold iblk1
  rw [View.read_apply]
  show V c main_arg0 _ = V c main_arg0 _
  refine congrArg (V c main_arg0) (funext fun a => Fin.ext ?_)
  match a with
  | ⟨0, _⟩ => show win1_0.index t (0 : Fin 2) * 4096 + 1 * r'.val = t.val * 4096 + r'.val; rw [e0]; omega
  | ⟨1, _⟩ => show win1_0.index t (1 : Fin 2) * 256 + 1 * k.val = k.val; rw [e1]; omega

/-- The block of the transposed weight is its whole array. -/
theorem blk1_apply (t : Fin cfg1.N) (k a : Fin 256) :
    (iblk1 V c 1 t : Vec Ideal S256x256 .bf16) (ix2 k a) = (V c main_v2 : S256x256.Idx → EReal) (ix2 k a) := by
  obtain ⟨-, -, e0, e1, -⟩ := idx_facts1 t
  unfold iblk1
  rw [View.read_apply]
  show V c main_v2 _ = V c main_v2 _
  refine congrArg (V c main_v2) (funext fun b => Fin.ext ?_)
  match b with
  | ⟨0, _⟩ => show win1_1.index t (0 : Fin 2) * 256 + 1 * k.val = k.val; rw [e0]; omega
  | ⟨1, _⟩ => show win1_1.index t (1 : Fin 2) * 256 + 1 * a.val = a.val; rw [e1]; omega

/-- The block of the gate weights is their whole array. -/
theorem blk2_apply (t : Fin cfg1.N) (u : Fin 1) (k : Fin 256) :
    (iblk1 V c 2 t : Vec Ideal S1x256 .f32) (ix2 u k) = (V c main_arg3 : S1x256.Idx → EReal) (ix2 u k) := by
  obtain ⟨-, -, -, -, e0, e1, -⟩ := idx_facts1 t
  unfold iblk1
  rw [View.read_apply]
  show V c main_arg3 _ = V c main_arg3 _
  refine congrArg (V c main_arg3) (funext fun b => Fin.ext ?_)
  match b with
  | ⟨0, _⟩ => show win1_2.index t (0 : Fin 2) * 1 + 1 * u.val = u.val; rw [e0]; omega
  | ⟨1, _⟩ => show win1_2.index t (1 : Fin 2) * 256 + 1 * k.val = k.val; rw [e1]; omega

/-- The block of the gate bias is its one entry. -/
theorem blk3_apply (t : Fin cfg1.N) (u v : Fin 1) :
    (iblk1 V c 3 t : Vec Ideal S1x1 .f32) (ix2 u v) = (V c main_v13 : S1x1.Idx → EReal) (ix2 u v) := by
  obtain ⟨-, -, -, -, -, -, e0, e1, -⟩ := idx_facts1 t
  unfold iblk1
  rw [View.read_apply]
  show V c main_v13 _ = V c main_v13 _
  refine congrArg (V c main_v13) (funext fun b => Fin.ext ?_)
  match b with
  | ⟨0, _⟩ => show win1_3.index t (0 : Fin 2) * 1 + 1 * u.val = u.val; rw [e0]; omega
  | ⟨1, _⟩ => show win1_3.index t (1 : Fin 2) * 1 + 1 * v.val = v.val; rw [e1]; omega

/-- The block of the gate value is its one entry. -/
theorem blk4_apply (t : Fin cfg1.N) (u v : Fin 1) :
    (iblk1 V c 4 t : Vec Ideal S1x1 .f32) (ix2 u v) = (V c main_v54 : S1x1.Idx → EReal) (ix2 u v) := by
  obtain ⟨-, -, -, -, -, -, -, -, e0, e1, -⟩ := idx_facts1 t
  unfold iblk1
  rw [View.read_apply]
  show V c main_v54 _ = V c main_v54 _
  refine congrArg (V c main_v54) (funext fun b => Fin.ext ?_)
  match b with
  | ⟨0, _⟩ => show win1_4.index t (0 : Fin 2) * 1 + 1 * u.val = u.val; rw [e0]; omega
  | ⟨1, _⟩ => show win1_4.index t (1 : Fin 2) * 1 + 1 * v.val = v.val; rw [e1]; omega

/-! ## What a point writes back, the cover, the array -/

variable (P : Cert.Spec.Args)

/-- What point t writes back is block t of the first result's array. -/
theorem flushed5_eq
    (hA0 : (V c main_arg0 : S262144x256.Idx → EReal) = P.x)
    (hA1 : ∀ k a : Fin 256, (V c main_v2 : S256x256.Idx → EReal) (ix2 k a) = P.V (ix2 a k))
    (hA2 : (V c main_arg3 : S1x256.Idx → EReal) = P.gw)
    (hA3 : (V c main_v13 : S1x1.Idx → EReal) (ix2 (0 : Fin 1) (0 : Fin 1)) = P.gb (ix1 (0 : Fin 1)))
    (hA4 : (V c main_v54 : S1x1.Idx → EReal) (ix2 (0 : Fin 1) (0 : Fin 1)) = Cert.Spec.gval P)
    (t : Fin cfg1.N) :
    (dat1 V c).flushed 5 t = ((cfg1.win 5).blk t).view.read (Elt Ideal) (Cert.Spec.outArr P) := by
  show (cfg1.win 5).cut (grid1.coords t) ((dat1 V c).after 5 t) = _
  rw [after1_5]
  unfold out1_5
  rw [View.canon_unit_zero hz]
  simp only [View.ld_unit_zero (S := S4096x256) hz, View.ld_unit_zero (S := S256x256) hz,
    View.ld_unit_zero (S := S1x256) hz, View.ld_unit_zero (S := S1x1) hz]
  obtain ⟨-, -, -, -, -, -, -, -, -, -, e0, e1⟩ := idx_facts1 t
  funext j
  show k1_pay1 (iblk1 V c 0 t) (iblk1 V c 1 t) (iblk1 V c 2 t) (iblk1 V c 3 t) (iblk1 V c 4 t) j
    = Cert.Spec.outArr P (((cfg1.win 5).blk t).view.emb j)
  refine point_eq P (iblk1 V c 0 t) (iblk1 V c 1 t) (iblk1 V c 2 t) (iblk1 V c 3 t) (iblk1 V c 4 t) (pt t)
    (fun r' k => (blk0_apply V c t r' k).trans (congrFun hA0 _))
    (fun k a => (blk1_apply V c t k a).trans (hA1 k a))
    (fun k => (blk2_apply V c t 0 k).trans (congrFun hA2 _))
    ((blk3_apply V c t 0 0).trans hA3)
    ((blk4_apply V c t 0 0).trans hA4)
    j _ ?_ ?_
  · show win1_5.index t (0 : Fin 2) * 4096 + 1 * (j 0).val = t.val * 4096 + (j 0).val
    rw [e0]; omega
  · show win1_5.index t (1 : Fin 2) * 256 + 1 * (j 1).val = (j 1).val
    rw [e1]; omega

/-- An index of the array is in point t's block iff each coordinate is in the block's range on its axis. -/
theorem mem_blk5 (t : Fin cfg1.N) (i : S262144x256.Idx) :
    i ∈ ((cfg1.win 5).blk t).view.set ↔ ∀ a : Fin 2, win1_5.index t a * S4096x256.size a ≤ (i a).val
      ∧ (i a).val < win1_5.index t a * S4096x256.size a + S4096x256.size a := by
  show i ∈ ((View.whole main_v55).slice (win1_5.rect t)).set ↔ _
  rw [View.set_slice_whole, Rect.mem_set_unit]
  exact Iff.rfl

/-- Row r of the array is in the block of point r / 4096. -/
theorem cover5 (i : S262144x256.Idx) :
    ∃ t : Fin cfg1.N, (cfg1.win 5).flush t = true ∧ i ∈ ((cfg1.win 5).blk t).view.set := by
  have hi0 : (i 0).val < 262144 := (i 0).isLt
  have hi1 : (i 1).val < 256 := (i 1).isLt
  have ht : (i 0).val / 4096 < cfg1.N := by rw [show cfg1.N = 64 from N_1]; omega
  obtain ⟨-, -, -, -, -, -, -, -, -, -, e0, e1⟩ := idx_facts1 ⟨(i 0).val / 4096, ht⟩
  refine ⟨⟨(i 0).val / 4096, ht⟩, flush1_5 _, ?_⟩
  rw [mem_blk5]
  intro a
  match a with
  | ⟨0, _⟩ =>
    show win1_5.index ⟨(i 0).val / 4096, ht⟩ (0 : Fin 2) * 4096 ≤ (i 0).val
      ∧ (i 0).val < win1_5.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win1_5.index ⟨(i 0).val / 4096, ht⟩ (1 : Fin 2) * 256 ≤ (i 1).val
      ∧ (i 1).val < win1_5.index ⟨(i 0).val / 4096, ht⟩ (1 : Fin 2) * 256 + 256
    rw [e1]
    omega

/-- After the output pass the result's array holds the first result at every index. -/
theorem arrAt5
    (hA0 : (V c main_arg0 : S262144x256.Idx → EReal) = P.x)
    (hA1 : ∀ k a : Fin 256, (V c main_v2 : S256x256.Idx → EReal) (ix2 k a) = P.V (ix2 a k))
    (hA2 : (V c main_arg3 : S1x256.Idx → EReal) = P.gw)
    (hA3 : (V c main_v13 : S1x1.Idx → EReal) (ix2 (0 : Fin 1) (0 : Fin 1)) = P.gb (ix1 (0 : Fin 1)))
    (hA4 : (V c main_v54 : S1x1.Idx → EReal) (ix2 (0 : Fin 1) (0 : Fin 1)) = Cert.Spec.gval P) :
    (dat1 V c).arrAt 5 cfg1.N = Cert.Spec.outArr P :=
  (dat1 V c).arrAt_eq_of_cover 5 (Cert.Spec.outArr P) (fun t _ => flushed5_eq V c P hA0 hA1 hA2 hA3 hA4 t) cover5

end Blocks

end Cert.KernelIdeal.Body1

end
-- ==== Proof.KBridge.lean ====
/-
  The idealized kernel program's two results as the specification's arrays. The second result is the host arithmetic
  after the statistics pass applied to its three accumulated arrays; the first is the output pass's array, whose blocks
  are the specification's rows once the gate value it reads is the specification's.
-/
import proofs.«142104_j18769007084085_2_alg».proof.Proof.Gen.KernelIdeal.Frame
import proofs.«142104_j18769007084085_2_alg».proof.Proof.KArgs
import proofs.«142104_j18769007084085_2_alg».proof.Proof.KHost0
import proofs.«142104_j18769007084085_2_alg».proof.Proof.KHost1
import proofs.«142104_j18769007084085_2_alg».proof.Proof.KBody1b

set_option maxRecDepth 16384

noncomputable section

open scoped BigOperators

namespace Cert.KernelIdeal.Bridge

open Idealize.ShloMosaic Idealize.ShloMosaic.ValueIdx Idealize.SL.Sem
open Cert.KernelIdeal Cert.KernelIdeal.Gen Cert.KernelIdeal.Host0 Cert.KernelIdeal.Host1

variable (m : (ℓ : Loc nD τ sig) → Buf (Elt Ideal) ℓ) (ρ : Dev nD → PrngReg) (c : Dev nD)

/-! ## Buffers the statistics pass and the host arithmetic after it leave alone -/

theorem w3_arg13 : (W3 m ρ c (Proc.devRef .tc main_arg13) : S256x256.Idx → EReal) = (argsK m c).sm :=
  (W3_of_ne m ρ c main_arg13 (by decide)).trans (w2_arg13 m ρ c)

theorem w3_arg3 : (W3 m ρ c (Proc.devRef .tc main_arg3) : S1x256.Idx → EReal) = (argsK m c).gw :=
  (W3_of_ne m ρ c main_arg3 (by decide)).trans (w2_arg3 m ρ c)

theorem w3_v13 : (W3 m ρ c (Proc.devRef .tc main_v13) : S1x1.Idx → EReal) = fun i => (argsK m c).gb (ix1 (i 1)) :=
  (W3_of_ne m ρ c main_v13 (by decide)).trans (w2_v13 m ρ c)

theorem w3_arg0 : (W3 m ρ c (Proc.devRef .tc main_arg0) : S262144x256.Idx → EReal) = (argsK m c).x :=
  ((W3_arr m ρ c 0).trans (((dat0 (V2 m ρ) c).arrAt_in 0 rfl _).trans (A_eq0 (V2 m ρ) c 0))).trans (w2_arg0 m ρ c)

theorem w3_v2 : (W3 m ρ c (Proc.devRef .tc main_v2) : S256x256.Idx → EReal) = fun i => (argsK m c).V (ix2 (i 1) (i 0)) :=
  ((W3_arr m ρ c 1).trans (((dat0 (V2 m ρ) c).arrAt_in 1 rfl _).trans (A_eq0 (V2 m ρ) c 1))).trans (w2_v2 m ρ c)

set_option maxHeartbeats 4000000 in
theorem w6_of_w3 (b : Ref sig .tc) (hb : b = main_arg0 ∨ b = main_v2 ∨ b = main_arg3 ∨ b = main_v13) :
    W6 m ρ c (Proc.devRef .tc b) = W3 m ρ c (Proc.devRef .tc b) := by
  rcases hb with rfl | rfl | rfl | rfl <;>
  · dsimp only [W6, W5, W4, hostOps1, hostOps1_1, hostOps1_2]
    after_results_simp

/-! ## The two results -/

variable
  (h0 : ∀ (k : Fin 2) (a b : Fin 256), (W3 m ρ c (Proc.devRef .tc main_v24_0) : S2x256x256.Idx → EReal) (ix3 k a b)
      = ∑ n : Fin 32, ∑ r' : Fin 4096, Cert.Spec.vproj (argsK m c) (Cert.Spec.rowOf (Cert.Spec.blockOf k n) r') a
          * (argsK m c).x (ix2 (Cert.Spec.rowOf (Cert.Spec.blockOf k n) r') b))
  (h1 : ∀ (k : Fin 2) (a : Fin 256), (W3 m ρ c (Proc.devRef .tc main_v24_1) : S2x1x256.Idx → EReal) (ix3 k (0 : Fin 1) a)
      = ∑ n : Fin 32, ∑ r' : Fin 4096, Cert.Spec.vproj (argsK m c) (Cert.Spec.rowOf (Cert.Spec.blockOf k n) r') a
          * Cert.Spec.vproj (argsK m c) (Cert.Spec.rowOf (Cert.Spec.blockOf k n) r') a)
  (h2 : ∀ (k : Fin 2) (p : Fin 4), (W3 m ρ c (Proc.devRef .tc main_v24_2) : S2x1x4.Idx → EReal) (ix3 k (0 : Fin 1) p)
      = ∑ n : Fin 32, ∑ r' : Fin 4096, Cert.Spec.ctl (argsK m c) (Cert.Spec.rowOf (Cert.Spec.blockOf k n) r') p)

include h2 in
/-- The gate value the output pass reads. -/
theorem w6_v54 : (W6 m ρ c (Proc.devRef .tc main_v54) : S1x1.Idx → EReal) (ix2 (0 : Fin 1) (0 : Fin 1)) = Cert.Spec.gval (argsK m c) := by
  have e3 := stage3_v54 (W5 m ρ c)
  have e2 := stage2_v33 (W4 m ρ c)
  have e1 := stage1_v33 (W3 m ρ c)
  refine (congrFun e3 _).trans ?_
  refine (cast0_11 _ _ _ _).trans ?_
  refine (congrFun e2 ix0).trans ?_
  refine (congrFun e1 ix0).trans ?_
  exact gateTerm_apply (argsK m c) _ h2

include h2 in
/-- The first result. -/
theorem kOut : (W7 m ρ c (Proc.devRef .tc main_v55) : S262144x256.Idx → EReal) = Cert.Spec.outArr (argsK m c) := by
  refine (W7_arr m ρ c 5).trans ?_
  refine Cert.KernelIdeal.Body1.arrAt5 (V6 m ρ) c (argsK m c) ?_ ?_ ?_ ?_ ?_
  · exact (w6_of_w3 m ρ c main_arg0 (Or.inl rfl)).trans (w3_arg0 m ρ c)
  · intro k a
    exact (congrFun ((w6_of_w3 m ρ c main_v2 (Or.inr (Or.inl rfl))).trans (w3_v2 m ρ c)) (ix2 k a))
  · exact (w6_of_w3 m ρ c main_arg3 (Or.inr (Or.inr (Or.inl rfl)))).trans (w3_arg3 m ρ c)
  · exact (congrFun ((w6_of_w3 m ρ c main_v13 (Or.inr (Or.inr (Or.inr rfl)))).trans (w3_v13 m ρ c)) (ix2 (0 : Fin 1) (0 : Fin 1)))
  · exact w6_v54 m ρ c h2

include h0 h1 h2 in
/-- The second result. -/
theorem kMem : (W7 m ρ c (Proc.devRef .tc main_v53) : S256x256.Idx → EReal) = Cert.Spec.memArr (argsK m c) := by
  have hM : (W4 m ρ c (Proc.devRef .tc main_v47) : S256x256.Idx → EReal) = fun i => Cert.Spec.memv (argsK m c) (i 0) (i 1) := by
    refine (stage1_v47 (W3 m ρ c)).trans ?_
    funext i
    obtain ⟨a, b, rfl⟩ : ∃ (a b : Fin 256), i = ix2 a b := ⟨i 0, i 1, eq_ix2 i⟩
    exact memTerm_apply (argsK m c) _ _ _ _ h0 h1 h2 (w3_arg13 m ρ c) a b
  refine (W7_of_ne m ρ c main_v53 (by decide)).trans ?_
  refine (stage3_v53 (W5 m ρ c)).trans ?_
  have e47 : (W5 m ρ c (Proc.devRef .tc main_v47) : S256x256.Idx → EReal) = fun i => Cert.Spec.memv (argsK m c) (i 0) (i 1) :=
    (stage2_v47 (W4 m ρ c)).trans hM
  have e48 : (W5 m ρ c (Proc.devRef .tc main_v48) : S_.Idx → EReal) = normTerm (fun i => Cert.Spec.memv (argsK m c) (i 0) (i 1)) :=
    (stage2_v48 (W4 m ρ c)).trans (congrArg normTerm hM)
  rw [e47, e48]
  funext i
  obtain ⟨a, b, rfl⟩ : ∃ (a b : Fin 256), i = ix2 a b := ⟨i 0, i 1, eq_ix2 i⟩
  rw [finalTerm_apply, normTerm_apply]
  rfl

end Cert.KernelIdeal.Bridge

end
-- ==== Proof.KBody0a.lean ====
/-
  The statistics pass at a half's first block: what one run of the body leaves in its three accumulators.

  At the first block of a half the body first stores a zero block into each accumulator and then, like at every other
  block, reads the accumulator back and stores the accumulator plus this block's contribution. So what it leaves is
  the block's contribution added to the zero block just stored: for the outer products of clamped projection and
  input, for the squared clamped projections, and for the four controls.
-/
import proofs.«142104_j18769007084085_2_alg».proof.Proof.Gen.KernelIdeal.Frame
import Idealize.ShloMosaic.Lib.Pipeline.Value
import Idealize.ShloMosaic.Lib.Tactic

set_option maxRecDepth 16384

noncomputable section

namespace Cert.KernelIdeal.Body0

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The outer-product accumulator after a half's first block: the zero block plus this block's products. -/
theorem out_A_12_eq (c : Dev nD) (i : grid0.Coords) (arg2 : Memref sig .tc .vmem S4096x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S16x8 .f32) (harg10 : arg10.IsWhole) (arg11 : Memref sig .tc .vmem S1x8 .f32) (harg11 : arg11.IsWhole) (arg12 : Memref sig .tc .vmem S8x4 .f32) (harg12 : arg12.IsWhole) (arg13 : Memref sig .tc .vmem S1x4 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x1x4 .f32) (harg16 : arg16.IsWhole) (hc0 : cond0_0 i)
    (x0 : Vec F S4096x256 .f32) (x1 : Vec F S256x256 .bf16) (x2 : Vec F S256x256 .bf16) (x3 : Vec F S1x16 .f32) (x4 : Vec F S1x16 .f32) (x5 : Vec F S1x16 .f32) (x6 : Vec F S1x16 .f32) (x7 : Vec F S1x16 .f32) (x8 : Vec F S16x8 .f32) (x9 : Vec F S1x8 .f32) (x10 : Vec F S8x4 .f32) (x11 : Vec F S1x4 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay12 (k0_pay5 x0) (k0_pay6 x0 x1) (k0_pay2 (F := F)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S4096x256) hz2, View.ld_unit_zero (S := S256x256) hz2, View.ld_unit_zero (S := S1x16) hz2, View.ld_unit_zero (S := S16x8) hz2, View.ld_unit_zero (S := S1x8) hz2, View.ld_unit_zero (S := S8x4) hz2, View.ld_unit_zero (S := S1x4) hz2, View.ld_unit_zero (S := S1x256x256) hz3, View.ld_unit_zero (S := S1x1x256) hz3, View.ld_unit_zero (S := S1x1x4) hz3]

/-- The squares accumulator after a half's first block: the zero block plus this block's column sums of squares. -/
theorem out_A_13_eq (c : Dev nD) (i : grid0.Coords) (arg2 : Memref sig .tc .vmem S4096x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S16x8 .f32) (harg10 : arg10.IsWhole) (arg11 : Memref sig .tc .vmem S1x8 .f32) (harg11 : arg11.IsWhole) (arg12 : Memref sig .tc .vmem S8x4 .f32) (harg12 : arg12.IsWhole) (arg13 : Memref sig .tc .vmem S1x4 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x1x4 .f32) (harg16 : arg16.IsWhole) (hc0 : cond0_0 i)
    (x0 : Vec F S4096x256 .f32) (x1 : Vec F S256x256 .bf16) (x2 : Vec F S256x256 .bf16) (x3 : Vec F S1x16 .f32) (x4 : Vec F S1x16 .f32) (x5 : Vec F S1x16 .f32) (x6 : Vec F S1x16 .f32) (x7 : Vec F S1x16 .f32) (x8 : Vec F S16x8 .f32) (x9 : Vec F S1x8 .f32) (x10 : Vec F S8x4 .f32) (x11 : Vec F S1x4 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay1 (k0_pay13 (k0_pay3 (F := F))) (k0_pay14 (k0_pay6 x0 x1)) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S4096x256) hz2, View.ld_unit_zero (S := S256x256) hz2, View.ld_unit_zero (S := S1x16) hz2, View.ld_unit_zero (S := S16x8) hz2, View.ld_unit_zero (S := S1x8) hz2, View.ld_unit_zero (S := S8x4) hz2, View.ld_unit_zero (S := S1x4) hz2, View.ld_unit_zero (S := S1x256x256) hz3, View.ld_unit_zero (S := S1x1x256) hz3, View.ld_unit_zero (S := S1x1x4) hz3]

/-- The controls accumulator after a half's first block: the zero block plus this block's column sums of the controls. -/
theorem out_A_14_eq (c : Dev nD) (i : grid0.Coords) (arg2 : Memref sig .tc .vmem S4096x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S16x8 .f32) (harg10 : arg10.IsWhole) (arg11 : Memref sig .tc .vmem S1x8 .f32) (harg11 : arg11.IsWhole) (arg12 : Memref sig .tc .vmem S8x4 .f32) (harg12 : arg12.IsWhole) (arg13 : Memref sig .tc .vmem S1x4 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x1x4 .f32) (harg16 : arg16.IsWhole) (hc0 : cond0_0 i)
    (x0 : Vec F S4096x256 .f32) (x1 : Vec F S256x256 .bf16) (x2 : Vec F S256x256 .bf16) (x3 : Vec F S1x16 .f32) (x4 : Vec F S1x16 .f32) (x5 : Vec F S1x16 .f32) (x6 : Vec F S1x16 .f32) (x7 : Vec F S1x16 .f32) (x8 : Vec F S16x8 .f32) (x9 : Vec F S1x8 .f32) (x10 : Vec F S8x4 .f32) (x11 : Vec F S1x4 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay11 (k0_pay10 (k0_pay7 x0) (k0_pay8 x0 x2) (k0_pay9 x3) x4 x5 x6 x7 x8) x9 x10 x11 (k0_pay4 (F := F)) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_zero (S := S1x1x4) hz3, View.readCov_unit_zero (S := S1x1x4) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S4096x256) hz2, View.ld_unit_zero (S := S256x256) hz2, View.ld_unit_zero (S := S1x16) hz2, View.ld_unit_zero (S := S16x8) hz2, View.ld_unit_zero (S := S1x8) hz2, View.ld_unit_zero (S := S8x4) hz2, View.ld_unit_zero (S := S1x4) hz2, View.ld_unit_zero (S := S1x256x256) hz3, View.ld_unit_zero (S := S1x1x256) hz3, View.ld_unit_zero (S := S1x1x4) hz3]

end Cert.KernelIdeal.Body0

end
-- ==== Proof.KBody0b.lean ====
/-
  The statistics pass at a later block of a half: what one run of the body leaves in its three accumulators.

  At every block but a half's first the body reads each accumulator as the block before left it and stores it back
  with this block's contribution added: the outer products of clamped projection and input, the column sums of the
  squared clamped projections, and the column sums of the four controls.
-/
import proofs.«142104_j18769007084085_2_alg».proof.Proof.Gen.KernelIdeal.Frame
import Idealize.ShloMosaic.Lib.Pipeline.Value
import Idealize.ShloMosaic.Lib.Tactic
import proofs.«142104_j18769007084085_2_alg».proof.Proof.KBody0a
set_option maxRecDepth 16384

noncomputable section

namespace Cert.KernelIdeal.Body0

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

/-- The outer-product accumulator after a later block: what the block before left plus this block's products. -/
theorem out_B_12_eq (c : Dev nD) (i : grid0.Coords) (arg2 : Memref sig .tc .vmem S4096x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S16x8 .f32) (harg10 : arg10.IsWhole) (arg11 : Memref sig .tc .vmem S1x8 .f32) (harg11 : arg11.IsWhole) (arg12 : Memref sig .tc .vmem S8x4 .f32) (harg12 : arg12.IsWhole) (arg13 : Memref sig .tc .vmem S1x4 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x1x4 .f32) (harg16 : arg16.IsWhole) (hc0 : ¬cond0_0 i)
    (x0 : Vec F S4096x256 .f32) (x1 : Vec F S256x256 .bf16) (x2 : Vec F S256x256 .bf16) (x3 : Vec F S1x16 .f32) (x4 : Vec F S1x16 .f32) (x5 : Vec F S1x16 .f32) (x6 : Vec F S1x16 .f32) (x7 : Vec F S1x16 .f32) (x8 : Vec F S16x8 .f32) (x9 : Vec F S1x8 .f32) (x10 : Vec F S8x4 .f32) (x11 : Vec F S1x4 .f32) (xo12 : Vec F S1x256x256 .f32) (xo13 : Vec F S1x1x256 .f32) (xo14 : Vec F S1x1x4 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14 = k0_pay12 (k0_pay5 x0) (k0_pay6 x0 x1) xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14)]
  unfold kernelRun0_B
  dsimp only
  sl_unfold_words
  rw [View.canon_unit_zero (S := S1x256x256) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S4096x256) hz2, View.ld_unit_zero (S := S256x256) hz2, View.ld_unit_zero (S := S1x16) hz2, View.ld_unit_zero (S := S16x8) hz2, View.ld_unit_zero (S := S1x8) hz2, View.ld_unit_zero (S := S8x4) hz2, View.ld_unit_zero (S := S1x4) hz2, View.ld_unit_zero (S := S1x256x256) hz3, View.ld_unit_zero (S := S1x1x256) hz3, View.ld_unit_zero (S := S1x1x4) hz3]

/-- The squares accumulator after a later block: what the block before left plus this block's column sums of squares. -/
theorem out_B_13_eq (c : Dev nD) (i : grid0.Coords) (arg2 : Memref sig .tc .vmem S4096x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S16x8 .f32) (harg10 : arg10.IsWhole) (arg11 : Memref sig .tc .vmem S1x8 .f32) (harg11 : arg11.IsWhole) (arg12 : Memref sig .tc .vmem S8x4 .f32) (harg12 : arg12.IsWhole) (arg13 : Memref sig .tc .vmem S1x4 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x1x4 .f32) (harg16 : arg16.IsWhole) (hc0 : ¬cond0_0 i)
    (x0 : Vec F S4096x256 .f32) (x1 : Vec F S256x256 .bf16) (x2 : Vec F S256x256 .bf16) (x3 : Vec F S1x16 .f32) (x4 : Vec F S1x16 .f32) (x5 : Vec F S1x16 .f32) (x6 : Vec F S1x16 .f32) (x7 : Vec F S1x16 .f32) (x8 : Vec F S16x8 .f32) (x9 : Vec F S1x8 .f32) (x10 : Vec F S8x4 .f32) (x11 : Vec F S1x4 .f32) (xo12 : Vec F S1x256x256 .f32) (xo13 : Vec F S1x1x256 .f32) (xo14 : Vec F S1x1x4 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14 = k0_pay1 (k0_pay13 xo13) (k0_pay14 (k0_pay6 x0 x1)) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14)]
  unfold kernelRun0_B
  dsimp only
  sl_unfold_words
  rw [View.canon_unit_zero (S := S1x1x256) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S4096x256) hz2, View.ld_unit_zero (S := S256x256) hz2, View.ld_unit_zero (S := S1x16) hz2, View.ld_unit_zero (S := S16x8) hz2, View.ld_unit_zero (S := S1x8) hz2, View.ld_unit_zero (S := S8x4) hz2, View.ld_unit_zero (S := S1x4) hz2, View.ld_unit_zero (S := S1x256x256) hz3, View.ld_unit_zero (S := S1x1x256) hz3, View.ld_unit_zero (S := S1x1x4) hz3]

/-- The controls accumulator after a later block: what the block before left plus this block's column sums of the controls. -/
theorem out_B_14_eq (c : Dev nD) (i : grid0.Coords) (arg2 : Memref sig .tc .vmem S4096x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S16x8 .f32) (harg10 : arg10.IsWhole) (arg11 : Memref sig .tc .vmem S1x8 .f32) (harg11 : arg11.IsWhole) (arg12 : Memref sig .tc .vmem S8x4 .f32) (harg12 : arg12.IsWhole) (arg13 : Memref sig .tc .vmem S1x4 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x1x4 .f32) (harg16 : arg16.IsWhole) (hc0 : ¬cond0_0 i)
    (x0 : Vec F S4096x256 .f32) (x1 : Vec F S256x256 .bf16) (x2 : Vec F S256x256 .bf16) (x3 : Vec F S1x16 .f32) (x4 : Vec F S1x16 .f32) (x5 : Vec F S1x16 .f32) (x6 : Vec F S1x16 .f32) (x7 : Vec F S1x16 .f32) (x8 : Vec F S16x8 .f32) (x9 : Vec F S1x8 .f32) (x10 : Vec F S8x4 .f32) (x11 : Vec F S1x4 .f32) (xo12 : Vec F S1x256x256 .f32) (xo13 : Vec F S1x1x256 .f32) (xo14 : Vec F S1x1x4 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14 = k0_pay11 (k0_pay10 (k0_pay7 x0) (k0_pay8 x0 x2) (k0_pay9 x3) x4 x5 x6 x7 x8) x9 x10 x11 xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14)]
  unfold kernelRun0_B
  dsimp only
  sl_unfold_words
  rw [View.canon_unit_zero (S := S1x1x4) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S4096x256) hz2, View.ld_unit_zero (S := S256x256) hz2, View.ld_unit_zero (S := S1x16) hz2, View.ld_unit_zero (S := S16x8) hz2, View.ld_unit_zero (S := S1x8) hz2, View.ld_unit_zero (S := S8x4) hz2, View.ld_unit_zero (S := S1x4) hz2, View.ld_unit_zero (S := S1x256x256) hz3, View.ld_unit_zero (S := S1x1x256) hz3, View.ld_unit_zero (S := S1x1x4) hz3]

end Cert.KernelIdeal.Body0

end
-- ==== Proof.KBody0c.lean ====
/-
  The statistics pass over one half: each accumulator after a block is a running total.

  A half is 32 consecutive blocks. At its first block each accumulator is that block's contribution over the zero
  block; at every later block it is that block's contribution over what the block before left. So after any block the
  accumulator holds the running total of its half up to that block, for each of the three accumulators separately
  (each one's step reads only its own previous contents).
-/
import proofs.«142104_j18769007084085_2_alg».proof.Proof.Gen.KernelIdeal.Frame
import Idealize.ShloMosaic.Lib.Pipeline.Value
import Idealize.ShloMosaic.Lib.Tactic
import proofs.«142104_j18769007084085_2_alg».proof.Proof.KBody0b
set_option maxRecDepth 16384

noncomputable section

namespace Cert.KernelIdeal.Body0

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

/-- The outer-product accumulator after a half's first block `n`: that block's contribution over the zero block. -/
def reset12 (c : Dev nD) (n : ℕ) (h : n < cfg0.N) : Vec F S1x256x256 .f32 :=
  k0_pay12 (k0_pay5 (iblk0 V c 0 ⟨n, h⟩)) (k0_pay6 (iblk0 V c 0 ⟨n, h⟩) (iblk0 V c 1 ⟨n, h⟩)) (k0_pay2 (F := F))

/-- The outer-product accumulator after a later block `n`: that block's contribution over what the block before left. -/
def step12 (c : Dev nD) (n : ℕ) (h : n < cfg0.N) (acc : Vec F S1x256x256 .f32) : Vec F S1x256x256 .f32 :=
  k0_pay12 (k0_pay5 (iblk0 V c 0 ⟨n, h⟩)) (k0_pay6 (iblk0 V c 0 ⟨n, h⟩) (iblk0 V c 1 ⟨n, h⟩)) acc

/-- What the outer-product accumulator holds after block `t`: the running total of its half, started at the half's first
    block `32 * (t / 32)` and stepped through the blocks up to `t`. -/
theorem outsAt_12_eq (c : Dev nD) (t : Fin cfg0.N) :
    (outsAt0 V c t.val t.isLt).1 = Pipeline.accAt (reset12 V c) (step12 V c) (32 * (t.val / 32)) (t.val % 32)
      (by have h1 := t.isLt; have h2 := Nat.div_add_mod t.val 32; omega) :=
  Pipeline.eq_accAt_of_mod (fun n h => (outsAt0 V c n h).1) 32 (reset12 V c) (step12 V c)
    (fun n h hn => by
      show (outsAt0 V c n h).1 = _
      rw [outsAt0_A V c ⟨n, h⟩ hn]
      dsimp only
      exact out_A_12_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) (ms0_14 ⟨n, h⟩) (hs0_14 ⟨n, h⟩) ((hcond0_0 ⟨n, h⟩).mpr hn) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩) (iblk0 V c 7 ⟨n, h⟩) (iblk0 V c 8 ⟨n, h⟩) (iblk0 V c 9 ⟨n, h⟩) (iblk0 V c 10 ⟨n, h⟩) (iblk0 V c 11 ⟨n, h⟩))
    (fun n h hn => by
      show (outsAt0 V c (n + 1) h).1 = step12 V c (n + 1) h (outsAt0 V c n (Nat.lt_of_succ_lt h)).1
      rw [outsAt0_B V c ⟨n + 1, h⟩ hn]
      dsimp only
      exact out_B_12_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (fun hc => hn ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (iblk0 V c 8 ⟨n + 1, h⟩) (iblk0 V c 9 ⟨n + 1, h⟩) (iblk0 V c 10 ⟨n + 1, h⟩) (iblk0 V c 11 ⟨n + 1, h⟩) (outsAt0 V c n (Nat.lt_of_succ_lt h)).1 (outsAt0 V c n (Nat.lt_of_succ_lt h)).2.1 (outsAt0 V c n (Nat.lt_of_succ_lt h)).2.2)
    (by decide) t.val t.isLt _

/-- The squares accumulator after a half's first block `n`: that block's contribution over the zero block. -/
def reset13 (c : Dev nD) (n : ℕ) (h : n < cfg0.N) : Vec F S1x1x256 .f32 :=
  k0_pay1 (k0_pay13 (k0_pay3 (F := F))) (k0_pay14 (k0_pay6 (iblk0 V c 0 ⟨n, h⟩) (iblk0 V c 1 ⟨n, h⟩)))

/-- The squares accumulator after a later block `n`: that block's contribution over what the block before left. -/
def step13 (c : Dev nD) (n : ℕ) (h : n < cfg0.N) (acc : Vec F S1x1x256 .f32) : Vec F S1x1x256 .f32 :=
  k0_pay1 (k0_pay13 acc) (k0_pay14 (k0_pay6 (iblk0 V c 0 ⟨n, h⟩) (iblk0 V c 1 ⟨n, h⟩)))

/-- What the squares accumulator holds after block `t`: the running total of its half, started at the half's first
    block `32 * (t / 32)` and stepped through the blocks up to `t`. -/
theorem outsAt_13_eq (c : Dev nD) (t : Fin cfg0.N) :
    (outsAt0 V c t.val t.isLt).2.1 = Pipeline.accAt (reset13 V c) (step13 V c) (32 * (t.val / 32)) (t.val % 32)
      (by have h1 := t.isLt; have h2 := Nat.div_add_mod t.val 32; omega) :=
  Pipeline.eq_accAt_of_mod (fun n h => (outsAt0 V c n h).2.1) 32 (reset13 V c) (step13 V c)
    (fun n h hn => by
      show (outsAt0 V c n h).2.1 = _
      rw [outsAt0_A V c ⟨n, h⟩ hn]
      dsimp only
      exact out_A_13_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) (ms0_14 ⟨n, h⟩) (hs0_14 ⟨n, h⟩) ((hcond0_0 ⟨n, h⟩).mpr hn) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩) (iblk0 V c 7 ⟨n, h⟩) (iblk0 V c 8 ⟨n, h⟩) (iblk0 V c 9 ⟨n, h⟩) (iblk0 V c 10 ⟨n, h⟩) (iblk0 V c 11 ⟨n, h⟩))
    (fun n h hn => by
      show (outsAt0 V c (n + 1) h).2.1 = step13 V c (n + 1) h (outsAt0 V c n (Nat.lt_of_succ_lt h)).2.1
      rw [outsAt0_B V c ⟨n + 1, h⟩ hn]
      dsimp only
      exact out_B_13_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (fun hc => hn ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (iblk0 V c 8 ⟨n + 1, h⟩) (iblk0 V c 9 ⟨n + 1, h⟩) (iblk0 V c 10 ⟨n + 1, h⟩) (iblk0 V c 11 ⟨n + 1, h⟩) (outsAt0 V c n (Nat.lt_of_succ_lt h)).1 (outsAt0 V c n (Nat.lt_of_succ_lt h)).2.1 (outsAt0 V c n (Nat.lt_of_succ_lt h)).2.2)
    (by decide) t.val t.isLt _

/-- The controls accumulator after a half's first block `n`: that block's contribution over the zero block. -/
def reset14 (c : Dev nD) (n : ℕ) (h : n < cfg0.N) : Vec F S1x1x4 .f32 :=
  k0_pay11 (k0_pay10 (k0_pay7 (iblk0 V c 0 ⟨n, h⟩)) (k0_pay8 (iblk0 V c 0 ⟨n, h⟩) (iblk0 V c 2 ⟨n, h⟩)) (k0_pay9 (iblk0 V c 3 ⟨n, h⟩)) (iblk0 V c 4 ⟨n, h⟩) (iblk0 V c 5 ⟨n, h⟩) (iblk0 V c 6 ⟨n, h⟩) (iblk0 V c 7 ⟨n, h⟩) (iblk0 V c 8 ⟨n, h⟩)) (iblk0 V c 9 ⟨n, h⟩) (iblk0 V c 10 ⟨n, h⟩) (iblk0 V c 11 ⟨n, h⟩) (k0_pay4 (F := F))

/-- The controls accumulator after a later block `n`: that block's contribution over what the block before left. -/
def step14 (c : Dev nD) (n : ℕ) (h : n < cfg0.N) (acc : Vec F S1x1x4 .f32) : Vec F S1x1x4 .f32 :=
  k0_pay11 (k0_pay10 (k0_pay7 (iblk0 V c 0 ⟨n, h⟩)) (k0_pay8 (iblk0 V c 0 ⟨n, h⟩) (iblk0 V c 2 ⟨n, h⟩)) (k0_pay9 (iblk0 V c 3 ⟨n, h⟩)) (iblk0 V c 4 ⟨n, h⟩) (iblk0 V c 5 ⟨n, h⟩) (iblk0 V c 6 ⟨n, h⟩) (iblk0 V c 7 ⟨n, h⟩) (iblk0 V c 8 ⟨n, h⟩)) (iblk0 V c 9 ⟨n, h⟩) (iblk0 V c 10 ⟨n, h⟩) (iblk0 V c 11 ⟨n, h⟩) acc

/-- What the controls accumulator holds after block `t`: the running total of its half, started at the half's first
    block `32 * (t / 32)` and stepped through the blocks up to `t`. -/
theorem outsAt_14_eq (c : Dev nD) (t : Fin cfg0.N) :
    (outsAt0 V c t.val t.isLt).2.2 = Pipeline.accAt (reset14 V c) (step14 V c) (32 * (t.val / 32)) (t.val % 32)
      (by have h1 := t.isLt; have h2 := Nat.div_add_mod t.val 32; omega) :=
  Pipeline.eq_accAt_of_mod (fun n h => (outsAt0 V c n h).2.2) 32 (reset14 V c) (step14 V c)
    (fun n h hn => by
      show (outsAt0 V c n h).2.2 = _
      rw [outsAt0_A V c ⟨n, h⟩ hn]
      dsimp only
      exact out_A_14_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) (ms0_14 ⟨n, h⟩) (hs0_14 ⟨n, h⟩) ((hcond0_0 ⟨n, h⟩).mpr hn) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩) (iblk0 V c 7 ⟨n, h⟩) (iblk0 V c 8 ⟨n, h⟩) (iblk0 V c 9 ⟨n, h⟩) (iblk0 V c 10 ⟨n, h⟩) (iblk0 V c 11 ⟨n, h⟩))
    (fun n h hn => by
      show (outsAt0 V c (n + 1) h).2.2 = step14 V c (n + 1) h (outsAt0 V c n (Nat.lt_of_succ_lt h)).2.2
      rw [outsAt0_B V c ⟨n + 1, h⟩ hn]
      dsimp only
      exact out_B_14_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (fun hc => hn ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (iblk0 V c 8 ⟨n + 1, h⟩) (iblk0 V c 9 ⟨n + 1, h⟩) (iblk0 V c 10 ⟨n + 1, h⟩) (iblk0 V c 11 ⟨n + 1, h⟩) (outsAt0 V c n (Nat.lt_of_succ_lt h)).1 (outsAt0 V c n (Nat.lt_of_succ_lt h)).2.1 (outsAt0 V c n (Nat.lt_of_succ_lt h)).2.2)
    (by decide) t.val t.isLt _

end Cert.KernelIdeal.Body0

end
-- ==== Proof.KBody0d.lean ====
/-
  The statistics pass over one half, read on the extended reals: each accumulator's running total is a sum over blocks.

  One block's contribution to an accumulator entry is a sum over the block's 4096 rows: of the clamped projection
  times the input (outer products), of the squared clamped projection, or of a control. Adding a block's contribution
  to what the accumulator held is what one run of the body does, and the zero block reads zero; so after block t the
  accumulator holds zero plus the contributions of the blocks of t's half up to t, and after a half's last block the
  sum over the half's 32 blocks of the sum over each block's rows.
-/
import proofs.«142104_j18769007084085_2_alg».proof.Proof.Gen.KernelIdeal.Frame
import Idealize.ShloMosaic.Lib.Pipeline.Value
import Idealize.ShloMosaic.Lib.Tactic
import proofs.«142104_j18769007084085_2_alg».proof.Proof.KBody0c
import proofs.«142104_j18769007084085_2_alg».proof.Proof.Spec
import Idealize.ShloMosaic.Lib.ValueIdx
set_option maxRecDepth 16384

noncomputable section

namespace Cert.KernelIdeal.Body0

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

open Idealize.ShloMosaic.ValueIdx Cert.Spec
open scoped BigOperators

/-- An index of a block with a leading axis of extent one, by its other two coordinates. -/
theorem eq_ix3_unit {n1 n2 : Nat} (i : (⟨3, ![1, n1, n2]⟩ : Shape).Idx) : i = ix3 (0 : Fin 1) (i 1) (i 2) := by
  funext d
  match d with
  | ⟨0, _⟩ => exact Fin.ext (by have h : (i 0).val < 1 := (i 0).isLt; show (i 0).val = 0; omega)
  | ⟨1, _⟩ => rfl
  | ⟨2, _⟩ => rfl

/-- Point `n` of the grid as a block number. -/
def pt (n : ℕ) (h : n < cfg0.N) : Fin 64 := ⟨n, lt_of_lt_of_eq h (show cfg0.N = 64 from N_0)⟩

variable (V : (c : Dev nD) → (b : Ref sig .tc) → Buf (Elt Ideal) ((c : Thread nD τ).loc b)) (c : Dev nD) (P : Cert.Spec.Args)

/-- What one run of the body adds, entry by entry, for loaded blocks that hold block `t` of the input and the
    (transposed, re-laid) parameters; and the zero blocks read zero. -/
structure PointFacts : Prop where
  pay12 : ∀ (t : Fin 64) (x0 : Vec Ideal S4096x256 .f32) (x1 : Vec Ideal S256x256 .bf16),
    (∀ (r' : Fin 4096) (k : Fin 256), x0 (ix2 r' k) = P.x (ix2 (rowOf t r') k)) →
    (∀ k a : Fin 256, x1 (ix2 k a) = P.V (ix2 a k)) →
    ∀ (prev : Vec Ideal S1x256x256 .f32) (a b : Fin 256),
      k0_pay12 (F := Ideal) (k0_pay5 x0) (k0_pay6 x0 x1) prev (ix3 (0 : Fin 1) a b)
        = prev (ix3 (0 : Fin 1) a b) + ∑ r' : Fin 4096, vproj P (rowOf t r') a * P.x (ix2 (rowOf t r') b)
  pay1 : ∀ (t : Fin 64) (x0 : Vec Ideal S4096x256 .f32) (x1 : Vec Ideal S256x256 .bf16),
    (∀ (r' : Fin 4096) (k : Fin 256), x0 (ix2 r' k) = P.x (ix2 (rowOf t r') k)) →
    (∀ k a : Fin 256, x1 (ix2 k a) = P.V (ix2 a k)) →
    ∀ (prev : Vec Ideal S1x1x256 .f32) (a : Fin 256),
      k0_pay1 (F := Ideal) (k0_pay13 prev) (k0_pay14 (k0_pay6 x0 x1)) (ix3 (0 : Fin 1) (0 : Fin 1) a)
        = prev (ix3 (0 : Fin 1) (0 : Fin 1) a) + ∑ r' : Fin 4096, vproj P (rowOf t r') a * vproj P (rowOf t r') a
  pay11 : ∀ (t : Fin 64) (x0 : Vec Ideal S4096x256 .f32) (x2 : Vec Ideal S256x256 .bf16)
      (x3 x4 x5 x6 x7 : Vec Ideal S1x16 .f32) (x8 : Vec Ideal S16x8 .f32) (x9 : Vec Ideal S1x8 .f32)
      (x10 : Vec Ideal S8x4 .f32) (x11 : Vec Ideal S1x4 .f32),
    (∀ (r' : Fin 4096) (k : Fin 256), x0 (ix2 r' k) = P.x (ix2 (rowOf t r') k)) →
    (∀ k a : Fin 256, x2 (ix2 k a) = P.W (ix2 a k)) →
    (∀ j : Fin 16, x3 (ix2 (0 : Fin 1) j) = P.s1w (ix2 j (0 : Fin 4))) →
    (∀ j : Fin 16, x4 (ix2 (0 : Fin 1) j) = P.s1w (ix2 j (1 : Fin 4))) →
    (∀ j : Fin 16, x5 (ix2 (0 : Fin 1) j) = cvec P j) →
    (∀ j : Fin 16, x6 (ix2 (0 : Fin 1) j) = P.lng (ix1 j)) →
    (∀ j : Fin 16, x7 (ix2 (0 : Fin 1) j) = P.lnb (ix1 j)) →
    (∀ (j : Fin 16) (q : Fin 8), x8 (ix2 j q) = P.s2w (ix2 q j)) →
    (∀ q : Fin 8, x9 (ix2 (0 : Fin 1) q) = P.s2b (ix1 q)) →
    (∀ (q : Fin 8) (p : Fin 4), x10 (ix2 q p) = P.aw (ix2 p q)) →
    (∀ p : Fin 4, x11 (ix2 (0 : Fin 1) p) = P.ab (ix1 p)) →
    ∀ (prev : Vec Ideal S1x1x4 .f32) (p : Fin 4),
      k0_pay11 (F := Ideal) (k0_pay10 (k0_pay7 x0) (k0_pay8 x0 x2) (k0_pay9 x3) x4 x5 x6 x7 x8) x9 x10 x11 prev
          (ix3 (0 : Fin 1) (0 : Fin 1) p)
        = prev (ix3 (0 : Fin 1) (0 : Fin 1) p) + ∑ r' : Fin 4096, ctl P (rowOf t r') p
  zero2 : ∀ a b : Fin 256, k0_pay2 (F := Ideal) (ix3 (0 : Fin 1) a b) = 0
  zero3 : ∀ a : Fin 256, k0_pay3 (F := Ideal) (ix3 (0 : Fin 1) (0 : Fin 1) a) = 0
  zero4 : ∀ p : Fin 4, k0_pay4 (F := Ideal) (ix3 (0 : Fin 1) (0 : Fin 1) p) = 0

/-- The blocks the windows stage at each point, entry by entry: block `n` of the input's rows, and the whole of each
    (transposed, re-laid) parameter array. -/
structure BlockFacts : Prop where
  b0 : ∀ (n : ℕ) (h : n < cfg0.N) (r' : Fin 4096) (k : Fin 256),
    (iblk0 V c 0 ⟨n, h⟩ : Vec Ideal S4096x256 .f32) (ix2 r' k) = P.x (ix2 (rowOf (pt n h) r') k)
  b1 : ∀ (n : ℕ) (h : n < cfg0.N) (k a : Fin 256), (iblk0 V c 1 ⟨n, h⟩ : Vec Ideal S256x256 .bf16) (ix2 k a) = P.V (ix2 a k)
  b2 : ∀ (n : ℕ) (h : n < cfg0.N) (k a : Fin 256), (iblk0 V c 2 ⟨n, h⟩ : Vec Ideal S256x256 .bf16) (ix2 k a) = P.W (ix2 a k)
  b3 : ∀ (n : ℕ) (h : n < cfg0.N) (j : Fin 16), (iblk0 V c 3 ⟨n, h⟩ : Vec Ideal S1x16 .f32) (ix2 (0 : Fin 1) j) = P.s1w (ix2 j (0 : Fin 4))
  b4 : ∀ (n : ℕ) (h : n < cfg0.N) (j : Fin 16), (iblk0 V c 4 ⟨n, h⟩ : Vec Ideal S1x16 .f32) (ix2 (0 : Fin 1) j) = P.s1w (ix2 j (1 : Fin 4))
  b5 : ∀ (n : ℕ) (h : n < cfg0.N) (j : Fin 16), (iblk0 V c 5 ⟨n, h⟩ : Vec Ideal S1x16 .f32) (ix2 (0 : Fin 1) j) = cvec P j
  b6 : ∀ (n : ℕ) (h : n < cfg0.N) (j : Fin 16), (iblk0 V c 6 ⟨n, h⟩ : Vec Ideal S1x16 .f32) (ix2 (0 : Fin 1) j) = P.lng (ix1 j)
  b7 : ∀ (n : ℕ) (h : n < cfg0.N) (j : Fin 16), (iblk0 V c 7 ⟨n, h⟩ : Vec Ideal S1x16 .f32) (ix2 (0 : Fin 1) j) = P.lnb (ix1 j)
  b8 : ∀ (n : ℕ) (h : n < cfg0.N) (j : Fin 16) (q : Fin 8), (iblk0 V c 8 ⟨n, h⟩ : Vec Ideal S16x8 .f32) (ix2 j q) = P.s2w (ix2 q j)
  b9 : ∀ (n : ℕ) (h : n < cfg0.N) (q : Fin 8), (iblk0 V c 9 ⟨n, h⟩ : Vec Ideal S1x8 .f32) (ix2 (0 : Fin 1) q) = P.s2b (ix1 q)
  b10 : ∀ (n : ℕ) (h : n < cfg0.N) (q : Fin 8) (p : Fin 4), (iblk0 V c 10 ⟨n, h⟩ : Vec Ideal S8x4 .f32) (ix2 q p) = P.aw (ix2 p q)
  b11 : ∀ (n : ℕ) (h : n < cfg0.N) (p : Fin 4), (iblk0 V c 11 ⟨n, h⟩ : Vec Ideal S1x4 .f32) (ix2 (0 : Fin 1) p) = P.ab (ix1 p)

/-- Block `n`'s contribution to the outer-product accumulator (zero past the grid, where it is never used). -/
def add12 (n : ℕ) (i : S1x256x256.Idx) : EReal :=
  if h : n < 64 then ∑ r' : Fin 4096, vproj P (rowOf ⟨n, h⟩ r') (i 1) * P.x (ix2 (rowOf ⟨n, h⟩ r') (i 2)) else 0

/-- Block `n`'s contribution to the squares accumulator. -/
def add13 (n : ℕ) (i : S1x1x256.Idx) : EReal :=
  if h : n < 64 then ∑ r' : Fin 4096, vproj P (rowOf ⟨n, h⟩ r') (i 2) * vproj P (rowOf ⟨n, h⟩ r') (i 2) else 0

/-- Block `n`'s contribution to the controls accumulator. -/
def add14 (n : ℕ) (i : S1x1x4.Idx) : EReal :=
  if h : n < 64 then ∑ r' : Fin 4096, ctl P (rowOf ⟨n, h⟩ r') (i 2) else 0

variable {V c P}

/-- The outer-product accumulator after block `t`: zero plus the contributions of the blocks of `t`'s half up to `t`. -/
theorem fold12 (pf : PointFacts P) (bf : BlockFacts V c P) (t : Fin cfg0.N) (i : S1x256x256.Idx) :
    (outsAt0 V c t.val t.isLt).1 i = 0 + ∑ s ∈ Finset.range (t.val % 32 + 1), add12 P (32 * (t.val / 32) + s) i := by
  have hN : cfg0.N = 64 := N_0
  have ht := t.isLt
  rw [outsAt_12_eq]
  refine Pipeline.accAt_add_apply (reset12 V c) (step12 V c) (fun _ => (0 : EReal)) (add12 P) (32 * (t.val / 32)) 31
    ?_ ?_ (t.val % 32) (by omega) _ i
  · intro h j
    rw [eq_ix3_unit j]
    refine (pf.pay12 (pt _ h) _ _ (bf.b0 _ h) (bf.b1 _ h) _ (j 1) (j 2)).trans ?_
    rw [pf.zero2 (j 1) (j 2)]
    unfold add12
    rw [dif_pos (lt_of_lt_of_eq h hN)]
    rfl
  · intro n h acc j _ _
    rw [eq_ix3_unit j]
    refine (pf.pay12 (pt n h) _ _ (bf.b0 n h) (bf.b1 n h) acc (j 1) (j 2)).trans ?_
    unfold add12
    rw [dif_pos (lt_of_lt_of_eq h hN)]
    rfl

/-- The squares accumulator after block `t`. -/
theorem fold13 (pf : PointFacts P) (bf : BlockFacts V c P) (t : Fin cfg0.N) (i : S1x1x256.Idx) :
    (outsAt0 V c t.val t.isLt).2.1 i = 0 + ∑ s ∈ Finset.range (t.val % 32 + 1), add13 P (32 * (t.val / 32) + s) i := by
  have hN : cfg0.N = 64 := N_0
  have ht := t.isLt
  rw [outsAt_13_eq]
  refine Pipeline.accAt_add_apply (reset13 V c) (step13 V c) (fun _ => (0 : EReal)) (add13 P) (32 * (t.val / 32)) 31
    ?_ ?_ (t.val % 32) (by omega) _ i
  · intro h j
    rw [eq_ix3_unit j]
    have e1 : j 1 = (0 : Fin 1) := Fin.ext (by have h1 : (j 1).val < 1 := (j 1).isLt; show (j 1).val = 0; omega)
    rw [e1]
    refine (pf.pay1 (pt _ h) _ _ (bf.b0 _ h) (bf.b1 _ h) _ (j 2)).trans ?_
    rw [pf.zero3 (j 2)]
    unfold add13
    rw [dif_pos (lt_of_lt_of_eq h hN)]
    rfl
  · intro n h acc j _ _
    rw [eq_ix3_unit j]
    have e1 : j 1 = (0 : Fin 1) := Fin.ext (by have h1 : (j 1).val < 1 := (j 1).isLt; show (j 1).val = 0; omega)
    rw [e1]
    refine (pf.pay1 (pt n h) _ _ (bf.b0 n h) (bf.b1 n h) acc (j 2)).trans ?_
    unfold add13
    rw [dif_pos (lt_of_lt_of_eq h hN)]
    rfl

/-- The controls accumulator after block `t`. -/
theorem fold14 (pf : PointFacts P) (bf : BlockFacts V c P) (t : Fin cfg0.N) (i : S1x1x4.Idx) :
    (outsAt0 V c t.val t.isLt).2.2 i = 0 + ∑ s ∈ Finset.range (t.val % 32 + 1), add14 P (32 * (t.val / 32) + s) i := by
  have hN : cfg0.N = 64 := N_0
  have ht := t.isLt
  rw [outsAt_14_eq]
  refine Pipeline.accAt_add_apply (reset14 V c) (step14 V c) (fun _ => (0 : EReal)) (add14 P) (32 * (t.val / 32)) 31
    ?_ ?_ (t.val % 32) (by omega) _ i
  · intro h j
    rw [eq_ix3_unit j]
    have e1 : j 1 = (0 : Fin 1) := Fin.ext (by have h1 : (j 1).val < 1 := (j 1).isLt; show (j 1).val = 0; omega)
    rw [e1]
    refine (pf.pay11 (pt _ h) _ _ _ _ _ _ _ _ _ _ _ (bf.b0 _ h) (bf.b2 _ h) (bf.b3 _ h) (bf.b4 _ h) (bf.b5 _ h) (bf.b6 _ h)
      (bf.b7 _ h) (bf.b8 _ h) (bf.b9 _ h) (bf.b10 _ h) (bf.b11 _ h) _ (j 2)).trans ?_
    rw [pf.zero4 (j 2)]
    unfold add14
    rw [dif_pos (lt_of_lt_of_eq h hN)]
    rfl
  · intro n h acc j _ _
    rw [eq_ix3_unit j]
    have e1 : j 1 = (0 : Fin 1) := Fin.ext (by have h1 : (j 1).val < 1 := (j 1).isLt; show (j 1).val = 0; omega)
    rw [e1]
    refine (pf.pay11 (pt n h) _ _ _ _ _ _ _ _ _ _ _ (bf.b0 n h) (bf.b2 n h) (bf.b3 n h) (bf.b4 n h) (bf.b5 n h) (bf.b6 n h)
      (bf.b7 n h) (bf.b8 n h) (bf.b9 n h) (bf.b10 n h) (bf.b11 n h) acc (j 2)).trans ?_
    unfold add14
    rw [dif_pos (lt_of_lt_of_eq h hN)]
    rfl

end Cert.KernelIdeal.Body0

end
-- ==== Proof.KBody0r.lean ====
/-
  The statistics pass as a schedule: which block of which array each of its 64 points reads and writes.

  The 64 points are 2 halves of 32 steps; point t is step t % 32 of half t / 32. At point t the pass reads rows
  t * 4096 ... t * 4096 + 4095 of x and the whole of each of the eleven small operands. Each of its three results
  has one slab per half: point t works on slab t / 32, and a slab is written back when its half ends, at the points
  t with t % 32 = 31. A block's coordinate in its array is the block's index times the block's size plus the
  coordinate inside the block; the block indices are decided once over the 64 points. So a point's input blocks are
  plain reads of the arrays, an index of a result lies in point t's block exactly when its leading coordinate is
  t / 32, every index lies in the block of a point that writes back, and block t of any function of a result's
  index is that function at leading coordinate t / 32.
-/
import proofs.«142104_j18769007084085_2_alg».proof.Proof.Spec
import proofs.«142104_j18769007084085_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Body0r

open Idealize.ShloMosaic Idealize.ShloMosaic.TcCoe Idealize.ShloMosaic.ValueIdx Idealize.SL.Sem
open Idealize.ShloMosaic.Pipeline (Dat)
open Cert.KernelIdeal Cert.KernelIdeal.Gen

/-! ## The block indices, decided over the 64 points -/

/-- The block of x is at block row t. -/
theorem idx0_0 : ∀ t : Fin cfg0.N, win0_0.index t (0 : Fin 2) = t.val ∧ win0_0.index t (1 : Fin 2) = 0 :=
  (by decide +kernel : ∀ t : Fin grid0.N, _)
/-- Window 1's block is its whole array. -/
theorem idx0_1 : ∀ t : Fin cfg0.N, win0_1.index t (0 : Fin 2) = 0 ∧ win0_1.index t (1 : Fin 2) = 0 :=
  (by decide +kernel : ∀ t : Fin grid0.N, _)
/-- Window 2's block is its whole array. -/
theorem idx0_2 : ∀ t : Fin cfg0.N, win0_2.index t (0 : Fin 2) = 0 ∧ win0_2.index t (1 : Fin 2) = 0 :=
  (by decide +kernel : ∀ t : Fin grid0.N, _)
/-- Window 3's block is its whole array. -/
theorem idx0_3 : ∀ t : Fin cfg0.N, win0_3.index t (0 : Fin 2) = 0 ∧ win0_3.index t (1 : Fin 2) = 0 :=
  (by decide +kernel : ∀ t : Fin grid0.N, _)
/-- Window 4's block is its whole array. -/
theorem idx0_4 : ∀ t : Fin cfg0.N, win0_4.index t (0 : Fin 2) = 0 ∧ win0_4.index t (1 : Fin 2) = 0 :=
  (by decide +kernel : ∀ t : Fin grid0.N, _)
/-- Window 5's block is its whole array. -/
theorem idx0_5 : ∀ t : Fin cfg0.N, win0_5.index t (0 : Fin 2) = 0 ∧ win0_5.index t (1 : Fin 2) = 0 :=
  (by decide +kernel : ∀ t : Fin grid0.N, _)
/-- Window 6's block is its whole array. -/
theorem idx0_6 : ∀ t : Fin cfg0.N, win0_6.index t (0 : Fin 2) = 0 ∧ win0_6.index t (1 : Fin 2) = 0 :=
  (by decide +kernel : ∀ t : Fin grid0.N, _)
/-- Window 7's block is its whole array. -/
theorem idx0_7 : ∀ t : Fin cfg0.N, win0_7.index t (0 : Fin 2) = 0 ∧ win0_7.index t (1 : Fin 2) = 0 :=
  (by decide +kernel : ∀ t : Fin grid0.N, _)
/-- Window 8's block is its whole array. -/
theorem idx0_8 : ∀ t : Fin cfg0.N, win0_8.index t (0 : Fin 2) = 0 ∧ win0_8.index t (1 : Fin 2) = 0 :=
  (by decide +kernel : ∀ t : Fin grid0.N, _)
/-- Window 9's block is its whole array. -/
theorem idx0_9 : ∀ t : Fin cfg0.N, win0_9.index t (0 : Fin 2) = 0 ∧ win0_9.index t (1 : Fin 2) = 0 :=
  (by decide +kernel : ∀ t : Fin grid0.N, _)
/-- Window 10's block is its whole array. -/
theorem idx0_10 : ∀ t : Fin cfg0.N, win0_10.index t (0 : Fin 2) = 0 ∧ win0_10.index t (1 : Fin 2) = 0 :=
  (by decide +kernel : ∀ t : Fin grid0.N, _)
/-- Window 11's block is its whole array. -/
theorem idx0_11 : ∀ t : Fin cfg0.N, win0_11.index t (0 : Fin 2) = 0 ∧ win0_11.index t (1 : Fin 2) = 0 :=
  (by decide +kernel : ∀ t : Fin grid0.N, _)
/-- Window 12's block is slab t / 32 of its result. -/
theorem idx0_12 : ∀ t : Fin cfg0.N, win0_12.index t (0 : Fin 3) = t.val / 32 ∧ win0_12.index t (1 : Fin 3) = 0
    ∧ win0_12.index t (2 : Fin 3) = 0 :=
  (by decide +kernel : ∀ t : Fin grid0.N, _)
/-- Window 13's block is slab t / 32 of its result. -/
theorem idx0_13 : ∀ t : Fin cfg0.N, win0_13.index t (0 : Fin 3) = t.val / 32 ∧ win0_13.index t (1 : Fin 3) = 0
    ∧ win0_13.index t (2 : Fin 3) = 0 :=
  (by decide +kernel : ∀ t : Fin grid0.N, _)
/-- Window 14's block is slab t / 32 of its result. -/
theorem idx0_14 : ∀ t : Fin cfg0.N, win0_14.index t (0 : Fin 3) = t.val / 32 ∧ win0_14.index t (1 : Fin 3) = 0
    ∧ win0_14.index t (2 : Fin 3) = 0 :=
  (by decide +kernel : ∀ t : Fin grid0.N, _)

/-- All fifteen windows' block indices at once. -/
theorem idx_facts0 (t : Fin cfg0.N) :
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 3) = t.val / 32 ∧ win0_12.index t (1 : Fin 3) = 0 ∧ win0_12.index t (2 : Fin 3) = 0)
    ∧ (win0_13.index t (0 : Fin 3) = t.val / 32 ∧ win0_13.index t (1 : Fin 3) = 0 ∧ win0_13.index t (2 : Fin 3) = 0)
    ∧ (win0_14.index t (0 : Fin 3) = t.val / 32 ∧ win0_14.index t (1 : Fin 3) = 0 ∧ win0_14.index t (2 : Fin 3) = 0) :=
  ⟨idx0_0 t, idx0_1 t, idx0_2 t, idx0_3 t, idx0_4 t, idx0_5 t, idx0_6 t, idx0_7 t, idx0_8 t, idx0_9 t, idx0_10 t, idx0_11 t, idx0_12 t, idx0_13 t, idx0_14 t⟩

/-! ## A point as a block number, a half and a step -/

/-- Point t as a block number below 64. -/
def pt (t : Fin cfg0.N) : Fin 64 := ⟨t.val, Nat.lt_of_lt_of_eq t.isLt (N_0 : cfg0.N = 64)⟩

/-- The half of point t. -/
def half (t : Fin cfg0.N) : Fin 2 :=
  ⟨t.val / 32, by have h : t.val < 64 := Nat.lt_of_lt_of_eq t.isLt (N_0 : cfg0.N = 64); omega⟩

/-- The step of point t within its half. -/
def step (t : Fin cfg0.N) : Fin 32 := ⟨t.val % 32, Nat.mod_lt _ (by decide)⟩

/-- Point t is block (half t, step t) of the rows. -/
theorem pt_eq_blockOf (t : Fin cfg0.N) : pt t = Cert.Spec.blockOf (half t) (step t) :=
  Fin.ext (by show t.val = t.val / 32 * 32 + t.val % 32; omega)

/-- Step i of half h as a point. -/
def ptOf (h : Fin 2) (i : Fin 32) : Fin cfg0.N :=
  ⟨h.val * 32 + i.val, by rw [show cfg0.N = 64 from N_0]; have := h.isLt; have := i.isLt; omega⟩

theorem half_ptOf (h : Fin 2) (i : Fin 32) : half (ptOf h i) = h :=
  Fin.ext (by show (h.val * 32 + i.val) / 32 = h.val; have := i.isLt; omega)

theorem step_ptOf (h : Fin 2) (i : Fin 32) : step (ptOf h i) = i :=
  Fin.ext (by show (h.val * 32 + i.val) % 32 = i.val; have := i.isLt; omega)

theorem pt_ptOf (h : Fin 2) (i : Fin 32) : pt (ptOf h i) = Cert.Spec.blockOf h i := rfl

/-! ## Each input block read off its array -/

section Blocks

variable (V : (c : Dev nD) → (b : Ref sig .tc) → Buf (Elt Ideal) ((c : Thread nD τ).loc b)) (c : Dev nD)

/-- The block of x at point t, at (r', k): x at row t * 4096 + r' and column k. -/
theorem blk0_apply (t : Fin cfg0.N) (r' : Fin 4096) (k : Fin 256) :
    (iblk0 V c 0 t : Vec Ideal S4096x256 .f32) (ix2 r' k)
      = (V c main_arg0 : S262144x256.Idx → EReal) (ix2 (Cert.Spec.rowOf (pt t) r') k) := by
  obtain ⟨e0, e1⟩ := idx0_0 t
  unfold iblk0
  rw [View.read_apply]
  show V c main_arg0 _ = V c main_arg0 _
  refine congrArg (V c main_arg0) (funext fun a => Fin.ext ?_)
  match a with
  | ⟨0, _⟩ => show win0_0.index t (0 : Fin 2) * 4096 + 1 * r'.val = t.val * 4096 + r'.val; rw [e0]; omega
  | ⟨1, _⟩ => show win0_0.index t (1 : Fin 2) * 256 + 1 * k.val = k.val; rw [e1]; omega

/-- The block of window 1 at any point is its whole array. -/
theorem blk1_eq (t : Fin cfg0.N) :
    (iblk0 V c 1 t : Vec Ideal S256x256 .bf16) = (V c main_v2 : S256x256.Idx → EReal) := by
  obtain ⟨e0, e1⟩ := idx0_1 t
  unfold iblk0
  funext j
  rw [View.read_apply]
  show V c main_v2 _ = V c main_v2 j
  refine congrArg (V c main_v2) (funext fun a => Fin.ext ?_)
  match a with
  | ⟨0, _⟩ => show win0_1.index t (0 : Fin 2) * 256 + 1 * (j 0).val = (j 0).val; rw [e0]; omega
  | ⟨1, _⟩ => show win0_1.index t (1 : Fin 2) * 256 + 1 * (j 1).val = (j 1).val; rw [e1]; omega

theorem blk1_apply (t : Fin cfg0.N) (j : S256x256.Idx) :
    (iblk0 V c 1 t : Vec Ideal S256x256 .bf16) j = (V c main_v2 : S256x256.Idx → EReal) j :=
  congrFun (blk1_eq V c t) j

/-- The block of window 2 at any point is its whole array. -/
theorem blk2_eq (t : Fin cfg0.N) :
    (iblk0 V c 2 t : Vec Ideal S256x256 .bf16) = (V c main_v4 : S256x256.Idx → EReal) := by
  obtain ⟨e0, e1⟩ := idx0_2 t
  unfold iblk0
  funext j
  rw [View.read_apply]
  show V c main_v4 _ = V c main_v4 j
  refine congrArg (V c main_v4) (funext fun a => Fin.ext ?_)
  match a with
  | ⟨0, _⟩ => show win0_2.index t (0 : Fin 2) * 256 + 1 * (j 0).val = (j 0).val; rw [e0]; omega
  | ⟨1, _⟩ => show win0_2.index t (1 : Fin 2) * 256 + 1 * (j 1).val = (j 1).val; rw [e1]; omega

theorem blk2_apply (t : Fin cfg0.N) (j : S256x256.Idx) :
    (iblk0 V c 2 t : Vec Ideal S256x256 .bf16) j = (V c main_v4 : S256x256.Idx → EReal) j :=
  congrFun (blk2_eq V c t) j

/-- The block of window 3 at any point is its whole array. -/
theorem blk3_eq (t : Fin cfg0.N) :
    (iblk0 V c 3 t : Vec Ideal S1x16 .f32) = (V c main_v14 : S1x16.Idx → EReal) := by
  obtain ⟨e0, e1⟩ := idx0_3 t
  unfold iblk0
  funext j
  rw [View.read_apply]
  show V c main_v14 _ = V c main_v14 j
  refine congrArg (V c main_v14) (funext fun a => Fin.ext ?_)
  match a with
  | ⟨0, _⟩ => show win0_3.index t (0 : Fin 2) * 1 + 1 * (j 0).val = (j 0).val; rw [e0]; omega
  | ⟨1, _⟩ => show win0_3.index t (1 : Fin 2) * 16 + 1 * (j 1).val = (j 1).val; rw [e1]; omega

theorem blk3_apply (t : Fin cfg0.N) (j : S1x16.Idx) :
    (iblk0 V c 3 t : Vec Ideal S1x16 .f32) j = (V c main_v14 : S1x16.Idx → EReal) j :=
  congrFun (blk3_eq V c t) j

/-- The block of window 4 at any point is its whole array. -/
theorem blk4_eq (t : Fin cfg0.N) :
    (iblk0 V c 4 t : Vec Ideal S1x16 .f32) = (V c main_v15 : S1x16.Idx → EReal) := by
  obtain ⟨e0, e1⟩ := idx0_4 t
  unfold iblk0
  funext j
  rw [View.read_apply]
  show V c main_v15 _ = V c main_v15 j
  refine congrArg (V c main_v15) (funext fun a => Fin.ext ?_)
  match a with
  | ⟨0, _⟩ => show win0_4.index t (0 : Fin 2) * 1 + 1 * (j 0).val = (j 0).val; rw [e0]; omega
  | ⟨1, _⟩ => show win0_4.index t (1 : Fin 2) * 16 + 1 * (j 1).val = (j 1).val; rw [e1]; omega

theorem blk4_apply (t : Fin cfg0.N) (j : S1x16.Idx) :
    (iblk0 V c 4 t : Vec Ideal S1x16 .f32) j = (V c main_v15 : S1x16.Idx → EReal) j :=
  congrFun (blk4_eq V c t) j

/-- The block of window 5 at any point is its whole array. -/
theorem blk5_eq (t : Fin cfg0.N) :
    (iblk0 V c 5 t : Vec Ideal S1x16 .f32) = (V c main_v23 : S1x16.Idx → EReal) := by
  obtain ⟨e0, e1⟩ := idx0_5 t
  unfold iblk0
  funext j
  rw [View.read_apply]
  show V c main_v23 _ = V c main_v23 j
  refine congrArg (V c main_v23) (funext fun a => Fin.ext ?_)
  match a with
  | ⟨0, _⟩ => show win0_5.index t (0 : Fin 2) * 1 + 1 * (j 0).val = (j 0).val; rw [e0]; omega
  | ⟨1, _⟩ => show win0_5.index t (1 : Fin 2) * 16 + 1 * (j 1).val = (j 1).val; rw [e1]; omega

theorem blk5_apply (t : Fin cfg0.N) (j : S1x16.Idx) :
    (iblk0 V c 5 t : Vec Ideal S1x16 .f32) j = (V c main_v23 : S1x16.Idx → EReal) j :=
  congrFun (blk5_eq V c t) j

/-- The block of window 6 at any point is its whole array. -/
theorem blk6_eq (t : Fin cfg0.N) :
    (iblk0 V c 6 t : Vec Ideal S1x16 .f32) = (V c main_v9 : S1x16.Idx → EReal) := by
  obtain ⟨e0, e1⟩ := idx0_6 t
  unfold iblk0
  funext j
  rw [View.read_apply]
  show V c main_v9 _ = V c main_v9 j
  refine congrArg (V c main_v9) (funext fun a => Fin.ext ?_)
  match a with
  | ⟨0, _⟩ => show win0_6.index t (0 : Fin 2) * 1 + 1 * (j 0).val = (j 0).val; rw [e0]; omega
  | ⟨1, _⟩ => show win0_6.index t (1 : Fin 2) * 16 + 1 * (j 1).val = (j 1).val; rw [e1]; omega

theorem blk6_apply (t : Fin cfg0.N) (j : S1x16.Idx) :
    (iblk0 V c 6 t : Vec Ideal S1x16 .f32) j = (V c main_v9 : S1x16.Idx → EReal) j :=
  congrFun (blk6_eq V c t) j

/-- The block of window 7 at any point is its whole array. -/
theorem blk7_eq (t : Fin cfg0.N) :
    (iblk0 V c 7 t : Vec Ideal S1x16 .f32) = (V c main_v10 : S1x16.Idx → EReal) := by
  obtain ⟨e0, e1⟩ := idx0_7 t
  unfold iblk0
  funext j
  rw [View.read_apply]
  show V c main_v10 _ = V c main_v10 j
  refine congrArg (V c main_v10) (funext fun a => Fin.ext ?_)
  match a with
  | ⟨0, _⟩ => show win0_7.index t (0 : Fin 2) * 1 + 1 * (j 0).val = (j 0).val; rw [e0]; omega
  | ⟨1, _⟩ => show win0_7.index t (1 : Fin 2) * 16 + 1 * (j 1).val = (j 1).val; rw [e1]; omega

theorem blk7_apply (t : Fin cfg0.N) (j : S1x16.Idx) :
    (iblk0 V c 7 t : Vec Ideal S1x16 .f32) j = (V c main_v10 : S1x16.Idx → EReal) j :=
  congrFun (blk7_eq V c t) j

/-- The block of window 8 at any point is its whole array. -/
theorem blk8_eq (t : Fin cfg0.N) :
    (iblk0 V c 8 t : Vec Ideal S16x8 .f32) = (V c main_v6 : S16x8.Idx → EReal) := by
  obtain ⟨e0, e1⟩ := idx0_8 t
  unfold iblk0
  funext j
  rw [View.read_apply]
  show V c main_v6 _ = V c main_v6 j
  refine congrArg (V c main_v6) (funext fun a => Fin.ext ?_)
  match a with
  | ⟨0, _⟩ => show win0_8.index t (0 : Fin 2) * 16 + 1 * (j 0).val = (j 0).val; rw [e0]; omega
  | ⟨1, _⟩ => show win0_8.index t (1 : Fin 2) * 8 + 1 * (j 1).val = (j 1).val; rw [e1]; omega

theorem blk8_apply (t : Fin cfg0.N) (j : S16x8.Idx) :
    (iblk0 V c 8 t : Vec Ideal S16x8 .f32) j = (V c main_v6 : S16x8.Idx → EReal) j :=
  congrFun (blk8_eq V c t) j

/-- The block of window 9 at any point is its whole array. -/
theorem blk9_eq (t : Fin cfg0.N) :
    (iblk0 V c 9 t : Vec Ideal S1x8 .f32) = (V c main_v11 : S1x8.Idx → EReal) := by
  obtain ⟨e0, e1⟩ := idx0_9 t
  unfold iblk0
  funext j
  rw [View.read_apply]
  show V c main_v11 _ = V c main_v11 j
  refine congrArg (V c main_v11) (funext fun a => Fin.ext ?_)
  match a with
  | ⟨0, _⟩ => show win0_9.index t (0 : Fin 2) * 1 + 1 * (j 0).val = (j 0).val; rw [e0]; omega
  | ⟨1, _⟩ => show win0_9.index t (1 : Fin 2) * 8 + 1 * (j 1).val = (j 1).val; rw [e1]; omega

theorem blk9_apply (t : Fin cfg0.N) (j : S1x8.Idx) :
    (iblk0 V c 9 t : Vec Ideal S1x8 .f32) j = (V c main_v11 : S1x8.Idx → EReal) j :=
  congrFun (blk9_eq V c t) j

/-- The block of window 10 at any point is its whole array. -/
theorem blk10_eq (t : Fin cfg0.N) :
    (iblk0 V c 10 t : Vec Ideal S8x4 .f32) = (V c main_v7 : S8x4.Idx → EReal) := by
  obtain ⟨e0, e1⟩ := idx0_10 t
  unfold iblk0
  funext j
  rw [View.read_apply]
  show V c main_v7 _ = V c main_v7 j
  refine congrArg (V c main_v7) (funext fun a => Fin.ext ?_)
  match a with
  | ⟨0, _⟩ => show win0_10.index t (0 : Fin 2) * 8 + 1 * (j 0).val = (j 0).val; rw [e0]; omega
  | ⟨1, _⟩ => show win0_10.index t (1 : Fin 2) * 4 + 1 * (j 1).val = (j 1).val; rw [e1]; omega

theorem blk10_apply (t : Fin cfg0.N) (j : S8x4.Idx) :
    (iblk0 V c 10 t : Vec Ideal S8x4 .f32) j = (V c main_v7 : S8x4.Idx → EReal) j :=
  congrFun (blk10_eq V c t) j

/-- The block of window 11 at any point is its whole array. -/
theorem blk11_eq (t : Fin cfg0.N) :
    (iblk0 V c 11 t : Vec Ideal S1x4 .f32) = (V c main_v12 : S1x4.Idx → EReal) := by
  obtain ⟨e0, e1⟩ := idx0_11 t
  unfold iblk0
  funext j
  rw [View.read_apply]
  show V c main_v12 _ = V c main_v12 j
  refine congrArg (V c main_v12) (funext fun a => Fin.ext ?_)
  match a with
  | ⟨0, _⟩ => show win0_11.index t (0 : Fin 2) * 1 + 1 * (j 0).val = (j 0).val; rw [e0]; omega
  | ⟨1, _⟩ => show win0_11.index t (1 : Fin 2) * 4 + 1 * (j 1).val = (j 1).val; rw [e1]; omega

theorem blk11_apply (t : Fin cfg0.N) (j : S1x4.Idx) :
    (iblk0 V c 11 t : Vec Ideal S1x4 .f32) j = (V c main_v12 : S1x4.Idx → EReal) j :=
  congrFun (blk11_eq V c t) j

end Blocks

/-! ## The three results: membership in a block, the cover, a block of a whole-array function -/

/-- An index of result 0 is in point t's block iff its leading coordinate is t / 32. -/
theorem mem_blk12 (t : Fin cfg0.N) (i : S2x256x256.Idx) :
    i ∈ ((cfg0.win 12).blk t).view.set ↔ (i 0).val = t.val / 32 := by
  obtain ⟨e0, e1, e2⟩ := idx0_12 t
  show i ∈ ((View.whole main_v24_0).slice (win0_12.rect t)).set ↔ _
  rw [View.set_slice_whole, Rect.mem_set_unit]
  constructor
  · intro h
    have h0 : win0_12.index t (0 : Fin 3) * 1 ≤ (i 0).val ∧ (i 0).val < win0_12.index t (0 : Fin 3) * 1 + 1 := h 0
    rw [e0] at h0
    omega
  · intro h a
    have hi1 : (i 1).val < 256 := (i 1).isLt
    have hi2 : (i 2).val < 256 := (i 2).isLt
    match a with
    | ⟨0, _⟩ =>
      show win0_12.index t (0 : Fin 3) * 1 ≤ (i 0).val ∧ (i 0).val < win0_12.index t (0 : Fin 3) * 1 + 1
      rw [e0]; omega
    | ⟨1, _⟩ =>
      show win0_12.index t (1 : Fin 3) * 256 ≤ (i 1).val ∧ (i 1).val < win0_12.index t (1 : Fin 3) * 256 + 256
      rw [e1]; omega
    | ⟨2, _⟩ =>
      show win0_12.index t (2 : Fin 3) * 256 ≤ (i 2).val ∧ (i 2).val < win0_12.index t (2 : Fin 3) * 256 + 256
      rw [e2]; omega

/-- Every index of result 0 is in the block of the last point of its half, which writes back. -/
theorem cover12 (i : S2x256x256.Idx) :
    ∃ t : Fin cfg0.N, (cfg0.win 12).flush t = true ∧ i ∈ ((cfg0.win 12).blk t).view.set := by
  have hi0 : (i 0).val < 2 := (i 0).isLt
  have ht : 32 * (i 0).val + 31 < cfg0.N := by rw [show cfg0.N = 64 from N_0]; omega
  refine ⟨⟨32 * (i 0).val + 31, ht⟩, (flush0_12 _).mpr ?_, ?_⟩
  · show (32 * (i 0).val + 31) % 32 = 31
    omega
  · rw [mem_blk12]
    show (i 0).val = (32 * (i 0).val + 31) / 32
    omega

/-- Block t of a function G of result 0's index, at the block's index y: G at slab t / 32 and y's two inner
    coordinates. -/
theorem read_blk12 (t : Fin cfg0.N) (G : S2x256x256.Idx → EReal) (y : S1x256x256.Idx) :
    ((cfg0.win 12).blk t).view.read (Elt Ideal) G y = G (ix3 (half t) (y 1) (y 2)) := by
  obtain ⟨e0, e1, e2⟩ := idx0_12 t
  have hy0 : (y 0).val < 1 := (y 0).isLt
  rw [View.read_apply]
  show G _ = G _
  refine congrArg G (funext fun a => Fin.ext ?_)
  match a with
  | ⟨0, _⟩ => show win0_12.index t (0 : Fin 3) * 1 + 1 * (y 0).val = t.val / 32; rw [e0]; omega
  | ⟨1, _⟩ => show win0_12.index t (1 : Fin 3) * 256 + 1 * (y 1).val = (y 1).val; rw [e1]; omega
  | ⟨2, _⟩ => show win0_12.index t (2 : Fin 3) * 256 + 1 * (y 2).val = (y 2).val; rw [e2]; omega

/-- The same with the block's index written by coordinates. -/
theorem read_blk12_ix (t : Fin cfg0.N) (G : S2x256x256.Idx → EReal) (u : Fin 1) (a : Fin 256) (b : Fin 256) :
    ((cfg0.win 12).blk t).view.read (Elt Ideal) G (ix3 u a b) = G (ix3 (half t) a b) :=
  read_blk12 t G (ix3 u a b)

/-- An index of result 1 is in point t's block iff its leading coordinate is t / 32. -/
theorem mem_blk13 (t : Fin cfg0.N) (i : S2x1x256.Idx) :
    i ∈ ((cfg0.win 13).blk t).view.set ↔ (i 0).val = t.val / 32 := by
  obtain ⟨e0, e1, e2⟩ := idx0_13 t
  show i ∈ ((View.whole main_v24_1).slice (win0_13.rect t)).set ↔ _
  rw [View.set_slice_whole, Rect.mem_set_unit]
  constructor
  · intro h
    have h0 : win0_13.index t (0 : Fin 3) * 1 ≤ (i 0).val ∧ (i 0).val < win0_13.index t (0 : Fin 3) * 1 + 1 := h 0
    rw [e0] at h0
    omega
  · intro h a
    have hi1 : (i 1).val < 1 := (i 1).isLt
    have hi2 : (i 2).val < 256 := (i 2).isLt
    match a with
    | ⟨0, _⟩ =>
      show win0_13.index t (0 : Fin 3) * 1 ≤ (i 0).val ∧ (i 0).val < win0_13.index t (0 : Fin 3) * 1 + 1
      rw [e0]; omega
    | ⟨1, _⟩ =>
      show win0_13.index t (1 : Fin 3) * 1 ≤ (i 1).val ∧ (i 1).val < win0_13.index t (1 : Fin 3) * 1 + 1
      rw [e1]; omega
    | ⟨2, _⟩ =>
      show win0_13.index t (2 : Fin 3) * 256 ≤ (i 2).val ∧ (i 2).val < win0_13.index t (2 : Fin 3) * 256 + 256
      rw [e2]; omega

/-- Every index of result 1 is in the block of the last point of its half, which writes back. -/
theorem cover13 (i : S2x1x256.Idx) :
    ∃ t : Fin cfg0.N, (cfg0.win 13).flush t = true ∧ i ∈ ((cfg0.win 13).blk t).view.set := by
  have hi0 : (i 0).val < 2 := (i 0).isLt
  have ht : 32 * (i 0).val + 31 < cfg0.N := by rw [show cfg0.N = 64 from N_0]; omega
  refine ⟨⟨32 * (i 0).val + 31, ht⟩, (flush0_13 _).mpr ?_, ?_⟩
  · show (32 * (i 0).val + 31) % 32 = 31
    omega
  · rw [mem_blk13]
    show (i 0).val = (32 * (i 0).val + 31) / 32
    omega

/-- Block t of a function G of result 1's index, at the block's index y: G at slab t / 32 and y's two inner
    coordinates. -/
theorem read_blk13 (t : Fin cfg0.N) (G : S2x1x256.Idx → EReal) (y : S1x1x256.Idx) :
    ((cfg0.win 13).blk t).view.read (Elt Ideal) G y = G (ix3 (half t) (y 1) (y 2)) := by
  obtain ⟨e0, e1, e2⟩ := idx0_13 t
  have hy0 : (y 0).val < 1 := (y 0).isLt
  rw [View.read_apply]
  show G _ = G _
  refine congrArg G (funext fun a => Fin.ext ?_)
  match a with
  | ⟨0, _⟩ => show win0_13.index t (0 : Fin 3) * 1 + 1 * (y 0).val = t.val / 32; rw [e0]; omega
  | ⟨1, _⟩ => show win0_13.index t (1 : Fin 3) * 1 + 1 * (y 1).val = (y 1).val; rw [e1]; omega
  | ⟨2, _⟩ => show win0_13.index t (2 : Fin 3) * 256 + 1 * (y 2).val = (y 2).val; rw [e2]; omega

/-- The same with the block's index written by coordinates. -/
theorem read_blk13_ix (t : Fin cfg0.N) (G : S2x1x256.Idx → EReal) (u : Fin 1) (a : Fin 1) (b : Fin 256) :
    ((cfg0.win 13).blk t).view.read (Elt Ideal) G (ix3 u a b) = G (ix3 (half t) a b) :=
  read_blk13 t G (ix3 u a b)

/-- An index of result 2 is in point t's block iff its leading coordinate is t / 32. -/
theorem mem_blk14 (t : Fin cfg0.N) (i : S2x1x4.Idx) :
    i ∈ ((cfg0.win 14).blk t).view.set ↔ (i 0).val = t.val / 32 := by
  obtain ⟨e0, e1, e2⟩ := idx0_14 t
  show i ∈ ((View.whole main_v24_2).slice (win0_14.rect t)).set ↔ _
  rw [View.set_slice_whole, Rect.mem_set_unit]
  constructor
  · intro h
    have h0 : win0_14.index t (0 : Fin 3) * 1 ≤ (i 0).val ∧ (i 0).val < win0_14.index t (0 : Fin 3) * 1 + 1 := h 0
    rw [e0] at h0
    omega
  · intro h a
    have hi1 : (i 1).val < 1 := (i 1).isLt
    have hi2 : (i 2).val < 4 := (i 2).isLt
    match a with
    | ⟨0, _⟩ =>
      show win0_14.index t (0 : Fin 3) * 1 ≤ (i 0).val ∧ (i 0).val < win0_14.index t (0 : Fin 3) * 1 + 1
      rw [e0]; omega
    | ⟨1, _⟩ =>
      show win0_14.index t (1 : Fin 3) * 1 ≤ (i 1).val ∧ (i 1).val < win0_14.index t (1 : Fin 3) * 1 + 1
      rw [e1]; omega
    | ⟨2, _⟩ =>
      show win0_14.index t (2 : Fin 3) * 4 ≤ (i 2).val ∧ (i 2).val < win0_14.index t (2 : Fin 3) * 4 + 4
      rw [e2]; omega

/-- Every index of result 2 is in the block of the last point of its half, which writes back. -/
theorem cover14 (i : S2x1x4.Idx) :
    ∃ t : Fin cfg0.N, (cfg0.win 14).flush t = true ∧ i ∈ ((cfg0.win 14).blk t).view.set := by
  have hi0 : (i 0).val < 2 := (i 0).isLt
  have ht : 32 * (i 0).val + 31 < cfg0.N := by rw [show cfg0.N = 64 from N_0]; omega
  refine ⟨⟨32 * (i 0).val + 31, ht⟩, (flush0_14 _).mpr ?_, ?_⟩
  · show (32 * (i 0).val + 31) % 32 = 31
    omega
  · rw [mem_blk14]
    show (i 0).val = (32 * (i 0).val + 31) / 32
    omega

/-- Block t of a function G of result 2's index, at the block's index y: G at slab t / 32 and y's two inner
    coordinates. -/
theorem read_blk14 (t : Fin cfg0.N) (G : S2x1x4.Idx → EReal) (y : S1x1x4.Idx) :
    ((cfg0.win 14).blk t).view.read (Elt Ideal) G y = G (ix3 (half t) (y 1) (y 2)) := by
  obtain ⟨e0, e1, e2⟩ := idx0_14 t
  have hy0 : (y 0).val < 1 := (y 0).isLt
  rw [View.read_apply]
  show G _ = G _
  refine congrArg G (funext fun a => Fin.ext ?_)
  match a with
  | ⟨0, _⟩ => show win0_14.index t (0 : Fin 3) * 1 + 1 * (y 0).val = t.val / 32; rw [e0]; omega
  | ⟨1, _⟩ => show win0_14.index t (1 : Fin 3) * 1 + 1 * (y 1).val = (y 1).val; rw [e1]; omega
  | ⟨2, _⟩ => show win0_14.index t (2 : Fin 3) * 4 + 1 * (y 2).val = (y 2).val; rw [e2]; omega

/-- The same with the block's index written by coordinates. -/
theorem read_blk14_ix (t : Fin cfg0.N) (G : S2x1x4.Idx → EReal) (u : Fin 1) (a : Fin 1) (b : Fin 4) :
    ((cfg0.win 14).blk t).view.read (Elt Ideal) G (ix3 u a b) = G (ix3 (half t) a b) :=
  read_blk14 t G (ix3 u a b)

end Cert.KernelIdeal.Body0r

end
-- ==== Proof.KBody0e.lean ====
/-
  The statistics pass as a whole: what its three result arrays hold after the run.

  Each result has one slab per half. A half's slab is written back once, after the half's last block, from the
  accumulator, which then holds zero plus the contributions of the half's 32 blocks; the two write-backs cover the
  array. So after the run every entry is the sum over its half's blocks, and over each block's rows, of the row's
  term: the clamped projection times the input, the squared clamped projection, or the control.
-/
import proofs.«142104_j18769007084085_2_alg».proof.Proof.Gen.KernelIdeal.Frame
import Idealize.ShloMosaic.Lib.Pipeline.Value
import Idealize.ShloMosaic.Lib.Tactic
import proofs.«142104_j18769007084085_2_alg».proof.Proof.KBody0d
import proofs.«142104_j18769007084085_2_alg».proof.Proof.KBody0r
set_option maxRecDepth 16384

noncomputable section

namespace Cert.KernelIdeal.Body0

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

open Idealize.ShloMosaic.ValueIdx Cert.Spec
open Cert.KernelIdeal.Body0r (half read_blk12 read_blk13 read_blk14 cover12 cover13 cover14)
open scoped BigOperators

/-- At the last point of a half, zero plus the terms of the points of the half is the sum over the half's blocks. -/
theorem range_half (g : ℕ → EReal) (t : Fin cfg0.N) (ht : t.val % 32 = 31) :
    0 + ∑ s ∈ Finset.range (t.val % 32 + 1), g (32 * (t.val / 32) + s) = ∑ n : Fin 32, g (blockOf (half t) n).val := by
  rw [zero_add, show t.val % 32 + 1 = 32 from by omega, Finset.sum_range]
  refine Finset.sum_congr rfl fun n _ => congrArg g ?_
  show 32 * (t.val / 32) + n.val = t.val / 32 * 32 + n.val
  omega

variable {V : (c : Dev nD) → (b : Ref sig .tc) → Buf (Elt Ideal) ((c : Thread nD τ).loc b)} {c : Dev nD} {P : Cert.Spec.Args}

/-! ## The outer products of clamped projection and input -/

/-- Entry by entry, the sum over a half's 32 blocks and each block's 4096 rows of the outer products of clamped projection and input: the half is the
    entry's leading coordinate. -/
def G12 (P : Cert.Spec.Args) : S2x256x256.Idx → EReal := fun i =>
  ∑ n : Fin 32, ∑ r' : Fin 4096, vproj P (rowOf (blockOf (i 0) n) r') (i 1) * P.x (ix2 (rowOf (blockOf (i 0) n) r') (i 2))

/-- A block's contribution, for the block written as block `n` of half `q`. -/
theorem add12_block (P : Cert.Spec.Args) (q : Fin 2) (n : Fin 32) (i : S1x256x256.Idx) :
    add12 P (blockOf q n).val i = ∑ r' : Fin 4096, vproj P (rowOf (blockOf q n) r') (i 1) * P.x (ix2 (rowOf (blockOf q n) r') (i 2)) := by
  unfold add12
  rw [dif_pos (blockOf q n).isLt]

/-- After a half's last block the accumulator holds, entry by entry, that half's sums. -/
theorem last12_apply (pf : PointFacts P) (bf : BlockFacts V c P) (t : Fin cfg0.N) (ht : t.val % 32 = 31) (y : S1x256x256.Idx) :
    (outsAt0 V c t.val t.isLt).1 y = G12 P (ix3 (half t) (y 1) (y 2)) := by
  rw [fold12 pf bf t y]
  refine (range_half (fun n => add12 P n y) t ht).trans ?_
  show (∑ n : Fin 32, add12 P (blockOf (half t) n).val y)
    = ∑ n : Fin 32, ∑ r' : Fin 4096, vproj P (rowOf (blockOf (half t) n) r') (y 1) * P.x (ix2 (rowOf (blockOf (half t) n) r') (y 2))
  exact Finset.sum_congr rfl fun n _ => add12_block P (half t) n y

/-- What the last point of a half writes back is that half's slab of the sums. -/
theorem flushed12_eq (pf : PointFacts P) (bf : BlockFacts V c P) (t : Fin cfg0.N) (hf : (cfg0.win 12).flush t = true) :
    (dat0 V c).flushed 12 t = ((cfg0.win 12).blk t).view.read (Elt Ideal) (G12 P) := by
  have ht : t.val % 32 = 31 := (flush0_12 t).mp hf
  show (cfg0.win 12).cut (grid0.coords t) ((dat0 V c).after 12 t) = _
  rw [after0_12]
  exact funext fun y : S1x256x256.Idx => (last12_apply pf bf t ht y).trans (read_blk12 t (G12 P) y).symm

/-- After the run the array holds the sums. -/
theorem arrAt12_eq (pf : PointFacts P) (bf : BlockFacts V c P) : (dat0 V c).arrAt 12 cfg0.N = G12 P :=
  (dat0 V c).arrAt_eq_of_cover 12 (G12 P) (fun t hf => flushed12_eq pf bf t hf) cover12

/-! ## The squared clamped projections -/

/-- Entry by entry, the sum over a half's 32 blocks and each block's 4096 rows of the squared clamped projections: the half is the
    entry's leading coordinate. -/
def G13 (P : Cert.Spec.Args) : S2x1x256.Idx → EReal := fun i =>
  ∑ n : Fin 32, ∑ r' : Fin 4096, vproj P (rowOf (blockOf (i 0) n) r') (i 2) * vproj P (rowOf (blockOf (i 0) n) r') (i 2)

/-- A block's contribution, for the block written as block `n` of half `q`. -/
theorem add13_block (P : Cert.Spec.Args) (q : Fin 2) (n : Fin 32) (i : S1x1x256.Idx) :
    add13 P (blockOf q n).val i = ∑ r' : Fin 4096, vproj P (rowOf (blockOf q n) r') (i 2) * vproj P (rowOf (blockOf q n) r') (i 2) := by
  unfold add13
  rw [dif_pos (blockOf q n).isLt]

/-- After a half's last block the accumulator holds, entry by entry, that half's sums. -/
theorem last13_apply (pf : PointFacts P) (bf : BlockFacts V c P) (t : Fin cfg0.N) (ht : t.val % 32 = 31) (y : S1x1x256.Idx) :
    (outsAt0 V c t.val t.isLt).2.1 y = G13 P (ix3 (half t) (y 1) (y 2)) := by
  rw [fold13 pf bf t y]
  refine (range_half (fun n => add13 P n y) t ht).trans ?_
  show (∑ n : Fin 32, add13 P (blockOf (half t) n).val y)
    = ∑ n : Fin 32, ∑ r' : Fin 4096, vproj P (rowOf (blockOf (half t) n) r') (y 2) * vproj P (rowOf (blockOf (half t) n) r') (y 2)
  exact Finset.sum_congr rfl fun n _ => add13_block P (half t) n y

/-- What the last point of a half writes back is that half's slab of the sums. -/
theorem flushed13_eq (pf : PointFacts P) (bf : BlockFacts V c P) (t : Fin cfg0.N) (hf : (cfg0.win 13).flush t = true) :
    (dat0 V c).flushed 13 t = ((cfg0.win 13).blk t).view.read (Elt Ideal) (G13 P) := by
  have ht : t.val % 32 = 31 := (flush0_13 t).mp hf
  show (cfg0.win 13).cut (grid0.coords t) ((dat0 V c).after 13 t) = _
  rw [after0_13]
  exact funext fun y : S1x1x256.Idx => (last13_apply pf bf t ht y).trans (read_blk13 t (G13 P) y).symm

/-- After the run the array holds the sums. -/
theorem arrAt13_eq (pf : PointFacts P) (bf : BlockFacts V c P) : (dat0 V c).arrAt 13 cfg0.N = G13 P :=
  (dat0 V c).arrAt_eq_of_cover 13 (G13 P) (fun t hf => flushed13_eq pf bf t hf) cover13

/-! ## The controls -/

/-- Entry by entry, the sum over a half's 32 blocks and each block's 4096 rows of the controls: the half is the
    entry's leading coordinate. -/
def G14 (P : Cert.Spec.Args) : S2x1x4.Idx → EReal := fun i =>
  ∑ n : Fin 32, ∑ r' : Fin 4096, ctl P (rowOf (blockOf (i 0) n) r') (i 2)

/-- A block's contribution, for the block written as block `n` of half `q`. -/
theorem add14_block (P : Cert.Spec.Args) (q : Fin 2) (n : Fin 32) (i : S1x1x4.Idx) :
    add14 P (blockOf q n).val i = ∑ r' : Fin 4096, ctl P (rowOf (blockOf q n) r') (i 2) := by
  unfold add14
  rw [dif_pos (blockOf q n).isLt]

/-- After a half's last block the accumulator holds, entry by entry, that half's sums. -/
theorem last14_apply (pf : PointFacts P) (bf : BlockFacts V c P) (t : Fin cfg0.N) (ht : t.val % 32 = 31) (y : S1x1x4.Idx) :
    (outsAt0 V c t.val t.isLt).2.2 y = G14 P (ix3 (half t) (y 1) (y 2)) := by
  rw [fold14 pf bf t y]
  refine (range_half (fun n => add14 P n y) t ht).trans ?_
  show (∑ n : Fin 32, add14 P (blockOf (half t) n).val y)
    = ∑ n : Fin 32, ∑ r' : Fin 4096, ctl P (rowOf (blockOf (half t) n) r') (y 2)
  exact Finset.sum_congr rfl fun n _ => add14_block P (half t) n y

/-- What the last point of a half writes back is that half's slab of the sums. -/
theorem flushed14_eq (pf : PointFacts P) (bf : BlockFacts V c P) (t : Fin cfg0.N) (hf : (cfg0.win 14).flush t = true) :
    (dat0 V c).flushed 14 t = ((cfg0.win 14).blk t).view.read (Elt Ideal) (G14 P) := by
  have ht : t.val % 32 = 31 := (flush0_14 t).mp hf
  show (cfg0.win 14).cut (grid0.coords t) ((dat0 V c).after 14 t) = _
  rw [after0_14]
  exact funext fun y : S1x1x4.Idx => (last14_apply pf bf t ht y).trans (read_blk14 t (G14 P) y).symm

/-- After the run the array holds the sums. -/
theorem arrAt14_eq (pf : PointFacts P) (bf : BlockFacts V c P) : (dat0 V c).arrAt 14 cfg0.N = G14 P :=
  (dat0 V c).arrAt_eq_of_cover 14 (G14 P) (fun t hf => flushed14_eq pf bf t hf) cover14

end Cert.KernelIdeal.Body0

end
-- ==== Proof.KPay0a.lean ====
/-
  Layout operations, lane sums and matrix products read at an index given by coordinates.

  A column of per-row values arises from a sum along a row: a vector [a] is cast to the column [a, 1], and the column
  is laid along the b entries of every row, [a, 1] to [a, b]; both read the vector at the row. A sum along axis 1 of
  an [a, b] array is, at row r, the sum over k of the entry (r, k); a sum along axis 0 is, at column c, the sum over r
  of the entry (r, c). A product of an [m, k] and a [k, n] matrix into a zero accumulator is, at (r, q), the sum over
  the k inner coordinates; a product that contracts axis 0 of both of two [k, m] and [k, n] matrices is, at (a, b),
  the sum over the rows r of lhs (r, a) * rhs (r, b).
-/
import Idealize.ShloMosaic.Lib.ValueLayout
import Idealize.ShloMosaic.PureOps.Ideal.Laws
import proofs.«142104_j18769007084085_2_alg».proof.Proof.LibPlainDot

noncomputable section

open scoped BigOperators

namespace Cert.KernelIdeal.Pay

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along axis 1 of an `[a, b]` array, read at row `r`: the sum over the row's entries. -/
theorem sumAxis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext d
  refine Fin.ext ?_
  match d with
  | ⟨0, _⟩ => rfl
  | ⟨1, _⟩ => rfl

/-- A sum along axis 0 of an `[a, b]` array, read at column `c`: the sum over the column's entries. -/
theorem sumAxis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext d
  refine Fin.ext ?_
  match d with
  | ⟨0, _⟩ => rfl
  | ⟨1, _⟩ => rfl

/-! ## Pointwise functions and f32 lane sums as the printed operations spell them -/

section AtIdeal
variable {s : Shape} {φ : FTy}

/-- An absolute value at an index is the larger of the element and its negation. -/
theorem absf_apply (a : FVec Ideal s φ) (i : s.Idx) : absf a i = max (a i) (-(a i)) := rfl
/-- A reciprocal square root at an index is the element's. -/
theorem rsqrt_apply (a : FVec Ideal s φ) (i : s.Idx) : rsqrt a i = Ideal.rsqrt (a i) := rfl
/-- A hyperbolic tangent at an index is the element's. -/
theorem tanh_apply (a : FVec Ideal s φ) (i : s.Idx) : tanh a i = Ideal.tanh (a i) := rfl
/-- A logistic function at an index is the element's. -/
theorem logistic_apply (a : FVec Ideal s φ) (i : s.Idx) : logistic a i = Ideal.logistic (a i) := rfl

end AtIdeal

/-- `sumAxis1_apply` for an f32 sum from the zero word, the accumulator fact stated as the equation of words it is. -/
theorem sumAxis1_f32 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) :=
  sumAxis1_apply src _ h hφ hacc r

/-- `sumAxis0_apply` for an f32 sum from the zero word. -/
theorem sumAxis0_f32 {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (c : Fin b) :
    multiReduction .add [0] ⟨1, ![b]⟩ src 0x00000000#32 h hφ hacc (ix1 c) = ∑ r : Fin a, src (ix2 r c) :=
  sumAxis0_apply src _ h hφ hacc c

/-! ## A product that contracts the rows of both operands -/

/-- The dimension numbers `<[0], [0], [1], [1]>` with no batch axis: `K×M` by `K×N`, both contracted on axis 0. -/
def rowsDot (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Its contraction shape has one axis … -/
theorem rowsDot_rank (K M N : Nat) : (rowsDot K M N).contr.rank = 1 := rfl
/-- … of extent `K`. -/
theorem rowsDot_size (K M N : Nat) : (rowsDot K M N).contr.size ⟨0, by rw [rowsDot_rank]; exact Nat.one_pos⟩ = K := rfl

/-- Its contraction index as the one row coordinate. -/
abbrev rowsEquiv (K M N : Nat) : (rowsDot K M N).contr.Idx ≃ Fin K :=
  contrEquiv1 (rowsDot K M N) K (rowsDot_rank K M N) (rowsDot_size K M N)

/-- The left operand's index at output (a, b) and row r is (r, a). -/
theorem rowsDot_lhsIdx {K M N : Nat} (a : Fin M) (b : Fin N) (r : Fin K) :
    (rowsDot K M N).lhsIdx (ix2 a b) ((rowsEquiv K M N).symm r) = ix2 r a := by
  have hk := contrEquiv1_symm_val (rowsDot K M N) K (rowsDot_rank K M N) (rowsDot_size K M N) r
  funext d
  refine Fin.ext ?_
  match d with
  | ⟨0, _⟩ => exact ((rowsDot K M N).lhsIdx_val_of_single rfl (ix2 a b) _).trans hk
  | ⟨1, _⟩ => rfl

/-- The right operand's index at output (a, b) and row r is (r, b). -/
theorem rowsDot_rhsIdx {K M N : Nat} (a : Fin M) (b : Fin N) (r : Fin K) :
    (rowsDot K M N).rhsIdx (ix2 a b) ((rowsEquiv K M N).symm r) = ix2 r b := by
  have hk := contrEquiv1_symm_val (rowsDot K M N) K (rowsDot_rank K M N) (rowsDot_size K M N) r
  funext d
  refine Fin.ext ?_
  match d with
  | ⟨0, _⟩ => exact ((rowsDot K M N).rhsIdx_val_of_single rfl (ix2 a b) _).trans hk
  | ⟨1, _⟩ => rfl

/-- The product into a zero accumulator, at (a, b): the sum over the rows r of lhs (r, a) * rhs (r, b). -/
theorem rowsDot_zero_apply {K M N : Nat} {φ₁ φ₂ : FTy} (prec : Option ContractPrecision)
    (lhs : FVec Ideal ⟨2, ![K, M]⟩ φ₁) (rhs : FVec Ideal ⟨2, ![K, N]⟩ φ₂) (a : Fin M) (b : Fin N) :
    FloatOps.matmul (rowsDot K M N) prec lhs rhs (constant ⟨2, ![M, N]⟩ .f32 0x00000000#32) (ix2 a b)
      = ∑ r : Fin K, lhs (ix2 r a) * rhs (ix2 r b) := by
  rw [Ideal.matmul_constant_zero_apply, ← Equiv.sum_comp (rowsEquiv K M N).symm]
  exact Finset.sum_congr rfl fun r _ => by rw [rowsDot_lhsIdx, rowsDot_rhsIdx]

end Cert.KernelIdeal.Pay

end
-- ==== Proof.KPay0c.lean ====
/-
  The 8-wide layer of the homeostatic map before its bias and cut, read at an index.

  For a row with surprise s and excitation e the first affine map gives the sixteen entries
  z_j = s * w_0j + e * w_1j + c_j, where w_0, w_1 are the loaded rows of the transposed first weight and c the loaded
  row-free vector. The layer normalisation takes their mean (sum over j divided by 16) and population variance
  (sum of squared deviations divided by 16), scales each deviation by the reciprocal square root of the variance
  plus 1e-5 and by the loaded scale, adds the loaded shift and applies tanh. The plain [4096, 16] by [16, 8] product
  with the loaded transposed second weight sums these over j. With the two statistics columns holding the
  specification's surprise and excitation of the block's rows and the loaded rows holding the arguments' entries, the
  result at (r', q) is the sum over j of the specification's z2 at (row r' of block t, j) times s2w (q, j).
-/
import proofs.«142104_j18769007084085_2_alg».proof.Proof.Gen.KernelIdeal.Skeleton
import proofs.«142104_j18769007084085_2_alg».proof.Proof.Spec
import proofs.«142104_j18769007084085_2_alg».proof.Proof.KPay0a

noncomputable section

open scoped BigOperators

namespace Cert.KernelIdeal.Pay

open Idealize.ShloMosaic Idealize.ShloMosaic.ValueIdx

/-- The second affine map's dimension numbers are those of a plain [4096, 16] by [16, 8] product. -/
theorem dotS2_eq_plain : dot_S4096x16_S16x8_S4096x8_1_0_0_1_n_n = DotDims.plain 4096 16 8 := rfl

/-- The 8-wide layer before its bias and cut, at (r', q): the sum over j of the normalised, scaled, shifted entry
    through tanh times the weight (q, j) — over any surprise and excitation columns that hold the row's two statistics,
    and the loaded rows of the first map, the scale, the shift and the transposed second weight. -/
theorem pay10_spec_of (P : Cert.Spec.Args) (t : Fin 64) (v28 v33 : FVec Ideal S4096x1 .f32)
    (x3 x4 x5 x6 x7 : Vec Ideal S1x16 .f32) (x8 : Vec Ideal S16x8 .f32)
    (hsur : ∀ (r' : Fin 4096) (u : Fin 1), v28 (ix2 r' u) = Cert.Spec.sur P (Cert.Spec.rowOf t r'))
    (hexc : ∀ (r' : Fin 4096) (u : Fin 1), v33 (ix2 r' u) = Cert.Spec.exc P (Cert.Spec.rowOf t r'))
    (h3 : ∀ j : Fin 16, x3 (ix2 0 j) = P.s1w (ix2 j 0)) (h4 : ∀ j : Fin 16, x4 (ix2 0 j) = P.s1w (ix2 j 1))
    (h5 : ∀ j : Fin 16, x5 (ix2 0 j) = Cert.Spec.cvec P j) (h6 : ∀ j : Fin 16, x6 (ix2 0 j) = P.lng (ix1 j))
    (h7 : ∀ j : Fin 16, x7 (ix2 0 j) = P.lnb (ix1 j)) (h8 : ∀ (j : Fin 16) (q : Fin 8), x8 (ix2 j q) = P.s2w (ix2 q j)) (r' : Fin 4096) (q : Fin 8) :
    Gen.k0_pay10 (F := Ideal) v28 v33 (Gen.k0_pay9 x3) x4 x5 x6 x7 x8 (ix2 r' q)
      = ∑ j : Fin 16, Cert.Spec.z2 P (Cert.Spec.rowOf t r') j * P.s2w (ix2 q j) := by
  unfold Gen.k0_pay10 Gen.k0_pay9
  simp only [shapeCast_self]
  refine (PlainDot.matmul_zero_apply none _ _ r' q).trans ?_
  refine Finset.sum_congr rfl fun j _ => ?_
  rw [h8 j q]
  refine congrArg (· * P.s2w (ix2 q j)) ?_
  repeat (first
    | rw [sumAxis1_f32]
    | simp only [tanh_apply, addf_apply, mulf_apply, subf_apply, broadcastTo_1b_ab_apply, broadcastTo_a1_ab_apply,
    rsqrt_apply, divf_apply, broadcast_apply, shapeCast_a_a1_apply, hsur, hexc, h3, h4, h5, h6, h7])
  rfl

end Cert.KernelIdeal.Pay

end
-- ==== Proof.KPay0d.lean ====
/-
  The controls accumulator block, read at an index.

  The 8-wide layer gets its bias row and is cut below at zero; the plain [4096, 8] by [8, 4] product with the loaded
  transposed third weight, plus its bias row, goes through the logistic function: the four controls of each of the
  block's 4096 rows. Their column sums are added to the block's old contents: at (0, 0, p) the old entry plus the sum
  over the block's rows r' of control p of row r' of block t.
-/
import proofs.«142104_j18769007084085_2_alg».proof.Proof.Gen.KernelIdeal.Skeleton
import proofs.«142104_j18769007084085_2_alg».proof.Proof.Spec
import proofs.«142104_j18769007084085_2_alg».proof.Proof.KPay0a
import proofs.«142104_j18769007084085_2_alg».proof.Proof.KPay0c

noncomputable section

open scoped BigOperators

namespace Cert.KernelIdeal.Pay

open Idealize.ShloMosaic Idealize.ShloMosaic.ValueIdx

/-- The third affine map's dimension numbers are those of a plain [4096, 8] by [8, 4] product. -/
theorem dotA_eq_plain : dot_S4096x8_S8x4_S4096x4_1_0_0_1_n_n = DotDims.plain 4096 8 4 := rfl

/-- The new controls block at (0, 0, p), over any 8-wide layer that holds, at (r', q), the second affine map's sum for
    row r' of block t: the old entry plus the sum over the block's rows of control p. -/
theorem pay11_of_layer (P : Cert.Spec.Args) (t : Fin 64) (v78 : FVec Ideal S4096x8 .f32)
    (x9 : Vec Ideal S1x8 .f32) (x10 : Vec Ideal S8x4 .f32) (x11 : Vec Ideal S1x4 .f32)
    (h78 : ∀ (r' : Fin 4096) (q : Fin 8),
      v78 (ix2 r' q) = ∑ j : Fin 16, Cert.Spec.z2 P (Cert.Spec.rowOf t r') j * P.s2w (ix2 q j))
    (h9 : ∀ q : Fin 8, x9 (ix2 0 q) = P.s2b (ix1 q)) (h10 : ∀ (q : Fin 8) (p : Fin 4), x10 (ix2 q p) = P.aw (ix2 p q))
    (h11 : ∀ p : Fin 4, x11 (ix2 0 p) = P.ab (ix1 p)) (prev : Vec Ideal S1x1x4 .f32) (p : Fin 4) :
    Gen.k0_pay11 (F := Ideal) v78 x9 x10 x11 prev (ix3 0 0 p)
      = prev (ix3 0 0 p) + ∑ r' : Fin 4096, Cert.Spec.ctl P (Cert.Spec.rowOf t r') p := by
  unfold Gen.k0_pay11
  simp only [shapeCast_ab_1ab_apply, addf_apply, shapeCast_1ab_ab_apply, shapeCast_a_1a_apply, shapeCast_self]
  rw [sumAxis0_f32]
  refine congrArg (prev (ix3 (0 : Fin 1) (0 : Fin 1) p) + ·) (Finset.sum_congr rfl fun r' _ => ?_)
  simp only [logistic_apply, addf_apply, broadcastTo_1b_ab_apply, h11]
  unfold Cert.Spec.ctl
  refine congrArg (fun s => Ideal.logistic (s + P.ab (ix1 p))) ?_
  refine (PlainDot.matmul_zero_apply none _ _ r' p).trans ?_
  refine Finset.sum_congr rfl fun q _ => ?_
  rw [h10 q p]
  refine congrArg (· * P.aw (ix2 p q)) ?_
  simp only [maximumf_apply, addf_apply, broadcast_apply, broadcastTo_1b_ab_apply, h9, h78]
  rfl

/-- The same over the statistics columns: the 8-wide layer computed from any surprise and excitation columns that hold
    the two statistics of the block's rows. -/
theorem pay11_spec_of (P : Cert.Spec.Args) (t : Fin 64) (v28 v33 : FVec Ideal S4096x1 .f32)
    (x3 x4 x5 x6 x7 : Vec Ideal S1x16 .f32) (x8 : Vec Ideal S16x8 .f32)
    (hsur : ∀ (r' : Fin 4096) (u : Fin 1), v28 (ix2 r' u) = Cert.Spec.sur P (Cert.Spec.rowOf t r'))
    (hexc : ∀ (r' : Fin 4096) (u : Fin 1), v33 (ix2 r' u) = Cert.Spec.exc P (Cert.Spec.rowOf t r'))
    (h3 : ∀ j : Fin 16, x3 (ix2 0 j) = P.s1w (ix2 j 0)) (h4 : ∀ j : Fin 16, x4 (ix2 0 j) = P.s1w (ix2 j 1))
    (h5 : ∀ j : Fin 16, x5 (ix2 0 j) = Cert.Spec.cvec P j) (h6 : ∀ j : Fin 16, x6 (ix2 0 j) = P.lng (ix1 j))
    (h7 : ∀ j : Fin 16, x7 (ix2 0 j) = P.lnb (ix1 j)) (h8 : ∀ (j : Fin 16) (q : Fin 8), x8 (ix2 j q) = P.s2w (ix2 q j))
    (x9 : Vec Ideal S1x8 .f32) (x10 : Vec Ideal S8x4 .f32) (x11 : Vec Ideal S1x4 .f32)
    (h9 : ∀ q : Fin 8, x9 (ix2 0 q) = P.s2b (ix1 q)) (h10 : ∀ (q : Fin 8) (p : Fin 4), x10 (ix2 q p) = P.aw (ix2 p q))
    (h11 : ∀ p : Fin 4, x11 (ix2 0 p) = P.ab (ix1 p)) (prev : Vec Ideal S1x1x4 .f32) (p : Fin 4) :
    Gen.k0_pay11 (F := Ideal) (Gen.k0_pay10 v28 v33 (Gen.k0_pay9 x3) x4 x5 x6 x7 x8) x9 x10 x11 prev (ix3 0 0 p)
      = prev (ix3 0 0 p) + ∑ r' : Fin 4096, Cert.Spec.ctl P (Cert.Spec.rowOf t r') p :=
  pay11_of_layer P t _ x9 x10 x11
    (fun r' q => pay10_spec_of P t v28 v33 x3 x4 x5 x6 x7 x8 hsur hexc h3 h4 h5 h6 h7 h8 r' q) h9 h10 h11 prev p

end Cert.KernelIdeal.Pay

end
-- ==== Proof.KPay0s.lean ====
/-
  The statistics pass at one block: the surprise and the excitation of each row.

  A block holds 4096 consecutive rows of x. The mean of a row is its sum over the 256 features divided by 256; the
  row minus its mean, squared and averaged the same way, is the row's population variance, and the surprise is the
  distance of that variance from one half. The excitation is the mean, over the 256 columns, of the absolute value
  of the row multiplied into the transposed weight. Read at row r' of block t these are the surprise and the
  excitation of row t * 4096 + r'.

  Both are "a row sum viewed as one column, divided by 256" of some [4096, 256] array: that step is read at an index
  once (`rowMean_apply`), and the two values are compositions of it with entrywise operations.
-/
import proofs.«142104_j18769007084085_2_alg».proof.Proof.Spec
import proofs.«142104_j18769007084085_2_alg».proof.Proof.LibPlainDot
import proofs.«142104_j18769007084085_2_alg».proof.Proof.KBody1a
import proofs.«142104_j18769007084085_2_alg».proof.Proof.Gen.KernelIdeal.Skeleton
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal

section Payload

open Cert.KernelIdeal.Gen

/-- The mean of each row of a [4096, 256] array, as one column: the sum along the row, divided by 256. -/
def rowMean (y : FVec Ideal S4096x256 .f32) : FVec Ideal S4096x1 .f32 :=
  divf
    (shapeCast S4096x1 (multiReduction .add [1] S4096 y 0x00000000#32 reduces_S4096x256_S4096 (.inl rfl) rfl)
      shapeCasts_S4096_S4096x1)
    (broadcast S4096x1 (Scalar.ofBits (F := Ideal) .f32 0x43800000#32))

/-- The mean of row p: the sum of its 256 entries divided by 256. -/
theorem rowMean_apply (y : FVec Ideal S4096x256 .f32) (p : Fin 4096) (w : Fin 1) :
    rowMean y (ix2 p w) = Ideal.div (∑ k : Fin 256, y (ix2 p k)) (Cert.Spec.lit 0x43800000#32) :=
  congrArg (fun s => Ideal.div s (Cert.Spec.lit 0x43800000#32))
    ((Body1.shapeCast_a_a1_apply _ _ p w).trans (Body1.rowSum_apply _ _ _ _ p))

variable (x0 : FVec Ideal S4096x256 .f32) (x2 : FVec Ideal S256x256 .bf16)

/-- Each entry minus the mean of its row. -/
def centered : FVec Ideal S4096x256 .f32 :=
  subf x0 (broadcastTo S4096x256 (rowMean x0) broadcasts_S4096x1_S4096x256)

/-- The entry (p, k) minus the mean of row p. -/
theorem centered_apply (p : Fin 4096) (k : Fin 256) :
    centered x0 (ix2 p k)
      = x0 (ix2 p k) - Ideal.div (∑ k' : Fin 256, x0 (ix2 p k')) (Cert.Spec.lit 0x43800000#32) :=
  congrArg (fun c => x0 (ix2 p k) - c)
    ((Body1.broadcastTo_a1_ab_apply _ _ p k).trans (rowMean_apply x0 p 0))

/-- The block times the second operand, into a zero accumulator. -/
def prod : FVec Ideal S4096x256 .f32 :=
  matmul dot_S4096x256_S256x256_S4096x256_1_0_0_1_n_n none (truncf .bf16 x0 bitsLt_bf16_f32)
    (shapeCast S256x256 x2 shapeCasts_S256x256_S256x256) (constant S4096x256 .f32 0x00000000#32)

/-- The product at row p and column a: the row against column a of the second operand, summed over the 256
    features. -/
theorem prod_apply (p : Fin 4096) (a : Fin 256) :
    prod x0 x2 (ix2 p a) = ∑ k : Fin 256, x0 (ix2 p k) * x2 (ix2 k a) := by
  unfold prod
  rw [shapeCast_self, Body1.dot_eq_plain]
  exact PlainDot.matmul_zero_apply none (truncf .bf16 x0 bitsLt_bf16_f32) x2 p a

/-- The first value: the mean of the squared centered entries, minus one half, in absolute value. -/
theorem pay7_eq : k0_pay7 x0 =
    absf (subf (rowMean (mulf (centered x0) (centered x0)))
      (broadcast S4096x1 (Scalar.ofBits (F := Ideal) .f32 0x3F000000#32))) := rfl

/-- The second value: the row mean of the absolute value of the product. -/
theorem pay8_eq : k0_pay8 x0 x2 = rowMean (absf (prod x0 x2)) := rfl

end Payload

/-! ## The block against the two row statistics -/

/-- Row r' of block t of the statistics pass: given that the block of x holds rows t * 4096 + r', the first value
    is the surprise of row t * 4096 + r'. -/
theorem pay7_spec (P : Cert.Spec.Args) (t : Fin 64) (x0 : Vec Ideal S4096x256 .f32)
    (hx : ∀ (r' : Fin 4096) (k : Fin 256), x0 (ix2 r' k) = P.x (ix2 (Cert.Spec.rowOf t r') k))
    (r' : Fin 4096) (u : Fin 1) :
    Gen.k0_pay7 x0 (ix2 r' u) = Cert.Spec.sur P (Cert.Spec.rowOf t r') := by
  have hm : ∀ k : Fin 256, centered x0 (ix2 r' k)
      = P.x (ix2 (Cert.Spec.rowOf t r') k) - Cert.Spec.meanx P (Cert.Spec.rowOf t r') := fun k => by
    rw [centered_apply, hx]
    unfold Cert.Spec.meanx
    exact congrArg (fun s => P.x (ix2 (Cert.Spec.rowOf t r') k) - Ideal.div s (Cert.Spec.lit 0x43800000#32))
      (Finset.sum_congr rfl fun k' _ => hx r' k')
  have hv : rowMean (mulf (centered x0) (centered x0)) (ix2 r' u) = Cert.Spec.varx P (Cert.Spec.rowOf t r') := by
    rw [rowMean_apply]
    unfold Cert.Spec.varx
    refine congrArg (fun s => Ideal.div s (Cert.Spec.lit 0x43800000#32)) (Finset.sum_congr rfl fun k _ => ?_)
    exact congrArg₂ (fun p q => p * q) (hm k) (hm k)
  refine (congrFun (pay7_eq x0) (ix2 r' u)).trans ?_
  exact congrArg (fun v => Cert.Spec.absE (v - Cert.Spec.lit 0x3F000000#32)) hv

/-- Row r' of block t of the statistics pass: given that the block of x holds rows t * 4096 + r' and that the second
    operand is the transposed weight, the second value is the excitation of row t * 4096 + r'. -/
theorem pay8_spec (P : Cert.Spec.Args) (t : Fin 64) (x0 : Vec Ideal S4096x256 .f32) (x2 : Vec Ideal S256x256 .bf16)
    (hx : ∀ (r' : Fin 4096) (k : Fin 256), x0 (ix2 r' k) = P.x (ix2 (Cert.Spec.rowOf t r') k))
    (hW : ∀ k a : Fin 256, x2 (ix2 k a) = P.W (ix2 a k))
    (r' : Fin 4096) (u : Fin 1) :
    Gen.k0_pay8 x0 x2 (ix2 r' u) = Cert.Spec.exc P (Cert.Spec.rowOf t r') := by
  have hp : ∀ a : Fin 256, prod x0 x2 (ix2 r' a) = Cert.Spec.hproj P (Cert.Spec.rowOf t r') a := fun a => by
    rw [prod_apply]
    unfold Cert.Spec.hproj
    exact Finset.sum_congr rfl fun k _ => by rw [hx, hW]
  refine (congrFun (pay8_eq x0 x2) (ix2 r' u)).trans ?_
  rw [rowMean_apply]
  unfold Cert.Spec.exc
  refine congrArg (fun s => Ideal.div s (Cert.Spec.lit 0x43800000#32)) (Finset.sum_congr rfl fun a _ => ?_)
  exact congrArg Cert.Spec.absE (hp a)

end Cert.KernelIdeal.Pay

end
-- ==== Proof.KPay0e.lean ====
/-
  The controls accumulator block over the loaded blocks themselves.

  The surprise and excitation columns computed from the block of rows and the loaded transposed weight hold the
  specification's two statistics of the block's rows; so the new controls block at (0, 0, p) is the old entry plus the
  sum over the block's rows of control p.
-/
import proofs.«142104_j18769007084085_2_alg».proof.Proof.Gen.KernelIdeal.Skeleton
import proofs.«142104_j18769007084085_2_alg».proof.Proof.Spec
import proofs.«142104_j18769007084085_2_alg».proof.Proof.KPay0a
import proofs.«142104_j18769007084085_2_alg».proof.Proof.KPay0d
import proofs.«142104_j18769007084085_2_alg».proof.Proof.KPay0s

noncomputable section

open scoped BigOperators

namespace Cert.KernelIdeal.Pay

open Idealize.ShloMosaic Idealize.ShloMosaic.ValueIdx

/-- The new controls block at (0, 0, p), from the blocks the point loads. -/
theorem pay11_spec (P : Cert.Spec.Args) (t : Fin 64)
    (x0 : Vec Ideal S4096x256 .f32) (x2 : Vec Ideal S256x256 .bf16)
    (x3 x4 x5 x6 x7 : Vec Ideal S1x16 .f32) (x8 : Vec Ideal S16x8 .f32) (x9 : Vec Ideal S1x8 .f32)
    (x10 : Vec Ideal S8x4 .f32) (x11 : Vec Ideal S1x4 .f32)
    (hx : ∀ (r' : Fin 4096) (k : Fin 256), x0 (ix2 r' k) = P.x (ix2 (Cert.Spec.rowOf t r') k))
    (hW : ∀ (k a : Fin 256), x2 (ix2 k a) = P.W (ix2 a k))
    (h3 : ∀ j : Fin 16, x3 (ix2 0 j) = P.s1w (ix2 j 0)) (h4 : ∀ j : Fin 16, x4 (ix2 0 j) = P.s1w (ix2 j 1))
    (h5 : ∀ j : Fin 16, x5 (ix2 0 j) = Cert.Spec.cvec P j) (h6 : ∀ j : Fin 16, x6 (ix2 0 j) = P.lng (ix1 j))
    (h7 : ∀ j : Fin 16, x7 (ix2 0 j) = P.lnb (ix1 j)) (h8 : ∀ (j : Fin 16) (q : Fin 8), x8 (ix2 j q) = P.s2w (ix2 q j))
    (h9 : ∀ q : Fin 8, x9 (ix2 0 q) = P.s2b (ix1 q)) (h10 : ∀ (q : Fin 8) (p : Fin 4), x10 (ix2 q p) = P.aw (ix2 p q))
    (h11 : ∀ p : Fin 4, x11 (ix2 0 p) = P.ab (ix1 p)) (prev : Vec Ideal S1x1x4 .f32) (p : Fin 4) :
    Gen.k0_pay11 (F := Ideal)
        (Gen.k0_pay10 (Gen.k0_pay7 x0) (Gen.k0_pay8 x0 x2) (Gen.k0_pay9 x3) x4 x5 x6 x7 x8) x9 x10 x11 prev (ix3 0 0 p)
      = prev (ix3 0 0 p) + ∑ r' : Fin 4096, Cert.Spec.ctl P (Cert.Spec.rowOf t r') p :=
  pay11_spec_of P t (Gen.k0_pay7 x0) (Gen.k0_pay8 x0 x2) x3 x4 x5 x6 x7 x8
    (fun r' u => pay7_spec P t x0 hx r' u) (fun r' u => pay8_spec P t x0 x2 hx hW r' u)
    h3 h4 h5 h6 h7 h8 x9 x10 x11 h9 h10 h11 prev p

end Cert.KernelIdeal.Pay

end
-- ==== Proof.KPay0b.lean ====
/-
  The clamped projection of a block's rows, read at an index.

  The block's 4096 rows (cast to the narrower format, which changes nothing at the exact values) are multiplied into the
  loaded weight window by a plain [4096, 256] by [256, 256] product and the result is clamped to [-2, 2]. At (r, a)
  this is the clamp of the sum over k of block (r, k) * window (k, a). When the block holds rows of x and the window
  holds V transposed, that is the specification's clamped projection of the block's row against row a of V.
-/
import proofs.«142104_j18769007084085_2_alg».proof.Proof.Gen.KernelIdeal.Skeleton
import proofs.«142104_j18769007084085_2_alg».proof.Proof.Spec
import proofs.«142104_j18769007084085_2_alg».proof.Proof.KPay0a

noncomputable section

open scoped BigOperators

namespace Cert.KernelIdeal.Pay

open Idealize.ShloMosaic Idealize.ShloMosaic.ValueIdx

/-- The projection's dimension numbers are those of a plain [4096, 256] by [256, 256] product. -/
theorem dotProj_eq_plain : dot_S4096x256_S256x256_S4096x256_1_0_0_1_n_n = DotDims.plain 4096 256 256 := rfl

/-- The clamped projection at (r, a), over the loaded block and the loaded (transposed) weight window: the sum over k of
    block (r, k) times window (k, a), clamped to [-2, 2]. -/
theorem pay6_apply (x0 : Vec Ideal S4096x256 .f32) (x1 : Vec Ideal S256x256 .bf16) (r : Fin 4096) (a : Fin 256) :
    Gen.k0_pay6 (F := Ideal) x0 x1 (ix2 r a) = Cert.Spec.clip (∑ k : Fin 256, x0 (ix2 r k) * x1 (ix2 k a)) := by
  unfold Gen.k0_pay6 Gen.k0_pay5 Cert.Spec.clip
  simp only [minimumf_apply, maximumf_apply, broadcast_apply]
  refine congrArg (min _) (congrArg (max _) ?_)
  refine (PlainDot.matmul_zero_apply none _ _ r a).trans ?_
  refine Finset.sum_congr rfl fun k _ => ?_
  rw [truncf_apply, shapeCast_self]

/-- With the block holding rows of x and the window holding V transposed, the payload is the specification's clamped
    projection of the block's row. -/
theorem pay6_spec (P : Cert.Spec.Args) (t : Fin 64) (x0 : Vec Ideal S4096x256 .f32) (x1 : Vec Ideal S256x256 .bf16)
    (hx : ∀ (r' : Fin 4096) (k : Fin 256), x0 (ix2 r' k) = P.x (ix2 (Cert.Spec.rowOf t r') k))
    (hV : ∀ (k a : Fin 256), x1 (ix2 k a) = P.V (ix2 a k)) (r' : Fin 4096) (a : Fin 256) :
    Gen.k0_pay6 (F := Ideal) x0 x1 (ix2 r' a) = Cert.Spec.vproj P (Cert.Spec.rowOf t r') a := by
  rw [pay6_apply]
  unfold Cert.Spec.vproj
  refine congrArg Cert.Spec.clip (Finset.sum_congr rfl fun k _ => ?_)
  rw [hx r' k, hV k a]

end Cert.KernelIdeal.Pay

end
-- ==== Proof.KPay0f.lean ====
/-
  The two block accumulators that depend on the clamped projection alone, and the zero blocks, read at an index.

  The Hebbian block [1, 256, 256] is its old contents plus the product of the clamped projection (cast to the narrower
  format, the identity at the exact values) with the block of rows, contracted over the 4096 rows: at (0, a, b) the old
  entry plus the sum over r of v (r, a) * x (r, b). The squared-projection block [1, 1, 256] is its old contents plus
  the column sums of v * v: at (0, 0, a) the old entry plus the sum over r of v (r, a) * v (r, a). The blocks stored at
  a half's first point are zero at every index.
-/
import proofs.«142104_j18769007084085_2_alg».proof.Proof.Gen.KernelIdeal.Skeleton
import proofs.«142104_j18769007084085_2_alg».proof.Proof.Spec
import proofs.«142104_j18769007084085_2_alg».proof.Proof.KPay0a
import proofs.«142104_j18769007084085_2_alg».proof.Proof.KPay0b

noncomputable section

open scoped BigOperators

namespace Cert.KernelIdeal.Pay

open Idealize.ShloMosaic Idealize.ShloMosaic.ValueIdx

/-- The Hebbian product's dimension numbers contract the rows of both operands. -/
theorem dotHebb_eq_rows : dot_S4096x256_S4096x256_S256x256_0_0_1_1_n_n = rowsDot 4096 256 256 := rfl

/-- The new Hebbian block at (u, a, b), over any two operands: the old entry plus the sum over the rows. -/
theorem pay12_apply (v4 : FVec Ideal S4096x256 .bf16) (v11 : FVec Ideal S4096x256 .f32) (prev : Vec Ideal S1x256x256 .f32)
    (u : Fin 1) (a b : Fin 256) :
    Gen.k0_pay12 (F := Ideal) v4 v11 prev (ix3 u a b)
      = prev (ix3 (0 : Fin 1) a b) + ∑ r : Fin 4096, v11 (ix2 r a) * v4 (ix2 r b) := by
  unfold Gen.k0_pay12
  simp only [shapeCast_ab_1ab_apply, addf_apply, shapeCast_1ab_ab_apply]
  refine congrArg (prev (ix3 (0 : Fin 1) a b) + ·) ?_
  refine (rowsDot_zero_apply none _ _ a b).trans ?_
  rfl

/-- With the block holding rows of x and the window V transposed: the old entry plus the block's share of the sum of
    outer products of clamped projection and input. -/
theorem pay12_spec (P : Cert.Spec.Args) (t : Fin 64) (x0 : Vec Ideal S4096x256 .f32) (x1 : Vec Ideal S256x256 .bf16)
    (hx : ∀ (r' : Fin 4096) (k : Fin 256), x0 (ix2 r' k) = P.x (ix2 (Cert.Spec.rowOf t r') k))
    (hV : ∀ (k a : Fin 256), x1 (ix2 k a) = P.V (ix2 a k)) (prev : Vec Ideal S1x256x256 .f32) (a b : Fin 256) :
    Gen.k0_pay12 (F := Ideal) (Gen.k0_pay5 x0) (Gen.k0_pay6 x0 x1) prev (ix3 0 a b)
      = prev (ix3 0 a b)
        + ∑ r' : Fin 4096, Cert.Spec.vproj P (Cert.Spec.rowOf t r') a * P.x (ix2 (Cert.Spec.rowOf t r') b) := by
  rw [pay12_apply]
  refine congrArg (prev (ix3 (0 : Fin 1) a b) + ·) (Finset.sum_congr rfl fun r' _ => ?_)
  rw [pay6_spec P t x0 x1 hx hV r' a]
  exact congrArg (Cert.Spec.vproj P (Cert.Spec.rowOf t r') a * ·) (hx r' b)

/-- The new squared-projection block at (u, u', a), over any old row and any array of squares: the old entry plus the
    column sum. -/
theorem pay1_apply (v110 : FVec Ideal S1x256 .f32) (v111 : FVec Ideal S4096x256 .f32) (u u' : Fin 1) (a : Fin 256) :
    Gen.k0_pay1 (F := Ideal) v110 v111 (ix3 u u' a) = v110 (ix2 u' a) + ∑ r : Fin 4096, v111 (ix2 r a) := by
  unfold Gen.k0_pay1
  simp only [shapeCast_ab_1ab_apply, addf_apply, shapeCast_a_1a_apply]
  rw [sumAxis0_f32]

/-- With the block holding rows of x and the window V transposed: the old entry plus the block's share of the sum of
    squared clamped projections. -/
theorem pay1_spec (P : Cert.Spec.Args) (t : Fin 64) (x0 : Vec Ideal S4096x256 .f32) (x1 : Vec Ideal S256x256 .bf16)
    (hx : ∀ (r' : Fin 4096) (k : Fin 256), x0 (ix2 r' k) = P.x (ix2 (Cert.Spec.rowOf t r') k))
    (hV : ∀ (k a : Fin 256), x1 (ix2 k a) = P.V (ix2 a k)) (prev : Vec Ideal S1x1x256 .f32) (a : Fin 256) :
    Gen.k0_pay1 (F := Ideal) (Gen.k0_pay13 prev) (Gen.k0_pay14 (Gen.k0_pay6 x0 x1)) (ix3 0 0 a)
      = prev (ix3 0 0 a)
        + ∑ r' : Fin 4096, Cert.Spec.vproj P (Cert.Spec.rowOf t r') a * Cert.Spec.vproj P (Cert.Spec.rowOf t r') a := by
  rw [pay1_apply]
  have h13 : Gen.k0_pay13 (F := Ideal) prev (ix2 (0 : Fin 1) a) = prev (ix3 (0 : Fin 1) (0 : Fin 1) a) := by
    unfold Gen.k0_pay13
    simp only [shapeCast_1ab_ab_apply]
  rw [h13]
  refine congrArg (prev (ix3 (0 : Fin 1) (0 : Fin 1) a) + ·) (Finset.sum_congr rfl fun r' _ => ?_)
  show Gen.k0_pay6 (F := Ideal) x0 x1 (ix2 r' a) * Gen.k0_pay6 (F := Ideal) x0 x1 (ix2 r' a) = _
  rw [pay6_spec P t x0 x1 hx hV r' a]

/-- The zero Hebbian block reads zero. -/
theorem pay2_zero (a b : Fin 256) : Gen.k0_pay2 (F := Ideal) (ix3 0 a b) = 0 := by
  unfold Gen.k0_pay2
  simp only [shapeCast_ab_1ab_apply, broadcast_apply]
  exact Ideal.ofBits_zero_f32

/-- The zero squared-projection block reads zero. -/
theorem pay3_zero (a : Fin 256) : Gen.k0_pay3 (F := Ideal) (ix3 0 0 a) = 0 := by
  unfold Gen.k0_pay3
  simp only [shapeCast_ab_1ab_apply, broadcast_apply]
  exact Ideal.ofBits_zero_f32

/-- The zero controls block reads zero. -/
theorem pay4_zero (p : Fin 4) : Gen.k0_pay4 (F := Ideal) (ix3 0 0 p) = 0 := by
  unfold Gen.k0_pay4
  simp only [shapeCast_ab_1ab_apply, broadcast_apply]
  exact Ideal.ofBits_zero_f32

end Cert.KernelIdeal.Pay

end
-- ==== Proof.KBody0s.lean ====
/-
  The two families of facts the statistics pass's running totals rest on, for the specification's arrays.

  First: what one run of the body adds. For loaded blocks that hold block t of the rows of x and the transposed
  parameter arrays, the new outer-product, squares and controls blocks are the old ones plus the block's sums over
  its 4096 rows of clamped projection times input, squared clamped projection, and control; and the zero blocks read
  zero. Second: what the windows stage. Given the twelve arrays the pass reads as functions of the arguments (x
  itself; V and W transposed; rows 0 and 1 of the transposed first weight; the row-free vector; scale and shift rows;
  the second and third weights transposed and their bias rows), the block staged at point n is block n of the rows
  of x, and each parameter block is its whole array.
-/
import proofs.«142104_j18769007084085_2_alg».proof.Proof.KBody0d
import proofs.«142104_j18769007084085_2_alg».proof.Proof.KBody0r
import proofs.«142104_j18769007084085_2_alg».proof.Proof.KPay0e
import proofs.«142104_j18769007084085_2_alg».proof.Proof.KPay0f

noncomputable section

open scoped BigOperators

namespace Cert.KernelIdeal.Body0s

open Idealize.ShloMosaic Idealize.ShloMosaic.TcCoe Idealize.ShloMosaic.ValueIdx Idealize.SL.Sem
open Cert.KernelIdeal Cert.KernelIdeal.Gen

/-- One run of the body adds the block's sums, and the zero blocks read zero. -/
theorem pointFacts (P : Cert.Spec.Args) : Cert.KernelIdeal.Body0.PointFacts P where
  pay12 := fun t x0 x1 hx hV prev a b => Pay.pay12_spec P t x0 x1 hx hV prev a b
  pay1 := fun t x0 x1 hx hV prev a => Pay.pay1_spec P t x0 x1 hx hV prev a
  pay11 := fun t x0 x2 x3 x4 x5 x6 x7 x8 x9 x10 x11 hx hW h3 h4 h5 h6 h7 h8 h9 h10 h11 prev p =>
    Pay.pay11_spec P t x0 x2 x3 x4 x5 x6 x7 x8 x9 x10 x11 hx hW h3 h4 h5 h6 h7 h8 h9 h10 h11 prev p
  zero2 := Pay.pay2_zero
  zero3 := Pay.pay3_zero
  zero4 := Pay.pay4_zero

/-- The staged blocks, entry by entry, from the twelve arrays as functions of the arguments. -/
theorem blockFacts (V : (c : Dev nD) → (b : Ref sig .tc) → Buf (Elt Ideal) ((c : Thread nD τ).loc b)) (c : Dev nD)
    (P : Cert.Spec.Args)
    (hA0 : (V c main_arg0 : S262144x256.Idx → EReal) = P.x)
    (hA1 : (V c main_v2 : S256x256.Idx → EReal) = fun i => P.V (ix2 (i 1) (i 0)))
    (hA2 : (V c main_v4 : S256x256.Idx → EReal) = fun i => P.W (ix2 (i 1) (i 0)))
    (hA3 : (V c main_v14 : S1x16.Idx → EReal) = fun i => P.s1w (ix2 (i 1) (0 : Fin 4)))
    (hA4 : (V c main_v15 : S1x16.Idx → EReal) = fun i => P.s1w (ix2 (i 1) (1 : Fin 4)))
    (hA5 : (V c main_v23 : S1x16.Idx → EReal) = fun i => Cert.Spec.cvec P (i 1))
    (hA6 : (V c main_v9 : S1x16.Idx → EReal) = fun i => P.lng (ix1 (i 1)))
    (hA7 : (V c main_v10 : S1x16.Idx → EReal) = fun i => P.lnb (ix1 (i 1)))
    (hA8 : (V c main_v6 : S16x8.Idx → EReal) = fun i => P.s2w (ix2 (i 1) (i 0)))
    (hA9 : (V c main_v11 : S1x8.Idx → EReal) = fun i => P.s2b (ix1 (i 1)))
    (hA10 : (V c main_v7 : S8x4.Idx → EReal) = fun i => P.aw (ix2 (i 1) (i 0)))
    (hA11 : (V c main_v12 : S1x4.Idx → EReal) = fun i => P.ab (ix1 (i 1))) :
    Cert.KernelIdeal.Body0.BlockFacts V c P where
  b0 := fun n h r' k => (Body0r.blk0_apply V c ⟨n, h⟩ r' k).trans (congrFun hA0 _)
  b1 := fun n h k a => (Body0r.blk1_apply V c ⟨n, h⟩ (ix2 k a)).trans (congrFun hA1 (ix2 k a))
  b2 := fun n h k a => (Body0r.blk2_apply V c ⟨n, h⟩ (ix2 k a)).trans (congrFun hA2 (ix2 k a))
  b3 := fun n h j => (Body0r.blk3_apply V c ⟨n, h⟩ (ix2 (0 : Fin 1) j)).trans (congrFun hA3 (ix2 (0 : Fin 1) j))
  b4 := fun n h j => (Body0r.blk4_apply V c ⟨n, h⟩ (ix2 (0 : Fin 1) j)).trans (congrFun hA4 (ix2 (0 : Fin 1) j))
  b5 := fun n h j => (Body0r.blk5_apply V c ⟨n, h⟩ (ix2 (0 : Fin 1) j)).trans (congrFun hA5 (ix2 (0 : Fin 1) j))
  b6 := fun n h j => (Body0r.blk6_apply V c ⟨n, h⟩ (ix2 (0 : Fin 1) j)).trans (congrFun hA6 (ix2 (0 : Fin 1) j))
  b7 := fun n h j => (Body0r.blk7_apply V c ⟨n, h⟩ (ix2 (0 : Fin 1) j)).trans (congrFun hA7 (ix2 (0 : Fin 1) j))
  b8 := fun n h j q => (Body0r.blk8_apply V c ⟨n, h⟩ (ix2 j q)).trans (congrFun hA8 (ix2 j q))
  b9 := fun n h q => (Body0r.blk9_apply V c ⟨n, h⟩ (ix2 (0 : Fin 1) q)).trans (congrFun hA9 (ix2 (0 : Fin 1) q))
  b10 := fun n h q p => (Body0r.blk10_apply V c ⟨n, h⟩ (ix2 q p)).trans (congrFun hA10 (ix2 q p))
  b11 := fun n h p => (Body0r.blk11_apply V c ⟨n, h⟩ (ix2 (0 : Fin 1) p)).trans (congrFun hA11 (ix2 (0 : Fin 1) p))

end Cert.KernelIdeal.Body0s

end
-- ==== Proof.KBody0f.lean ====
/-
  The statistics pass's three results from the arrays the region finds.

  When the region is entered the twelve operand arrays hold the input and the transposed or re-laid parameters. Then
  the blocks staged at each point hold the rows of that block and the whole parameter arrays, one run of the body adds
  that block's row sums to each accumulator, and after the run each result entry is the sum over its half's blocks and
  rows: no leading zero remains, and the sum over blocks is over the 32 block numbers of the half.
-/
import proofs.«142104_j18769007084085_2_alg».proof.Proof.Gen.KernelIdeal.Frame
import Idealize.ShloMosaic.Lib.Pipeline.Value
import Idealize.ShloMosaic.Lib.Tactic
import proofs.«142104_j18769007084085_2_alg».proof.Proof.KBody0e
import proofs.«142104_j18769007084085_2_alg».proof.Proof.KBody0s
set_option maxRecDepth 16384

noncomputable section

namespace Cert.KernelIdeal.Body0

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

open Idealize.ShloMosaic.ValueIdx Cert.Spec
open scoped BigOperators

variable (V : (c : Dev nD) → (b : Ref sig .tc) → Buf (Elt Ideal) ((c : Thread nD τ).loc b)) (c : Dev nD) (P : Cert.Spec.Args)

/-- After the run, result 0 holds at every entry the sum over its half's 32 blocks and each block's 4096 rows of
    the outer products of clamped projection and input. -/
theorem arrAt12 (hA0 : (V c main_arg0 : S262144x256.Idx → EReal) = P.x)
    (hA1 : (V c main_v2 : S256x256.Idx → EReal) = fun i => P.V (ix2 (i 1) (i 0)))
    (hA2 : (V c main_v4 : S256x256.Idx → EReal) = fun i => P.W (ix2 (i 1) (i 0)))
    (hA3 : (V c main_v14 : S1x16.Idx → EReal) = fun i => P.s1w (ix2 (i 1) (0 : Fin 4)))
    (hA4 : (V c main_v15 : S1x16.Idx → EReal) = fun i => P.s1w (ix2 (i 1) (1 : Fin 4)))
    (hA5 : (V c main_v23 : S1x16.Idx → EReal) = fun i => cvec P (i 1))
    (hA6 : (V c main_v9 : S1x16.Idx → EReal) = fun i => P.lng (ix1 (i 1)))
    (hA7 : (V c main_v10 : S1x16.Idx → EReal) = fun i => P.lnb (ix1 (i 1)))
    (hA8 : (V c main_v6 : S16x8.Idx → EReal) = fun i => P.s2w (ix2 (i 1) (i 0)))
    (hA9 : (V c main_v11 : S1x8.Idx → EReal) = fun i => P.s2b (ix1 (i 1)))
    (hA10 : (V c main_v7 : S8x4.Idx → EReal) = fun i => P.aw (ix2 (i 1) (i 0)))
    (hA11 : (V c main_v12 : S1x4.Idx → EReal) = fun i => P.ab (ix1 (i 1))) :
    (dat0 V c).arrAt 12 cfg0.N = fun i : S2x256x256.Idx =>
      ∑ n : Fin 32, ∑ r' : Fin 4096, vproj P (rowOf (blockOf (i 0) n) r') (i 1) * P.x (ix2 (rowOf (blockOf (i 0) n) r') (i 2)) :=
  arrAt12_eq (Cert.KernelIdeal.Body0s.pointFacts P) (Cert.KernelIdeal.Body0s.blockFacts V c P hA0 hA1 hA2 hA3 hA4 hA5 hA6 hA7 hA8 hA9 hA10 hA11)

/-- After the run, result 1 holds at every entry the sum over its half's 32 blocks and each block's 4096 rows of
    the squared clamped projections. -/
theorem arrAt13 (hA0 : (V c main_arg0 : S262144x256.Idx → EReal) = P.x)
    (hA1 : (V c main_v2 : S256x256.Idx → EReal) = fun i => P.V (ix2 (i 1) (i 0)))
    (hA2 : (V c main_v4 : S256x256.Idx → EReal) = fun i => P.W (ix2 (i 1) (i 0)))
    (hA3 : (V c main_v14 : S1x16.Idx → EReal) = fun i => P.s1w (ix2 (i 1) (0 : Fin 4)))
    (hA4 : (V c main_v15 : S1x16.Idx → EReal) = fun i => P.s1w (ix2 (i 1) (1 : Fin 4)))
    (hA5 : (V c main_v23 : S1x16.Idx → EReal) = fun i => cvec P (i 1))
    (hA6 : (V c main_v9 : S1x16.Idx → EReal) = fun i => P.lng (ix1 (i 1)))
    (hA7 : (V c main_v10 : S1x16.Idx → EReal) = fun i => P.lnb (ix1 (i 1)))
    (hA8 : (V c main_v6 : S16x8.Idx → EReal) = fun i => P.s2w (ix2 (i 1) (i 0)))
    (hA9 : (V c main_v11 : S1x8.Idx → EReal) = fun i => P.s2b (ix1 (i 1)))
    (hA10 : (V c main_v7 : S8x4.Idx → EReal) = fun i => P.aw (ix2 (i 1) (i 0)))
    (hA11 : (V c main_v12 : S1x4.Idx → EReal) = fun i => P.ab (ix1 (i 1))) :
    (dat0 V c).arrAt 13 cfg0.N = fun i : S2x1x256.Idx =>
      ∑ n : Fin 32, ∑ r' : Fin 4096, vproj P (rowOf (blockOf (i 0) n) r') (i 2) * vproj P (rowOf (blockOf (i 0) n) r') (i 2) :=
  arrAt13_eq (Cert.KernelIdeal.Body0s.pointFacts P) (Cert.KernelIdeal.Body0s.blockFacts V c P hA0 hA1 hA2 hA3 hA4 hA5 hA6 hA7 hA8 hA9 hA10 hA11)

/-- After the run, result 2 holds at every entry the sum over its half's 32 blocks and each block's 4096 rows of
    the controls. -/
theorem arrAt14 (hA0 : (V c main_arg0 : S262144x256.Idx → EReal) = P.x)
    (hA1 : (V c main_v2 : S256x256.Idx → EReal) = fun i => P.V (ix2 (i 1) (i 0)))
    (hA2 : (V c main_v4 : S256x256.Idx → EReal) = fun i => P.W (ix2 (i 1) (i 0)))
    (hA3 : (V c main_v14 : S1x16.Idx → EReal) = fun i => P.s1w (ix2 (i 1) (0 : Fin 4)))
    (hA4 : (V c main_v15 : S1x16.Idx → EReal) = fun i => P.s1w (ix2 (i 1) (1 : Fin 4)))
    (hA5 : (V c main_v23 : S1x16.Idx → EReal) = fun i => cvec P (i 1))
    (hA6 : (V c main_v9 : S1x16.Idx → EReal) = fun i => P.lng (ix1 (i 1)))
    (hA7 : (V c main_v10 : S1x16.Idx → EReal) = fun i => P.lnb (ix1 (i 1)))
    (hA8 : (V c main_v6 : S16x8.Idx → EReal) = fun i => P.s2w (ix2 (i 1) (i 0)))
    (hA9 : (V c main_v11 : S1x8.Idx → EReal) = fun i => P.s2b (ix1 (i 1)))
    (hA10 : (V c main_v7 : S8x4.Idx → EReal) = fun i => P.aw (ix2 (i 1) (i 0)))
    (hA11 : (V c main_v12 : S1x4.Idx → EReal) = fun i => P.ab (ix1 (i 1))) :
    (dat0 V c).arrAt 14 cfg0.N = fun i : S2x1x4.Idx =>
      ∑ n : Fin 32, ∑ r' : Fin 4096, ctl P (rowOf (blockOf (i 0) n) r') (i 2) :=
  arrAt14_eq (Cert.KernelIdeal.Body0s.pointFacts P) (Cert.KernelIdeal.Body0s.blockFacts V c P hA0 hA1 hA2 hA3 hA4 hA5 hA6 hA7 hA8 hA9 hA10 hA11)

end Cert.KernelIdeal.Body0

end
-- ==== Proof.KFinal.lean ====
/-
  The idealized kernel program's two results are the specification's two arrays: the statistics pass's three arrays
  are, per half of the rows, the sums over that half of the specification's per-row terms; added over the two halves they
  are the specification's sums over all rows, which the host arithmetic and the output pass turn into the two results.
-/
import proofs.«142104_j18769007084085_2_alg».proof.Proof.KBridge
import proofs.«142104_j18769007084085_2_alg».proof.Proof.KBody0f

set_option maxRecDepth 16384

noncomputable section

open scoped BigOperators

namespace Cert.KernelIdeal.Bridge

open Idealize.ShloMosaic Idealize.ShloMosaic.ValueIdx Idealize.SL.Sem
open Cert.KernelIdeal Cert.KernelIdeal.Gen Cert.KernelIdeal.Host0 Cert.KernelIdeal.Host1

variable (m : (ℓ : Loc nD τ sig) → Buf (Elt Ideal) ℓ) (ρ : Dev nD → PrngReg) (c : Dev nD)

/-- The accumulated outer products after the statistics pass. -/
theorem w3_v24_0 : (W3 m ρ c (Proc.devRef .tc main_v24_0) : S2x256x256.Idx → EReal)
    = fun i => ∑ n : Fin 32, ∑ r' : Fin 4096,
        Cert.Spec.vproj (argsK m c) (Cert.Spec.rowOf (Cert.Spec.blockOf (i 0) n) r') (i 1)
          * (argsK m c).x (ix2 (Cert.Spec.rowOf (Cert.Spec.blockOf (i 0) n) r') (i 2)) :=
  (W3_arr m ρ c 12).trans (Cert.KernelIdeal.Body0.arrAt12 (V2 m ρ) c (argsK m c) (w2_arg0 m ρ c) (w2_v2 m ρ c) (w2_v4 m ρ c)
    (w2_v14 m ρ c) (w2_v15 m ρ c) (w2_v23 m ρ c) (w2_v9 m ρ c) (w2_v10 m ρ c) (w2_v6 m ρ c) (w2_v11 m ρ c) (w2_v7 m ρ c)
    (w2_v12 m ρ c))

/-- The accumulated squares after the statistics pass. -/
theorem w3_v24_1 : (W3 m ρ c (Proc.devRef .tc main_v24_1) : S2x1x256.Idx → EReal)
    = fun i => ∑ n : Fin 32, ∑ r' : Fin 4096,
        Cert.Spec.vproj (argsK m c) (Cert.Spec.rowOf (Cert.Spec.blockOf (i 0) n) r') (i 2)
          * Cert.Spec.vproj (argsK m c) (Cert.Spec.rowOf (Cert.Spec.blockOf (i 0) n) r') (i 2) :=
  (W3_arr m ρ c 13).trans (Cert.KernelIdeal.Body0.arrAt13 (V2 m ρ) c (argsK m c) (w2_arg0 m ρ c) (w2_v2 m ρ c) (w2_v4 m ρ c)
    (w2_v14 m ρ c) (w2_v15 m ρ c) (w2_v23 m ρ c) (w2_v9 m ρ c) (w2_v10 m ρ c) (w2_v6 m ρ c) (w2_v11 m ρ c) (w2_v7 m ρ c)
    (w2_v12 m ρ c))

/-- The accumulated controls after the statistics pass. -/
theorem w3_v24_2 : (W3 m ρ c (Proc.devRef .tc main_v24_2) : S2x1x4.Idx → EReal)
    = fun i => ∑ n : Fin 32, ∑ r' : Fin 4096,
        Cert.Spec.ctl (argsK m c) (Cert.Spec.rowOf (Cert.Spec.blockOf (i 0) n) r') (i 2) :=
  (W3_arr m ρ c 14).trans (Cert.KernelIdeal.Body0.arrAt14 (V2 m ρ) c (argsK m c) (w2_arg0 m ρ c) (w2_v2 m ρ c) (w2_v4 m ρ c)
    (w2_v14 m ρ c) (w2_v15 m ρ c) (w2_v23 m ρ c) (w2_v9 m ρ c) (w2_v10 m ρ c) (w2_v6 m ρ c) (w2_v11 m ρ c) (w2_v7 m ρ c)
    (w2_v12 m ρ c))

/-- The first result is the specification's. -/
theorem k_out : (W7 m ρ c (Proc.devRef .tc main_v55) : S262144x256.Idx → EReal) = Cert.Spec.outArr (argsK m c) :=
  kOut m ρ c (fun k p => congrFun (w3_v24_2 m ρ c) (ix3 k (0 : Fin 1) p))

/-- The second result is the specification's. -/
theorem k_mem : (W7 m ρ c (Proc.devRef .tc main_v53) : S256x256.Idx → EReal) = Cert.Spec.memArr (argsK m c) :=
  kMem m ρ c (fun k a b => congrFun (w3_v24_0 m ρ c) (ix3 k a b)) (fun k a => congrFun (w3_v24_1 m ρ c) (ix3 k (0 : Fin 1) a))
    (fun k p => congrFun (w3_v24_2 m ρ c) (ix3 k (0 : Fin 1) p))

end Cert.KernelIdeal.Bridge

end
-- ==== Proof.RArgs.lean ====
/-
  The fourteen argument arrays of the idealized reference program, as the specification's record.
-/
import proofs.«142104_j18769007084085_2_alg».proof.ReferenceIdeal
import proofs.«142104_j18769007084085_2_alg».proof.Proof.Spec

noncomputable section

namespace Cert.ReferenceIdeal.Bridge

open Idealize.ShloMosaic Idealize.SL.Sem Cert.ReferenceIdeal

/-- The argument arrays a memory holds on core c. -/
def argsR (m : (ℓ : Loc nD τ sig) → Buf (Elt Ideal) ℓ) (c : Dev nD) : Cert.Spec.Args where
  x := m ((c.tc : Thread nD τ).loc main_arg0)
  W := m ((c.tc : Thread nD τ).loc main_arg1)
  V := m ((c.tc : Thread nD τ).loc main_arg2)
  gw := m ((c.tc : Thread nD τ).loc main_arg3)
  gb := m ((c.tc : Thread nD τ).loc main_arg4)
  s1w := m ((c.tc : Thread nD τ).loc main_arg5)
  s1b := m ((c.tc : Thread nD τ).loc main_arg6)
  lng := m ((c.tc : Thread nD τ).loc main_arg7)
  lnb := m ((c.tc : Thread nD τ).loc main_arg8)
  s2w := m ((c.tc : Thread nD τ).loc main_arg9)
  s2b := m ((c.tc : Thread nD τ).loc main_arg10)
  aw := m ((c.tc : Thread nD τ).loc main_arg11)
  ab := m ((c.tc : Thread nD τ).loc main_arg12)
  sm := m ((c.tc : Thread nD τ).loc main_arg13)

end Cert.ReferenceIdeal.Bridge

end
-- ==== Proof.RefOps.lean ====
/-
  The reference program's operations as one straight line.

  The program is a sequence of tensor operations; six of them are calls of small functions (a clamp to an interval,
  twice; a Frobenius norm, twice; a row variance, which itself calls a selection; a cut at zero). A call executes the
  callee's operations on the caller's operands, each value of the callee in a buffer of the call's own record, so
  the whole program is the list below: the caller's operations in program order, each call replaced by the callee's
  operations written over that call's record. The list is cut in two after the division that ends the logistic
  function of the four controls: `opsHead` computes every row's controls, `opsTail` everything that is computed
  from them.
-/
import proofs.«142104_j18769007084085_2_alg».proof.ReferenceIdeal
import Idealize.ShloMosaic.Lib.StableHlo.Run
import Idealize.ShloMosaic.Lib.Pipeline.Frame

set_option synthInstance.maxSize 4096

noncomputable section

namespace Cert.ReferenceIdeal.RefOps

open Idealize.ShloMosaic Idealize.SL.Sem
open Cert.ReferenceIdeal.Facts₀ Cert.ReferenceIdeal.Facts

variable {F : FTy → Type} [FloatOps F] [Facts]

set_option maxHeartbeats 4000000 in
set_option maxRecDepth 4096 in
/-- The operations up to and including the logistic function of the controls (113 of them): the two projections,
    the clamp, the norm of the weight, the row variance with its selection, the state's four columns, the three
    affine maps with the layer normalisation, tanh and the cut at zero between them, and `1 / (1 + exp (-·))`. -/
abbrev opsHead : List (HloOp τ sig (Elt F)) :=
  [ StableHlo.unary main_arg2 main_v0 ((transpose S256x256 [1, 0] · transposes_S256x256_S256x256_1_0) : (⟨S256x256, .f32⟩ : BufTy).Contents (Elt F) → (⟨S256x256, .f32⟩ : BufTy).Contents (Elt F)),
    StableHlo.binary main_arg0 main_v0 main_v1 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    StableHlo.nullary main_cst (constant S_ .f32 0xC0000000#32),
    StableHlo.nullary main_cst_0 (constant S_ .f32 0x40000000#32),
    StableHlo.TRef.unary (.of main_cst : StableHlo.TRef sig ⟨S_, .f32⟩) main_call0.v0 id,
    StableHlo.TRef.unary main_call0.v0 main_call0.v1 (broadcastInDim S262144x256 ![] bcast_S_S262144x256),
    StableHlo.TRef.binary main_call0.v1 (.of main_v1 : StableHlo.TRef sig ⟨S262144x256, .f32⟩) main_call0.v2 maximumf,
    StableHlo.TRef.unary (.of main_cst_0 : StableHlo.TRef sig ⟨S_, .f32⟩) main_call0.v3 id,
    StableHlo.TRef.unary main_call0.v3 main_call0.v4 (broadcastInDim S262144x256 ![] bcast_S_S262144x256),
    StableHlo.TRef.binary main_call0.v4 main_call0.v2 main_call0.v5 minimumf,
    StableHlo.unary main_arg1 main_v3 ((transpose S256x256 [1, 0] · transposes_S256x256_S256x256_1_0) : (⟨S256x256, .f32⟩ : BufTy).Contents (Elt F) → (⟨S256x256, .f32⟩ : BufTy).Contents (Elt F)),
    StableHlo.binary main_arg0 main_v3 main_v4 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    StableHlo.TRef.binary (.of main_arg1 : StableHlo.TRef sig ⟨S256x256, .f32⟩) (.of main_arg1 : StableHlo.TRef sig ⟨S256x256, .f32⟩) main_call1.v0 mulf,
    StableHlo.TRef.nullary main_call1.cst (constant S_ .f32 0x00000000#32),
    StableHlo.TRef.binary main_call1.v0 main_call1.cst main_call1.v1 (fun x v => Host.reduceAdd x v reducesTo_S256x256_S_d0_1 h_S_),
    StableHlo.TRef.unary main_call1.v1 main_call1.v2 Host.sqrt,
    StableHlo.nullary main_c (constantI S_ 32 0#32),
    StableHlo.TRef.nullary main_call2.cst (constant S_ .f32 0x00000000#32),
    StableHlo.TRef.binary (.of main_arg0 : StableHlo.TRef sig ⟨S262144x256, .f32⟩) main_call2.cst main_call2.v0 (fun x v => Host.reduceAdd x v reducesTo_S262144x256_S262144_d1 h_S_),
    StableHlo.TRef.unary main_call2.v0 main_call2.v1 (broadcastInDim S262144x1 ![0] bcast_S262144_S262144x1_0),
    StableHlo.TRef.nullary main_call2.cst_0 (constant S_ .f32 0x43800000#32),
    StableHlo.TRef.unary main_call2.cst_0 main_call2.v2 (broadcastInDim S262144x1 ![] bcast_S_S262144x1),
    StableHlo.TRef.binary main_call2.v1 main_call2.v2 main_call2.v3 Host.divf,
    StableHlo.TRef.unary main_call2.v3 main_call2.v4 (broadcastInDim S262144x256 ![0, 1] bcast_S262144x1_S262144x256_0_1),
    StableHlo.TRef.binary (.of main_arg0 : StableHlo.TRef sig ⟨S262144x256, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x43800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S262144x256_S262144_d1 h_S_),
    StableHlo.TRef.unary main_call2.v8 main_call2.v10 (broadcastInDim S262144 ![] bcast_S_S262144),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S262144 ![] bcast_S_S262144),
    StableHlo.TRef.ternary main_call2.v12 main_call2.v11 main_call2.call0.v1 main_call2.call0.v2 (fun p a b => select (broadcastInDim S262144 ![] bcast_S_S262144 p) a b),
    StableHlo.nullary main_cst_1 (constant S_ .f32 0x3F000000#32),
    StableHlo.unary main_cst_1 main_v7 (broadcastInDim S262144 ![] bcast_S_S262144 : (⟨S_, .f32⟩ : BufTy).Contents (Elt F) → (⟨S262144, .f32⟩ : BufTy).Contents (Elt F)),
    StableHlo.binary main_v6 main_v7 main_v8 (subf : (⟨S262144, .f32⟩ : BufTy).Contents (Elt F) → (⟨S262144, .f32⟩ : BufTy).Contents (Elt F) → (⟨S262144, .f32⟩ : BufTy).Contents (Elt F)),
    StableHlo.unary main_v8 main_v9 (Host.absf : (⟨S262144, .f32⟩ : BufTy).Contents (Elt F) → (⟨S262144, .f32⟩ : BufTy).Contents (Elt F)),
    StableHlo.unary main_v4 main_v10 (Host.absf : (⟨S262144x256, .f32⟩ : BufTy).Contents (Elt F) → (⟨S262144x256, .f32⟩ : BufTy).Contents (Elt F)),
    StableHlo.nullary main_cst_2 (constant S_ .f32 0x00000000#32),
    StableHlo.binary main_v10 main_cst_2 main_v11 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    StableHlo.nullary main_cst_3 (constant S_ .f32 0x43800000#32),
    StableHlo.unary main_cst_3 main_v12 (broadcastInDim S262144 ![] bcast_S_S262144 : (⟨S_, .f32⟩ : BufTy).Contents (Elt F) → (⟨S262144, .f32⟩ : BufTy).Contents (Elt F)),
    StableHlo.binary main_v11 main_v12 main_v13 (Host.divf : (⟨S262144, .f32⟩ : BufTy).Contents (Elt F) → (⟨S262144, .f32⟩ : BufTy).Contents (Elt F) → (⟨S262144, .f32⟩ : BufTy).Contents (Elt F)),
    StableHlo.unary main_v5 main_v14 (broadcastInDim S262144 ![] bcast_S_S262144 : (⟨S_, .f32⟩ : BufTy).Contents (Elt F) → (⟨S262144, .f32⟩ : BufTy).Contents (Elt F)),
    StableHlo.nullary main_cst_4 (constant S_ .f32 0x3F000000#32),
    StableHlo.unary main_cst_4 main_v15 (broadcastInDim S262144 ![] bcast_S_S262144 : (⟨S_, .f32⟩ : BufTy).Contents (Elt F) → (⟨S262144, .f32⟩ : BufTy).Contents (Elt F)),
    StableHlo.unary main_v9 main_v16 (broadcastInDim S262144x1 ![0] bcast_S262144_S262144x1_0 : (⟨S262144, .f32⟩ : BufTy).Contents (Elt F) → (⟨S262144x1, .f32⟩ : BufTy).Contents (Elt F)),
    StableHlo.unary main_v13 main_v17 (broadcastInDim S262144x1 ![0] bcast_S262144_S262144x1_0 : (⟨S262144, .f32⟩ : BufTy).Contents (Elt F) → (⟨S262144x1, .f32⟩ : BufTy).Contents (Elt F)),
    StableHlo.unary main_v14 main_v18 (broadcastInDim S262144x1 ![0] bcast_S262144_S262144x1_0 : (⟨S262144, .f32⟩ : BufTy).Contents (Elt F) → (⟨S262144x1, .f32⟩ : BufTy).Contents (Elt F)),
    StableHlo.unary main_v15 main_v19 (broadcastInDim S262144x1 ![0] bcast_S262144_S262144x1_0 : (⟨S262144, .f32⟩ : BufTy).Contents (Elt F) → (⟨S262144x1, .f32⟩ : BufTy).Contents (Elt F)),
    StableHlo.nary ![main_v16, main_v17, main_v18, main_v19] main_v20 (fun u => concatenate S262144x4 1 [⟨S262144x1, u 0⟩, ⟨S262144x1, u 1⟩, ⟨S262144x1, u 2⟩, ⟨S262144x1, u 3⟩] concatenates_S262144x1_S262144x1_S262144x1_S262144x1_S262144x4_d1),
    StableHlo.unary main_arg5 main_v21 ((transpose S4x16 [1, 0] · transposes_S16x4_S4x16_1_0) : (⟨S16x4, .f32⟩ : BufTy).Contents (Elt F) → (⟨S4x16, .f32⟩ : BufTy).Contents (Elt F)),
    StableHlo.binary main_v20 main_v21 main_v22 ((fun l r => Host.dotGeneral dot_S262144x4_S4x16_S262144x16_1_0_0_1_n_n none l r) : (⟨S262144x4, .f32⟩ : BufTy).Contents (Elt F) → (⟨S4x16, .f32⟩ : BufTy).Contents (Elt F) → (⟨S262144x16, .f32⟩ : BufTy).Contents (Elt F)),
    StableHlo.unary main_arg6 main_v23 (broadcastInDim S1x16 ![1] bcast_S16_S1x16_1 : (⟨S16, .f32⟩ : BufTy).Contents (Elt F) → (⟨S1x16, .f32⟩ : BufTy).Contents (Elt F)),
    StableHlo.unary main_v23 main_v24 (broadcastInDim S262144x16 ![0, 1] bcast_S1x16_S262144x16_0_1 : (⟨S1x16, .f32⟩ : BufTy).Contents (Elt F) → (⟨S262144x16, .f32⟩ : BufTy).Contents (Elt F)),
    StableHlo.binary main_v22 main_v24 main_v25 (addf : (⟨S262144x16, .f32⟩ : BufTy).Contents (Elt F) → (⟨S262144x16, .f32⟩ : BufTy).Contents (Elt F) → (⟨S262144x16, .f32⟩ : BufTy).Contents (Elt F)),
    StableHlo.nullary main_cst_5 (constant S_ .f32 0x00000000#32),
    StableHlo.binary main_v25 main_cst_5 main_v26 ((fun x v => Host.reduceAdd x v reducesTo_S262144x16_S262144_d1 h_S_) : (⟨S262144x16, .f32⟩ : BufTy).Contents (Elt F) → (⟨S_, .f32⟩ : BufTy).Contents (Elt F) → (⟨S262144, .f32⟩ : BufTy).Contents (Elt F)),
    StableHlo.unary main_v26 main_v27 (broadcastInDim S262144x1 ![0] bcast_S262144_S262144x1_0 : (⟨S262144, .f32⟩ : BufTy).Contents (Elt F) → (⟨S262144x1, .f32⟩ : BufTy).Contents (Elt F)),
    StableHlo.nullary main_cst_6 (constant S_ .f32 0x41800000#32),
    StableHlo.unary main_cst_6 main_v28 (broadcastInDim S262144x1 ![] bcast_S_S262144x1 : (⟨S_, .f32⟩ : BufTy).Contents (Elt F) → (⟨S262144x1, .f32⟩ : BufTy).Contents (Elt F)),
    StableHlo.binary main_v27 main_v28 main_v29 (Host.divf : (⟨S262144x1, .f32⟩ : BufTy).Contents (Elt F) → (⟨S262144x1, .f32⟩ : BufTy).Contents (Elt F) → (⟨S262144x1, .f32⟩ : BufTy).Contents (Elt F)),
    StableHlo.unary main_v29 main_v30 (broadcastInDim S262144x16 ![0, 1] bcast_S262144x1_S262144x16_0_1 : (⟨S262144x1, .f32⟩ : BufTy).Contents (Elt F) → (⟨S262144x16, .f32⟩ : BufTy).Contents (Elt F)),
    StableHlo.binary main_v25 main_v30 main_v31 (subf : (⟨S262144x16, .f32⟩ : BufTy).Contents (Elt F) → (⟨S262144x16, .f32⟩ : BufTy).Contents (Elt F) → (⟨S262144x16, .f32⟩ : BufTy).Contents (Elt F)),
    StableHlo.binary main_v31 main_v31 main_v32 (mulf : (⟨S262144x16, .f32⟩ : BufTy).Contents (Elt F) → (⟨S262144x16, .f32⟩ : BufTy).Contents (Elt F) → (⟨S262144x16, .f32⟩ : BufTy).Contents (Elt F)),
    StableHlo.nullary main_cst_7 (constant S_ .f32 0x00000000#32),
    StableHlo.binary main_v32 main_cst_7 main_v33 ((fun x v => Host.reduceAdd x v reducesTo_S262144x16_S262144_d1 h_S_) : (⟨S262144x16, .f32⟩ : BufTy).Contents (Elt F) → (⟨S_, .f32⟩ : BufTy).Contents (Elt F) → (⟨S262144, .f32⟩ : BufTy).Contents (Elt F)),
    StableHlo.unary main_v33 main_v34 (broadcastInDim S262144x1 ![0] bcast_S262144_S262144x1_0 : (⟨S262144, .f32⟩ : BufTy).Contents (Elt F) → (⟨S262144x1, .f32⟩ : BufTy).Contents (Elt F)),
    StableHlo.nullary main_cst_8 (constant S_ .f32 0x41800000#32),
    StableHlo.unary main_cst_8 main_v35 (broadcastInDim S262144x1 ![] bcast_S_S262144x1 : (⟨S_, .f32⟩ : BufTy).Contents (Elt F) → (⟨S262144x1, .f32⟩ : BufTy).Contents (Elt F)),
    StableHlo.binary main_v34 main_v35 main_v36 (Host.divf : (⟨S262144x1, .f32⟩ : BufTy).Contents (Elt F) → (⟨S262144x1, .f32⟩ : BufTy).Contents (Elt F) → (⟨S262144x1, .f32⟩ : BufTy).Contents (Elt F)),
    StableHlo.unary main_v29 main_v37 (broadcastInDim S262144x16 ![0, 1] bcast_S262144x1_S262144x16_0_1 : (⟨S262144x1, .f32⟩ : BufTy).Contents (Elt F) → (⟨S262144x16, .f32⟩ : BufTy).Contents (Elt F)),
    StableHlo.binary main_v25 main_v37 main_v38 (subf : (⟨S262144x16, .f32⟩ : BufTy).Contents (Elt F) → (⟨S262144x16, .f32⟩ : BufTy).Contents (Elt F) → (⟨S262144x16, .f32⟩ : BufTy).Contents (Elt F)),
    StableHlo.nullary main_cst_9 (constant S_ .f32 0x3727C5AC#32),
    StableHlo.unary main_cst_9 main_v39 (broadcastInDim S262144x1 ![] bcast_S_S262144x1 : (⟨S_, .f32⟩ : BufTy).Contents (Elt F) → (⟨S262144x1, .f32⟩ : BufTy).Contents (Elt F)),
    StableHlo.binary main_v36 main_v39 main_v40 (addf : (⟨S262144x1, .f32⟩ : BufTy).Contents (Elt F) → (⟨S262144x1, .f32⟩ : BufTy).Contents (Elt F) → (⟨S262144x1, .f32⟩ : BufTy).Contents (Elt F)),
    StableHlo.unary main_v40 main_v41 (Host.rsqrt : (⟨S262144x1, .f32⟩ : BufTy).Contents (Elt F) → (⟨S262144x1, .f32⟩ : BufTy).Contents (Elt F)),
    StableHlo.unary main_v41 main_v42 (broadcastInDim S262144x16 ![0, 1] bcast_S262144x1_S262144x16_0_1 : (⟨S262144x1, .f32⟩ : BufTy).Contents (Elt F) → (⟨S262144x16, .f32⟩ : BufTy).Contents (Elt F)),
    StableHlo.binary main_v38 main_v42 main_v43 (mulf : (⟨S262144x16, .f32⟩ : BufTy).Contents (Elt F) → (⟨S262144x16, .f32⟩ : BufTy).Contents (Elt F) → (⟨S262144x16, .f32⟩ : BufTy).Contents (Elt F)),
    StableHlo.unary main_arg7 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S262144x16 ![0, 1] bcast_S1x16_S262144x16_0_1 : (⟨S1x16, .f32⟩ : BufTy).Contents (Elt F) → (⟨S262144x16, .f32⟩ : BufTy).Contents (Elt F)),
    StableHlo.binary main_v43 main_v45 main_v46 (mulf : (⟨S262144x16, .f32⟩ : BufTy).Contents (Elt F) → (⟨S262144x16, .f32⟩ : BufTy).Contents (Elt F) → (⟨S262144x16, .f32⟩ : BufTy).Contents (Elt F)),
    StableHlo.unary main_arg8 main_v47 (broadcastInDim S1x16 ![1] bcast_S16_S1x16_1 : (⟨S16, .f32⟩ : BufTy).Contents (Elt F) → (⟨S1x16, .f32⟩ : BufTy).Contents (Elt F)),
    StableHlo.unary main_v47 main_v48 (broadcastInDim S262144x16 ![0, 1] bcast_S1x16_S262144x16_0_1 : (⟨S1x16, .f32⟩ : BufTy).Contents (Elt F) → (⟨S262144x16, .f32⟩ : BufTy).Contents (Elt F)),
    StableHlo.binary main_v46 main_v48 main_v49 (addf : (⟨S262144x16, .f32⟩ : BufTy).Contents (Elt F) → (⟨S262144x16, .f32⟩ : BufTy).Contents (Elt F) → (⟨S262144x16, .f32⟩ : BufTy).Contents (Elt F)),
    StableHlo.unary main_v49 main_v50 (Host.tanh : (⟨S262144x16, .f32⟩ : BufTy).Contents (Elt F) → (⟨S262144x16, .f32⟩ : BufTy).Contents (Elt F)),
    StableHlo.unary main_arg9 main_v51 ((transpose S16x8 [1, 0] · transposes_S8x16_S16x8_1_0) : (⟨S8x16, .f32⟩ : BufTy).Contents (Elt F) → (⟨S16x8, .f32⟩ : BufTy).Contents (Elt F)),
    StableHlo.binary main_v50 main_v51 main_v52 ((fun l r => Host.dotGeneral dot_S262144x16_S16x8_S262144x8_1_0_0_1_n_n none l r) : (⟨S262144x16, .f32⟩ : BufTy).Contents (Elt F) → (⟨S16x8, .f32⟩ : BufTy).Contents (Elt F) → (⟨S262144x8, .f32⟩ : BufTy).Contents (Elt F)),
    StableHlo.unary main_arg10 main_v53 (broadcastInDim S1x8 ![1] bcast_S8_S1x8_1 : (⟨S8, .f32⟩ : BufTy).Contents (Elt F) → (⟨S1x8, .f32⟩ : BufTy).Contents (Elt F)),
    StableHlo.unary main_v53 main_v54 (broadcastInDim S262144x8 ![0, 1] bcast_S1x8_S262144x8_0_1 : (⟨S1x8, .f32⟩ : BufTy).Contents (Elt F) → (⟨S262144x8, .f32⟩ : BufTy).Contents (Elt F)),
    StableHlo.binary main_v52 main_v54 main_v55 (addf : (⟨S262144x8, .f32⟩ : BufTy).Contents (Elt F) → (⟨S262144x8, .f32⟩ : BufTy).Contents (Elt F) → (⟨S262144x8, .f32⟩ : BufTy).Contents (Elt F)),
    StableHlo.TRef.nullary main_call3.cst (constant S_ .f32 0x00000000#32),
    StableHlo.TRef.unary main_call3.cst main_call3.v0 (broadcastInDim S262144x8 ![] bcast_S_S262144x8),
    StableHlo.TRef.binary (.of main_v55 : StableHlo.TRef sig ⟨S262144x8, .f32⟩) main_call3.v0 main_call3.v1 maximumf,
    StableHlo.unary main_arg11 main_v57 ((transpose S8x4 [1, 0] · transposes_S4x8_S8x4_1_0) : (⟨S4x8, .f32⟩ : BufTy).Contents (Elt F) → (⟨S8x4, .f32⟩ : BufTy).Contents (Elt F)),
    StableHlo.binary main_v56 main_v57 main_v58 ((fun l r => Host.dotGeneral dot_S262144x8_S8x4_S262144x4_1_0_0_1_n_n none l r) : (⟨S262144x8, .f32⟩ : BufTy).Contents (Elt F) → (⟨S8x4, .f32⟩ : BufTy).Contents (Elt F) → (⟨S262144x4, .f32⟩ : BufTy).Contents (Elt F)),
    StableHlo.unary main_arg12 main_v59 (broadcastInDim S1x4 ![1] bcast_S4_S1x4_1 : (⟨S4, .f32⟩ : BufTy).Contents (Elt F) → (⟨S1x4, .f32⟩ : BufTy).Contents (Elt F)),
    StableHlo.unary main_v59 main_v60 (broadcastInDim S262144x4 ![0, 1] bcast_S1x4_S262144x4_0_1 : (⟨S1x4, .f32⟩ : BufTy).Contents (Elt F) → (⟨S262144x4, .f32⟩ : BufTy).Contents (Elt F)),
    StableHlo.binary main_v58 main_v60 main_v61 (addf : (⟨S262144x4, .f32⟩ : BufTy).Contents (Elt F) → (⟨S262144x4, .f32⟩ : BufTy).Contents (Elt F) → (⟨S262144x4, .f32⟩ : BufTy).Contents (Elt F)),
    StableHlo.unary main_v61 main_v62 (Host.negf : (⟨S262144x4, .f32⟩ : BufTy).Contents (Elt F) → (⟨S262144x4, .f32⟩ : BufTy).Contents (Elt F)),
    StableHlo.unary main_v62 main_v63 (Host.exp : (⟨S262144x4, .f32⟩ : BufTy).Contents (Elt F) → (⟨S262144x4, .f32⟩ : BufTy).Contents (Elt F)),
    StableHlo.nullary main_cst_10 (constant S_ .f32 0x3F800000#32),
    StableHlo.unary main_cst_10 main_v64 (broadcastInDim S262144x4 ![] bcast_S_S262144x4 : (⟨S_, .f32⟩ : BufTy).Contents (Elt F) → (⟨S262144x4, .f32⟩ : BufTy).Contents (Elt F)),
    StableHlo.binary main_v64 main_v63 main_v65 (addf : (⟨S262144x4, .f32⟩ : BufTy).Contents (Elt F) → (⟨S262144x4, .f32⟩ : BufTy).Contents (Elt F) → (⟨S262144x4, .f32⟩ : BufTy).Contents (Elt F)),
    StableHlo.nullary main_cst_11 (constant S_ .f32 0x3F800000#32),
    StableHlo.unary main_cst_11 main_v66 (broadcastInDim S262144x4 ![] bcast_S_S262144x4 : (⟨S_, .f32⟩ : BufTy).Contents (Elt F) → (⟨S262144x4, .f32⟩ : BufTy).Contents (Elt F)),
    StableHlo.binary main_v66 main_v65 main_v67 (Host.divf : (⟨S262144x4, .f32⟩ : BufTy).Contents (Elt F) → (⟨S262144x4, .f32⟩ : BufTy).Contents (Elt F) → (⟨S262144x4, .f32⟩ : BufTy).Contents (Elt F)) ]

set_option maxHeartbeats 4000000 in
set_option maxRecDepth 4096 in
/-- The remaining operations (70 of them): the two column means of the controls, the per-row gate and the first
    result, the mean outer product, the mean square, the update of the memory matrix and its rescaling. -/
abbrev opsTail : List (HloOp τ sig (Elt F)) :=
  [ StableHlo.unary main_v67 main_v68 ((extractStridedSlice S262144x1 ![0, 0] · slices_S262144x4_S262144x1_0_0) : (⟨S262144x4, .f32⟩ : BufTy).Contents (Elt F) → (⟨S262144x1, .f32⟩ : BufTy).Contents (Elt F)),
    StableHlo.reshape main_v68 main_v69 rfl shapeCasts_S262144x1_S262144,
    StableHlo.nullary main_cst_12 (constant S_ .f32 0x00000000#32),
    StableHlo.binary main_v69 main_cst_12 main_v70 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    StableHlo.nullary main_cst_13 (constant S_ .f32 0x48800000#32),
    StableHlo.binary main_v70 main_cst_13 main_v71 (Host.divf : (⟨S_, .f32⟩ : BufTy).Contents (Elt F) → (⟨S_, .f32⟩ : BufTy).Contents (Elt F) → (⟨S_, .f32⟩ : BufTy).Contents (Elt F)),
    StableHlo.unary main_v67 main_v72 ((extractStridedSlice S262144x1 ![0, 2] · slices_S262144x4_S262144x1_0_2) : (⟨S262144x4, .f32⟩ : BufTy).Contents (Elt F) → (⟨S262144x1, .f32⟩ : BufTy).Contents (Elt F)),
    StableHlo.reshape main_v72 main_v73 rfl shapeCasts_S262144x1_S262144,
    StableHlo.nullary main_cst_14 (constant S_ .f32 0x00000000#32),
    StableHlo.binary main_v73 main_cst_14 main_v74 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    StableHlo.nullary main_cst_15 (constant S_ .f32 0x48800000#32),
    StableHlo.binary main_v74 main_cst_15 main_v75 (Host.divf : (⟨S_, .f32⟩ : BufTy).Contents (Elt F) → (⟨S_, .f32⟩ : BufTy).Contents (Elt F) → (⟨S_, .f32⟩ : BufTy).Contents (Elt F)),
    StableHlo.unary main_arg3 main_v76 ((transpose S256x1 [1, 0] · transposes_S1x256_S256x1_1_0) : (⟨S1x256, .f32⟩ : BufTy).Contents (Elt F) → (⟨S256x1, .f32⟩ : BufTy).Contents (Elt F)),
    StableHlo.binary main_v2 main_v76 main_v77 ((fun l r => Host.dotGeneral dot_S262144x256_S256x1_S262144x1_1_0_0_1_n_n none l r) : (⟨S262144x256, .f32⟩ : BufTy).Contents (Elt F) → (⟨S256x1, .f32⟩ : BufTy).Contents (Elt F) → (⟨S262144x1, .f32⟩ : BufTy).Contents (Elt F)),
    StableHlo.unary main_arg4 main_v78 (broadcastInDim S1x1 ![1] bcast_S1_S1x1_1 : (⟨S1, .f32⟩ : BufTy).Contents (Elt F) → (⟨S1x1, .f32⟩ : BufTy).Contents (Elt F)),
    StableHlo.unary main_v78 main_v79 (broadcastInDim S262144x1 ![0, 1] bcast_S1x1_S262144x1_0_1 : (⟨S1x1, .f32⟩ : BufTy).Contents (Elt F) → (⟨S262144x1, .f32⟩ : BufTy).Contents (Elt F)),
    StableHlo.binary main_v77 main_v79 main_v80 (addf : (⟨S262144x1, .f32⟩ : BufTy).Contents (Elt F) → (⟨S262144x1, .f32⟩ : BufTy).Contents (Elt F) → (⟨S262144x1, .f32⟩ : BufTy).Contents (Elt F)),
    StableHlo.unary main_v80 main_v81 (Host.negf : (⟨S262144x1, .f32⟩ : BufTy).Contents (Elt F) → (⟨S262144x1, .f32⟩ : BufTy).Contents (Elt F)),
    StableHlo.unary main_v81 main_v82 (Host.exp : (⟨S262144x1, .f32⟩ : BufTy).Contents (Elt F) → (⟨S262144x1, .f32⟩ : BufTy).Contents (Elt F)),
    StableHlo.nullary main_cst_16 (constant S_ .f32 0x3F800000#32),
    StableHlo.unary main_cst_16 main_v83 (broadcastInDim S262144x1 ![] bcast_S_S262144x1 : (⟨S_, .f32⟩ : BufTy).Contents (Elt F) → (⟨S262144x1, .f32⟩ : BufTy).Contents (Elt F)),
    StableHlo.binary main_v83 main_v82 main_v84 (addf : (⟨S262144x1, .f32⟩ : BufTy).Contents (Elt F) → (⟨S262144x1, .f32⟩ : BufTy).Contents (Elt F) → (⟨S262144x1, .f32⟩ : BufTy).Contents (Elt F)),
    StableHlo.nullary main_cst_17 (constant S_ .f32 0x3F800000#32),
    StableHlo.unary main_cst_17 main_v85 (broadcastInDim S262144x1 ![] bcast_S_S262144x1 : (⟨S_, .f32⟩ : BufTy).Contents (Elt F) → (⟨S262144x1, .f32⟩ : BufTy).Contents (Elt F)),
    StableHlo.binary main_v85 main_v84 main_v86 (Host.divf : (⟨S262144x1, .f32⟩ : BufTy).Contents (Elt F) → (⟨S262144x1, .f32⟩ : BufTy).Contents (Elt F) → (⟨S262144x1, .f32⟩ : BufTy).Contents (Elt F)),
    StableHlo.unary main_v75 main_v87 (broadcastInDim S262144x1 ![] bcast_S_S262144x1 : (⟨S_, .f32⟩ : BufTy).Contents (Elt F) → (⟨S262144x1, .f32⟩ : BufTy).Contents (Elt F)),
    StableHlo.binary main_v86 main_v87 main_v88 (mulf : (⟨S262144x1, .f32⟩ : BufTy).Contents (Elt F) → (⟨S262144x1, .f32⟩ : BufTy).Contents (Elt F) → (⟨S262144x1, .f32⟩ : BufTy).Contents (Elt F)),
    StableHlo.unary main_v88 main_v89 (broadcastInDim S262144x256 ![0, 1] bcast_S262144x1_S262144x256_0_1 : (⟨S262144x1, .f32⟩ : BufTy).Contents (Elt F) → (⟨S262144x256, .f32⟩ : BufTy).Contents (Elt F)),
    StableHlo.binary main_v89 main_v2 main_v90 (mulf : (⟨S262144x256, .f32⟩ : BufTy).Contents (Elt F) → (⟨S262144x256, .f32⟩ : BufTy).Contents (Elt F) → (⟨S262144x256, .f32⟩ : BufTy).Contents (Elt F)),
    StableHlo.nullary main_cst_18 (constant S_ .f32 0xC0000000#32),
    StableHlo.nullary main_cst_19 (constant S_ .f32 0x40000000#32),
    StableHlo.TRef.unary (.of main_cst_18 : StableHlo.TRef sig ⟨S_, .f32⟩) main_call4.v0 id,
    StableHlo.TRef.unary main_call4.v0 main_call4.v1 (broadcastInDim S262144x256 ![] bcast_S_S262144x256),
    StableHlo.TRef.binary main_call4.v1 (.of main_v90 : StableHlo.TRef sig ⟨S262144x256, .f32⟩) main_call4.v2 maximumf,
    StableHlo.TRef.unary (.of main_cst_19 : StableHlo.TRef sig ⟨S_, .f32⟩) main_call4.v3 id,
    StableHlo.TRef.unary main_call4.v3 main_call4.v4 (broadcastInDim S262144x256 ![] bcast_S_S262144x256),
    StableHlo.TRef.binary main_call4.v4 main_call4.v2 main_call4.v5 minimumf,
    StableHlo.unary main_v2 main_v92 ((transpose S256x262144 [1, 0] · transposes_S262144x256_S256x262144_1_0) : (⟨S262144x256, .f32⟩ : BufTy).Contents (Elt F) → (⟨S256x262144, .f32⟩ : BufTy).Contents (Elt F)),
    StableHlo.binary main_v92 main_arg0 main_v93 ((fun l r => Host.dotGeneral dot_S256x262144_S262144x256_S256x256_1_0_0_1_n_n none l r) : (⟨S256x262144, .f32⟩ : BufTy).Contents (Elt F) → (⟨S262144x256, .f32⟩ : BufTy).Contents (Elt F) → (⟨S256x256, .f32⟩ : BufTy).Contents (Elt F)),
    StableHlo.nullary main_cst_20 (constant S_ .f32 0x48800000#32),
    StableHlo.unary main_cst_20 main_v94 (broadcastInDim S256x256 ![] bcast_S_S256x256 : (⟨S_, .f32⟩ : BufTy).Contents (Elt F) → (⟨S256x256, .f32⟩ : BufTy).Contents (Elt F)),
    StableHlo.binary main_v93 main_v94 main_v95 (Host.divf : (⟨S256x256, .f32⟩ : BufTy).Contents (Elt F) → (⟨S256x256, .f32⟩ : BufTy).Contents (Elt F) → (⟨S256x256, .f32⟩ : BufTy).Contents (Elt F)),
    StableHlo.binary main_v2 main_v2 main_v96 (mulf : (⟨S262144x256, .f32⟩ : BufTy).Contents (Elt F) → (⟨S262144x256, .f32⟩ : BufTy).Contents (Elt F) → (⟨S262144x256, .f32⟩ : BufTy).Contents (Elt F)),
    StableHlo.nullary main_cst_21 (constant S_ .f32 0x00000000#32),
    StableHlo.binary main_v96 main_cst_21 main_v97 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    StableHlo.nullary main_cst_22 (constant S_ .f32 0x48800000#32),
    StableHlo.unary main_cst_22 main_v98 (broadcastInDim S256 ![] bcast_S_S256 : (⟨S_, .f32⟩ : BufTy).Contents (Elt F) → (⟨S256, .f32⟩ : BufTy).Contents (Elt F)),
    StableHlo.binary main_v97 main_v98 main_v99 (Host.divf : (⟨S256, .f32⟩ : BufTy).Contents (Elt F) → (⟨S256, .f32⟩ : BufTy).Contents (Elt F) → (⟨S256, .f32⟩ : BufTy).Contents (Elt F)),
    StableHlo.unary main_v99 main_v100 (broadcastInDim S256x1 ![0] bcast_S256_S256x1_0 : (⟨S256, .f32⟩ : BufTy).Contents (Elt F) → (⟨S256x1, .f32⟩ : BufTy).Contents (Elt F)),
    StableHlo.unary main_v100 main_v101 (broadcastInDim S256x256 ![0, 1] bcast_S256x1_S256x256_0_1 : (⟨S256x1, .f32⟩ : BufTy).Contents (Elt F) → (⟨S256x256, .f32⟩ : BufTy).Contents (Elt F)),
    StableHlo.binary main_v101 main_arg13 main_v102 (mulf : (⟨S256x256, .f32⟩ : BufTy).Contents (Elt F) → (⟨S256x256, .f32⟩ : BufTy).Contents (Elt F) → (⟨S256x256, .f32⟩ : BufTy).Contents (Elt F)),
    StableHlo.binary main_v95 main_v102 main_v103 (subf : (⟨S256x256, .f32⟩ : BufTy).Contents (Elt F) → (⟨S256x256, .f32⟩ : BufTy).Contents (Elt F) → (⟨S256x256, .f32⟩ : BufTy).Contents (Elt F)),
    StableHlo.unary main_v103 main_v104 (Host.tanh : (⟨S256x256, .f32⟩ : BufTy).Contents (Elt F) → (⟨S256x256, .f32⟩ : BufTy).Contents (Elt F)),
    StableHlo.unary main_v71 main_v105 (broadcastInDim S256x256 ![] bcast_S_S256x256 : (⟨S_, .f32⟩ : BufTy).Contents (Elt F) → (⟨S256x256, .f32⟩ : BufTy).Contents (Elt F)),
    StableHlo.binary main_v104 main_v105 main_v106 (mulf : (⟨S256x256, .f32⟩ : BufTy).Contents (Elt F) → (⟨S256x256, .f32⟩ : BufTy).Contents (Elt F) → (⟨S256x256, .f32⟩ : BufTy).Contents (Elt F)),
    StableHlo.nullary main_cst_23 (constant S_ .f32 0x3DCCCCCD#32),
    StableHlo.unary main_cst_23 main_v107 (broadcastInDim S256x256 ![] bcast_S_S256x256 : (⟨S_, .f32⟩ : BufTy).Contents (Elt F) → (⟨S256x256, .f32⟩ : BufTy).Contents (Elt F)),
    StableHlo.binary main_v106 main_v107 main_v108 (mulf : (⟨S256x256, .f32⟩ : BufTy).Contents (Elt F) → (⟨S256x256, .f32⟩ : BufTy).Contents (Elt F) → (⟨S256x256, .f32⟩ : BufTy).Contents (Elt F)),
    StableHlo.binary main_arg13 main_v108 main_v109 (addf : (⟨S256x256, .f32⟩ : BufTy).Contents (Elt F) → (⟨S256x256, .f32⟩ : BufTy).Contents (Elt F) → (⟨S256x256, .f32⟩ : BufTy).Contents (Elt F)),
    StableHlo.TRef.binary (.of main_v109 : StableHlo.TRef sig ⟨S256x256, .f32⟩) (.of main_v109 : StableHlo.TRef sig ⟨S256x256, .f32⟩) main_call5.v0 mulf,
    StableHlo.TRef.nullary main_call5.cst (constant S_ .f32 0x00000000#32),
    StableHlo.TRef.binary main_call5.v0 main_call5.cst main_call5.v1 (fun x v => Host.reduceAdd x v reducesTo_S256x256_S_d0_1 h_S_),
    StableHlo.TRef.unary main_call5.v1 main_call5.v2 Host.sqrt,
    StableHlo.nullary main_cst_24 (constant S_ .f32 0x358637BD#32),
    StableHlo.binary main_v110 main_cst_24 main_v111 (maximumf : (⟨S_, .f32⟩ : BufTy).Contents (Elt F) → (⟨S_, .f32⟩ : BufTy).Contents (Elt F) → (⟨S_, .f32⟩ : BufTy).Contents (Elt F)),
    StableHlo.unary main_v111 main_v112 (broadcastInDim S256x256 ![] bcast_S_S256x256 : (⟨S_, .f32⟩ : BufTy).Contents (Elt F) → (⟨S256x256, .f32⟩ : BufTy).Contents (Elt F)),
    StableHlo.binary main_v109 main_v112 main_v113 (Host.divf : (⟨S256x256, .f32⟩ : BufTy).Contents (Elt F) → (⟨S256x256, .f32⟩ : BufTy).Contents (Elt F) → (⟨S256x256, .f32⟩ : BufTy).Contents (Elt F)),
    StableHlo.nullary main_cst_25 (constant S_ .f32 0x3F000000#32),
    StableHlo.unary main_cst_25 main_v114 (broadcastInDim S256x256 ![] bcast_S_S256x256 : (⟨S_, .f32⟩ : BufTy).Contents (Elt F) → (⟨S256x256, .f32⟩ : BufTy).Contents (Elt F)),
    StableHlo.binary main_v113 main_v114 main_v115 (mulf : (⟨S256x256, .f32⟩ : BufTy).Contents (Elt F) → (⟨S256x256, .f32⟩ : BufTy).Contents (Elt F) → (⟨S256x256, .f32⟩ : BufTy).Contents (Elt F)) ]

/-- The whole program: the first part, then the second. -/
abbrev ops : List (HloOp τ sig (Elt F)) := opsHead ++ opsTail

/-- Running the whole list is running the first part and then the second from where the first ended. -/
theorem after_ops (V : Valuation τ sig (Elt F)) :
    StableHlo.after (ops (F := F)) V = StableHlo.after opsTail (StableHlo.after opsHead V) :=
  StableHlo.after_append _ _ V

end Cert.ReferenceIdeal.RefOps

end
-- ==== Proof.RefRun.lean ====
/-
  The reference program's run.

  The program's text is the straight line of its operations (`RefOps.ops`): sequencing is associative and a call is
  its callee's body, so both sides unfold to the same chain of steps. A straight line over buffers that are never
  scoped runs to its end from any memory, and each buffer then holds the fold of the operations over the launch
  contents. Every operation writes one buffer, none of them an argument's, so the fourteen arguments end as launched.
-/
import proofs.«142104_j18769007084085_2_alg».proof.Proof.RefOps

set_option synthInstance.maxSize 4096

noncomputable section

namespace Cert.ReferenceIdeal.RefRun

open Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! ## The program is the list -/

set_option maxRecDepth 100000 in
set_option maxHeartbeats 4000000 in
/-- The program is the straight line of its operations: grafting a continuation onto a chain of steps is computed
    leaf by leaf, so the three windows in sequence, with each callee's body in place of its call, reduce to the
    same chain as the list's. -/
theorem main_eq (d : Dev nD) : main (F := F) d = seq (RefOps.ops (F := F)) := rfl

/-- No buffer of the program is scoped. -/
theorem scopedRefs_eq : (Finset.univ.filter fun b : Ref sig .tc => b.isScoped) = ∅ := by decide
/-- The program has no semaphore. -/
theorem scopedSems_eq : (Finset.univ.filter fun sm : SemLoc sig => sm.isScoped .tc) = ∅ := by decide

/-- A property of every operation of both parts holds of every operation of the whole. -/
theorem forall_ops {p : HloOp τ sig (Elt F) → Prop} (h₁ : (RefOps.opsHead (F := F)).Forall p)
    (h₂ : (RefOps.opsTail (F := F)).Forall p) : ∀ op ∈ RefOps.ops (F := F), p op := fun op h =>
  (List.mem_append.mp h).elim (List.forall_iff_forall_mem.mp h₁ op) (List.forall_iff_forall_mem.mp h₂ op)

set_option maxRecDepth 8192 in
theorem opsHead_sub : (RefOps.opsHead (F := F)).Forall fun op => op.bufs ⊆ tcRefs τ sig :=
  ⟨unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., binary_bufs_sub ..,
    binary_bufs_sub .., nullary_bufs_sub .., binary_bufs_sub .., unary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., nullary_bufs_sub .., unary_bufs_sub .., binary_bufs_sub ..,
    unary_bufs_sub .., unary_bufs_sub .., nullary_bufs_sub .., binary_bufs_sub .., nullary_bufs_sub .., unary_bufs_sub ..,
    binary_bufs_sub .., unary_bufs_sub .., nullary_bufs_sub .., unary_bufs_sub .., unary_bufs_sub .., unary_bufs_sub ..,
    unary_bufs_sub .., unary_bufs_sub .., nary_bufs_sub .., unary_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub ..⟩

set_option maxRecDepth 8192 in
theorem opsTail_sub : (RefOps.opsTail (F := F)).Forall fun op => op.bufs ⊆ tcRefs τ sig :=
  ⟨unary_bufs_sub .., reshape_bufs_sub .., nullary_bufs_sub .., binary_bufs_sub .., nullary_bufs_sub .., binary_bufs_sub ..,
    unary_bufs_sub .., reshape_bufs_sub .., nullary_bufs_sub .., binary_bufs_sub .., nullary_bufs_sub .., binary_bufs_sub ..,
    unary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., unary_bufs_sub .., binary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    nullary_bufs_sub .., binary_bufs_sub .., unary_bufs_sub .., nullary_bufs_sub .., binary_bufs_sub .., unary_bufs_sub ..,
    binary_bufs_sub .., nullary_bufs_sub .., unary_bufs_sub .., binary_bufs_sub ..⟩

/-- Every operation touches buffers of the device only. -/
theorem ops_sub : (RefOps.ops (F := F)).Forall fun op => op.bufs ⊆ tcRefs τ sig :=
  List.forall_iff_forall_mem.mpr (forall_ops opsHead_sub opsTail_sub)

set_option maxRecDepth 8192 in
theorem opsHead_fresh : (RefOps.opsHead (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

set_option maxRecDepth 8192 in
theorem opsTail_fresh : (RefOps.opsTail (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-! ## The run -/

/-- From any memory with zero counters every weakly fair execution of the program terminates, and each buffer
    of each device then holds the fold of the operations over that device's launch contents. -/
theorem run (m : (ℓ : Loc nD τ sig) → Buf (Elt F) ℓ) (ρ : Dev nD → PrngReg) :
    θ_run (defs (F := F)) (onTc (τ := τ) (main (F := F))) ⟨m, fun _ => 0, ρ⟩ (fun r =>
      ∀ (d : Dev nD) (b : Ref sig .tc), r.2.mem ((d.tc : Thread nD τ).loc b)
        = after (RefOps.ops (F := F)) (launchContents m d) (Proc.devRef .tc b)) :=
  run_seq scopedRefs_eq scopedSems_eq defs main (fun _ => RefOps.ops) main_eq (fun _ => ops_sub) m ρ
    (fun _ => forall_ops opsHead_fresh opsTail_fresh)

/-! ## The arguments are kept -/

/-- The buffers the first part writes, one per operation, in order. -/
abbrev writtenHead : List (Ref sig .tc) :=
  [main_v0, main_v1, main_cst, main_cst_0, main_call0_v0, main_call0_v1, main_call0_v2, main_call0_v3,
    main_call0_v4, main_v2, main_v3, main_v4, main_call1_v0, main_call1_cst, main_call1_v1, main_v5,
    main_c, main_call2_cst, main_call2_v0, main_call2_v1, main_call2_cst_0, main_call2_v2, main_call2_v3, main_call2_v4,
    main_call2_v5, main_call2_v6, main_call2_v7, main_call2_cst_1, main_call2_v8, main_call2_cst_2, main_call2_v9, main_call2_v10,
    main_call2_v11, main_call2_cst_3, main_call2_v12, main_call2_cst_4, main_call2_call0_v0, main_call2_call0_v1, main_v6, main_cst_1,
    main_v7, main_v8, main_v9, main_v10, main_cst_2, main_v11, main_cst_3, main_v12,
    main_v13, main_v14, main_cst_4, main_v15, main_v16, main_v17, main_v18, main_v19,
    main_v20, main_v21, main_v22, main_v23, main_v24, main_v25, main_cst_5, main_v26,
    main_v27, main_cst_6, main_v28, main_v29, main_v30, main_v31, main_v32, main_cst_7,
    main_v33, main_v34, main_cst_8, main_v35, main_v36, main_v37, main_v38, main_cst_9,
    main_v39, main_v40, main_v41, main_v42, main_v43, main_v44, main_v45, main_v46,
    main_v47, main_v48, main_v49, main_v50, main_v51, main_v52, main_v53, main_v54,
    main_v55, main_call3_cst, main_call3_v0, main_v56, main_v57, main_v58, main_v59, main_v60,
    main_v61, main_v62, main_v63, main_cst_10, main_v64, main_v65, main_cst_11, main_v66,
    main_v67]

/-- The buffers the second part writes, one per operation, in order. -/
abbrev writtenTail : List (Ref sig .tc) :=
  [main_v68, main_v69, main_cst_12, main_v70, main_cst_13, main_v71, main_v72, main_v73,
    main_cst_14, main_v74, main_cst_15, main_v75, main_v76, main_v77, main_v78, main_v79,
    main_v80, main_v81, main_v82, main_cst_16, main_v83, main_v84, main_cst_17, main_v85,
    main_v86, main_v87, main_v88, main_v89, main_v90, main_cst_18, main_cst_19, main_call4_v0,
    main_call4_v1, main_call4_v2, main_call4_v3, main_call4_v4, main_v91, main_v92, main_v93, main_cst_20,
    main_v94, main_v95, main_v96, main_cst_21, main_v97, main_cst_22, main_v98, main_v99,
    main_v100, main_v101, main_v102, main_v103, main_v104, main_v105, main_v106, main_cst_23,
    main_v107, main_v108, main_v109, main_call5_v0, main_call5_cst, main_call5_v1, main_v110, main_cst_24,
    main_v111, main_v112, main_v113, main_cst_25, main_v114, main_v115]

/-- Operations that write one buffer each, listed beside them, write inside the list. -/
theorem writes_sub_of_forall₂ {ops : List (HloOp τ sig (Elt F))} {W : List (Ref sig .tc)}
    (h : List.Forall₂ (fun op y => op.writes = {Proc.devRef (τ := τ) .tc y}) ops W) :
    ops.Forall fun op => op.writes ⊆ (W.map (Proc.devRef (τ := τ) .tc)).toFinset := by
  induction h with
  | nil => exact List.forall_iff_forall_mem.mpr fun _ h => nomatch h
  | @cons op y ops' W' hy _ ih =>
    refine List.forall_iff_forall_mem.mpr fun o ho => ?_
    rcases List.mem_cons.mp ho with rfl | ho
    · rw [hy]
      exact Finset.singleton_subset_iff.mpr (List.mem_toFinset.mpr (List.mem_map.mpr ⟨y, List.mem_cons_self, rfl⟩))
    · exact (List.forall_iff_forall_mem.mp ih o ho).trans fun b hb =>
        List.mem_toFinset.mpr (by
          obtain ⟨z, hz, rfl⟩ := List.mem_map.mp (List.mem_toFinset.mp hb)
          exact List.mem_map.mpr ⟨z, List.mem_cons_of_mem _ hz, rfl⟩)

set_option maxRecDepth 100000 in
/-- Each operation of the first part writes the buffer listed at its place. -/
theorem opsHead_writes : List.Forall₂ (fun op y => op.writes = {Proc.devRef (τ := τ) .tc y})
    (RefOps.opsHead (F := F)) writtenHead :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))

set_option maxRecDepth 100000 in
/-- Each operation of the second part writes the buffer listed at its place. -/
theorem opsTail_writes : List.Forall₂ (fun op y => op.writes = {Proc.devRef (τ := τ) .tc y})
    (RefOps.opsTail (F := F)) writtenTail :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))

/-- A buffer in neither list keeps its contents through the whole program. -/
theorem kept {r : Ref sig .tc} (hr : r ∉ writtenHead ++ writtenTail) (V : Valuation τ sig (Elt F)) :
    after (RefOps.ops (F := F)) V (Proc.devRef .tc r) = V (Proc.devRef .tc r) := by
  rw [RefOps.after_ops,
    after_of_writes_sub _ _ (writes_sub_of_forall₂ opsTail_writes) (fun h => hr (List.mem_append_right _ h)),
    after_of_writes_sub _ _ (writes_sub_of_forall₂ opsHead_writes) (fun h => hr (List.mem_append_left _ h))]

/-- Argument 0 is written by no operation: it ends as launched. -/
theorem arg_kept0 (m : (ℓ : Loc nD τ sig) → Buf (Elt F) ℓ) (d : Dev nD) :
    after (RefOps.ops (F := F)) (launchContents m d) (Proc.devRef .tc main_arg0) = m ((d.tc : Thread nD τ).loc main_arg0) :=
  kept (by decide) _

/-- Argument 1 is written by no operation: it ends as launched. -/
theorem arg_kept1 (m : (ℓ : Loc nD τ sig) → Buf (Elt F) ℓ) (d : Dev nD) :
    after (RefOps.ops (F := F)) (launchContents m d) (Proc.devRef .tc main_arg1) = m ((d.tc : Thread nD τ).loc main_arg1) :=
  kept (by decide) _

/-- Argument 2 is written by no operation: it ends as launched. -/
theorem arg_kept2 (m : (ℓ : Loc nD τ sig) → Buf (Elt F) ℓ) (d : Dev nD) :
    after (RefOps.ops (F := F)) (launchContents m d) (Proc.devRef .tc main_arg2) = m ((d.tc : Thread nD τ).loc main_arg2) :=
  kept (by decide) _

/-- Argument 3 is written by no operation: it ends as launched. -/
theorem arg_kept3 (m : (ℓ : Loc nD τ sig) → Buf (Elt F) ℓ) (d : Dev nD) :
    after (RefOps.ops (F := F)) (launchContents m d) (Proc.devRef .tc main_arg3) = m ((d.tc : Thread nD τ).loc main_arg3) :=
  kept (by decide) _

/-- Argument 4 is written by no operation: it ends as launched. -/
theorem arg_kept4 (m : (ℓ : Loc nD τ sig) → Buf (Elt F) ℓ) (d : Dev nD) :
    after (RefOps.ops (F := F)) (launchContents m d) (Proc.devRef .tc main_arg4) = m ((d.tc : Thread nD τ).loc main_arg4) :=
  kept (by decide) _

/-- Argument 5 is written by no operation: it ends as launched. -/
theorem arg_kept5 (m : (ℓ : Loc nD τ sig) → Buf (Elt F) ℓ) (d : Dev nD) :
    after (RefOps.ops (F := F)) (launchContents m d) (Proc.devRef .tc main_arg5) = m ((d.tc : Thread nD τ).loc main_arg5) :=
  kept (by decide) _

/-- Argument 6 is written by no operation: it ends as launched. -/
theorem arg_kept6 (m : (ℓ : Loc nD τ sig) → Buf (Elt F) ℓ) (d : Dev nD) :
    after (RefOps.ops (F := F)) (launchContents m d) (Proc.devRef .tc main_arg6) = m ((d.tc : Thread nD τ).loc main_arg6) :=
  kept (by decide) _

/-- Argument 7 is written by no operation: it ends as launched. -/
theorem arg_kept7 (m : (ℓ : Loc nD τ sig) → Buf (Elt F) ℓ) (d : Dev nD) :
    after (RefOps.ops (F := F)) (launchContents m d) (Proc.devRef .tc main_arg7) = m ((d.tc : Thread nD τ).loc main_arg7) :=
  kept (by decide) _

/-- Argument 8 is written by no operation: it ends as launched. -/
theorem arg_kept8 (m : (ℓ : Loc nD τ sig) → Buf (Elt F) ℓ) (d : Dev nD) :
    after (RefOps.ops (F := F)) (launchContents m d) (Proc.devRef .tc main_arg8) = m ((d.tc : Thread nD τ).loc main_arg8) :=
  kept (by decide) _

/-- Argument 9 is written by no operation: it ends as launched. -/
theorem arg_kept9 (m : (ℓ : Loc nD τ sig) → Buf (Elt F) ℓ) (d : Dev nD) :
    after (RefOps.ops (F := F)) (launchContents m d) (Proc.devRef .tc main_arg9) = m ((d.tc : Thread nD τ).loc main_arg9) :=
  kept (by decide) _

/-- Argument 10 is written by no operation: it ends as launched. -/
theorem arg_kept10 (m : (ℓ : Loc nD τ sig) → Buf (Elt F) ℓ) (d : Dev nD) :
    after (RefOps.ops (F := F)) (launchContents m d) (Proc.devRef .tc main_arg10) = m ((d.tc : Thread nD τ).loc main_arg10) :=
  kept (by decide) _

/-- Argument 11 is written by no operation: it ends as launched. -/
theorem arg_kept11 (m : (ℓ : Loc nD τ sig) → Buf (Elt F) ℓ) (d : Dev nD) :
    after (RefOps.ops (F := F)) (launchContents m d) (Proc.devRef .tc main_arg11) = m ((d.tc : Thread nD τ).loc main_arg11) :=
  kept (by decide) _

/-- Argument 12 is written by no operation: it ends as launched. -/
theorem arg_kept12 (m : (ℓ : Loc nD τ sig) → Buf (Elt F) ℓ) (d : Dev nD) :
    after (RefOps.ops (F := F)) (launchContents m d) (Proc.devRef .tc main_arg12) = m ((d.tc : Thread nD τ).loc main_arg12) :=
  kept (by decide) _

/-- Argument 13 is written by no operation: it ends as launched. -/
theorem arg_kept13 (m : (ℓ : Loc nD τ sig) → Buf (Elt F) ℓ) (d : Dev nD) :
    after (RefOps.ops (F := F)) (launchContents m d) (Proc.devRef .tc main_arg13) = m ((d.tc : Thread nD τ).loc main_arg13) :=
  kept (by decide) _

end Cert.ReferenceIdeal.RefRun

end
-- ==== Proof.RefFrame.lean ====
/-
  The reference program runs and keeps its arguments.

  The program is a straight line of operations none of which writes an argument's buffer: from any memory with zero
  counters it runs to its end, each buffer then holds the fold of the operations over the launch contents, and at an
  argument's buffer that fold is the launch contents themselves.
-/
import proofs.«142104_j18769007084085_2_alg».proof.Defs
import proofs.«142104_j18769007084085_2_alg».proof.Proof.Gen.ReferenceIdeal
import proofs.«142104_j18769007084085_2_alg».proof.Proof.Gen.Pre_finite_inputs
import proofs.«142104_j18769007084085_2_alg».proof.Proof.RefRun

noncomputable section

namespace Cert.ReferenceIdeal.RefFrame

open Idealize.ShloMosaic Idealize.ShloMosaic.TcCoe Idealize.SL.Sem Cert.ReferenceIdeal

/-- Every weakly fair execution of the reference program terminates, and the fourteen argument arrays end as
    launched. -/
theorem frame_ri : @Cert.frame_ReferenceIdeal Cert.ReferenceIdeal.Gen.facts Cert.Pre_finite_inputs.Gen.facts :=
  fun m g _ =>
    (θ_run (defs (F := Ideal)) _ _).mono (fun _ h c =>
      ⟨(h c main_arg0).trans (RefRun.arg_kept0 m c),
      (h c main_arg1).trans (RefRun.arg_kept1 m c),
      (h c main_arg2).trans (RefRun.arg_kept2 m c),
      (h c main_arg3).trans (RefRun.arg_kept3 m c),
      (h c main_arg4).trans (RefRun.arg_kept4 m c),
      (h c main_arg5).trans (RefRun.arg_kept5 m c),
      (h c main_arg6).trans (RefRun.arg_kept6 m c),
      (h c main_arg7).trans (RefRun.arg_kept7 m c),
      (h c main_arg8).trans (RefRun.arg_kept8 m c),
      (h c main_arg9).trans (RefRun.arg_kept9 m c),
      (h c main_arg10).trans (RefRun.arg_kept10 m c),
      (h c main_arg11).trans (RefRun.arg_kept11 m c),
      (h c main_arg12).trans (RefRun.arg_kept12 m c),
      (h c main_arg13).trans (RefRun.arg_kept13 m c)⟩)
      (RefRun.run (F := Ideal) m g)

end Cert.ReferenceIdeal.RefFrame

end
-- ==== Proof.LibBiasRows.lean ====
/-
  A bias vector laid along every row of a matrix, in its two spellings.

  A host program broadcasts the vector [n] to one row [1, n] (along axis 1) and that row down m rows. A kernel receives
  the vector already cast to one row [1, n], casts it to the same shape once more, and broadcasts it down m rows. Both
  read, at (r, q), the vector at q; so the two m × n arrays are equal.
-/
import Idealize.ShloMosaic.Lib.ValueLayout
import Idealize.ShloMosaic.Lib.KernelVsHost

namespace Idealize.ShloMosaic.BiasRows

open Idealize.ShloMosaic Idealize.ShloMosaic.ValueIdx

variable {α : Type}

/-- The host's spelling at (r, q): the vector at q. -/
theorem hostRows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply]
  refine broadcastInDim_apply ![1] h1 b (ix2 (0 : Fin 1) q) (ix1 q) ?_
  intro a
  match a with
  | ⟨0, _⟩ =>
    show q.val = if n = 1 then 0 else q.val
    split
    · have := q.isLt; omega
    · rfl

/-- The kernel's spelling at (r, q): the vector at q. -/
theorem kernelRows_apply {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩) (r : Fin m) (q : Fin n) :
    broadcastTo ⟨2, ![m, n]⟩ (shapeCast ⟨2, ![1, n]⟩ (shapeCast ⟨2, ![1, n]⟩ b h0) h1) hb (ix2 r q) = b (ix1 q) := by
  rw [broadcastTo_1b_ab_apply, shapeCast_self, shapeCast_a_1a_apply]

/-- The two spellings are one m × n array. -/
theorem kernelRows_eq_hostRows {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩)
    (g1 : (⟨1, ![n]⟩ : Shape).BroadcastsInDim ⟨2, ![1, n]⟩ ![1])
    (g2 : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b h0) h1) hb
      = broadcastInDim ⟨2, ![m, n]⟩ ![0, 1] g2 (broadcastInDim ⟨2, ![1, n]⟩ ![1] g1 b) := by
  funext j
  obtain ⟨r, q, rfl⟩ : ∃ (r : Fin m) (q : Fin n), j = ix2 r q := ⟨j 0, j 1, eq_ix2 j⟩
  rw [kernelRows_apply, hostRows_apply]

end Idealize.ShloMosaic.BiasRows
-- ==== Proof.RefStages.lean ====
/-
  The reference's per-row chain, stage by stage.

  Every row r of x goes through: a projection by the transposed second weight, clamped to [-2, 2]; a projection by the
  transposed first weight; the row's population variance; its surprise |var - 1/2| and its excitation (the mean
  absolute value of the second projection); the state (surprise, excitation, Frobenius norm of the first weight, 1/2);
  an affine map to sixteen entries; a layer normalisation with scale and shift, then tanh; an affine map to eight
  entries cut below at zero; an affine map to four entries and the logistic function, spelt 1 / (1 + exp (-y)).
  Each stage is named here as a function of whole arrays, and read at an index: sums along an axis are sums over a
  finite index, the layout operations (transposes, columns, rows laid side by side) move indices, and the entrywise
  operations act on entries.
-/
import proofs.«142104_j18769007084085_2_alg».proof.Proof.Gen.ReferenceIdeal
import proofs.«142104_j18769007084085_2_alg».proof.Proof.Spec
import proofs.«142104_j18769007084085_2_alg».proof.Proof.LibPlainDot
import proofs.«142104_j18769007084085_2_alg».proof.Proof.LibBiasRows
import Idealize.ShloMosaic.Lib.IdealHost
import Idealize.ShloMosaic.Lib.KernelVsHost
import Idealize.ShloMosaic.Lib.ValueLayout
import Idealize.ShloMosaic.Lib.Pipeline.Value

noncomputable section

open scoped BigOperators

namespace Cert.ReferenceIdeal.RefRows

open Idealize.ShloMosaic Idealize.SL.Sem Idealize.ShloMosaic.ValueIdx
open Cert.ReferenceIdeal.Facts₀

/-- Shorthands for the array types. -/
abbrev A (s : Shape) := FVec Ideal s .f32

/-- A scalar constant. -/
abbrev kst (b : BitVec 32) : A S_ := constant (F := Ideal) S_ .f32 b

/-- Rows of x against rows of w: x times the transpose of w. -/
def projF (x : A S262144x256) (w : A S256x256) : A S262144x256 :=
  Host.dotGeneral dot_S262144x256_S256x256_S262144x256_1_0_0_1_n_n none x (transpose S256x256 [1, 0] w transposes_S256x256_S256x256_1_0)

/-- The clamp to [-2, 2], entry by entry. -/
def clipF (y : A S262144x256) : A S262144x256 :=
  minimumf (broadcastInDim S262144x256 ![] bcast_S_S262144x256 (id (kst 0x40000000#32)))
    (maximumf (broadcastInDim S262144x256 ![] bcast_S_S262144x256 (id (kst 0xC0000000#32))) y)

/-- The Frobenius norm. -/
def normF (w : A S256x256) : A S_ :=
  Host.sqrt (Host.reduceAdd (mulf w w) (kst 0x00000000#32) reducesTo_S256x256_S_d0_1 h_S_)

/-- A vector of row values as a one-column matrix. -/
abbrev colOf (v : A S262144) : A S262144x1 := broadcastInDim S262144x1 ![0] bcast_S262144_S262144x1_0 v

/-- The column of row means. -/
def meanColF (x : A S262144x256) : A S262144x1 :=
  Host.divf (colOf (Host.reduceAdd x (kst 0x00000000#32) reducesTo_S262144x256_S262144_d1 h_S_))
    (broadcastInDim S262144x1 ![] bcast_S_S262144x1 (kst 0x43800000#32))

/-- The rows less their means. -/
def devF (x : A S262144x256) : A S262144x256 :=
  subf x (broadcastInDim S262144x256 ![0, 1] bcast_S262144x1_S262144x256_0_1 (meanColF x))

/-- The divisor of the variance: 256 less zero degrees of freedom. -/
def cntF : A S_ := subf (kst 0x43800000#32) (sitofp .f32 (constantI S_ 32 0#32))

/-- The row variances. -/
def varF (x : A S262144x256) : A S262144 :=
  select (broadcastInDim S262144 ![] bcast_S_S262144 (cmpf .ogt cntF (kst 0x00000000#32)))
    (Host.divf (Host.reduceAdd (mulf (devF x) (devF x)) (kst 0x00000000#32) reducesTo_S262144x256_S262144_d1 h_S_)
      (broadcastInDim S262144 ![] bcast_S_S262144 cntF))
    (broadcastInDim S262144 ![] bcast_S_S262144 (id (kst 0x7FC00000#32)))

/-- The surprise: the distance of the variance from one half. -/
def surF (v : A S262144) : A S262144 :=
  Host.absf (subf v (broadcastInDim S262144 ![] bcast_S_S262144 (kst 0x3F000000#32)))

/-- The excitation: the mean absolute value of a row. -/
def excF (h : A S262144x256) : A S262144 :=
  Host.divf (Host.reduceAdd (Host.absf h) (kst 0x00000000#32) reducesTo_S262144x256_S262144_d1 h_S_)
    (broadcastInDim S262144 ![] bcast_S_S262144 (kst 0x43800000#32))

/-- The four-column state. -/
def stateF (s e : A S262144) (n : A S_) : A S262144x4 :=
  concatenate S262144x4 1 [⟨S262144x1, colOf s⟩, ⟨S262144x1, colOf e⟩,
    ⟨S262144x1, colOf (broadcastInDim S262144 ![] bcast_S_S262144 n)⟩,
    ⟨S262144x1, colOf (broadcastInDim S262144 ![] bcast_S_S262144 (kst 0x3F000000#32))⟩]
    concatenates_S262144x1_S262144x1_S262144x1_S262144x1_S262144x4_d1

/-- The first affine map. -/
def z0F (st : A S262144x4) (w : A S16x4) (b : A S16) : A S262144x16 :=
  addf (Host.dotGeneral dot_S262144x4_S4x16_S262144x16_1_0_0_1_n_n none st (transpose S4x16 [1, 0] w transposes_S16x4_S4x16_1_0))
    (broadcastInDim S262144x16 ![0, 1] bcast_S1x16_S262144x16_0_1 (broadcastInDim S1x16 ![1] bcast_S16_S1x16_1 b))

/-- The column of means over the sixteen entries. -/
def muColF (z : A S262144x16) : A S262144x1 :=
  Host.divf (colOf (Host.reduceAdd z (kst 0x00000000#32) reducesTo_S262144x16_S262144_d1 h_S_))
    (broadcastInDim S262144x1 ![] bcast_S_S262144x1 (kst 0x41800000#32))

/-- The entries less their mean. -/
def cenF (z : A S262144x16) : A S262144x16 :=
  subf z (broadcastInDim S262144x16 ![0, 1] bcast_S262144x1_S262144x16_0_1 (muColF z))

/-- The column of variances over the sixteen entries. -/
def varColF (z : A S262144x16) : A S262144x1 :=
  Host.divf (colOf (Host.reduceAdd (mulf (cenF z) (cenF z)) (kst 0x00000000#32) reducesTo_S262144x16_S262144_d1 h_S_))
    (broadcastInDim S262144x1 ![] bcast_S_S262144x1 (kst 0x41800000#32))

/-- The layer normalisation with scale and shift, through tanh. -/
def lnF (z : A S262144x16) (g b : A S16) : A S262144x16 :=
  Host.tanh (addf
    (mulf (mulf (cenF z) (broadcastInDim S262144x16 ![0, 1] bcast_S262144x1_S262144x16_0_1
        (Host.rsqrt (addf (varColF z) (broadcastInDim S262144x1 ![] bcast_S_S262144x1 (kst 0x3727C5AC#32))))))
      (broadcastInDim S262144x16 ![0, 1] bcast_S1x16_S262144x16_0_1 (broadcastInDim S1x16 ![1] bcast_S16_S1x16_1 g)))
    (broadcastInDim S262144x16 ![0, 1] bcast_S1x16_S262144x16_0_1 (broadcastInDim S1x16 ![1] bcast_S16_S1x16_1 b)))

/-- The second affine map, cut below at zero. -/
def z3F (t : A S262144x16) (w : A S8x16) (b : A S8) : A S262144x8 :=
  maximumf
    (addf (Host.dotGeneral dot_S262144x16_S16x8_S262144x8_1_0_0_1_n_n none t (transpose S16x8 [1, 0] w transposes_S8x16_S16x8_1_0))
      (broadcastInDim S262144x8 ![0, 1] bcast_S1x8_S262144x8_0_1 (broadcastInDim S1x8 ![1] bcast_S8_S1x8_1 b)))
    (broadcastInDim S262144x8 ![] bcast_S_S262144x8 (kst 0x00000000#32))

/-- The third affine map. -/
def yF (t : A S262144x8) (w : A S4x8) (b : A S4) : A S262144x4 :=
  addf (Host.dotGeneral dot_S262144x8_S8x4_S262144x4_1_0_0_1_n_n none t (transpose S8x4 [1, 0] w transposes_S4x8_S8x4_1_0))
    (broadcastInDim S262144x4 ![0, 1] bcast_S1x4_S262144x4_0_1 (broadcastInDim S1x4 ![1] bcast_S4_S1x4_1 b))

/-- The logistic function spelt as one over one plus the exponential of the negation. -/
def ctlF (t : A S262144x8) (w : A S4x8) (b : A S4) : A S262144x4 :=
  Host.divf (broadcastInDim S262144x4 ![] bcast_S_S262144x4 (kst 0x3F800000#32))
    (addf (broadcastInDim S262144x4 ![] bcast_S_S262144x4 (kst 0x3F800000#32)) (Host.exp (Host.negf (yF t w b))))

/-! ## Reading the layout operations and the sums at an index -/

section Base
variable {α : Type}

/-- The pattern 0x43800000 is 256. -/
theorem lit256 : Ideal.ofBits .f32 0x43800000#32 = ((256 : ℝ) : EReal) := by
  simp [Ideal.ofBits, Ideal.ieee, -EReal.coe_mul]; norm_num

/-- 256 is positive. -/
theorem lit256_pos : (0 : EReal) < Ideal.ofBits .f32 0x43800000#32 := by
  rw [lit256]; exact EReal.coe_pos.mpr (by norm_num)

/-- A scalar constant read at its one index. -/
theorem kst_apply (b : BitVec 32) (i : S_.Idx) : kst b i = Ideal.ofBits .f32 b := rfl

/-- A scalar laid over a whole array reads the scalar everywhere. -/
theorem scalar_apply {T : Shape} (h : S_.BroadcastsInDim T ![]) (x : S_.Idx → α) (j : T.Idx) :
    broadcastInDim T ![] h x j = x ix0 := broadcastInDim_scalar_apply h x j

/-- A vector of n row values as a column, at (r, 0): the vector at r. -/
theorem col_apply {n : Nat} (v : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h v (ix2 r u) = v (ix1 r) := by
  refine broadcastInDim_apply ![0] h v (ix2 r u) (ix1 r) ?_
  intro a
  match a with
  | ⟨0, _⟩ =>
    show r.val = if n = 1 then 0 else r.val
    split
    · have := r.isLt; omega
    · rfl

/-- A column laid along k columns, at (r, q): the column at (r, 0). -/
theorem spread_apply {n k : Nat} (v : (⟨2, ![n, 1]⟩ : Shape).Idx → α)
    (h : (⟨2, ![n, 1]⟩ : Shape).BroadcastsInDim ⟨2, ![n, k]⟩ ![0, 1]) (r : Fin n) (q : Fin k) :
    broadcastInDim ⟨2, ![n, k]⟩ ![0, 1] h v (ix2 r q) = v (ix2 r (0 : Fin 1)) := by
  refine broadcastInDim_apply ![0, 1] h v (ix2 r q) (ix2 r (0 : Fin 1)) ?_
  intro a
  match a with
  | ⟨0, _⟩ =>
    show r.val = if n = 1 then 0 else r.val
    split
    · have := r.isLt; omega
    · rfl
  | ⟨1, _⟩ => rfl

/-- The host's sum along the second axis of an n × k array, at row r: the initial value plus the sum of the row. -/
theorem rowSum_apply {n k : Nat} (x : FVec Ideal ⟨2, ![n, k]⟩ .f32) (init : S_.Idx → Ideal .f32)
    (h' : (⟨2, ![n, k]⟩ : Shape).ReducesTo [1] ⟨1, ![n]⟩) (h : (⟨2, ![n, k]⟩ : Shape).Reduces [1] ⟨1, ![n]⟩)
    (hu : 0 < S_.numel) (r : Fin n) :
    Host.reduceAdd x init h' hu (ix1 r) = init ix0 + ∑ c : Fin k, x (ix2 r c) := by
  rw [hostReduceAdd_apply, Ideal.hostReduceAdd_single h' h]
  congr 1
  · exact congrArg init (funext fun a => a.elim0)
  · exact Finset.sum_congr rfl fun c _ => congrArg x (funext fun a => Fin.ext (by
      match a with
      | ⟨0, _⟩ => rfl
      | ⟨1, _⟩ => rfl))

/-- Four columns side by side, read in column c: that column at (r, 0). -/
theorem concat4_apply {n : Nat} (c0 c1 c2 c3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate ⟨2, ![n, 4]⟩ 1 [⟨⟨2, ![n, 1]⟩, c0⟩, ⟨⟨2, ![n, 1]⟩, c1⟩, ⟨⟨2, ![n, 1]⟩, c2⟩, ⟨⟨2, ![n, 1]⟩, c3⟩] h (ix2 r (0 : Fin 4))
        = c0 (ix2 r (0 : Fin 1))
      ∧ concatenate ⟨2, ![n, 4]⟩ 1 [⟨⟨2, ![n, 1]⟩, c0⟩, ⟨⟨2, ![n, 1]⟩, c1⟩, ⟨⟨2, ![n, 1]⟩, c2⟩, ⟨⟨2, ![n, 1]⟩, c3⟩] h (ix2 r (1 : Fin 4))
        = c1 (ix2 r (0 : Fin 1))
      ∧ concatenate ⟨2, ![n, 4]⟩ 1 [⟨⟨2, ![n, 1]⟩, c0⟩, ⟨⟨2, ![n, 1]⟩, c1⟩, ⟨⟨2, ![n, 1]⟩, c2⟩, ⟨⟨2, ![n, 1]⟩, c3⟩] h (ix2 r (2 : Fin 4))
        = c2 (ix2 r (0 : Fin 1))
      ∧ concatenate ⟨2, ![n, 4]⟩ 1 [⟨⟨2, ![n, 1]⟩, c0⟩, ⟨⟨2, ![n, 1]⟩, c1⟩, ⟨⟨2, ![n, 1]⟩, c2⟩, ⟨⟨2, ![n, 1]⟩, c3⟩] h (ix2 r (3 : Fin 4))
        = c3 (ix2 r (0 : Fin 1)) := by
  have hi : ∀ (c : Fin 4) (b : Fin (⟨2, ![n, 1]⟩ : Shape).rank), b.cast rfl ≠ (1 : Fin (⟨2, ![n, 4]⟩ : Shape).rank) →
      ((ix2 r (0 : Fin 1) : (⟨2, ![n, 1]⟩ : Shape).Idx) b).val = ((ix2 r c : (⟨2, ![n, 4]⟩ : Shape).Idx) (b.cast rfl)).val := by
    intro c b hb
    match b with
    | ⟨0, _⟩ => rfl
    | ⟨1, _⟩ => exact absurd rfl hb
  refine ⟨?_, ?_, ?_, ?_⟩
  · exact concatenate_apply_piece (t := ⟨2, ![n, 4]⟩) 1 [⟨⟨2, ![n, 1]⟩, c0⟩, ⟨⟨2, ![n, 1]⟩, c1⟩, ⟨⟨2, ![n, 1]⟩, c2⟩, ⟨⟨2, ![n, 1]⟩, c3⟩] h (ix2 r (0 : Fin 4)) 0 (by show 0 < 4; omega) ⟨2, ![n, 1]⟩ c0 rfl rfl 0 rfl (ix2 r (0 : Fin 1)) (hi 0) rfl
  · exact concatenate_apply_piece (t := ⟨2, ![n, 4]⟩) 1 [⟨⟨2, ![n, 1]⟩, c0⟩, ⟨⟨2, ![n, 1]⟩, c1⟩, ⟨⟨2, ![n, 1]⟩, c2⟩, ⟨⟨2, ![n, 1]⟩, c3⟩] h (ix2 r (1 : Fin 4)) 1 (by show 1 < 4; omega) ⟨2, ![n, 1]⟩ c1 rfl rfl 1 rfl (ix2 r (0 : Fin 1)) (hi 1) rfl
  · exact concatenate_apply_piece (t := ⟨2, ![n, 4]⟩) 1 [⟨⟨2, ![n, 1]⟩, c0⟩, ⟨⟨2, ![n, 1]⟩, c1⟩, ⟨⟨2, ![n, 1]⟩, c2⟩, ⟨⟨2, ![n, 1]⟩, c3⟩] h (ix2 r (2 : Fin 4)) 2 (by show 2 < 4; omega) ⟨2, ![n, 1]⟩ c2 rfl rfl 2 rfl (ix2 r (0 : Fin 1)) (hi 2) rfl
  · exact concatenate_apply_piece (t := ⟨2, ![n, 4]⟩) 1 [⟨⟨2, ![n, 1]⟩, c0⟩, ⟨⟨2, ![n, 1]⟩, c1⟩, ⟨⟨2, ![n, 1]⟩, c2⟩, ⟨⟨2, ![n, 1]⟩, c3⟩] h (ix2 r (3 : Fin 4)) 3 (by show 3 < 4; omega) ⟨2, ![n, 1]⟩ c3 rfl rfl 3 rfl (ix2 r (0 : Fin 1)) (hi 3) rfl

/-- x times the transpose of w, over the plain dimension numbers, at (r, q): row r of x against row q of w. -/
theorem dotT_apply {m k n : Nat} (x : FVec Ideal ⟨2, ![m, k]⟩ .f32) (w : FVec Ideal ⟨2, ![n, k]⟩ .f32)
    (ht : (⟨2, ![n, k]⟩ : Shape).Transposes [1, 0] ⟨2, ![k, n]⟩) (r : Fin m) (q : Fin n) :
    Host.dotGeneral (DotDims.plain m k n) none x (transpose ⟨2, ![k, n]⟩ [1, 0] w ht) (ix2 r q)
      = ∑ c : Fin k, x (ix2 r c) * w (ix2 q c) := by
  show FloatOps.dotGeneral (DotDims.plain m k n) none .single x _ (ix2 r q) = _
  rw [PlainDot.dotGeneral_apply]
  exact Finset.sum_congr rfl fun c _ => by rw [transpose_ix2_apply]

end Base

end Cert.ReferenceIdeal.RefRows

end
-- ==== Proof.RefCut.lean ====
/-
  The first part of the reference's operations, cut into nine stretches.

  The 113 operations that end in the controls are, in order: the first projection with its clamp; the second
  projection; the norm of the first weight; the row variance; the surprise and the excitation; the state and the
  first affine map; the layer normalisation with tanh; the second affine map with its cut at zero; the third affine map
  with the logistic function. Running the whole list is running the stretches one after the other. After a stretch,
  the buffer of its result holds the stage's function of what the buffers it reads held before it, and every buffer
  the stretch does not write holds what it held.
-/
import proofs.«142104_j18769007084085_2_alg».proof.Proof.RefOps
import proofs.«142104_j18769007084085_2_alg».proof.Proof.RefStages
import Idealize.ShloMosaic.Lib.StableHlo.Run

noncomputable section

namespace Cert.ReferenceIdeal.RefRows

open Idealize.ShloMosaic Idealize.SL.Sem Idealize.ShloMosaic.StableHlo Idealize.ShloMosaic.ValueIdx
open Cert.ReferenceIdeal.Facts₀

variable {F : FTy → Type} [FloatOps F]

/-- The first projection and its clamp. -/
def sA : List (HloOp τ sig (Elt F)) :=
  [ StableHlo.unary main_arg2 main_v0 ((transpose S256x256 [1, 0] · transposes_S256x256_S256x256_1_0) : (⟨S256x256, .f32⟩ : BufTy).Contents (Elt F) → (⟨S256x256, .f32⟩ : BufTy).Contents (Elt F)),
    StableHlo.binary main_arg0 main_v0 main_v1 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    StableHlo.nullary main_cst (constant S_ .f32 0xC0000000#32),
    StableHlo.nullary main_cst_0 (constant S_ .f32 0x40000000#32),
    StableHlo.TRef.unary (.of main_cst : StableHlo.TRef sig ⟨S_, .f32⟩) main_call0.v0 id,
    StableHlo.TRef.unary main_call0.v0 main_call0.v1 (broadcastInDim S262144x256 ![] bcast_S_S262144x256),
    StableHlo.TRef.binary main_call0.v1 (.of main_v1 : StableHlo.TRef sig ⟨S262144x256, .f32⟩) main_call0.v2 maximumf,
    StableHlo.TRef.unary (.of main_cst_0 : StableHlo.TRef sig ⟨S_, .f32⟩) main_call0.v3 id,
    StableHlo.TRef.unary main_call0.v3 main_call0.v4 (broadcastInDim S262144x256 ![] bcast_S_S262144x256),
    StableHlo.TRef.binary main_call0.v4 main_call0.v2 main_call0.v5 minimumf ]

/-- The second projection. -/
def sB : List (HloOp τ sig (Elt F)) :=
  [ StableHlo.unary main_arg1 main_v3 ((transpose S256x256 [1, 0] · transposes_S256x256_S256x256_1_0) : (⟨S256x256, .f32⟩ : BufTy).Contents (Elt F) → (⟨S256x256, .f32⟩ : BufTy).Contents (Elt F)),
    StableHlo.binary main_arg0 main_v3 main_v4 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)) ]

/-- The Frobenius norm of the weight. -/
def sC : List (HloOp τ sig (Elt F)) :=
  [ StableHlo.TRef.binary (.of main_arg1 : StableHlo.TRef sig ⟨S256x256, .f32⟩) (.of main_arg1 : StableHlo.TRef sig ⟨S256x256, .f32⟩) main_call1.v0 mulf,
    StableHlo.TRef.nullary main_call1.cst (constant S_ .f32 0x00000000#32),
    StableHlo.TRef.binary main_call1.v0 main_call1.cst main_call1.v1 (fun x v => Host.reduceAdd x v reducesTo_S256x256_S_d0_1 h_S_),
    StableHlo.TRef.unary main_call1.v1 main_call1.v2 Host.sqrt ]

/-- The row variance, with its selection. -/
def sD : List (HloOp τ sig (Elt F)) :=
  [ StableHlo.nullary main_c (constantI S_ 32 0#32),
    StableHlo.TRef.nullary main_call2.cst (constant S_ .f32 0x00000000#32),
    StableHlo.TRef.binary (.of main_arg0 : StableHlo.TRef sig ⟨S262144x256, .f32⟩) main_call2.cst main_call2.v0 (fun x v => Host.reduceAdd x v reducesTo_S262144x256_S262144_d1 h_S_),
    StableHlo.TRef.unary main_call2.v0 main_call2.v1 (broadcastInDim S262144x1 ![0] bcast_S262144_S262144x1_0),
    StableHlo.TRef.nullary main_call2.cst_0 (constant S_ .f32 0x43800000#32),
    StableHlo.TRef.unary main_call2.cst_0 main_call2.v2 (broadcastInDim S262144x1 ![] bcast_S_S262144x1),
    StableHlo.TRef.binary main_call2.v1 main_call2.v2 main_call2.v3 Host.divf,
    StableHlo.TRef.unary main_call2.v3 main_call2.v4 (broadcastInDim S262144x256 ![0, 1] bcast_S262144x1_S262144x256_0_1),
    StableHlo.TRef.binary (.of main_arg0 : StableHlo.TRef sig ⟨S262144x256, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x43800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S262144x256_S262144_d1 h_S_),
    StableHlo.TRef.unary main_call2.v8 main_call2.v10 (broadcastInDim S262144 ![] bcast_S_S262144),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S262144 ![] bcast_S_S262144),
    StableHlo.TRef.ternary main_call2.v12 main_call2.v11 main_call2.call0.v1 main_call2.call0.v2 (fun p a b => select (broadcastInDim S262144 ![] bcast_S_S262144 p) a b) ]

/-- The surprise and the excitation. -/
def sE : List (HloOp τ sig (Elt F)) :=
  [ StableHlo.nullary main_cst_1 (constant S_ .f32 0x3F000000#32),
    StableHlo.unary main_cst_1 main_v7 (broadcastInDim S262144 ![] bcast_S_S262144 : (⟨S_, .f32⟩ : BufTy).Contents (Elt F) → (⟨S262144, .f32⟩ : BufTy).Contents (Elt F)),
    StableHlo.binary main_v6 main_v7 main_v8 (subf : (⟨S262144, .f32⟩ : BufTy).Contents (Elt F) → (⟨S262144, .f32⟩ : BufTy).Contents (Elt F) → (⟨S262144, .f32⟩ : BufTy).Contents (Elt F)),
    StableHlo.unary main_v8 main_v9 (Host.absf : (⟨S262144, .f32⟩ : BufTy).Contents (Elt F) → (⟨S262144, .f32⟩ : BufTy).Contents (Elt F)),
    StableHlo.unary main_v4 main_v10 (Host.absf : (⟨S262144x256, .f32⟩ : BufTy).Contents (Elt F) → (⟨S262144x256, .f32⟩ : BufTy).Contents (Elt F)),
    StableHlo.nullary main_cst_2 (constant S_ .f32 0x00000000#32),
    StableHlo.binary main_v10 main_cst_2 main_v11 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    StableHlo.nullary main_cst_3 (constant S_ .f32 0x43800000#32),
    StableHlo.unary main_cst_3 main_v12 (broadcastInDim S262144 ![] bcast_S_S262144 : (⟨S_, .f32⟩ : BufTy).Contents (Elt F) → (⟨S262144, .f32⟩ : BufTy).Contents (Elt F)),
    StableHlo.binary main_v11 main_v12 main_v13 (Host.divf : (⟨S262144, .f32⟩ : BufTy).Contents (Elt F) → (⟨S262144, .f32⟩ : BufTy).Contents (Elt F) → (⟨S262144, .f32⟩ : BufTy).Contents (Elt F)) ]

/-- The four-column state and the first affine map. -/
def sF : List (HloOp τ sig (Elt F)) :=
  [ StableHlo.unary main_v5 main_v14 (broadcastInDim S262144 ![] bcast_S_S262144 : (⟨S_, .f32⟩ : BufTy).Contents (Elt F) → (⟨S262144, .f32⟩ : BufTy).Contents (Elt F)),
    StableHlo.nullary main_cst_4 (constant S_ .f32 0x3F000000#32),
    StableHlo.unary main_cst_4 main_v15 (broadcastInDim S262144 ![] bcast_S_S262144 : (⟨S_, .f32⟩ : BufTy).Contents (Elt F) → (⟨S262144, .f32⟩ : BufTy).Contents (Elt F)),
    StableHlo.unary main_v9 main_v16 (broadcastInDim S262144x1 ![0] bcast_S262144_S262144x1_0 : (⟨S262144, .f32⟩ : BufTy).Contents (Elt F) → (⟨S262144x1, .f32⟩ : BufTy).Contents (Elt F)),
    StableHlo.unary main_v13 main_v17 (broadcastInDim S262144x1 ![0] bcast_S262144_S262144x1_0 : (⟨S262144, .f32⟩ : BufTy).Contents (Elt F) → (⟨S262144x1, .f32⟩ : BufTy).Contents (Elt F)),
    StableHlo.unary main_v14 main_v18 (broadcastInDim S262144x1 ![0] bcast_S262144_S262144x1_0 : (⟨S262144, .f32⟩ : BufTy).Contents (Elt F) → (⟨S262144x1, .f32⟩ : BufTy).Contents (Elt F)),
    StableHlo.unary main_v15 main_v19 (broadcastInDim S262144x1 ![0] bcast_S262144_S262144x1_0 : (⟨S262144, .f32⟩ : BufTy).Contents (Elt F) → (⟨S262144x1, .f32⟩ : BufTy).Contents (Elt F)),
    StableHlo.nary ![main_v16, main_v17, main_v18, main_v19] main_v20 (fun u => concatenate S262144x4 1 [⟨S262144x1, u 0⟩, ⟨S262144x1, u 1⟩, ⟨S262144x1, u 2⟩, ⟨S262144x1, u 3⟩] concatenates_S262144x1_S262144x1_S262144x1_S262144x1_S262144x4_d1),
    StableHlo.unary main_arg5 main_v21 ((transpose S4x16 [1, 0] · transposes_S16x4_S4x16_1_0) : (⟨S16x4, .f32⟩ : BufTy).Contents (Elt F) → (⟨S4x16, .f32⟩ : BufTy).Contents (Elt F)),
    StableHlo.binary main_v20 main_v21 main_v22 ((fun l r => Host.dotGeneral dot_S262144x4_S4x16_S262144x16_1_0_0_1_n_n none l r) : (⟨S262144x4, .f32⟩ : BufTy).Contents (Elt F) → (⟨S4x16, .f32⟩ : BufTy).Contents (Elt F) → (⟨S262144x16, .f32⟩ : BufTy).Contents (Elt F)),
    StableHlo.unary main_arg6 main_v23 (broadcastInDim S1x16 ![1] bcast_S16_S1x16_1 : (⟨S16, .f32⟩ : BufTy).Contents (Elt F) → (⟨S1x16, .f32⟩ : BufTy).Contents (Elt F)),
    StableHlo.unary main_v23 main_v24 (broadcastInDim S262144x16 ![0, 1] bcast_S1x16_S262144x16_0_1 : (⟨S1x16, .f32⟩ : BufTy).Contents (Elt F) → (⟨S262144x16, .f32⟩ : BufTy).Contents (Elt F)),
    StableHlo.binary main_v22 main_v24 main_v25 (addf : (⟨S262144x16, .f32⟩ : BufTy).Contents (Elt F) → (⟨S262144x16, .f32⟩ : BufTy).Contents (Elt F) → (⟨S262144x16, .f32⟩ : BufTy).Contents (Elt F)) ]

/-- The layer normalisation and tanh. -/
def sG : List (HloOp τ sig (Elt F)) :=
  [ StableHlo.nullary main_cst_5 (constant S_ .f32 0x00000000#32),
    StableHlo.binary main_v25 main_cst_5 main_v26 ((fun x v => Host.reduceAdd x v reducesTo_S262144x16_S262144_d1 h_S_) : (⟨S262144x16, .f32⟩ : BufTy).Contents (Elt F) → (⟨S_, .f32⟩ : BufTy).Contents (Elt F) → (⟨S262144, .f32⟩ : BufTy).Contents (Elt F)),
    StableHlo.unary main_v26 main_v27 (broadcastInDim S262144x1 ![0] bcast_S262144_S262144x1_0 : (⟨S262144, .f32⟩ : BufTy).Contents (Elt F) → (⟨S262144x1, .f32⟩ : BufTy).Contents (Elt F)),
    StableHlo.nullary main_cst_6 (constant S_ .f32 0x41800000#32),
    StableHlo.unary main_cst_6 main_v28 (broadcastInDim S262144x1 ![] bcast_S_S262144x1 : (⟨S_, .f32⟩ : BufTy).Contents (Elt F) → (⟨S262144x1, .f32⟩ : BufTy).Contents (Elt F)),
    StableHlo.binary main_v27 main_v28 main_v29 (Host.divf : (⟨S262144x1, .f32⟩ : BufTy).Contents (Elt F) → (⟨S262144x1, .f32⟩ : BufTy).Contents (Elt F) → (⟨S262144x1, .f32⟩ : BufTy).Contents (Elt F)),
    StableHlo.unary main_v29 main_v30 (broadcastInDim S262144x16 ![0, 1] bcast_S262144x1_S262144x16_0_1 : (⟨S262144x1, .f32⟩ : BufTy).Contents (Elt F) → (⟨S262144x16, .f32⟩ : BufTy).Contents (Elt F)),
    StableHlo.binary main_v25 main_v30 main_v31 (subf : (⟨S262144x16, .f32⟩ : BufTy).Contents (Elt F) → (⟨S262144x16, .f32⟩ : BufTy).Contents (Elt F) → (⟨S262144x16, .f32⟩ : BufTy).Contents (Elt F)),
    StableHlo.binary main_v31 main_v31 main_v32 (mulf : (⟨S262144x16, .f32⟩ : BufTy).Contents (Elt F) → (⟨S262144x16, .f32⟩ : BufTy).Contents (Elt F) → (⟨S262144x16, .f32⟩ : BufTy).Contents (Elt F)),
    StableHlo.nullary main_cst_7 (constant S_ .f32 0x00000000#32),
    StableHlo.binary main_v32 main_cst_7 main_v33 ((fun x v => Host.reduceAdd x v reducesTo_S262144x16_S262144_d1 h_S_) : (⟨S262144x16, .f32⟩ : BufTy).Contents (Elt F) → (⟨S_, .f32⟩ : BufTy).Contents (Elt F) → (⟨S262144, .f32⟩ : BufTy).Contents (Elt F)),
    StableHlo.unary main_v33 main_v34 (broadcastInDim S262144x1 ![0] bcast_S262144_S262144x1_0 : (⟨S262144, .f32⟩ : BufTy).Contents (Elt F) → (⟨S262144x1, .f32⟩ : BufTy).Contents (Elt F)),
    StableHlo.nullary main_cst_8 (constant S_ .f32 0x41800000#32),
    StableHlo.unary main_cst_8 main_v35 (broadcastInDim S262144x1 ![] bcast_S_S262144x1 : (⟨S_, .f32⟩ : BufTy).Contents (Elt F) → (⟨S262144x1, .f32⟩ : BufTy).Contents (Elt F)),
    StableHlo.binary main_v34 main_v35 main_v36 (Host.divf : (⟨S262144x1, .f32⟩ : BufTy).Contents (Elt F) → (⟨S262144x1, .f32⟩ : BufTy).Contents (Elt F) → (⟨S262144x1, .f32⟩ : BufTy).Contents (Elt F)),
    StableHlo.unary main_v29 main_v37 (broadcastInDim S262144x16 ![0, 1] bcast_S262144x1_S262144x16_0_1 : (⟨S262144x1, .f32⟩ : BufTy).Contents (Elt F) → (⟨S262144x16, .f32⟩ : BufTy).Contents (Elt F)),
    StableHlo.binary main_v25 main_v37 main_v38 (subf : (⟨S262144x16, .f32⟩ : BufTy).Contents (Elt F) → (⟨S262144x16, .f32⟩ : BufTy).Contents (Elt F) → (⟨S262144x16, .f32⟩ : BufTy).Contents (Elt F)),
    StableHlo.nullary main_cst_9 (constant S_ .f32 0x3727C5AC#32),
    StableHlo.unary main_cst_9 main_v39 (broadcastInDim S262144x1 ![] bcast_S_S262144x1 : (⟨S_, .f32⟩ : BufTy).Contents (Elt F) → (⟨S262144x1, .f32⟩ : BufTy).Contents (Elt F)),
    StableHlo.binary main_v36 main_v39 main_v40 (addf : (⟨S262144x1, .f32⟩ : BufTy).Contents (Elt F) → (⟨S262144x1, .f32⟩ : BufTy).Contents (Elt F) → (⟨S262144x1, .f32⟩ : BufTy).Contents (Elt F)),
    StableHlo.unary main_v40 main_v41 (Host.rsqrt : (⟨S262144x1, .f32⟩ : BufTy).Contents (Elt F) → (⟨S262144x1, .f32⟩ : BufTy).Contents (Elt F)),
    StableHlo.unary main_v41 main_v42 (broadcastInDim S262144x16 ![0, 1] bcast_S262144x1_S262144x16_0_1 : (⟨S262144x1, .f32⟩ : BufTy).Contents (Elt F) → (⟨S262144x16, .f32⟩ : BufTy).Contents (Elt F)),
    StableHlo.binary main_v38 main_v42 main_v43 (mulf : (⟨S262144x16, .f32⟩ : BufTy).Contents (Elt F) → (⟨S262144x16, .f32⟩ : BufTy).Contents (Elt F) → (⟨S262144x16, .f32⟩ : BufTy).Contents (Elt F)),
    StableHlo.unary main_arg7 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S262144x16 ![0, 1] bcast_S1x16_S262144x16_0_1 : (⟨S1x16, .f32⟩ : BufTy).Contents (Elt F) → (⟨S262144x16, .f32⟩ : BufTy).Contents (Elt F)),
    StableHlo.binary main_v43 main_v45 main_v46 (mulf : (⟨S262144x16, .f32⟩ : BufTy).Contents (Elt F) → (⟨S262144x16, .f32⟩ : BufTy).Contents (Elt F) → (⟨S262144x16, .f32⟩ : BufTy).Contents (Elt F)),
    StableHlo.unary main_arg8 main_v47 (broadcastInDim S1x16 ![1] bcast_S16_S1x16_1 : (⟨S16, .f32⟩ : BufTy).Contents (Elt F) → (⟨S1x16, .f32⟩ : BufTy).Contents (Elt F)),
    StableHlo.unary main_v47 main_v48 (broadcastInDim S262144x16 ![0, 1] bcast_S1x16_S262144x16_0_1 : (⟨S1x16, .f32⟩ : BufTy).Contents (Elt F) → (⟨S262144x16, .f32⟩ : BufTy).Contents (Elt F)),
    StableHlo.binary main_v46 main_v48 main_v49 (addf : (⟨S262144x16, .f32⟩ : BufTy).Contents (Elt F) → (⟨S262144x16, .f32⟩ : BufTy).Contents (Elt F) → (⟨S262144x16, .f32⟩ : BufTy).Contents (Elt F)),
    StableHlo.unary main_v49 main_v50 (Host.tanh : (⟨S262144x16, .f32⟩ : BufTy).Contents (Elt F) → (⟨S262144x16, .f32⟩ : BufTy).Contents (Elt F)) ]

/-- The second affine map and the cut at zero. -/
def sH : List (HloOp τ sig (Elt F)) :=
  [ StableHlo.unary main_arg9 main_v51 ((transpose S16x8 [1, 0] · transposes_S8x16_S16x8_1_0) : (⟨S8x16, .f32⟩ : BufTy).Contents (Elt F) → (⟨S16x8, .f32⟩ : BufTy).Contents (Elt F)),
    StableHlo.binary main_v50 main_v51 main_v52 ((fun l r => Host.dotGeneral dot_S262144x16_S16x8_S262144x8_1_0_0_1_n_n none l r) : (⟨S262144x16, .f32⟩ : BufTy).Contents (Elt F) → (⟨S16x8, .f32⟩ : BufTy).Contents (Elt F) → (⟨S262144x8, .f32⟩ : BufTy).Contents (Elt F)),
    StableHlo.unary main_arg10 main_v53 (broadcastInDim S1x8 ![1] bcast_S8_S1x8_1 : (⟨S8, .f32⟩ : BufTy).Contents (Elt F) → (⟨S1x8, .f32⟩ : BufTy).Contents (Elt F)),
    StableHlo.unary main_v53 main_v54 (broadcastInDim S262144x8 ![0, 1] bcast_S1x8_S262144x8_0_1 : (⟨S1x8, .f32⟩ : BufTy).Contents (Elt F) → (⟨S262144x8, .f32⟩ : BufTy).Contents (Elt F)),
    StableHlo.binary main_v52 main_v54 main_v55 (addf : (⟨S262144x8, .f32⟩ : BufTy).Contents (Elt F) → (⟨S262144x8, .f32⟩ : BufTy).Contents (Elt F) → (⟨S262144x8, .f32⟩ : BufTy).Contents (Elt F)),
    StableHlo.TRef.nullary main_call3.cst (constant S_ .f32 0x00000000#32),
    StableHlo.TRef.unary main_call3.cst main_call3.v0 (broadcastInDim S262144x8 ![] bcast_S_S262144x8),
    StableHlo.TRef.binary (.of main_v55 : StableHlo.TRef sig ⟨S262144x8, .f32⟩) main_call3.v0 main_call3.v1 maximumf ]

/-- The third affine map and the logistic function. -/
def sI : List (HloOp τ sig (Elt F)) :=
  [ StableHlo.unary main_arg11 main_v57 ((transpose S8x4 [1, 0] · transposes_S4x8_S8x4_1_0) : (⟨S4x8, .f32⟩ : BufTy).Contents (Elt F) → (⟨S8x4, .f32⟩ : BufTy).Contents (Elt F)),
    StableHlo.binary main_v56 main_v57 main_v58 ((fun l r => Host.dotGeneral dot_S262144x8_S8x4_S262144x4_1_0_0_1_n_n none l r) : (⟨S262144x8, .f32⟩ : BufTy).Contents (Elt F) → (⟨S8x4, .f32⟩ : BufTy).Contents (Elt F) → (⟨S262144x4, .f32⟩ : BufTy).Contents (Elt F)),
    StableHlo.unary main_arg12 main_v59 (broadcastInDim S1x4 ![1] bcast_S4_S1x4_1 : (⟨S4, .f32⟩ : BufTy).Contents (Elt F) → (⟨S1x4, .f32⟩ : BufTy).Contents (Elt F)),
    StableHlo.unary main_v59 main_v60 (broadcastInDim S262144x4 ![0, 1] bcast_S1x4_S262144x4_0_1 : (⟨S1x4, .f32⟩ : BufTy).Contents (Elt F) → (⟨S262144x4, .f32⟩ : BufTy).Contents (Elt F)),
    StableHlo.binary main_v58 main_v60 main_v61 (addf : (⟨S262144x4, .f32⟩ : BufTy).Contents (Elt F) → (⟨S262144x4, .f32⟩ : BufTy).Contents (Elt F) → (⟨S262144x4, .f32⟩ : BufTy).Contents (Elt F)),
    StableHlo.unary main_v61 main_v62 (Host.negf : (⟨S262144x4, .f32⟩ : BufTy).Contents (Elt F) → (⟨S262144x4, .f32⟩ : BufTy).Contents (Elt F)),
    StableHlo.unary main_v62 main_v63 (Host.exp : (⟨S262144x4, .f32⟩ : BufTy).Contents (Elt F) → (⟨S262144x4, .f32⟩ : BufTy).Contents (Elt F)),
    StableHlo.nullary main_cst_10 (constant S_ .f32 0x3F800000#32),
    StableHlo.unary main_cst_10 main_v64 (broadcastInDim S262144x4 ![] bcast_S_S262144x4 : (⟨S_, .f32⟩ : BufTy).Contents (Elt F) → (⟨S262144x4, .f32⟩ : BufTy).Contents (Elt F)),
    StableHlo.binary main_v64 main_v63 main_v65 (addf : (⟨S262144x4, .f32⟩ : BufTy).Contents (Elt F) → (⟨S262144x4, .f32⟩ : BufTy).Contents (Elt F) → (⟨S262144x4, .f32⟩ : BufTy).Contents (Elt F)),
    StableHlo.nullary main_cst_11 (constant S_ .f32 0x3F800000#32),
    StableHlo.unary main_cst_11 main_v66 (broadcastInDim S262144x4 ![] bcast_S_S262144x4 : (⟨S_, .f32⟩ : BufTy).Contents (Elt F) → (⟨S262144x4, .f32⟩ : BufTy).Contents (Elt F)),
    StableHlo.binary main_v66 main_v65 main_v67 (Host.divf : (⟨S262144x4, .f32⟩ : BufTy).Contents (Elt F) → (⟨S262144x4, .f32⟩ : BufTy).Contents (Elt F) → (⟨S262144x4, .f32⟩ : BufTy).Contents (Elt F)) ]

/-- The operations are the nine stretches in order. -/
theorem cut_eq : (RefOps.opsHead (F := F)) = sA ++ (sB ++ (sC ++ (sD ++ (sE ++ (sF ++ (sG ++ (sH ++ (sI)))))))) := rfl

/-- Running them is running the stretches one after the other. -/
theorem after_head (V : Valuation τ sig (Elt F)) :
    after (RefOps.opsHead (F := F)) V = after sI (after sH (after sG (after sF (after sE (after sD (after sC (after sB (after sA (V))))))))) := by
  rw [cut_eq]; simp only [StableHlo.after_append]
/-- The buffers the stretch writes. -/
abbrev sA_W : List (Ref sig .tc) := [main_v0, main_v1, main_cst, main_cst_0, main_call0_v0, main_call0_v1, main_call0_v2, main_call0_v3, main_call0_v4, main_v2]

theorem sA_writes : (sA (F := F)).Forall fun op => op.writes ⊆ (sA_W.map (Proc.devRef (τ := τ) .tc)).toFinset := by
  unfold sA
  simp only [List.Forall]
  refine ⟨?_, ?_, ?_, ?_, ?_, ?_, ?_, ?_, ?_, ?_⟩ <;>
    (simp only [nullary_writes, unary_writes, binary_writes, ternary_writes, nary_writes, Finset.singleton_subset_iff, List.mem_toFinset]
     exact List.mem_map_of_mem (by decide))

/-- A buffer the stretch does not write keeps its contents. -/
theorem sA_keep (V : Valuation τ sig (Elt F)) (r : Ref sig .tc) (h : r ∉ sA_W) :
    after sA V (Proc.devRef .tc r) = V (Proc.devRef .tc r) :=
  after_of_writes_sub sA V sA_writes h

/-- The buffers the stretch writes. -/
abbrev sB_W : List (Ref sig .tc) := [main_v3, main_v4]

theorem sB_writes : (sB (F := F)).Forall fun op => op.writes ⊆ (sB_W.map (Proc.devRef (τ := τ) .tc)).toFinset := by
  unfold sB
  simp only [List.Forall]
  refine ⟨?_, ?_⟩ <;>
    (simp only [nullary_writes, unary_writes, binary_writes, ternary_writes, nary_writes, Finset.singleton_subset_iff, List.mem_toFinset]
     exact List.mem_map_of_mem (by decide))

/-- A buffer the stretch does not write keeps its contents. -/
theorem sB_keep (V : Valuation τ sig (Elt F)) (r : Ref sig .tc) (h : r ∉ sB_W) :
    after sB V (Proc.devRef .tc r) = V (Proc.devRef .tc r) :=
  after_of_writes_sub sB V sB_writes h

/-- The buffers the stretch writes. -/
abbrev sC_W : List (Ref sig .tc) := [main_call1_v0, main_call1_cst, main_call1_v1, main_v5]

theorem sC_writes : (sC (F := F)).Forall fun op => op.writes ⊆ (sC_W.map (Proc.devRef (τ := τ) .tc)).toFinset := by
  unfold sC
  simp only [List.Forall]
  refine ⟨?_, ?_, ?_, ?_⟩ <;>
    (simp only [nullary_writes, unary_writes, binary_writes, ternary_writes, nary_writes, Finset.singleton_subset_iff, List.mem_toFinset]
     exact List.mem_map_of_mem (by decide))

/-- A buffer the stretch does not write keeps its contents. -/
theorem sC_keep (V : Valuation τ sig (Elt F)) (r : Ref sig .tc) (h : r ∉ sC_W) :
    after sC V (Proc.devRef .tc r) = V (Proc.devRef .tc r) :=
  after_of_writes_sub sC V sC_writes h

/-- The buffers the stretch writes. -/
abbrev sD_W : List (Ref sig .tc) := [main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v6]

theorem sD_writes : (sD (F := F)).Forall fun op => op.writes ⊆ (sD_W.map (Proc.devRef (τ := τ) .tc)).toFinset := by
  unfold sD
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, nary_writes, Finset.singleton_subset_iff, List.mem_toFinset]
     exact List.mem_map_of_mem (by decide))

/-- A buffer the stretch does not write keeps its contents. -/
theorem sD_keep (V : Valuation τ sig (Elt F)) (r : Ref sig .tc) (h : r ∉ sD_W) :
    after sD V (Proc.devRef .tc r) = V (Proc.devRef .tc r) :=
  after_of_writes_sub sD V sD_writes h

/-- The buffers the stretch writes. -/
abbrev sE_W : List (Ref sig .tc) := [main_cst_1, main_v7, main_v8, main_v9, main_v10, main_cst_2, main_v11, main_cst_3, main_v12, main_v13]

theorem sE_writes : (sE (F := F)).Forall fun op => op.writes ⊆ (sE_W.map (Proc.devRef (τ := τ) .tc)).toFinset := by
  unfold sE
  simp only [List.Forall]
  refine ⟨?_, ?_, ?_, ?_, ?_, ?_, ?_, ?_, ?_, ?_⟩ <;>
    (simp only [nullary_writes, unary_writes, binary_writes, ternary_writes, nary_writes, Finset.singleton_subset_iff, List.mem_toFinset]
     exact List.mem_map_of_mem (by decide))

/-- A buffer the stretch does not write keeps its contents. -/
theorem sE_keep (V : Valuation τ sig (Elt F)) (r : Ref sig .tc) (h : r ∉ sE_W) :
    after sE V (Proc.devRef .tc r) = V (Proc.devRef .tc r) :=
  after_of_writes_sub sE V sE_writes h

/-- The buffers the stretch writes. -/
abbrev sF_W : List (Ref sig .tc) := [main_v14, main_cst_4, main_v15, main_v16, main_v17, main_v18, main_v19, main_v20, main_v21, main_v22, main_v23, main_v24, main_v25]

theorem sF_writes : (sF (F := F)).Forall fun op => op.writes ⊆ (sF_W.map (Proc.devRef (τ := τ) .tc)).toFinset := by
  unfold sF
  simp only [List.Forall]
  refine ⟨?_, ?_, ?_, ?_, ?_, ?_, ?_, ?_, ?_, ?_, ?_, ?_, ?_⟩ <;>
    (simp only [nullary_writes, unary_writes, binary_writes, ternary_writes, nary_writes, Finset.singleton_subset_iff, List.mem_toFinset]
     exact List.mem_map_of_mem (by decide))

/-- A buffer the stretch does not write keeps its contents. -/
theorem sF_keep (V : Valuation τ sig (Elt F)) (r : Ref sig .tc) (h : r ∉ sF_W) :
    after sF V (Proc.devRef .tc r) = V (Proc.devRef .tc r) :=
  after_of_writes_sub sF V sF_writes h

/-- The buffers the stretch writes. -/
abbrev sG_W : List (Ref sig .tc) := [main_cst_5, main_v26, main_v27, main_cst_6, main_v28, main_v29, main_v30, main_v31, main_v32, main_cst_7, main_v33, main_v34, main_cst_8, main_v35, main_v36, main_v37, main_v38, main_cst_9, main_v39, main_v40, main_v41, main_v42, main_v43, main_v44, main_v45, main_v46, main_v47, main_v48, main_v49, main_v50]

theorem sG_writes : (sG (F := F)).Forall fun op => op.writes ⊆ (sG_W.map (Proc.devRef (τ := τ) .tc)).toFinset := by
  unfold sG
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, nary_writes, Finset.singleton_subset_iff, List.mem_toFinset]
     exact List.mem_map_of_mem (by decide))

/-- A buffer the stretch does not write keeps its contents. -/
theorem sG_keep (V : Valuation τ sig (Elt F)) (r : Ref sig .tc) (h : r ∉ sG_W) :
    after sG V (Proc.devRef .tc r) = V (Proc.devRef .tc r) :=
  after_of_writes_sub sG V sG_writes h

/-- The buffers the stretch writes. -/
abbrev sH_W : List (Ref sig .tc) := [main_v51, main_v52, main_v53, main_v54, main_v55, main_call3_cst, main_call3_v0, main_v56]

theorem sH_writes : (sH (F := F)).Forall fun op => op.writes ⊆ (sH_W.map (Proc.devRef (τ := τ) .tc)).toFinset := by
  unfold sH
  simp only [List.Forall]
  refine ⟨?_, ?_, ?_, ?_, ?_, ?_, ?_, ?_⟩ <;>
    (simp only [nullary_writes, unary_writes, binary_writes, ternary_writes, nary_writes, Finset.singleton_subset_iff, List.mem_toFinset]
     exact List.mem_map_of_mem (by decide))

/-- A buffer the stretch does not write keeps its contents. -/
theorem sH_keep (V : Valuation τ sig (Elt F)) (r : Ref sig .tc) (h : r ∉ sH_W) :
    after sH V (Proc.devRef .tc r) = V (Proc.devRef .tc r) :=
  after_of_writes_sub sH V sH_writes h

/-- The buffers the stretch writes. -/
abbrev sI_W : List (Ref sig .tc) := [main_v57, main_v58, main_v59, main_v60, main_v61, main_v62, main_v63, main_cst_10, main_v64, main_v65, main_cst_11, main_v66, main_v67]

theorem sI_writes : (sI (F := F)).Forall fun op => op.writes ⊆ (sI_W.map (Proc.devRef (τ := τ) .tc)).toFinset := by
  unfold sI
  simp only [List.Forall]
  refine ⟨?_, ?_, ?_, ?_, ?_, ?_, ?_, ?_, ?_, ?_, ?_, ?_, ?_⟩ <;>
    (simp only [nullary_writes, unary_writes, binary_writes, ternary_writes, nary_writes, Finset.singleton_subset_iff, List.mem_toFinset]
     exact List.mem_map_of_mem (by decide))

/-- A buffer the stretch does not write keeps its contents. -/
theorem sI_keep (V : Valuation τ sig (Elt F)) (r : Ref sig .tc) (h : r ∉ sI_W) :
    after sI V (Proc.devRef .tc r) = V (Proc.devRef .tc r) :=
  after_of_writes_sub sI V sI_writes h

section Results
variable (V : Valuation τ sig (Elt Ideal))

theorem sA_v2 : after (sA (F := Ideal)) V (Proc.devRef .tc main_v2) = clipF (projF (V (Proc.devRef .tc main_arg0)) (V (Proc.devRef .tc main_arg2))) := by
  unfold sA; after_results_simp; rfl

theorem sB_v4 : after (sB (F := Ideal)) V (Proc.devRef .tc main_v4) = projF (V (Proc.devRef .tc main_arg0)) (V (Proc.devRef .tc main_arg1)) := by
  unfold sB; after_results_simp; rfl

theorem sC_v5 : after (sC (F := Ideal)) V (Proc.devRef .tc main_v5) = normF (V (Proc.devRef .tc main_arg1)) := by
  unfold sC; after_results_simp; rfl

theorem sD_v6 : after (sD (F := Ideal)) V (Proc.devRef .tc main_v6) = varF (V (Proc.devRef .tc main_arg0)) := by
  unfold sD; after_results_simp; rfl

theorem sE_v9 : after (sE (F := Ideal)) V (Proc.devRef .tc main_v9) = surF (V (Proc.devRef .tc main_v6)) := by
  unfold sE; after_results_simp; rfl

theorem sE_v13 : after (sE (F := Ideal)) V (Proc.devRef .tc main_v13) = excF (V (Proc.devRef .tc main_v4)) := by
  unfold sE; after_results_simp; rfl

theorem sF_v25 : after (sF (F := Ideal)) V (Proc.devRef .tc main_v25)
    = z0F (stateF (V (Proc.devRef .tc main_v9)) (V (Proc.devRef .tc main_v13)) (V (Proc.devRef .tc main_v5))) (V (Proc.devRef .tc main_arg5)) (V (Proc.devRef .tc main_arg6)) := by
  unfold sF; after_results_simp; rfl

theorem sG_v50 : after (sG (F := Ideal)) V (Proc.devRef .tc main_v50) = lnF (V (Proc.devRef .tc main_v25)) (V (Proc.devRef .tc main_arg7)) (V (Proc.devRef .tc main_arg8)) := by
  unfold sG; after_results_simp; rfl

theorem sH_v56 : after (sH (F := Ideal)) V (Proc.devRef .tc main_v56) = z3F (V (Proc.devRef .tc main_v50)) (V (Proc.devRef .tc main_arg9)) (V (Proc.devRef .tc main_arg10)) := by
  unfold sH; after_results_simp; rfl

theorem sI_v67 : after (sI (F := Ideal)) V (Proc.devRef .tc main_v67) = ctlF (V (Proc.devRef .tc main_v56)) (V (Proc.devRef .tc main_arg11)) (V (Proc.devRef .tc main_arg12)) := by
  unfold sI; after_results_simp; rfl

end Results

end Cert.ReferenceIdeal.RefRows

end
-- ==== Proof.RefStagesAt.lean ====
/-
  The reference's stages read at an index.

  Each stage of the per-row chain, read at a row r (and a column), is the textbook formula: a projection is a sum of
  products over the 256 features; the clamp is min 2 (max (-2) ·); the norm is the square root of the sum of squares;
  the variance is the mean squared deviation from the mean (the divisor 256 - 0 is 256, which is positive, so the
  selection keeps the quotient); the surprise and the excitation are an absolute value and a mean of absolute values;
  the affine maps are sums over four, sixteen and eight entries plus a bias; the layer normalisation subtracts the
  mean over sixteen entries, multiplies by the reciprocal square root of the variance plus a small constant, scales
  and shifts; and 1 / (1 + exp (-y)) is the logistic function of y.
-/
import proofs.«142104_j18769007084085_2_alg».proof.Proof.RefStages

noncomputable section

open scoped BigOperators

namespace Cert.ReferenceIdeal.RefRows

open Idealize.ShloMosaic Idealize.SL.Sem Idealize.ShloMosaic.ValueIdx
open Cert.ReferenceIdeal.Facts₀

/-! ## The stages at an index -/

theorem colOf_apply (v : A S262144) (r : Fin 262144) (u : Fin 1) : colOf v (ix2 r u) = v (ix1 r) :=
  col_apply v bcast_S262144_S262144x1_0 r u

theorem projF_apply (x : A S262144x256) (w : A S256x256) (r : Fin 262144) (a : Fin 256) :
    projF x w (ix2 r a) = ∑ k : Fin 256, x (ix2 r k) * w (ix2 a k) :=
  dotT_apply (m := 262144) (k := 256) (n := 256) x w transposes_S256x256_S256x256_1_0 r a

theorem clipF_apply (y : A S262144x256) (r : Fin 262144) (q : Fin 256) :
    clipF y (ix2 r q) = Spec.clip (y (ix2 r q)) := by
  unfold clipF Spec.clip
  rw [minimumf_apply, maximumf_apply, scalar_apply, scalar_apply]
  rfl

theorem normF_apply (w : A S256x256) (i : S_.Idx) :
    normF w i = Ideal.sqrt (∑ j : S256x256.Idx, w j * w j) := by
  unfold normF
  show Ideal.sqrt (Host.reduceAdd (mulf w w) (kst 0x00000000#32) reducesTo_S256x256_S_d0_1 h_S_ i) = _
  rw [hostReduceAdd_apply, Ideal.hostReduceAdd_total _ (fun b => b.elim0), kst_apply, Ideal.ofBits_zero_f32, zero_add]
  rfl

theorem meanColF_apply (x : A S262144x256) (r : Fin 262144) (u : Fin 1) :
    meanColF x (ix2 r u) = Ideal.div (∑ k : Fin 256, x (ix2 r k)) (Spec.lit 0x43800000#32) := by
  unfold meanColF
  rw [hostDivf_apply, colOf_apply, scalar_apply, kst_apply,
    rowSum_apply x _ reducesTo_S262144x256_S262144_d1 (by decide) h_S_ r, kst_apply, Ideal.ofBits_zero_f32, zero_add]

theorem devF_apply (x : A S262144x256) (r : Fin 262144) (k : Fin 256) :
    devF x (ix2 r k) = x (ix2 r k) - Ideal.div (∑ c : Fin 256, x (ix2 r c)) (Spec.lit 0x43800000#32) := by
  unfold devF
  rw [subf_apply, spread_apply, meanColF_apply]

theorem cntF_apply (i : S_.Idx) : cntF i = Spec.lit 0x43800000#32 := by
  show Ideal.ofBits .f32 0x43800000#32 - ((((0#32 : BitVec 32).toInt : ℤ) : ℝ) : EReal) = _
  simp

theorem varF_apply (x : A S262144x256) (r : Fin 262144) :
    varF x (ix1 r) = Ideal.div (∑ k : Fin 256, devF x (ix2 r k) * devF x (ix2 r k)) (Spec.lit 0x43800000#32) := by
  unfold varF
  rw [select_apply, scalar_apply, cmpf_apply, cntF_apply, kst_apply, Ideal.ofBits_zero_f32]
  have hc : FloatOps.cmpf (F := Ideal) (φ := .f32) .ogt (Spec.lit 0x43800000#32) (0 : EReal) = 1#1 := by
    show BitVec.ofBool (decide ((0 : EReal) < Ideal.ofBits .f32 0x43800000#32)) = 1#1
    rw [decide_eq_true lit256_pos]; rfl
  rw [hc, select_one, hostDivf_apply, scalar_apply, cntF_apply,
    rowSum_apply _ _ reducesTo_S262144x256_S262144_d1 (by decide) h_S_ r, kst_apply, Ideal.ofBits_zero_f32, zero_add]
  rfl

theorem surF_apply (v : A S262144) (r : Fin 262144) :
    surF v (ix1 r) = Spec.absE (v (ix1 r) - Spec.lit 0x3F000000#32) := by
  unfold surF Spec.absE
  show max (subf v _ (ix1 r)) (-(subf v _ (ix1 r))) = _
  rw [subf_apply, scalar_apply]
  rfl

theorem excF_apply (h : A S262144x256) (r : Fin 262144) :
    excF h (ix1 r) = Ideal.div (∑ k : Fin 256, Spec.absE (h (ix2 r k))) (Spec.lit 0x43800000#32) := by
  unfold excF
  rw [hostDivf_apply, scalar_apply, kst_apply,
    rowSum_apply _ _ reducesTo_S262144x256_S262144_d1 (by decide) h_S_ r, kst_apply, Ideal.ofBits_zero_f32, zero_add]
  rfl

theorem stateF_apply (s e : A S262144) (n : A S_) (r : Fin 262144) :
    stateF s e n (ix2 r (0 : Fin 4)) = s (ix1 r) ∧ stateF s e n (ix2 r (1 : Fin 4)) = e (ix1 r)
      ∧ stateF s e n (ix2 r (2 : Fin 4)) = n ix0 ∧ stateF s e n (ix2 r (3 : Fin 4)) = Spec.lit 0x3F000000#32 := by
  obtain ⟨h0, h1, h2, h3⟩ := concat4_apply (colOf s) (colOf e) (colOf (broadcastInDim S262144 ![] bcast_S_S262144 n))
    (colOf (broadcastInDim S262144 ![] bcast_S_S262144 (kst 0x3F000000#32)))
    concatenates_S262144x1_S262144x1_S262144x1_S262144x1_S262144x4_d1 r
  refine ⟨h0.trans (colOf_apply _ _ _), h1.trans (colOf_apply _ _ _), h2.trans ?_, h3.trans ?_⟩
  · rw [colOf_apply, scalar_apply]
  · rw [colOf_apply, scalar_apply]; rfl

theorem z0F_apply (st : A S262144x4) (w : A S16x4) (b : A S16) (r : Fin 262144) (j : Fin 16) :
    z0F st w b (ix2 r j) = ∑ c : Fin 4, st (ix2 r c) * w (ix2 j c) + b (ix1 j) := by
  unfold z0F
  rw [addf_apply, BiasRows.hostRows_apply]
  exact congrArg (· + b (ix1 j)) (dotT_apply (m := 262144) (k := 4) (n := 16) st w transposes_S16x4_S4x16_1_0 r j)

theorem muColF_apply (z : A S262144x16) (r : Fin 262144) (u : Fin 1) :
    muColF z (ix2 r u) = Ideal.div (∑ j : Fin 16, z (ix2 r j)) (Spec.lit 0x41800000#32) := by
  unfold muColF
  rw [hostDivf_apply, colOf_apply, scalar_apply, kst_apply,
    rowSum_apply z _ reducesTo_S262144x16_S262144_d1 (by decide) h_S_ r, kst_apply, Ideal.ofBits_zero_f32, zero_add]

theorem cenF_apply (z : A S262144x16) (r : Fin 262144) (j : Fin 16) :
    cenF z (ix2 r j) = z (ix2 r j) - Ideal.div (∑ c : Fin 16, z (ix2 r c)) (Spec.lit 0x41800000#32) := by
  unfold cenF
  rw [subf_apply, spread_apply, muColF_apply]

theorem varColF_apply (z : A S262144x16) (r : Fin 262144) (u : Fin 1) :
    varColF z (ix2 r u) = Ideal.div (∑ j : Fin 16, cenF z (ix2 r j) * cenF z (ix2 r j)) (Spec.lit 0x41800000#32) := by
  unfold varColF
  rw [hostDivf_apply, colOf_apply, scalar_apply, kst_apply,
    rowSum_apply _ _ reducesTo_S262144x16_S262144_d1 (by decide) h_S_ r, kst_apply, Ideal.ofBits_zero_f32, zero_add]
  rfl

theorem hostTanh_apply {s : Shape} (a : A s) (i : s.Idx) : Host.tanh a i = Ideal.tanh (a i) := rfl
theorem hostRsqrt_apply {s : Shape} (a : A s) (i : s.Idx) : Host.rsqrt a i = Ideal.rsqrt (a i) := rfl

theorem lnF_apply (z : A S262144x16) (g b : A S16) (r : Fin 262144) (j : Fin 16) :
    lnF z g b (ix2 r j)
      = Ideal.tanh (cenF z (ix2 r j) * Ideal.rsqrt (varColF z (ix2 r (0 : Fin 1)) + Spec.lit 0x3727C5AC#32) * g (ix1 j) + b (ix1 j)) := by
  unfold lnF
  rw [hostTanh_apply, addf_apply, mulf_apply, mulf_apply, spread_apply, BiasRows.hostRows_apply, BiasRows.hostRows_apply,
    hostRsqrt_apply, addf_apply, scalar_apply]
  rfl

theorem z3F_apply (t : A S262144x16) (w : A S8x16) (b : A S8) (r : Fin 262144) (q : Fin 8) :
    z3F t w b (ix2 r q) = max (∑ j : Fin 16, t (ix2 r j) * w (ix2 q j) + b (ix1 q)) (Spec.lit 0x00000000#32) := by
  unfold z3F
  rw [maximumf_apply, addf_apply, BiasRows.hostRows_apply, scalar_apply]
  exact congrArg (fun y => max (y + b (ix1 q)) (Spec.lit 0x00000000#32))
    (dotT_apply (m := 262144) (k := 16) (n := 8) t w transposes_S8x16_S16x8_1_0 r q)

theorem yF_apply (t : A S262144x8) (w : A S4x8) (b : A S4) (r : Fin 262144) (p : Fin 4) :
    yF t w b (ix2 r p) = ∑ q : Fin 8, t (ix2 r q) * w (ix2 p q) + b (ix1 p) := by
  unfold yF
  rw [addf_apply, BiasRows.hostRows_apply]
  exact congrArg (· + b (ix1 p)) (dotT_apply (m := 262144) (k := 8) (n := 4) t w transposes_S4x8_S8x4_1_0 r p)

theorem ctlF_apply (t : A S262144x8) (w : A S4x8) (b : A S4) (r : Fin 262144) (p : Fin 4) :
    ctlF t w b (ix2 r p) = Ideal.logistic (∑ q : Fin 8, t (ix2 r q) * w (ix2 p q) + b (ix1 p)) := by
  unfold ctlF
  rw [hostDivf_apply, addf_apply, scalar_apply, kst_apply, Ideal.ofBits_one_f32]
  show Ideal.div 1 (1 + Ideal.exp (-(yF t w b (ix2 r p)))) = _
  rw [yF_apply]
  rfl

/-! ## The stages are the specification's functions -/

section Eqs
variable (P : Cert.Spec.Args)

theorem vproj_eq : clipF (projF P.x P.V) = fun i => Spec.vproj P (i 0) (i 1) := by
  funext i
  obtain ⟨r, q, rfl⟩ : ∃ (r : Fin 262144) (q : Fin 256), i = ix2 r q := ⟨i 0, i 1, eq_ix2 i⟩
  rw [clipF_apply, projF_apply]
  rfl

theorem hproj_eq : projF P.x P.W = fun i => Spec.hproj P (i 0) (i 1) := by
  funext i
  obtain ⟨r, q, rfl⟩ : ∃ (r : Fin 262144) (q : Fin 256), i = ix2 r q := ⟨i 0, i 1, eq_ix2 i⟩
  rw [projF_apply]
  rfl

theorem wnorm_eq : normF P.W = fun _ => Spec.wnorm P := by
  funext i
  rw [normF_apply]
  rfl

theorem varx_eq : varF P.x = fun i => Spec.varx P (i 0) := by
  funext i
  obtain ⟨r, rfl⟩ : ∃ r : Fin 262144, i = ix1 r := ⟨i 0, eq_ix1 i⟩
  rw [varF_apply]
  simp only [devF_apply]
  rfl

theorem sur_eq : surF (fun i => Spec.varx P (i 0)) = fun i => Spec.sur P (i 0) := by
  funext i
  obtain ⟨r, rfl⟩ : ∃ r : Fin 262144, i = ix1 r := ⟨i 0, eq_ix1 i⟩
  rw [surF_apply]
  rfl

theorem exc_eq : excF (fun i => Spec.hproj P (i 0) (i 1)) = fun i => Spec.exc P (i 0) := by
  funext i
  obtain ⟨r, rfl⟩ : ∃ r : Fin 262144, i = ix1 r := ⟨i 0, eq_ix1 i⟩
  rw [excF_apply]
  rfl

theorem z0_eq : z0F (stateF (fun i => Spec.sur P (i 0)) (fun i => Spec.exc P (i 0)) (fun _ => Spec.wnorm P)) P.s1w P.s1b
    = fun i => Spec.z0 P (i 0) (i 1) := by
  funext i
  obtain ⟨r, j, rfl⟩ : ∃ (r : Fin 262144) (j : Fin 16), i = ix2 r j := ⟨i 0, i 1, eq_ix2 i⟩
  obtain ⟨h0, h1, h2, h3⟩ := stateF_apply (fun i => Spec.sur P (i 0)) (fun i => Spec.exc P (i 0)) (fun _ => Spec.wnorm P) r
  rw [z0F_apply, Fin.sum_univ_four, h0, h1, h2, h3]
  show Spec.sur P r * P.s1w (ix2 j 0) + Spec.exc P r * P.s1w (ix2 j 1) + Spec.wnorm P * P.s1w (ix2 j 2)
      + Spec.lit 0x3F000000#32 * P.s1w (ix2 j 3) + P.s1b (ix1 j)
    = Spec.sur P r * P.s1w (ix2 j 0) + Spec.exc P r * P.s1w (ix2 j 1)
      + (Spec.wnorm P * P.s1w (ix2 j 2) + Spec.lit 0x3F000000#32 * P.s1w (ix2 j 3) + P.s1b (ix1 j))
  rw [add_assoc, add_assoc, add_assoc (Spec.wnorm P * P.s1w (ix2 j 2))]

theorem z2_eq : lnF (fun i => Spec.z0 P (i 0) (i 1)) P.lng P.lnb = fun i => Spec.z2 P (i 0) (i 1) := by
  funext i
  obtain ⟨r, j, rfl⟩ : ∃ (r : Fin 262144) (j : Fin 16), i = ix2 r j := ⟨i 0, i 1, eq_ix2 i⟩
  rw [lnF_apply, varColF_apply]
  simp only [cenF_apply]
  rfl

theorem z3_eq : z3F (fun i => Spec.z2 P (i 0) (i 1)) P.s2w P.s2b = fun i => Spec.z3 P (i 0) (i 1) := by
  funext i
  obtain ⟨r, q, rfl⟩ : ∃ (r : Fin 262144) (q : Fin 8), i = ix2 r q := ⟨i 0, i 1, eq_ix2 i⟩
  rw [z3F_apply]
  rfl

theorem ctl_eq : ctlF (fun i => Spec.z3 P (i 0) (i 1)) P.aw P.ab = fun i => Spec.ctl P (i 0) (i 1) := by
  funext i
  obtain ⟨r, p, rfl⟩ : ∃ (r : Fin 262144) (p : Fin 4), i = ix2 r p := ⟨i 0, i 1, eq_ix2 i⟩
  rw [ctlF_apply]
  rfl

end Eqs

end Cert.ReferenceIdeal.RefRows

end
-- ==== Proof.RefRows.lean ====
/-
  The reference's first part read at the clamped projection and at the controls.

  From buffers holding the argument arrays, the 113 operations that end in the controls leave, in the buffer of the
  clamped projection, the array (r, a) ↦ clamp (Σ_k x[r,k] · V[a,k]), and in the buffer of the controls the array
  (r, p) ↦ logistic (Σ_q z3[r,q] · act_w[p,q] + act_b[p]), where z3, z2, z0, the surprise, the excitation, the variance
  and the norm are the specification's functions of the arguments; and they leave every buffer they do not write,
  the arguments' among them, as it was. The proof follows the nine stretches: after each one, the buffers that later
  stretches read are known — an argument's because no stretch writes it, a stage's result because the stage's
  function of known arrays is the specification's function.
-/
import proofs.«142104_j18769007084085_2_alg».proof.Proof.RefCut
import proofs.«142104_j18769007084085_2_alg».proof.Proof.RefStagesAt

noncomputable section

namespace Cert.ReferenceIdeal.RefRows

open Idealize.ShloMosaic Idealize.SL.Sem Idealize.ShloMosaic.StableHlo Idealize.ShloMosaic.ValueIdx

/-- The buffers of the eleven arguments the controls depend on hold the specification's arrays. -/
structure ArgsAt (W : Valuation τ sig (Elt Ideal)) (P : Cert.Spec.Args) : Prop where
  x : W (Proc.devRef .tc main_arg0) = P.x
  w : W (Proc.devRef .tc main_arg1) = P.W
  v : W (Proc.devRef .tc main_arg2) = P.V
  s1w : W (Proc.devRef .tc main_arg5) = P.s1w
  s1b : W (Proc.devRef .tc main_arg6) = P.s1b
  lng : W (Proc.devRef .tc main_arg7) = P.lng
  lnb : W (Proc.devRef .tc main_arg8) = P.lnb
  s2w : W (Proc.devRef .tc main_arg9) = P.s2w
  s2b : W (Proc.devRef .tc main_arg10) = P.s2b
  aw : W (Proc.devRef .tc main_arg11) = P.aw
  ab : W (Proc.devRef .tc main_arg12) = P.ab

/-- Every buffer the first part writes. -/
abbrev headW : List (Ref sig .tc) := sA_W ++ sB_W ++ sC_W ++ sD_W ++ sE_W ++ sF_W ++ sG_W ++ sH_W ++ sI_W

/-- A buffer the first part does not write keeps its contents. -/
theorem head_kept {F : FTy → Type} [FloatOps F] (W : Valuation τ sig (Elt F)) (r : Ref sig .tc) (h : r ∉ headW) :
    after (RefOps.opsHead (F := F)) W (Proc.devRef .tc r) = W (Proc.devRef .tc r) := by
  simp only [headW, List.mem_append, not_or, and_assoc] at h
  obtain ⟨hA, hB, hC, hD, hE, hF, hG, hH, hI⟩ := h
  rw [after_head, sI_keep _ r hI, sH_keep _ r hH, sG_keep _ r hG, sF_keep _ r hF, sE_keep _ r hE, sD_keep _ r hD,
    sC_keep _ r hC, sB_keep _ r hB, sA_keep _ r hA]

/-! ## The buffers after each stretch -/

section Levels
variable (W : Valuation τ sig (Elt Ideal))

/-- The contents after the first 1 stretch. -/
def V1 : Valuation τ sig (Elt Ideal) := after sA (W)
/-- The contents after the first 2 stretches. -/
def V2 : Valuation τ sig (Elt Ideal) := after sB (V1 W)
/-- The contents after the first 3 stretches. -/
def V3 : Valuation τ sig (Elt Ideal) := after sC (V2 W)
/-- The contents after the first 4 stretches. -/
def V4 : Valuation τ sig (Elt Ideal) := after sD (V3 W)
/-- The contents after the first 5 stretches. -/
def V5 : Valuation τ sig (Elt Ideal) := after sE (V4 W)
/-- The contents after the first 6 stretches. -/
def V6 : Valuation τ sig (Elt Ideal) := after sF (V5 W)
/-- The contents after the first 7 stretches. -/
def V7 : Valuation τ sig (Elt Ideal) := after sG (V6 W)
/-- The contents after the first 8 stretches. -/
def V8 : Valuation τ sig (Elt Ideal) := after sH (V7 W)
/-- The contents after the first 9 stretches. -/
def V9 : Valuation τ sig (Elt Ideal) := after sI (V8 W)

theorem after_head_eq : after (RefOps.opsHead (F := Ideal)) W = V9 W := after_head W

end Levels

section Facts
variable (W : Valuation τ sig (Elt Ideal)) (P : Cert.Spec.Args) (hargs : ArgsAt W P)
include hargs

theorem V1_arg0 : V1 W (Proc.devRef .tc main_arg0) = P.x :=
  (sA_keep W main_arg0 (by decide)).trans (hargs.x)
theorem V2_arg0 : V2 W (Proc.devRef .tc main_arg0) = P.x :=
  (sB_keep (V1 W) main_arg0 (by decide)).trans (V1_arg0 W P hargs)
theorem V3_arg0 : V3 W (Proc.devRef .tc main_arg0) = P.x :=
  (sC_keep (V2 W) main_arg0 (by decide)).trans (V2_arg0 W P hargs)
theorem V1_arg1 : V1 W (Proc.devRef .tc main_arg1) = P.W :=
  (sA_keep W main_arg1 (by decide)).trans (hargs.w)
theorem V2_arg1 : V2 W (Proc.devRef .tc main_arg1) = P.W :=
  (sB_keep (V1 W) main_arg1 (by decide)).trans (V1_arg1 W P hargs)
theorem V1_arg5 : V1 W (Proc.devRef .tc main_arg5) = P.s1w :=
  (sA_keep W main_arg5 (by decide)).trans (hargs.s1w)
theorem V2_arg5 : V2 W (Proc.devRef .tc main_arg5) = P.s1w :=
  (sB_keep (V1 W) main_arg5 (by decide)).trans (V1_arg5 W P hargs)
theorem V3_arg5 : V3 W (Proc.devRef .tc main_arg5) = P.s1w :=
  (sC_keep (V2 W) main_arg5 (by decide)).trans (V2_arg5 W P hargs)
theorem V4_arg5 : V4 W (Proc.devRef .tc main_arg5) = P.s1w :=
  (sD_keep (V3 W) main_arg5 (by decide)).trans (V3_arg5 W P hargs)
theorem V5_arg5 : V5 W (Proc.devRef .tc main_arg5) = P.s1w :=
  (sE_keep (V4 W) main_arg5 (by decide)).trans (V4_arg5 W P hargs)
theorem V1_arg6 : V1 W (Proc.devRef .tc main_arg6) = P.s1b :=
  (sA_keep W main_arg6 (by decide)).trans (hargs.s1b)
theorem V2_arg6 : V2 W (Proc.devRef .tc main_arg6) = P.s1b :=
  (sB_keep (V1 W) main_arg6 (by decide)).trans (V1_arg6 W P hargs)
theorem V3_arg6 : V3 W (Proc.devRef .tc main_arg6) = P.s1b :=
  (sC_keep (V2 W) main_arg6 (by decide)).trans (V2_arg6 W P hargs)
theorem V4_arg6 : V4 W (Proc.devRef .tc main_arg6) = P.s1b :=
  (sD_keep (V3 W) main_arg6 (by decide)).trans (V3_arg6 W P hargs)
theorem V5_arg6 : V5 W (Proc.devRef .tc main_arg6) = P.s1b :=
  (sE_keep (V4 W) main_arg6 (by decide)).trans (V4_arg6 W P hargs)
theorem V1_arg7 : V1 W (Proc.devRef .tc main_arg7) = P.lng :=
  (sA_keep W main_arg7 (by decide)).trans (hargs.lng)
theorem V2_arg7 : V2 W (Proc.devRef .tc main_arg7) = P.lng :=
  (sB_keep (V1 W) main_arg7 (by decide)).trans (V1_arg7 W P hargs)
theorem V3_arg7 : V3 W (Proc.devRef .tc main_arg7) = P.lng :=
  (sC_keep (V2 W) main_arg7 (by decide)).trans (V2_arg7 W P hargs)
theorem V4_arg7 : V4 W (Proc.devRef .tc main_arg7) = P.lng :=
  (sD_keep (V3 W) main_arg7 (by decide)).trans (V3_arg7 W P hargs)
theorem V5_arg7 : V5 W (Proc.devRef .tc main_arg7) = P.lng :=
  (sE_keep (V4 W) main_arg7 (by decide)).trans (V4_arg7 W P hargs)
theorem V6_arg7 : V6 W (Proc.devRef .tc main_arg7) = P.lng :=
  (sF_keep (V5 W) main_arg7 (by decide)).trans (V5_arg7 W P hargs)
theorem V1_arg8 : V1 W (Proc.devRef .tc main_arg8) = P.lnb :=
  (sA_keep W main_arg8 (by decide)).trans (hargs.lnb)
theorem V2_arg8 : V2 W (Proc.devRef .tc main_arg8) = P.lnb :=
  (sB_keep (V1 W) main_arg8 (by decide)).trans (V1_arg8 W P hargs)
theorem V3_arg8 : V3 W (Proc.devRef .tc main_arg8) = P.lnb :=
  (sC_keep (V2 W) main_arg8 (by decide)).trans (V2_arg8 W P hargs)
theorem V4_arg8 : V4 W (Proc.devRef .tc main_arg8) = P.lnb :=
  (sD_keep (V3 W) main_arg8 (by decide)).trans (V3_arg8 W P hargs)
theorem V5_arg8 : V5 W (Proc.devRef .tc main_arg8) = P.lnb :=
  (sE_keep (V4 W) main_arg8 (by decide)).trans (V4_arg8 W P hargs)
theorem V6_arg8 : V6 W (Proc.devRef .tc main_arg8) = P.lnb :=
  (sF_keep (V5 W) main_arg8 (by decide)).trans (V5_arg8 W P hargs)
theorem V1_arg9 : V1 W (Proc.devRef .tc main_arg9) = P.s2w :=
  (sA_keep W main_arg9 (by decide)).trans (hargs.s2w)
theorem V2_arg9 : V2 W (Proc.devRef .tc main_arg9) = P.s2w :=
  (sB_keep (V1 W) main_arg9 (by decide)).trans (V1_arg9 W P hargs)
theorem V3_arg9 : V3 W (Proc.devRef .tc main_arg9) = P.s2w :=
  (sC_keep (V2 W) main_arg9 (by decide)).trans (V2_arg9 W P hargs)
theorem V4_arg9 : V4 W (Proc.devRef .tc main_arg9) = P.s2w :=
  (sD_keep (V3 W) main_arg9 (by decide)).trans (V3_arg9 W P hargs)
theorem V5_arg9 : V5 W (Proc.devRef .tc main_arg9) = P.s2w :=
  (sE_keep (V4 W) main_arg9 (by decide)).trans (V4_arg9 W P hargs)
theorem V6_arg9 : V6 W (Proc.devRef .tc main_arg9) = P.s2w :=
  (sF_keep (V5 W) main_arg9 (by decide)).trans (V5_arg9 W P hargs)
theorem V7_arg9 : V7 W (Proc.devRef .tc main_arg9) = P.s2w :=
  (sG_keep (V6 W) main_arg9 (by decide)).trans (V6_arg9 W P hargs)
theorem V1_arg10 : V1 W (Proc.devRef .tc main_arg10) = P.s2b :=
  (sA_keep W main_arg10 (by decide)).trans (hargs.s2b)
theorem V2_arg10 : V2 W (Proc.devRef .tc main_arg10) = P.s2b :=
  (sB_keep (V1 W) main_arg10 (by decide)).trans (V1_arg10 W P hargs)
theorem V3_arg10 : V3 W (Proc.devRef .tc main_arg10) = P.s2b :=
  (sC_keep (V2 W) main_arg10 (by decide)).trans (V2_arg10 W P hargs)
theorem V4_arg10 : V4 W (Proc.devRef .tc main_arg10) = P.s2b :=
  (sD_keep (V3 W) main_arg10 (by decide)).trans (V3_arg10 W P hargs)
theorem V5_arg10 : V5 W (Proc.devRef .tc main_arg10) = P.s2b :=
  (sE_keep (V4 W) main_arg10 (by decide)).trans (V4_arg10 W P hargs)
theorem V6_arg10 : V6 W (Proc.devRef .tc main_arg10) = P.s2b :=
  (sF_keep (V5 W) main_arg10 (by decide)).trans (V5_arg10 W P hargs)
theorem V7_arg10 : V7 W (Proc.devRef .tc main_arg10) = P.s2b :=
  (sG_keep (V6 W) main_arg10 (by decide)).trans (V6_arg10 W P hargs)
theorem V1_arg11 : V1 W (Proc.devRef .tc main_arg11) = P.aw :=
  (sA_keep W main_arg11 (by decide)).trans (hargs.aw)
theorem V2_arg11 : V2 W (Proc.devRef .tc main_arg11) = P.aw :=
  (sB_keep (V1 W) main_arg11 (by decide)).trans (V1_arg11 W P hargs)
theorem V3_arg11 : V3 W (Proc.devRef .tc main_arg11) = P.aw :=
  (sC_keep (V2 W) main_arg11 (by decide)).trans (V2_arg11 W P hargs)
theorem V4_arg11 : V4 W (Proc.devRef .tc main_arg11) = P.aw :=
  (sD_keep (V3 W) main_arg11 (by decide)).trans (V3_arg11 W P hargs)
theorem V5_arg11 : V5 W (Proc.devRef .tc main_arg11) = P.aw :=
  (sE_keep (V4 W) main_arg11 (by decide)).trans (V4_arg11 W P hargs)
theorem V6_arg11 : V6 W (Proc.devRef .tc main_arg11) = P.aw :=
  (sF_keep (V5 W) main_arg11 (by decide)).trans (V5_arg11 W P hargs)
theorem V7_arg11 : V7 W (Proc.devRef .tc main_arg11) = P.aw :=
  (sG_keep (V6 W) main_arg11 (by decide)).trans (V6_arg11 W P hargs)
theorem V8_arg11 : V8 W (Proc.devRef .tc main_arg11) = P.aw :=
  (sH_keep (V7 W) main_arg11 (by decide)).trans (V7_arg11 W P hargs)
theorem V1_arg12 : V1 W (Proc.devRef .tc main_arg12) = P.ab :=
  (sA_keep W main_arg12 (by decide)).trans (hargs.ab)
theorem V2_arg12 : V2 W (Proc.devRef .tc main_arg12) = P.ab :=
  (sB_keep (V1 W) main_arg12 (by decide)).trans (V1_arg12 W P hargs)
theorem V3_arg12 : V3 W (Proc.devRef .tc main_arg12) = P.ab :=
  (sC_keep (V2 W) main_arg12 (by decide)).trans (V2_arg12 W P hargs)
theorem V4_arg12 : V4 W (Proc.devRef .tc main_arg12) = P.ab :=
  (sD_keep (V3 W) main_arg12 (by decide)).trans (V3_arg12 W P hargs)
theorem V5_arg12 : V5 W (Proc.devRef .tc main_arg12) = P.ab :=
  (sE_keep (V4 W) main_arg12 (by decide)).trans (V4_arg12 W P hargs)
theorem V6_arg12 : V6 W (Proc.devRef .tc main_arg12) = P.ab :=
  (sF_keep (V5 W) main_arg12 (by decide)).trans (V5_arg12 W P hargs)
theorem V7_arg12 : V7 W (Proc.devRef .tc main_arg12) = P.ab :=
  (sG_keep (V6 W) main_arg12 (by decide)).trans (V6_arg12 W P hargs)
theorem V8_arg12 : V8 W (Proc.devRef .tc main_arg12) = P.ab :=
  (sH_keep (V7 W) main_arg12 (by decide)).trans (V7_arg12 W P hargs)

theorem V1_v2 : V1 W (Proc.devRef .tc main_v2) = fun i => Cert.Spec.vproj P (i 0) (i 1) := by
  show after sA W _ = _
  rw [sA_v2, hargs.x, hargs.v]; exact vproj_eq P
theorem V2_v2 : V2 W (Proc.devRef .tc main_v2) = fun i => Cert.Spec.vproj P (i 0) (i 1) :=
  (sB_keep (V1 W) main_v2 (by decide)).trans (V1_v2 W P hargs)
theorem V3_v2 : V3 W (Proc.devRef .tc main_v2) = fun i => Cert.Spec.vproj P (i 0) (i 1) :=
  (sC_keep (V2 W) main_v2 (by decide)).trans (V2_v2 W P hargs)
theorem V4_v2 : V4 W (Proc.devRef .tc main_v2) = fun i => Cert.Spec.vproj P (i 0) (i 1) :=
  (sD_keep (V3 W) main_v2 (by decide)).trans (V3_v2 W P hargs)
theorem V5_v2 : V5 W (Proc.devRef .tc main_v2) = fun i => Cert.Spec.vproj P (i 0) (i 1) :=
  (sE_keep (V4 W) main_v2 (by decide)).trans (V4_v2 W P hargs)
theorem V6_v2 : V6 W (Proc.devRef .tc main_v2) = fun i => Cert.Spec.vproj P (i 0) (i 1) :=
  (sF_keep (V5 W) main_v2 (by decide)).trans (V5_v2 W P hargs)
theorem V7_v2 : V7 W (Proc.devRef .tc main_v2) = fun i => Cert.Spec.vproj P (i 0) (i 1) :=
  (sG_keep (V6 W) main_v2 (by decide)).trans (V6_v2 W P hargs)
theorem V8_v2 : V8 W (Proc.devRef .tc main_v2) = fun i => Cert.Spec.vproj P (i 0) (i 1) :=
  (sH_keep (V7 W) main_v2 (by decide)).trans (V7_v2 W P hargs)
theorem V9_v2 : V9 W (Proc.devRef .tc main_v2) = fun i => Cert.Spec.vproj P (i 0) (i 1) :=
  (sI_keep (V8 W) main_v2 (by decide)).trans (V8_v2 W P hargs)

theorem V2_v4 : V2 W (Proc.devRef .tc main_v4) = fun i => Cert.Spec.hproj P (i 0) (i 1) := by
  show after sB (V1 W) _ = _
  rw [sB_v4, V1_arg0 W P hargs, V1_arg1 W P hargs]; exact hproj_eq P
theorem V3_v4 : V3 W (Proc.devRef .tc main_v4) = fun i => Cert.Spec.hproj P (i 0) (i 1) :=
  (sC_keep (V2 W) main_v4 (by decide)).trans (V2_v4 W P hargs)
theorem V4_v4 : V4 W (Proc.devRef .tc main_v4) = fun i => Cert.Spec.hproj P (i 0) (i 1) :=
  (sD_keep (V3 W) main_v4 (by decide)).trans (V3_v4 W P hargs)

theorem V3_v5 : V3 W (Proc.devRef .tc main_v5) = fun _ => Cert.Spec.wnorm P := by
  show after sC (V2 W) _ = _
  rw [sC_v5, V2_arg1 W P hargs]; exact wnorm_eq P
theorem V4_v5 : V4 W (Proc.devRef .tc main_v5) = fun _ => Cert.Spec.wnorm P :=
  (sD_keep (V3 W) main_v5 (by decide)).trans (V3_v5 W P hargs)
theorem V5_v5 : V5 W (Proc.devRef .tc main_v5) = fun _ => Cert.Spec.wnorm P :=
  (sE_keep (V4 W) main_v5 (by decide)).trans (V4_v5 W P hargs)

theorem V4_v6 : V4 W (Proc.devRef .tc main_v6) = fun i => Cert.Spec.varx P (i 0) := by
  show after sD (V3 W) _ = _
  rw [sD_v6, V3_arg0 W P hargs]; exact varx_eq P

theorem V5_v9 : V5 W (Proc.devRef .tc main_v9) = fun i => Cert.Spec.sur P (i 0) := by
  show after sE (V4 W) _ = _
  rw [sE_v9, V4_v6 W P hargs]; exact sur_eq P

theorem V5_v13 : V5 W (Proc.devRef .tc main_v13) = fun i => Cert.Spec.exc P (i 0) := by
  show after sE (V4 W) _ = _
  rw [sE_v13, V4_v4 W P hargs]; exact exc_eq P

theorem V6_v25 : V6 W (Proc.devRef .tc main_v25) = fun i => Cert.Spec.z0 P (i 0) (i 1) := by
  show after sF (V5 W) _ = _
  rw [sF_v25, V5_v9 W P hargs, V5_v13 W P hargs, V5_v5 W P hargs, V5_arg5 W P hargs, V5_arg6 W P hargs]; exact z0_eq P

theorem V7_v50 : V7 W (Proc.devRef .tc main_v50) = fun i => Cert.Spec.z2 P (i 0) (i 1) := by
  show after sG (V6 W) _ = _
  rw [sG_v50, V6_v25 W P hargs, V6_arg7 W P hargs, V6_arg8 W P hargs]; exact z2_eq P

theorem V8_v56 : V8 W (Proc.devRef .tc main_v56) = fun i => Cert.Spec.z3 P (i 0) (i 1) := by
  show after sH (V7 W) _ = _
  rw [sH_v56, V7_v50 W P hargs, V7_arg9 W P hargs, V7_arg10 W P hargs]; exact z3_eq P

theorem V9_v67 : V9 W (Proc.devRef .tc main_v67) = fun i => Cert.Spec.ctl P (i 0) (i 1) := by
  show after sI (V8 W) _ = _
  rw [sI_v67, V8_v56 W P hargs, V8_arg11 W P hargs, V8_arg12 W P hargs]; exact ctl_eq P

/-- After the first part, the buffer of the clamped projection holds the specification's clamped projection. -/
theorem head_v2 : after (RefOps.opsHead (F := Ideal)) W (Proc.devRef .tc main_v2) = fun i => Cert.Spec.vproj P (i 0) (i 1) := by
  rw [after_head_eq]; exact V9_v2 W P hargs

/-- After the first part, the buffer of the controls holds the specification's controls. -/
theorem head_v67 : after (RefOps.opsHead (F := Ideal)) W (Proc.devRef .tc main_v67) = fun i => Cert.Spec.ctl P (i 0) (i 1) := by
  rw [after_head_eq]; exact V9_v67 W P hargs

end Facts

end Cert.ReferenceIdeal.RefRows

end
-- ==== Proof.RefTailCut.lean ====
/-
  The second part of the reference's operations, cut into four stretches.

  The 70 operations after the controls are, in order: the means of column 0 and column 2 of the controls; the per-row
  gate and the first result; the mean outer product, the mean square and the updated memory; the Frobenius norm of the
  updated memory and the rescaling. Running the whole list is running the stretches one after the other, and every
  buffer a stretch does not write holds, after it, what it held before.
-/
import proofs.«142104_j18769007084085_2_alg».proof.Proof.RefOps
import proofs.«142104_j18769007084085_2_alg».proof.Proof.RefRun
import Idealize.ShloMosaic.Lib.StableHlo.Run

set_option synthInstance.maxSize 4096

noncomputable section

namespace Cert.ReferenceIdeal.RefTail

open Idealize.ShloMosaic Idealize.SL.Sem Idealize.ShloMosaic.StableHlo
open Cert.ReferenceIdeal Cert.ReferenceIdeal.Facts₀ Cert.ReferenceIdeal.Facts

variable {F : FTy → Type} [FloatOps F] [Facts]

/-- The two column means of the controls. -/
def tA : List (HloOp τ sig (Elt F)) :=
  [ StableHlo.unary main_v67 main_v68 ((extractStridedSlice S262144x1 ![0, 0] · slices_S262144x4_S262144x1_0_0) : (⟨S262144x4, .f32⟩ : BufTy).Contents (Elt F) → (⟨S262144x1, .f32⟩ : BufTy).Contents (Elt F)),
    StableHlo.reshape main_v68 main_v69 rfl shapeCasts_S262144x1_S262144,
    StableHlo.nullary main_cst_12 (constant S_ .f32 0x00000000#32),
    StableHlo.binary main_v69 main_cst_12 main_v70 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    StableHlo.nullary main_cst_13 (constant S_ .f32 0x48800000#32),
    StableHlo.binary main_v70 main_cst_13 main_v71 (Host.divf : (⟨S_, .f32⟩ : BufTy).Contents (Elt F) → (⟨S_, .f32⟩ : BufTy).Contents (Elt F) → (⟨S_, .f32⟩ : BufTy).Contents (Elt F)),
    StableHlo.unary main_v67 main_v72 ((extractStridedSlice S262144x1 ![0, 2] · slices_S262144x4_S262144x1_0_2) : (⟨S262144x4, .f32⟩ : BufTy).Contents (Elt F) → (⟨S262144x1, .f32⟩ : BufTy).Contents (Elt F)),
    StableHlo.reshape main_v72 main_v73 rfl shapeCasts_S262144x1_S262144,
    StableHlo.nullary main_cst_14 (constant S_ .f32 0x00000000#32),
    StableHlo.binary main_v73 main_cst_14 main_v74 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    StableHlo.nullary main_cst_15 (constant S_ .f32 0x48800000#32),
    StableHlo.binary main_v74 main_cst_15 main_v75 (Host.divf : (⟨S_, .f32⟩ : BufTy).Contents (Elt F) → (⟨S_, .f32⟩ : BufTy).Contents (Elt F) → (⟨S_, .f32⟩ : BufTy).Contents (Elt F)) ]

/-- The buffers this stretch writes, one per operation, in order. -/
abbrev tA_W : List (Ref sig .tc) := [main_v68, main_v69, main_cst_12, main_v70, main_cst_13, main_v71, main_v72, main_v73, main_cst_14, main_v74, main_cst_15, main_v75]

theorem tA_writes : List.Forall₂ (fun op y => op.writes = {Proc.devRef (τ := τ) .tc y}) (tA (F := F)) tA_W :=
  .cons rfl (.cons rfl (.cons rfl (.cons rfl (.cons rfl (.cons rfl (.cons rfl (.cons rfl (.cons rfl (.cons rfl (.cons rfl (.cons rfl (.nil))))))))))))

/-- A buffer the stretch does not write keeps its contents. -/
theorem tA_keep (V : Valuation τ sig (Elt F)) (r : Ref sig .tc) (h : r ∉ tA_W) :
    after (tA (F := F)) V (Proc.devRef .tc r) = V (Proc.devRef .tc r) :=
  after_of_writes_sub _ _ (RefRun.writes_sub_of_forall₂ tA_writes) h

/-- The per-row gate and the first result. -/
def tB : List (HloOp τ sig (Elt F)) :=
  [ StableHlo.unary main_arg3 main_v76 ((transpose S256x1 [1, 0] · transposes_S1x256_S256x1_1_0) : (⟨S1x256, .f32⟩ : BufTy).Contents (Elt F) → (⟨S256x1, .f32⟩ : BufTy).Contents (Elt F)),
    StableHlo.binary main_v2 main_v76 main_v77 ((fun l r => Host.dotGeneral dot_S262144x256_S256x1_S262144x1_1_0_0_1_n_n none l r) : (⟨S262144x256, .f32⟩ : BufTy).Contents (Elt F) → (⟨S256x1, .f32⟩ : BufTy).Contents (Elt F) → (⟨S262144x1, .f32⟩ : BufTy).Contents (Elt F)),
    StableHlo.unary main_arg4 main_v78 (broadcastInDim S1x1 ![1] bcast_S1_S1x1_1 : (⟨S1, .f32⟩ : BufTy).Contents (Elt F) → (⟨S1x1, .f32⟩ : BufTy).Contents (Elt F)),
    StableHlo.unary main_v78 main_v79 (broadcastInDim S262144x1 ![0, 1] bcast_S1x1_S262144x1_0_1 : (⟨S1x1, .f32⟩ : BufTy).Contents (Elt F) → (⟨S262144x1, .f32⟩ : BufTy).Contents (Elt F)),
    StableHlo.binary main_v77 main_v79 main_v80 (addf : (⟨S262144x1, .f32⟩ : BufTy).Contents (Elt F) → (⟨S262144x1, .f32⟩ : BufTy).Contents (Elt F) → (⟨S262144x1, .f32⟩ : BufTy).Contents (Elt F)),
    StableHlo.unary main_v80 main_v81 (Host.negf : (⟨S262144x1, .f32⟩ : BufTy).Contents (Elt F) → (⟨S262144x1, .f32⟩ : BufTy).Contents (Elt F)),
    StableHlo.unary main_v81 main_v82 (Host.exp : (⟨S262144x1, .f32⟩ : BufTy).Contents (Elt F) → (⟨S262144x1, .f32⟩ : BufTy).Contents (Elt F)),
    StableHlo.nullary main_cst_16 (constant S_ .f32 0x3F800000#32),
    StableHlo.unary main_cst_16 main_v83 (broadcastInDim S262144x1 ![] bcast_S_S262144x1 : (⟨S_, .f32⟩ : BufTy).Contents (Elt F) → (⟨S262144x1, .f32⟩ : BufTy).Contents (Elt F)),
    StableHlo.binary main_v83 main_v82 main_v84 (addf : (⟨S262144x1, .f32⟩ : BufTy).Contents (Elt F) → (⟨S262144x1, .f32⟩ : BufTy).Contents (Elt F) → (⟨S262144x1, .f32⟩ : BufTy).Contents (Elt F)),
    StableHlo.nullary main_cst_17 (constant S_ .f32 0x3F800000#32),
    StableHlo.unary main_cst_17 main_v85 (broadcastInDim S262144x1 ![] bcast_S_S262144x1 : (⟨S_, .f32⟩ : BufTy).Contents (Elt F) → (⟨S262144x1, .f32⟩ : BufTy).Contents (Elt F)),
    StableHlo.binary main_v85 main_v84 main_v86 (Host.divf : (⟨S262144x1, .f32⟩ : BufTy).Contents (Elt F) → (⟨S262144x1, .f32⟩ : BufTy).Contents (Elt F) → (⟨S262144x1, .f32⟩ : BufTy).Contents (Elt F)),
    StableHlo.unary main_v75 main_v87 (broadcastInDim S262144x1 ![] bcast_S_S262144x1 : (⟨S_, .f32⟩ : BufTy).Contents (Elt F) → (⟨S262144x1, .f32⟩ : BufTy).Contents (Elt F)),
    StableHlo.binary main_v86 main_v87 main_v88 (mulf : (⟨S262144x1, .f32⟩ : BufTy).Contents (Elt F) → (⟨S262144x1, .f32⟩ : BufTy).Contents (Elt F) → (⟨S262144x1, .f32⟩ : BufTy).Contents (Elt F)),
    StableHlo.unary main_v88 main_v89 (broadcastInDim S262144x256 ![0, 1] bcast_S262144x1_S262144x256_0_1 : (⟨S262144x1, .f32⟩ : BufTy).Contents (Elt F) → (⟨S262144x256, .f32⟩ : BufTy).Contents (Elt F)),
    StableHlo.binary main_v89 main_v2 main_v90 (mulf : (⟨S262144x256, .f32⟩ : BufTy).Contents (Elt F) → (⟨S262144x256, .f32⟩ : BufTy).Contents (Elt F) → (⟨S262144x256, .f32⟩ : BufTy).Contents (Elt F)),
    StableHlo.nullary main_cst_18 (constant S_ .f32 0xC0000000#32),
    StableHlo.nullary main_cst_19 (constant S_ .f32 0x40000000#32),
    StableHlo.TRef.unary (.of main_cst_18 : StableHlo.TRef sig ⟨S_, .f32⟩) main_call4.v0 id,
    StableHlo.TRef.unary main_call4.v0 main_call4.v1 (broadcastInDim S262144x256 ![] bcast_S_S262144x256),
    StableHlo.TRef.binary main_call4.v1 (.of main_v90 : StableHlo.TRef sig ⟨S262144x256, .f32⟩) main_call4.v2 maximumf,
    StableHlo.TRef.unary (.of main_cst_19 : StableHlo.TRef sig ⟨S_, .f32⟩) main_call4.v3 id,
    StableHlo.TRef.unary main_call4.v3 main_call4.v4 (broadcastInDim S262144x256 ![] bcast_S_S262144x256),
    StableHlo.TRef.binary main_call4.v4 main_call4.v2 main_call4.v5 minimumf ]

/-- The buffers this stretch writes, one per operation, in order. -/
abbrev tB_W : List (Ref sig .tc) := [main_v76, main_v77, main_v78, main_v79, main_v80, main_v81, main_v82, main_cst_16, main_v83, main_v84, main_cst_17, main_v85, main_v86, main_v87, main_v88, main_v89, main_v90, main_cst_18, main_cst_19, main_call4_v0, main_call4_v1, main_call4_v2, main_call4_v3, main_call4_v4, main_v91]

theorem tB_writes : List.Forall₂ (fun op y => op.writes = {Proc.devRef (τ := τ) .tc y}) (tB (F := F)) tB_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))

/-- A buffer the stretch does not write keeps its contents. -/
theorem tB_keep (V : Valuation τ sig (Elt F)) (r : Ref sig .tc) (h : r ∉ tB_W) :
    after (tB (F := F)) V (Proc.devRef .tc r) = V (Proc.devRef .tc r) :=
  after_of_writes_sub _ _ (RefRun.writes_sub_of_forall₂ tB_writes) h

/-- The mean outer product, the mean square and the updated memory. -/
def tC : List (HloOp τ sig (Elt F)) :=
  [ StableHlo.unary main_v2 main_v92 ((transpose S256x262144 [1, 0] · transposes_S262144x256_S256x262144_1_0) : (⟨S262144x256, .f32⟩ : BufTy).Contents (Elt F) → (⟨S256x262144, .f32⟩ : BufTy).Contents (Elt F)),
    StableHlo.binary main_v92 main_arg0 main_v93 ((fun l r => Host.dotGeneral dot_S256x262144_S262144x256_S256x256_1_0_0_1_n_n none l r) : (⟨S256x262144, .f32⟩ : BufTy).Contents (Elt F) → (⟨S262144x256, .f32⟩ : BufTy).Contents (Elt F) → (⟨S256x256, .f32⟩ : BufTy).Contents (Elt F)),
    StableHlo.nullary main_cst_20 (constant S_ .f32 0x48800000#32),
    StableHlo.unary main_cst_20 main_v94 (broadcastInDim S256x256 ![] bcast_S_S256x256 : (⟨S_, .f32⟩ : BufTy).Contents (Elt F) → (⟨S256x256, .f32⟩ : BufTy).Contents (Elt F)),
    StableHlo.binary main_v93 main_v94 main_v95 (Host.divf : (⟨S256x256, .f32⟩ : BufTy).Contents (Elt F) → (⟨S256x256, .f32⟩ : BufTy).Contents (Elt F) → (⟨S256x256, .f32⟩ : BufTy).Contents (Elt F)),
    StableHlo.binary main_v2 main_v2 main_v96 (mulf : (⟨S262144x256, .f32⟩ : BufTy).Contents (Elt F) → (⟨S262144x256, .f32⟩ : BufTy).Contents (Elt F) → (⟨S262144x256, .f32⟩ : BufTy).Contents (Elt F)),
    StableHlo.nullary main_cst_21 (constant S_ .f32 0x00000000#32),
    StableHlo.binary main_v96 main_cst_21 main_v97 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    StableHlo.nullary main_cst_22 (constant S_ .f32 0x48800000#32),
    StableHlo.unary main_cst_22 main_v98 (broadcastInDim S256 ![] bcast_S_S256 : (⟨S_, .f32⟩ : BufTy).Contents (Elt F) → (⟨S256, .f32⟩ : BufTy).Contents (Elt F)),
    StableHlo.binary main_v97 main_v98 main_v99 (Host.divf : (⟨S256, .f32⟩ : BufTy).Contents (Elt F) → (⟨S256, .f32⟩ : BufTy).Contents (Elt F) → (⟨S256, .f32⟩ : BufTy).Contents (Elt F)),
    StableHlo.unary main_v99 main_v100 (broadcastInDim S256x1 ![0] bcast_S256_S256x1_0 : (⟨S256, .f32⟩ : BufTy).Contents (Elt F) → (⟨S256x1, .f32⟩ : BufTy).Contents (Elt F)),
    StableHlo.unary main_v100 main_v101 (broadcastInDim S256x256 ![0, 1] bcast_S256x1_S256x256_0_1 : (⟨S256x1, .f32⟩ : BufTy).Contents (Elt F) → (⟨S256x256, .f32⟩ : BufTy).Contents (Elt F)),
    StableHlo.binary main_v101 main_arg13 main_v102 (mulf : (⟨S256x256, .f32⟩ : BufTy).Contents (Elt F) → (⟨S256x256, .f32⟩ : BufTy).Contents (Elt F) → (⟨S256x256, .f32⟩ : BufTy).Contents (Elt F)),
    StableHlo.binary main_v95 main_v102 main_v103 (subf : (⟨S256x256, .f32⟩ : BufTy).Contents (Elt F) → (⟨S256x256, .f32⟩ : BufTy).Contents (Elt F) → (⟨S256x256, .f32⟩ : BufTy).Contents (Elt F)),
    StableHlo.unary main_v103 main_v104 (Host.tanh : (⟨S256x256, .f32⟩ : BufTy).Contents (Elt F) → (⟨S256x256, .f32⟩ : BufTy).Contents (Elt F)),
    StableHlo.unary main_v71 main_v105 (broadcastInDim S256x256 ![] bcast_S_S256x256 : (⟨S_, .f32⟩ : BufTy).Contents (Elt F) → (⟨S256x256, .f32⟩ : BufTy).Contents (Elt F)),
    StableHlo.binary main_v104 main_v105 main_v106 (mulf : (⟨S256x256, .f32⟩ : BufTy).Contents (Elt F) → (⟨S256x256, .f32⟩ : BufTy).Contents (Elt F) → (⟨S256x256, .f32⟩ : BufTy).Contents (Elt F)),
    StableHlo.nullary main_cst_23 (constant S_ .f32 0x3DCCCCCD#32),
    StableHlo.unary main_cst_23 main_v107 (broadcastInDim S256x256 ![] bcast_S_S256x256 : (⟨S_, .f32⟩ : BufTy).Contents (Elt F) → (⟨S256x256, .f32⟩ : BufTy).Contents (Elt F)),
    StableHlo.binary main_v106 main_v107 main_v108 (mulf : (⟨S256x256, .f32⟩ : BufTy).Contents (Elt F) → (⟨S256x256, .f32⟩ : BufTy).Contents (Elt F) → (⟨S256x256, .f32⟩ : BufTy).Contents (Elt F)),
    StableHlo.binary main_arg13 main_v108 main_v109 (addf : (⟨S256x256, .f32⟩ : BufTy).Contents (Elt F) → (⟨S256x256, .f32⟩ : BufTy).Contents (Elt F) → (⟨S256x256, .f32⟩ : BufTy).Contents (Elt F)) ]

/-- The buffers this stretch writes, one per operation, in order. -/
abbrev tC_W : List (Ref sig .tc) := [main_v92, main_v93, main_cst_20, main_v94, main_v95, main_v96, main_cst_21, main_v97, main_cst_22, main_v98, main_v99, main_v100, main_v101, main_v102, main_v103, main_v104, main_v105, main_v106, main_cst_23, main_v107, main_v108, main_v109]

theorem tC_writes : List.Forall₂ (fun op y => op.writes = {Proc.devRef (τ := τ) .tc y}) (tC (F := F)) tC_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))

/-- A buffer the stretch does not write keeps its contents. -/
theorem tC_keep (V : Valuation τ sig (Elt F)) (r : Ref sig .tc) (h : r ∉ tC_W) :
    after (tC (F := F)) V (Proc.devRef .tc r) = V (Proc.devRef .tc r) :=
  after_of_writes_sub _ _ (RefRun.writes_sub_of_forall₂ tC_writes) h

/-- The norm of the updated memory and the rescaling. -/
def tD : List (HloOp τ sig (Elt F)) :=
  [ StableHlo.TRef.binary (.of main_v109 : StableHlo.TRef sig ⟨S256x256, .f32⟩) (.of main_v109 : StableHlo.TRef sig ⟨S256x256, .f32⟩) main_call5.v0 mulf,
    StableHlo.TRef.nullary main_call5.cst (constant S_ .f32 0x00000000#32),
    StableHlo.TRef.binary main_call5.v0 main_call5.cst main_call5.v1 (fun x v => Host.reduceAdd x v reducesTo_S256x256_S_d0_1 h_S_),
    StableHlo.TRef.unary main_call5.v1 main_call5.v2 Host.sqrt,
    StableHlo.nullary main_cst_24 (constant S_ .f32 0x358637BD#32),
    StableHlo.binary main_v110 main_cst_24 main_v111 (maximumf : (⟨S_, .f32⟩ : BufTy).Contents (Elt F) → (⟨S_, .f32⟩ : BufTy).Contents (Elt F) → (⟨S_, .f32⟩ : BufTy).Contents (Elt F)),
    StableHlo.unary main_v111 main_v112 (broadcastInDim S256x256 ![] bcast_S_S256x256 : (⟨S_, .f32⟩ : BufTy).Contents (Elt F) → (⟨S256x256, .f32⟩ : BufTy).Contents (Elt F)),
    StableHlo.binary main_v109 main_v112 main_v113 (Host.divf : (⟨S256x256, .f32⟩ : BufTy).Contents (Elt F) → (⟨S256x256, .f32⟩ : BufTy).Contents (Elt F) → (⟨S256x256, .f32⟩ : BufTy).Contents (Elt F)),
    StableHlo.nullary main_cst_25 (constant S_ .f32 0x3F000000#32),
    StableHlo.unary main_cst_25 main_v114 (broadcastInDim S256x256 ![] bcast_S_S256x256 : (⟨S_, .f32⟩ : BufTy).Contents (Elt F) → (⟨S256x256, .f32⟩ : BufTy).Contents (Elt F)),
    StableHlo.binary main_v113 main_v114 main_v115 (mulf : (⟨S256x256, .f32⟩ : BufTy).Contents (Elt F) → (⟨S256x256, .f32⟩ : BufTy).Contents (Elt F) → (⟨S256x256, .f32⟩ : BufTy).Contents (Elt F)) ]

/-- The buffers this stretch writes, one per operation, in order. -/
abbrev tD_W : List (Ref sig .tc) := [main_call5_v0, main_call5_cst, main_call5_v1, main_v110, main_cst_24, main_v111, main_v112, main_v113, main_cst_25, main_v114, main_v115]

theorem tD_writes : List.Forall₂ (fun op y => op.writes = {Proc.devRef (τ := τ) .tc y}) (tD (F := F)) tD_W :=
  .cons rfl (.cons rfl (.cons rfl (.cons rfl (.cons rfl (.cons rfl (.cons rfl (.cons rfl (.cons rfl (.cons rfl (.cons rfl (.nil)))))))))))

/-- A buffer the stretch does not write keeps its contents. -/
theorem tD_keep (V : Valuation τ sig (Elt F)) (r : Ref sig .tc) (h : r ∉ tD_W) :
    after (tD (F := F)) V (Proc.devRef .tc r) = V (Proc.devRef .tc r) :=
  after_of_writes_sub _ _ (RefRun.writes_sub_of_forall₂ tD_writes) h

set_option maxRecDepth 100000 in
/-- The second part is the four stretches in order. -/
theorem cut_eq : (RefOps.opsTail (F := F)) = tA ++ (tB ++ (tC ++ tD)) := rfl

/-- Running the second part is running the stretches one after the other. -/
theorem after_tail (V : Valuation τ sig (Elt F)) :
    after (RefOps.opsTail (F := F)) V = after tD (after tC (after tB (after tA V))) := by
  rw [cut_eq, StableHlo.after_append, StableHlo.after_append, StableHlo.after_append]

/-- A buffer the second part does not write keeps its contents. -/
theorem tail_kept (W : Valuation τ sig (Elt F)) (r : Ref sig .tc) (hr : r ∉ RefRun.writtenTail) :
    after (RefOps.opsTail (F := F)) W (Proc.devRef .tc r) = W (Proc.devRef .tc r) :=
  after_of_writes_sub _ _ (RefRun.writes_sub_of_forall₂ RefRun.opsTail_writes) hr

end Cert.ReferenceIdeal.RefTail

end
-- ==== Proof.RefTailStretch.lean ====
/-
  What each stretch of the second part leaves in its result buffer, as a function of the buffers it reads.

  The column means are a function of the controls; the first result is a function of the clamped projection, the gate's
  weight row and bias, and the mean of column 2; the updated memory is a function of the clamped projection, the input,
  the memory and the mean of column 0; the rescaled memory is a function of the updated memory.
-/
import proofs.«142104_j18769007084085_2_alg».proof.Proof.RefTailCut
import Idealize.ShloMosaic.PureOps.Ideal

set_option synthInstance.maxSize 4096

noncomputable section

namespace Cert.ReferenceIdeal.RefTail

open Idealize.ShloMosaic Idealize.SL.Sem Idealize.ShloMosaic.StableHlo
open Cert.ReferenceIdeal Cert.ReferenceIdeal.Facts₀ Cert.ReferenceIdeal.Facts

variable [Facts]

/-- The mean of column o of the controls: the column, flattened, summed from zero, divided by the number of rows. -/
def meanT (o : ℕ) (hs : S262144x4.Slices ![0, o] S262144x1) (c : FVec Ideal S262144x4 .f32) : FVec Ideal S_ .f32 :=
  Host.divf (Host.reduceAdd (shapeCast S262144 (extractStridedSlice S262144x1 ![0, o] c hs) shapeCasts_S262144x1_S262144)
    (constant (F := Ideal) S_ .f32 0x00000000#32) reducesTo_S262144_S_d0 h_S_) (constant (F := Ideal) S_ .f32 0x48800000#32)

/-- The per-row gate times the scalar g, as a column. -/
def gateT (v : FVec Ideal S262144x256 .f32) (gw : FVec Ideal S1x256 .f32) (gb : FVec Ideal S1 .f32) (g : FVec Ideal S_ .f32) :
    FVec Ideal S262144x1 .f32 :=
  mulf (Host.divf (broadcastInDim S262144x1 ![] bcast_S_S262144x1 (constant (F := Ideal) S_ .f32 0x3F800000#32))
      (addf (broadcastInDim S262144x1 ![] bcast_S_S262144x1 (constant (F := Ideal) S_ .f32 0x3F800000#32))
        (Host.exp (Host.negf (addf
          (Host.dotGeneral dot_S262144x256_S256x1_S262144x1_1_0_0_1_n_n none v (transpose S256x1 [1, 0] gw transposes_S1x256_S256x1_1_0))
          (broadcastInDim S262144x1 ![0, 1] bcast_S1x1_S262144x1_0_1 (broadcastInDim S1x1 ![1] bcast_S1_S1x1_1 gb)))))))
    (broadcastInDim S262144x1 ![] bcast_S_S262144x1 g)

/-- The column q copied across the columns, times v, clamped. -/
def outT (v : FVec Ideal S262144x256 .f32) (q : FVec Ideal S262144x1 .f32) : FVec Ideal S262144x256 .f32 :=
  minimumf (broadcastInDim S262144x256 ![] bcast_S_S262144x256 (constant (F := Ideal) S_ .f32 0x40000000#32))
    (maximumf (broadcastInDim S262144x256 ![] bcast_S_S262144x256 (constant (F := Ideal) S_ .f32 0xC0000000#32))
      (mulf (broadcastInDim S262144x256 ![0, 1] bcast_S262144x1_S262144x256_0_1 q) v))

/-- The mean outer product of v and x. -/
def hebbT (v x : FVec Ideal S262144x256 .f32) : FVec Ideal S256x256 .f32 :=
  Host.divf (Host.dotGeneral dot_S256x262144_S262144x256_S256x256_1_0_0_1_n_n none
      (transpose S256x262144 [1, 0] v transposes_S262144x256_S256x262144_1_0) x)
    (broadcastInDim S256x256 ![] bcast_S_S256x256 (constant (F := Ideal) S_ .f32 0x48800000#32))

/-- The mean square of v's columns, as a column copied across the columns. -/
def msqT (v : FVec Ideal S262144x256 .f32) : FVec Ideal S256x256 .f32 :=
  broadcastInDim S256x256 ![0, 1] bcast_S256x1_S256x256_0_1 (broadcastInDim S256x1 ![0] bcast_S256_S256x1_0
    (Host.divf (Host.reduceAdd (mulf v v) (constant (F := Ideal) S_ .f32 0x00000000#32) reducesTo_S262144x256_S256_d0 h_S_)
      (broadcastInDim S256 ![] bcast_S_S256 (constant (F := Ideal) S_ .f32 0x48800000#32))))

/-- The updated memory. -/
def memT (hebb fg sm : FVec Ideal S256x256 .f32) (met : FVec Ideal S_ .f32) : FVec Ideal S256x256 .f32 :=
  addf sm (mulf (mulf (Host.tanh (subf hebb (mulf fg sm))) (broadcastInDim S256x256 ![] bcast_S_S256x256 met))
    (broadcastInDim S256x256 ![] bcast_S_S256x256 (constant (F := Ideal) S_ .f32 0x3DCCCCCD#32)))

/-- The memory rescaled by its norm. -/
def newT (mem : FVec Ideal S256x256 .f32) : FVec Ideal S256x256 .f32 :=
  mulf (Host.divf mem (broadcastInDim S256x256 ![] bcast_S_S256x256
      (maximumf (Host.sqrt (Host.reduceAdd (mulf mem mem) (constant (F := Ideal) S_ .f32 0x00000000#32) reducesTo_S256x256_S_d0_1 h_S_))
        (constant (F := Ideal) S_ .f32 0x358637BD#32))))
    (broadcastInDim S256x256 ![] bcast_S_S256x256 (constant (F := Ideal) S_ .f32 0x3F000000#32))

/-- After the first stretch the metabolic rate's buffer holds the mean of column 0 of the controls. -/
theorem tA_v71 (V : Valuation τ sig (Elt Ideal)) :
    after (tA (F := Ideal)) V (Proc.devRef .tc main_v71)
      = meanT 0 slices_S262144x4_S262144x1_0_0 (V (Proc.devRef .tc main_v67)) := by
  unfold tA
  after_results
  rfl

/-- After the first stretch the gate value's buffer holds the mean of column 2 of the controls. -/
theorem tA_v75 (V : Valuation τ sig (Elt Ideal)) :
    after (tA (F := Ideal)) V (Proc.devRef .tc main_v75)
      = meanT 2 slices_S262144x4_S262144x1_0_2 (V (Proc.devRef .tc main_v67)) := by
  unfold tA
  after_results
  rfl

set_option maxHeartbeats 4000000 in
/-- After the second stretch the first result's buffer holds the clamped gated projection. -/
theorem tB_v91 (V : Valuation τ sig (Elt Ideal)) :
    after (tB (F := Ideal)) V (Proc.devRef .tc main_v91)
      = outT (V (Proc.devRef .tc main_v2))
          (gateT (V (Proc.devRef .tc main_v2)) (V (Proc.devRef .tc main_arg3)) (V (Proc.devRef .tc main_arg4))
            (V (Proc.devRef .tc main_v75))) := by
  unfold tB
  after_results_simp
  rfl

set_option maxHeartbeats 4000000 in
/-- After the third stretch the updated memory's buffer holds the update. -/
theorem tC_v109 (V : Valuation τ sig (Elt Ideal)) :
    after (tC (F := Ideal)) V (Proc.devRef .tc main_v109)
      = memT (hebbT (V (Proc.devRef .tc main_v2)) (V (Proc.devRef .tc main_arg0))) (msqT (V (Proc.devRef .tc main_v2)))
          (V (Proc.devRef .tc main_arg13)) (V (Proc.devRef .tc main_v71)) := by
  unfold tC
  after_results_simp
  rfl

/-- After the fourth stretch the second result's buffer holds the rescaled memory. -/
theorem tD_v115 (V : Valuation τ sig (Elt Ideal)) :
    after (tD (F := Ideal)) V (Proc.devRef .tc main_v115) = newT (V (Proc.devRef .tc main_v109)) := by
  unfold tD
  after_results
  rfl

end Cert.ReferenceIdeal.RefTail

end
-- ==== Proof.RefTailRead.lean ====
/-
  Array operations of the second half of the reference, read at one entry.

  Layout: a column [a, 1] flattened to a vector [a], a vector stood up as a column, a column copied across b
  columns, and a sum over a vector's index set as a sum over its one coordinate. Then the three computations of the
  second half, each over arbitrary operand arrays: the mean of one column of a matrix (the sum from zero of the
  column's entries, divided by a constant); the clamped product of a per-row logistic gate, a scalar and the row's
  entries; and the memory update (mean outer product minus mean square times the memory, through tanh, scaled twice,
  added to the memory, and the sum rescaled by its Frobenius norm cut below by a constant).
-/
import proofs.«142104_j18769007084085_2_alg».proof.Proof.LibPlainDot
import proofs.«142104_j18769007084085_2_alg».proof.Proof.LibBiasRows
import Idealize.ShloMosaic.Lib.IdealHost
import Idealize.ShloMosaic.Lib.ValueLayout
import Idealize.ShloMosaic.Lib.KernelVsHost

noncomputable section

open scoped BigOperators

namespace Cert.ReferenceIdeal.RefTail

open Idealize.ShloMosaic Idealize.ShloMosaic.ValueIdx

variable {α : Type}

/-! ## Layout -/

/-- A column [a, 1] flattened to [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] stood up as a column [a, 1] reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) ?_
  intro ax
  match ax with
  | ⟨0, _⟩ =>
    show i.val = if a = 1 then 0 else i.val
    split
    · have := i.isLt; omega
    · rfl

/-- A column [a, 1] copied across b columns reads, at (i, j), the column at (i, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply ![0, 1] h x (ix2 i j) (ix2 i (0 : Fin 1)) ?_
  intro ax
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A vector's index set is its one coordinate's range … -/
def idxEquiv1 {n : ℕ} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

/-! ## The mean of one column -/

/-- Column o of an [n, m] matrix, flattened, summed from zero and divided by the constant w: the sum over the rows of
    the matrix at (r, o), divided by w. -/
theorem colMean_apply {n m : ℕ} (o : ℕ) (ho : o < m) (c : FVec Ideal ⟨2, ![n, m]⟩ .f32)
    (hs : (⟨2, ![n, m]⟩ : Shape).Slices ![0, o] ⟨2, ![n, 1]⟩)
    (hc : (⟨2, ![n, 1]⟩ : Shape).ShapeCasts ⟨1, ![n]⟩)
    (hr : (⟨1, ![n]⟩ : Shape).ReducesTo [0] ⟨0, ![]⟩) (hu : 0 < (⟨0, ![]⟩ : Shape).numel) (w : BitVec 32)
    (i : (⟨0, ![]⟩ : Shape).Idx) :
    Host.divf (Host.reduceAdd (shapeCast ⟨1, ![n]⟩ (extractStridedSlice ⟨2, ![n, 1]⟩ ![0, o] c hs) hc)
        (constant (F := Ideal) ⟨0, ![]⟩ .f32 0x00000000#32) hr hu) (constant (F := Ideal) ⟨0, ![]⟩ .f32 w) i
      = Ideal.div (∑ r : Fin n, c (ix2 r (⟨o, ho⟩ : Fin m))) (Ideal.ofBits .f32 w) := by
  rw [hostDivf_apply, hostReduceAdd_apply, Ideal.hostReduceAdd_total hr (fun b => b.elim0), constant_apply, constant_apply,
    Ideal.ofBits_zero_f32, zero_add, sum_idx1]
  refine congrArg (fun s => Ideal.div s _) (Finset.sum_congr rfl fun r _ => ?_)
  rw [shapeCast_a1_a_apply]
  exact slice2_axis1_apply o c hs r (0 : Fin 1) ⟨o, ho⟩ (by simp)

end Cert.ReferenceIdeal.RefTail

end
-- ==== Proof.RefTailGate.lean ====
/-
  The first result of the reference, read at one entry, over arbitrary operand arrays.

  A per-row score (the row of v against the one row of gw, plus the one entry of gb) goes through
  1 / (1 + exp (-score)), which is the logistic function; the gate is multiplied by a scalar g, copied across the
  columns, multiplied by v entry by entry, and clamped between the constants lo and hi: the smaller of hi and the
  larger of lo and the product.
-/
import proofs.«142104_j18769007084085_2_alg».proof.Proof.RefTailRead

noncomputable section

open scoped BigOperators

namespace Cert.ReferenceIdeal.RefTail

open Idealize.ShloMosaic Idealize.ShloMosaic.ValueIdx

/-- The host's exponential at an index is the exponential of the entry. -/
theorem hostExp_apply {s : Shape} {φ : FTy} (a : FVec Ideal s φ) (i : s.Idx) : Host.exp a i = Ideal.exp (a i) := rfl
/-- The host's negation at an index is the negation of the entry. -/
theorem hostNegf_apply {s : Shape} {φ : FTy} (a : FVec Ideal s φ) (i : s.Idx) : Host.negf a i = -(a i) := rfl

/-- The per-row gate times the scalar, at (r, u): the logistic function of the row's score, times g. -/
theorem gate_apply {n d : ℕ} (v : FVec Ideal ⟨2, ![n, d]⟩ .f32) (gw : FVec Ideal ⟨2, ![1, d]⟩ .f32)
    (gb : FVec Ideal ⟨1, ![1]⟩ .f32) (g : FVec Ideal ⟨0, ![]⟩ .f32)
    (D : DotDims ⟨2, ![n, d]⟩ ⟨2, ![d, 1]⟩ ⟨2, ![n, 1]⟩) (hD : D = DotDims.plain n d 1)
    (ht : (⟨2, ![1, d]⟩ : Shape).Transposes [1, 0] ⟨2, ![d, 1]⟩)
    (hb1 : (⟨1, ![1]⟩ : Shape).BroadcastsInDim ⟨2, ![1, 1]⟩ ![1])
    (hb2 : (⟨2, ![1, 1]⟩ : Shape).BroadcastsInDim ⟨2, ![n, 1]⟩ ![0, 1])
    (hs1 : (⟨0, ![]⟩ : Shape).BroadcastsInDim ⟨2, ![n, 1]⟩ ![]) (r : Fin n) (u : Fin 1) :
    mulf (Host.divf (broadcastInDim ⟨2, ![n, 1]⟩ ![] hs1 (constant (F := Ideal) ⟨0, ![]⟩ .f32 0x3F800000#32))
          (addf (broadcastInDim ⟨2, ![n, 1]⟩ ![] hs1 (constant (F := Ideal) ⟨0, ![]⟩ .f32 0x3F800000#32))
            (Host.exp (Host.negf (addf (Host.dotGeneral D none v (transpose ⟨2, ![d, 1]⟩ [1, 0] gw ht))
              (broadcastInDim ⟨2, ![n, 1]⟩ ![0, 1] hb2 (broadcastInDim ⟨2, ![1, 1]⟩ ![1] hb1 gb)))))))
        (broadcastInDim ⟨2, ![n, 1]⟩ ![] hs1 g) (ix2 r u)
      = Ideal.logistic (∑ k : Fin d, v (ix2 r k) * gw (ix2 (0 : Fin 1) k) + gb (ix1 (0 : Fin 1))) * g ix0 := by
  subst hD
  have hu : u = 0 := Subsingleton.elim _ _
  subst hu
  have hdot : Host.dotGeneral (DotDims.plain n d 1) none v (transpose ⟨2, ![d, 1]⟩ [1, 0] gw ht) (ix2 r (0 : Fin 1))
      = ∑ k : Fin d, v (ix2 r k) * gw (ix2 (0 : Fin 1) k) := by
    refine (PlainDot.dotGeneral_apply none .single v _ r (0 : Fin 1)).trans ?_
    exact Finset.sum_congr rfl fun k _ => by rw [transpose_ix2_apply]
  rw [mulf_apply, hostDivf_apply, addf_apply, hostExp_apply, hostNegf_apply, addf_apply, hdot,
    BiasRows.hostRows_apply, broadcastInDim_scalar_apply, broadcastInDim_scalar_apply, constant_apply,
    Ideal.ofBits_one_f32]
  rfl

/-- The first result at (r, j): the clamped product of gate, scalar and entry. -/
theorem gateOut_apply {n d : ℕ} (v : FVec Ideal ⟨2, ![n, d]⟩ .f32) (q : FVec Ideal ⟨2, ![n, 1]⟩ .f32) (lo hi : BitVec 32)
    (hcol : (⟨2, ![n, 1]⟩ : Shape).BroadcastsInDim ⟨2, ![n, d]⟩ ![0, 1])
    (hs2 : (⟨0, ![]⟩ : Shape).BroadcastsInDim ⟨2, ![n, d]⟩ ![]) (r : Fin n) (j : Fin d) :
    minimumf (broadcastInDim ⟨2, ![n, d]⟩ ![] hs2 (constant (F := Ideal) ⟨0, ![]⟩ .f32 hi))
        (maximumf (broadcastInDim ⟨2, ![n, d]⟩ ![] hs2 (constant (F := Ideal) ⟨0, ![]⟩ .f32 lo))
          (mulf (broadcastInDim ⟨2, ![n, d]⟩ ![0, 1] hcol q) v)) (ix2 r j)
      = min (Ideal.ofBits .f32 hi) (max (Ideal.ofBits .f32 lo) (q (ix2 r (0 : Fin 1)) * v (ix2 r j))) := by
  rw [minimumf_apply, maximumf_apply, mulf_apply, broadcastInDim_scalar_apply, broadcastInDim_scalar_apply,
    constant_apply, constant_apply, broadcastInDim_a1_ab_apply]

end Cert.ReferenceIdeal.RefTail

end
-- ==== Proof.RefTailMem.lean ====
/-
  The second result of the reference, read at one entry, over arbitrary operand arrays.

  The updated memory at (a, b): the memory there, plus tanh of (the sum over the rows of v at (r, a) times x at (r, b),
  divided by a constant, minus the sum over the rows of the square of v at (r, a), divided by the same constant, times
  the memory there), times a scalar, times a second constant. The rescaled memory at (a, b): the entry divided by the
  larger of the matrix's Frobenius norm (the square root of the sum, from zero, of all squared entries) and a constant,
  times another constant.
-/
import proofs.«142104_j18769007084085_2_alg».proof.Proof.RefTailRead

noncomputable section

open scoped BigOperators

namespace Cert.ReferenceIdeal.RefTail

open Idealize.ShloMosaic Idealize.ShloMosaic.ValueIdx

/-- The host's tanh at an index is the tanh of the entry. -/
theorem hostTanh_apply {s : Shape} {φ : FTy} (a : FVec Ideal s φ) (i : s.Idx) : Host.tanh a i = Ideal.tanh (a i) := rfl
/-- The host's square root at an index is the square root of the entry. -/
theorem hostSqrt_apply {s : Shape} {φ : FTy} (a : FVec Ideal s φ) (i : s.Idx) : Host.sqrt a i = Ideal.sqrt (a i) := rfl

/-- The mean outer product at (a, b): the sum over the rows of v (r, a) * x (r, b), divided by the constant w. -/
theorem hebb_apply {n d : ℕ} (v x : FVec Ideal ⟨2, ![n, d]⟩ .f32) (w : BitVec 32)
    (D : DotDims ⟨2, ![d, n]⟩ ⟨2, ![n, d]⟩ ⟨2, ![d, d]⟩) (hD : D = DotDims.plain d n d)
    (ht : (⟨2, ![n, d]⟩ : Shape).Transposes [1, 0] ⟨2, ![d, n]⟩)
    (hs : (⟨0, ![]⟩ : Shape).BroadcastsInDim ⟨2, ![d, d]⟩ ![]) (a b : Fin d) :
    Host.divf (Host.dotGeneral D none (transpose ⟨2, ![d, n]⟩ [1, 0] v ht) x)
        (broadcastInDim ⟨2, ![d, d]⟩ ![] hs (constant (F := Ideal) ⟨0, ![]⟩ .f32 w)) (ix2 a b)
      = Ideal.div (∑ r : Fin n, v (ix2 r a) * x (ix2 r b)) (Ideal.ofBits .f32 w) := by
  subst hD
  have hdot : Host.dotGeneral (DotDims.plain d n d) none (transpose ⟨2, ![d, n]⟩ [1, 0] v ht) x (ix2 a b)
      = ∑ r : Fin n, v (ix2 r a) * x (ix2 r b) := by
    refine (PlainDot.dotGeneral_apply none .single _ x a b).trans ?_
    exact Finset.sum_congr rfl fun r _ => by rw [transpose_ix2_apply]
  rw [hostDivf_apply, hdot, broadcastInDim_scalar_apply, constant_apply]

/-- The mean square, as a column copied across the columns, at (a, b): the sum over the rows of v (r, a) squared,
    divided by the constant w. -/
theorem meanSq_apply {n d : ℕ} (v : FVec Ideal ⟨2, ![n, d]⟩ .f32) (w : BitVec 32)
    (hr : (⟨2, ![n, d]⟩ : Shape).ReducesTo [0] ⟨1, ![d]⟩) (hr' : (⟨2, ![n, d]⟩ : Shape).Reduces [0] ⟨1, ![d]⟩)
    (hu : 0 < (⟨0, ![]⟩ : Shape).numel)
    (hs : (⟨0, ![]⟩ : Shape).BroadcastsInDim ⟨1, ![d]⟩ ![])
    (hc1 : (⟨1, ![d]⟩ : Shape).BroadcastsInDim ⟨2, ![d, 1]⟩ ![0])
    (hc2 : (⟨2, ![d, 1]⟩ : Shape).BroadcastsInDim ⟨2, ![d, d]⟩ ![0, 1]) (a b : Fin d) :
    broadcastInDim ⟨2, ![d, d]⟩ ![0, 1] hc2 (broadcastInDim ⟨2, ![d, 1]⟩ ![0] hc1
        (Host.divf (Host.reduceAdd (mulf v v) (constant (F := Ideal) ⟨0, ![]⟩ .f32 0x00000000#32) hr hu)
          (broadcastInDim ⟨1, ![d]⟩ ![] hs (constant (F := Ideal) ⟨0, ![]⟩ .f32 w)))) (ix2 a b)
      = Ideal.div (∑ r : Fin n, v (ix2 r a) * v (ix2 r a)) (Ideal.ofBits .f32 w) := by
  rw [broadcastInDim_a1_ab_apply, broadcastInDim_a_a1_apply, hostDivf_apply, hostReduceAdd_apply,
    Ideal.hostReduceAdd_single hr hr', constant_apply, Ideal.ofBits_zero_f32, zero_add, broadcastInDim_scalar_apply,
    constant_apply]
  refine congrArg (fun s => Ideal.div s _) ?_
  show ∑ r : Fin n, mulf v v (hr'.lift (ix1 a) r) = ∑ r : Fin n, v (ix2 r a) * v (ix2 r a)
  refine Finset.sum_congr rfl fun r _ => ?_
  have e : hr'.lift (ix1 a) r = ix2 r a := by
    funext c
    refine Fin.ext ?_
    match c with
    | ⟨0, _⟩ => rfl
    | ⟨1, _⟩ => rfl
  rw [e]
  rfl

/-- The updated memory at (a, b). -/
theorem memUpdate_apply {d : ℕ} (hebb fg sm : FVec Ideal ⟨2, ![d, d]⟩ .f32) (met : FVec Ideal ⟨0, ![]⟩ .f32) (w : BitVec 32)
    (hs : (⟨0, ![]⟩ : Shape).BroadcastsInDim ⟨2, ![d, d]⟩ ![]) (a b : Fin d) :
    addf sm (mulf (mulf (Host.tanh (subf hebb (mulf fg sm))) (broadcastInDim ⟨2, ![d, d]⟩ ![] hs met))
        (broadcastInDim ⟨2, ![d, d]⟩ ![] hs (constant (F := Ideal) ⟨0, ![]⟩ .f32 w))) (ix2 a b)
      = sm (ix2 a b) + Ideal.tanh (hebb (ix2 a b) - fg (ix2 a b) * sm (ix2 a b)) * met ix0 * Ideal.ofBits .f32 w := by
  rw [addf_apply, mulf_apply, mulf_apply, hostTanh_apply, subf_apply, mulf_apply, broadcastInDim_scalar_apply,
    broadcastInDim_scalar_apply, constant_apply]

/-- The rescaled memory at (a, b): the entry over the larger of the Frobenius norm and the constant e, times the
    constant h. -/
theorem rescale_apply {d : ℕ} (mem : FVec Ideal ⟨2, ![d, d]⟩ .f32) (e h : BitVec 32)
    (hr : (⟨2, ![d, d]⟩ : Shape).ReducesTo [0, 1] ⟨0, ![]⟩) (hu : 0 < (⟨0, ![]⟩ : Shape).numel)
    (hs : (⟨0, ![]⟩ : Shape).BroadcastsInDim ⟨2, ![d, d]⟩ ![]) (a b : Fin d) :
    mulf (Host.divf mem (broadcastInDim ⟨2, ![d, d]⟩ ![] hs
          (maximumf (Host.sqrt (Host.reduceAdd (mulf mem mem) (constant (F := Ideal) ⟨0, ![]⟩ .f32 0x00000000#32) hr hu))
            (constant (F := Ideal) ⟨0, ![]⟩ .f32 e))))
        (broadcastInDim ⟨2, ![d, d]⟩ ![] hs (constant (F := Ideal) ⟨0, ![]⟩ .f32 h)) (ix2 a b)
      = Ideal.div (mem (ix2 a b))
          (max (Ideal.sqrt (∑ i : (⟨2, ![d, d]⟩ : Shape).Idx, mem i * mem i)) (Ideal.ofBits .f32 e)) * Ideal.ofBits .f32 h := by
  rw [mulf_apply, hostDivf_apply, broadcastInDim_scalar_apply, broadcastInDim_scalar_apply, constant_apply,
    maximumf_apply, hostSqrt_apply, hostReduceAdd_apply, Ideal.hostReduceAdd_total hr (fun b => b.elim0), constant_apply,
    constant_apply, Ideal.ofBits_zero_f32, zero_add]
  rfl

end Cert.ReferenceIdeal.RefTail

end
-- ==== Proof.RefTail.lean ====
/-
  The second part of the reference computes the two results of the specification.

  Given that, before the second part runs, the clamped projection's buffer holds vproj, the controls' buffer holds ctl,
  and the argument buffers hold the arguments: the first result's buffer ends holding out, entry by entry, and the
  second result's buffer ends holding newmem. The column means are the specification's sums over all rows divided by the
  number of rows (a sum from zero is the sum); 1 / (1 + exp (-y)) is the logistic function; the clamp is the smaller of
  2 and the larger of -2 and its argument. No law beyond 0 + s = s is used.
-/
import proofs.«142104_j18769007084085_2_alg».proof.Proof.RefTailStretch
import proofs.«142104_j18769007084085_2_alg».proof.Proof.RefTailGate
import proofs.«142104_j18769007084085_2_alg».proof.Proof.RefTailMem
import proofs.«142104_j18769007084085_2_alg».proof.Proof.Spec

set_option synthInstance.maxSize 4096

noncomputable section

open scoped BigOperators

namespace Cert.ReferenceIdeal.RefTail

open Idealize.ShloMosaic Idealize.SL.Sem Idealize.ShloMosaic.StableHlo Idealize.ShloMosaic.ValueIdx
open Cert.ReferenceIdeal Cert.ReferenceIdeal.Facts₀ Cert.ReferenceIdeal.Facts

variable [Facts]

/-- The mean of column p of the controls is the specification's sum over all rows of control p, divided by the number
    of rows. -/
theorem meanT_ctl (P : Cert.Spec.Args) (o : ℕ) (hs : S262144x4.Slices ![0, o] S262144x1) (p : Fin 4) (hp : p.val = o) :
    meanT o hs (fun i => Cert.Spec.ctl P (i 0) (i 1) : Cert.Spec.Mat 262144 4) ix0
      = Ideal.div (Cert.Spec.csum P p) (Cert.Spec.lit 0x48800000#32) := by
  subst hp
  unfold meanT
  exact colMean_apply p.val p.isLt _ hs shapeCasts_S262144x1_S262144 reducesTo_S262144_S_d0 h_S_ 0x48800000#32 ix0

set_option backward.isDefEq.respectTransparency.types false in
/-- The first result, entry by entry. -/
theorem outT_spec (P : Cert.Spec.Args) :
    outT (fun i => Cert.Spec.vproj P (i 0) (i 1) : Cert.Spec.Mat 262144 256)
        (gateT (fun i => Cert.Spec.vproj P (i 0) (i 1) : Cert.Spec.Mat 262144 256) P.gw P.gb
          (meanT 2 slices_S262144x4_S262144x1_0_2 (fun i => Cert.Spec.ctl P (i 0) (i 1) : Cert.Spec.Mat 262144 4)))
      = Cert.Spec.outArr P := by
  funext i
  obtain ⟨r, j, rfl⟩ : ∃ (r : Fin 262144) (j : Fin 256), i = ix2 r j := ⟨i 0, i 1, eq_ix2 i⟩
  unfold outT
  rw [gateOut_apply]
  unfold gateT
  rw [gate_apply _ _ _ _ dot_S262144x256_S256x1_S262144x1_1_0_0_1_n_n rfl, meanT_ctl P 2 _ (2 : Fin 4) rfl]
  rfl

set_option backward.isDefEq.respectTransparency.types false in
/-- The updated memory, entry by entry. -/
theorem memT_spec (P : Cert.Spec.Args) :
    memT (hebbT (fun i => Cert.Spec.vproj P (i 0) (i 1) : Cert.Spec.Mat 262144 256) P.x)
        (msqT (fun i => Cert.Spec.vproj P (i 0) (i 1) : Cert.Spec.Mat 262144 256)) P.sm
        (meanT 0 slices_S262144x4_S262144x1_0_0 (fun i => Cert.Spec.ctl P (i 0) (i 1) : Cert.Spec.Mat 262144 4))
      = (fun i => Cert.Spec.memv P (i 0) (i 1) : Cert.Spec.Mat 256 256) := by
  funext i
  obtain ⟨a, b, rfl⟩ : ∃ (a : Fin 256) (b : Fin 256), i = ix2 a b := ⟨i 0, i 1, eq_ix2 i⟩
  unfold memT
  rw [memUpdate_apply]
  unfold hebbT msqT
  rw [hebb_apply _ _ _ dot_S256x262144_S262144x256_S256x256_1_0_0_1_n_n rfl, meanSq_apply _ _ _ (by decide), meanT_ctl P 0 _ (0 : Fin 4) rfl]
  rfl

set_option backward.isDefEq.respectTransparency.types false in
/-- The rescaled memory, entry by entry. -/
theorem newT_spec (P : Cert.Spec.Args) :
    newT (fun i => Cert.Spec.memv P (i 0) (i 1) : Cert.Spec.Mat 256 256) = Cert.Spec.memArr P := by
  funext i
  obtain ⟨a, b, rfl⟩ : ∃ (a : Fin 256) (b : Fin 256), i = ix2 a b := ⟨i 0, i 1, eq_ix2 i⟩
  unfold newT
  rw [rescale_apply]
  rfl

/-- The first result's buffer after the second part. -/
theorem tail_out (W1 : Valuation τ sig (Elt Ideal)) (P : Cert.Spec.Args)
    (hv2 : W1 (Proc.devRef .tc main_v2) = (fun i => Cert.Spec.vproj P (i 0) (i 1) : Cert.Spec.Mat 262144 256))
    (hv67 : W1 (Proc.devRef .tc main_v67) = (fun i => Cert.Spec.ctl P (i 0) (i 1) : Cert.Spec.Mat 262144 4))
    (hgw : W1 (Proc.devRef .tc main_arg3) = P.gw) (hgb : W1 (Proc.devRef .tc main_arg4) = P.gb) :
    StableHlo.after (RefOps.opsTail (F := Ideal)) W1 (Proc.devRef .tc main_v91) = Cert.Spec.outArr P := by
  rw [after_tail, tD_keep _ main_v91 (by decide), tC_keep _ main_v91 (by decide), tB_v91,
    tA_keep _ main_v2 (by decide), tA_keep _ main_arg3 (by decide), tA_keep _ main_arg4 (by decide), tA_v75,
    hv2, hv67, hgw, hgb]
  exact outT_spec P

/-- The second result's buffer after the second part. -/
theorem tail_mem (W1 : Valuation τ sig (Elt Ideal)) (P : Cert.Spec.Args)
    (hv2 : W1 (Proc.devRef .tc main_v2) = (fun i => Cert.Spec.vproj P (i 0) (i 1) : Cert.Spec.Mat 262144 256))
    (hv67 : W1 (Proc.devRef .tc main_v67) = (fun i => Cert.Spec.ctl P (i 0) (i 1) : Cert.Spec.Mat 262144 4))
    (hx : W1 (Proc.devRef .tc main_arg0) = P.x) (hsm : W1 (Proc.devRef .tc main_arg13) = P.sm) :
    StableHlo.after (RefOps.opsTail (F := Ideal)) W1 (Proc.devRef .tc main_v115) = Cert.Spec.memArr P := by
  rw [after_tail, tD_v115, tC_v109,
    tB_keep _ main_v2 (by decide), tB_keep _ main_arg0 (by decide), tB_keep _ main_arg13 (by decide),
    tB_keep _ main_v71 (by decide),
    tA_keep _ main_v2 (by decide), tA_keep _ main_arg0 (by decide), tA_keep _ main_arg13 (by decide), tA_v71,
    hv2, hv67, hx, hsm, memT_spec P]
  exact newT_spec P

end Cert.ReferenceIdeal.RefTail

end
-- ==== Proof.RefBridge.lean ====
/-
  The reference program's run against the specification.

  From any memory the program runs to its end, and each buffer then holds the fold of the operations over the launch
  contents. The launch contents hold the fourteen argument arrays. The first part of the list leaves the clamped
  projection and the controls of the specification in their buffers and does not touch an argument; from such
  contents the second part leaves the two results of the specification in theirs. So the run ends with the two result
  buffers at the specification's arrays of the launched arguments, and the arguments as launched.
-/
import proofs.«142104_j18769007084085_2_alg».proof.Proof.Spec
import proofs.«142104_j18769007084085_2_alg».proof.Proof.RArgs
import proofs.«142104_j18769007084085_2_alg».proof.Proof.RefRun
import proofs.«142104_j18769007084085_2_alg».proof.Proof.RefRows
import proofs.«142104_j18769007084085_2_alg».proof.Proof.RefTail
import proofs.«142104_j18769007084085_2_alg».proof.Proof.Gen.ReferenceIdeal

noncomputable section

namespace Cert.ReferenceIdeal.Bridge

open Idealize.ShloMosaic Idealize.ShloMosaic.TcCoe Idealize.SL.Sem Idealize.ShloMosaic.StableHlo Cert.ReferenceIdeal

/-- The launch contents of a core hold the argument arrays the memory holds there. -/
theorem argsAt (m : (ℓ : Loc nD τ sig) → Buf (Elt Ideal) ℓ) (c : Dev nD) :
    RefRows.ArgsAt (launchContents m c) (argsR m c) :=
  ⟨rfl, rfl, rfl, rfl, rfl, rfl, rfl, rfl, rfl, rfl, rfl⟩

/-- A buffer the first part does not write keeps its contents through it. -/
theorem head_kept {r : Ref sig .tc} (hr : r ∉ RefRun.writtenHead) (V : Valuation τ sig (Elt Ideal)) :
    after (RefOps.opsHead (F := Ideal)) V (Proc.devRef .tc r) = V (Proc.devRef .tc r) :=
  after_of_writes_sub _ _ (RefRun.writes_sub_of_forall₂ RefRun.opsHead_writes) hr

/-- What the second part is asked to do for the first result: from contents holding the clamped projection, the
    controls, the gate weights and the gate bias, it leaves the first result of the specification. -/
def TailOut : Prop :=
  ∀ (W1 : Valuation τ sig (Elt Ideal)) (P : Cert.Spec.Args),
    W1 (Proc.devRef .tc main_v2) = (fun i => Cert.Spec.vproj P (i 0) (i 1)) →
    W1 (Proc.devRef .tc main_v67) = (fun i => Cert.Spec.ctl P (i 0) (i 1)) →
    W1 (Proc.devRef .tc main_arg3) = P.gw → W1 (Proc.devRef .tc main_arg4) = P.gb →
    after (RefOps.opsTail (F := Ideal)) W1 (Proc.devRef .tc main_v91) = Cert.Spec.outArr P

/-- The same for the second result: from contents holding the clamped projection, the controls, the input and the
    memory matrix, it leaves the second result of the specification. -/
def TailMem : Prop :=
  ∀ (W1 : Valuation τ sig (Elt Ideal)) (P : Cert.Spec.Args),
    W1 (Proc.devRef .tc main_v2) = (fun i => Cert.Spec.vproj P (i 0) (i 1)) →
    W1 (Proc.devRef .tc main_v67) = (fun i => Cert.Spec.ctl P (i 0) (i 1)) →
    W1 (Proc.devRef .tc main_arg0) = P.x → W1 (Proc.devRef .tc main_arg13) = P.sm →
    after (RefOps.opsTail (F := Ideal)) W1 (Proc.devRef .tc main_v115) = Cert.Spec.memArr P

/-- The run against the specification, given what the second part does. -/
theorem run_spec_of (hout : TailOut) (hmem : TailMem)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v91) = Cert.Spec.outArr (argsR m c)
      ∧ r.2.mem ((c.tc : Thread nD τ).loc main_v115) = Cert.Spec.memArr (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c =>
    have hargs := argsAt m c
    have hv2 := RefRows.head_v2 (launchContents m c) (argsR m c) hargs
    have hv67 := RefRows.head_v67 (launchContents m c) (argsR m c) hargs
    have hx : after (RefOps.opsHead (F := Ideal)) (launchContents m c) (Proc.devRef .tc main_arg0) = (argsR m c).x :=
      head_kept (by decide) _
    have hgw : after (RefOps.opsHead (F := Ideal)) (launchContents m c) (Proc.devRef .tc main_arg3) = (argsR m c).gw :=
      head_kept (by decide) _
    have hgb : after (RefOps.opsHead (F := Ideal)) (launchContents m c) (Proc.devRef .tc main_arg4) = (argsR m c).gb :=
      head_kept (by decide) _
    have hsm : after (RefOps.opsHead (F := Ideal)) (launchContents m c) (Proc.devRef .tc main_arg13) = (argsR m c).sm :=
      head_kept (by decide) _
    ⟨(h c main_v91).trans ((congrFun (RefOps.after_ops _) _).trans (hout _ _ hv2 hv67 hgw hgb)),
      (h c main_v115).trans ((congrFun (RefOps.after_ops _) _).trans (hmem _ _ hv2 hv67 hx hsm)),
      (h c main_arg0).trans (RefRun.arg_kept0 m c),
      (h c main_arg1).trans (RefRun.arg_kept1 m c),
      (h c main_arg2).trans (RefRun.arg_kept2 m c),
      (h c main_arg3).trans (RefRun.arg_kept3 m c),
      (h c main_arg4).trans (RefRun.arg_kept4 m c),
      (h c main_arg5).trans (RefRun.arg_kept5 m c),
      (h c main_arg6).trans (RefRun.arg_kept6 m c),
      (h c main_arg7).trans (RefRun.arg_kept7 m c),
      (h c main_arg8).trans (RefRun.arg_kept8 m c),
      (h c main_arg9).trans (RefRun.arg_kept9 m c),
      (h c main_arg10).trans (RefRun.arg_kept10 m c),
      (h c main_arg11).trans (RefRun.arg_kept11 m c),
      (h c main_arg12).trans (RefRun.arg_kept12 m c),
      (h c main_arg13).trans (RefRun.arg_kept13 m c)⟩)
    (RefRun.run (F := Ideal) m ρ)

/-- From any memory with zero counters every weakly fair execution of the reference program terminates; the two
    result buffers then hold the specification's two arrays of the launched arguments, and the fourteen arguments
    are as launched. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v91) = Cert.Spec.outArr (argsR m c)
      ∧ r.2.mem ((c.tc : Thread nD τ).loc main_v115) = Cert.Spec.memArr (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_spec_of RefTail.tail_out RefTail.tail_mem m ρ

end Cert.ReferenceIdeal.Bridge

end
-- ==== Proof.lean ====
/-
  The certificate's five claims.

  Both idealized programs compute, entry by entry on the extended reals, the two arrays of the specification
  (Proof/Spec.lean): per row, a clamped projection, a surprise and an excitation that feed a small normalised network
  with four logistic controls; over all rows, the means of two controls and the mean outer product and mean square of the
  clamped projection; from these a gated, clamped first result and a rescaled memory update as second result.

  The reference sums over all 262144 rows at once. The kernel program sums 4096 rows at a time into one running total
  per half of the rows (32 blocks each), adds the two halves on the host, and reads the gate value in a second pass over
  the same blocks. The two agree because addition of extended reals is associative and commutative: a sum over all rows
  is the sum over the halves of the sum over a half's blocks of the sum over a block's rows, and the four-term state
  product of the reference regroups into the kernel's two row-dependent terms plus one row-free vector. No
  distributive law and no finiteness of the inputs is used.

  The three frame claims are the generated frames of the two kernel programs and, for the reference, its run with the
  results dropped; the idealization rewrote nothing, so its claim is trivial.
-/
import proofs.«142104_j18769007084085_2_alg».proof.Defs
import proofs.«142104_j18769007084085_2_alg».proof.Proof.Gen.Kernel
import proofs.«142104_j18769007084085_2_alg».proof.Proof.Gen.Kernel.Skeleton
import proofs.«142104_j18769007084085_2_alg».proof.Proof.Gen.Kernel.Launch
import proofs.«142104_j18769007084085_2_alg».proof.Proof.Gen.Kernel.Points
import proofs.«142104_j18769007084085_2_alg».proof.Proof.Gen.Kernel.Frame
import proofs.«142104_j18769007084085_2_alg».proof.Proof.Gen.KernelIdeal
import proofs.«142104_j18769007084085_2_alg».proof.Proof.Gen.KernelIdeal.Skeleton
import proofs.«142104_j18769007084085_2_alg».proof.Proof.Gen.KernelIdeal.Launch
import proofs.«142104_j18769007084085_2_alg».proof.Proof.Gen.KernelIdeal.Points
import proofs.«142104_j18769007084085_2_alg».proof.Proof.Gen.KernelIdeal.Frame
import proofs.«142104_j18769007084085_2_alg».proof.Proof.Gen.ReferenceIdeal
import proofs.«142104_j18769007084085_2_alg».proof.Proof.Gen.Pre_finite_inputs
import proofs.«142104_j18769007084085_2_alg».proof.Proof.KRun
import proofs.«142104_j18769007084085_2_alg».proof.Proof.KFinal
import proofs.«142104_j18769007084085_2_alg».proof.Proof.RArgs
import proofs.«142104_j18769007084085_2_alg».proof.Proof.RefFrame
import proofs.«142104_j18769007084085_2_alg».proof.Proof.RefBridge
import Idealize.ShloMosaic.Adequacy
import Idealize.ShloMosaic.Init

set_option maxRecDepth 16384

noncomputable section

namespace Cert.Proof

open Idealize.ShloMosaic Idealize.SL.Sem

/-- From memories that agree on the fourteen arguments both idealized programs run to the specification's two arrays of
    those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  -- the two memories hold the same record of argument arrays
  have hP : ∀ c, Cert.ReferenceIdeal.Bridge.argsR m' c = Cert.KernelIdeal.Bridge.argsK m c := by
    intro c
    obtain ⟨e0, e1, e2, e3, e4, e5, e6, e7, e8, e9, e10, e11, e12, e13⟩ := hagree c
    unfold Cert.ReferenceIdeal.Bridge.argsR Cert.KernelIdeal.Bridge.argsK
    rw [e0, e1, e2, e3, e4, e5, e6, e7, e8, e9, e10, e11, e12, e13]
  refine ⟨fun c => Cert.Spec.outArr (Cert.KernelIdeal.Bridge.argsK m c),
    fun c => Cert.Spec.memArr (Cert.KernelIdeal.Bridge.argsK m c), ?_, ?_⟩
  · exact (θ_run (Cert.KernelIdeal.defs (F := Ideal)) _ _).mono
      (fun r h c => ⟨(h c).1.trans (Cert.KernelIdeal.Bridge.k_out m ρ c), (h c).2.1.trans (Cert.KernelIdeal.Bridge.k_mem m ρ c),
        (h c).2.2⟩)
      (Cert.KernelIdeal.RunVals.run (F := Ideal) m ρ)
  · exact (θ_run (Cert.ReferenceIdeal.defs (F := Ideal)) _ _).mono
      (fun r h c => ⟨(h c).1.trans (congrArg Cert.Spec.outArr (hP c)), (h c).2.1.trans (congrArg Cert.Spec.memArr (hP c)),
        (h c).2.2⟩)
      (Cert.ReferenceIdeal.Bridge.run_spec m' ρ')

theorem claim : Cert.Claim := ⟨Cert.Kernel.Gen.facts, Cert.KernelIdeal.Gen.facts, Cert.ReferenceIdeal.Gen.facts,
  Cert.Pre_finite_inputs.Gen.facts,
  fun m ρ _ => Cert.Kernel.Gen.frame m ρ,
  fun m ρ _ => Cert.KernelIdeal.Gen.frame m ρ,
  Cert.ReferenceIdeal.RefFrame.frame_ri,
  trivial,
  algebraic⟩

end Cert.Proof

end
